-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_3276800" .f32 0x34A3D70A#32 ((1 / 3276800 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_arg1)) (v3 : (c : Dev Cert.KernelIdeal.nD) → Buf (Elt Ideal) ((c.tc : Thread Cert.KernelIdeal.nD Cert.KernelIdeal.τ).loc Cert.KernelIdeal.main_cst)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg1) = v2 c
          ∧ r.2.mem ((c.tc : Thread Cert.KernelIdeal.nD Cert.KernelIdeal.τ).loc Cert.KernelIdeal.main_cst) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg1) = v2 c
          ∧ r.2.mem ((c.tc : Thread Cert.ReferenceIdeal.nD Cert.ReferenceIdeal.τ).loc Cert.ReferenceIdeal.main_cst_5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200 : Shape := ⟨2, ![16384, 200]⟩
abbrev S16384x200x4 : Shape := ⟨3, ![16384, 200, 4]⟩
abbrev S256x4 : Shape := ⟨2, ![256, 4]⟩
abbrev S4x4 : Shape := ⟨2, ![4, 4]⟩
abbrev S4 : Shape := ⟨1, ![4]⟩
abbrev S_ : Shape := ⟨0, ![]⟩

class Facts : Prop where
  bcast_S_S16384x200x4 : S_.BroadcastsInDim S16384x200x4 (![] : Fin 0 → Fin S16384x200x4.rank)
  reducesTo_S16384x200x4_S_d0_1_2 : S16384x200x4.ReducesTo [0, 1, 2] S_
  h_S_ : 0 < S_.numel
  bcast_S_S256x4 : S_.BroadcastsInDim S256x4 (![] : Fin 0 → Fin S256x4.rank)
  reducesTo_S256x4_S_d0_1 : S256x4.ReducesTo [0, 1] S_
  bcast_S_S4x4 : S_.BroadcastsInDim S4x4 (![] : Fin 0 → Fin S4x4.rank)
  reducesTo_S4x4_S_d0_1 : S4x4.ReducesTo [0, 1] S_
  bcast_S_S4 : S_.BroadcastsInDim S4 (![] : Fin 0 → Fin S4.rank)
  reducesTo_S4_S_d0 : S4.ReducesTo [0] S_
  bcast_S_S16384x200 : S_.BroadcastsInDim S16384x200 (![] : Fin 0 → Fin S16384x200.rank)
  reducesTo_S16384x200_S_d0_1 : S16384x200.ReducesTo [0, 1] S_

variable [Facts]

def fn_part1 {F : FTy → Type} [FloatOps F] (main_arg0 : IVec S16384x200 32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_c_6 : IVec S_ 32 := constantI S_ 32 0#32
  let main_v19 : IVec S16384x200 32 := broadcastInDim S16384x200 ![] bcast_S_S16384x200 main_c_6
  let main_v20 : IVec S16384x200 1 := cmpi .sge main_arg0 main_v19
  let main_c_7 : IVec S_ 32 := constantI S_ 32 255#32
  let main_v21 : IVec S16384x200 32 := broadcastInDim S16384x200 ![] bcast_S_S16384x200 main_c_7
  let main_v22 : IVec S16384x200 1 := cmpi .sle main_arg0 main_v21
  let main_v23 : IVec S16384x200 1 := andi main_v20 main_v22
  let main_c_8 : IVec S_ 1 := constantI S_ 1 1#1
  let main_v24 : IVec S_ 1 := (fun x v => Host.reduce IntOp.andi x v reducesTo_S16384x200_S_d0_1 h_S_) main_v23 main_c_8
  let main_v25 : IVec S_ 1 := andi main_v18 main_v24
  main_v25

def fn {F : FTy → Type} [FloatOps F] (main_arg0 : IVec S16384x200 32) (main_arg1 : FVec F S16384x200x4 .f32) (main_arg2 : FVec F S256x4 .f32) (main_arg3 : FVec F S4x4 .f32) (main_arg4 : FVec F S4 .f32) : IVec S_ 1 :=
  let main_v0 : FVec F S16384x200x4 .f32 := Host.absf main_arg1
  let main_cst : FVec F S_ .f32 := constant S_ .f32 0x7F800000#32
  let main_v1 : FVec F S16384x200x4 .f32 := broadcastInDim S16384x200x4 ![] bcast_S_S16384x200x4 main_cst
  let main_v2 : IVec S16384x200x4 1 := cmpf .olt main_v0 main_v1
  let main_c : IVec S_ 1 := constantI S_ 1 1#1
  let main_v3 : IVec S_ 1 := (fun x v => Host.reduce IntOp.andi x v reducesTo_S16384x200x4_S_d0_1_2 h_S_) main_v2 main_c
  let main_v4 : FVec F S256x4 .f32 := Host.absf main_arg2
  let main_cst_0 : FVec F S_ .f32 := constant S_ .f32 0x7F800000#32
  let main_v5 : FVec F S256x4 .f32 := broadcastInDim S256x4 ![] bcast_S_S256x4 main_cst_0
  let main_v6 : IVec S256x4 1 := cmpf .olt main_v4 main_v5
  let main_c_1 : IVec S_ 1 := constantI S_ 1 1#1
  let main_v7 : IVec S_ 1 := (fun x v => Host.reduce IntOp.andi x v reducesTo_S256x4_S_d0_1 h_S_) main_v6 main_c_1
  let main_v8 : IVec S_ 1 := andi main_v3 main_v7
  let main_v9 : FVec F S4x4 .f32 := Host.absf main_arg3
  let main_cst_2 : FVec F S_ .f32 := constant S_ .f32 0x7F800000#32
  let main_v10 : FVec F S4x4 .f32 := broadcastInDim S4x4 ![] bcast_S_S4x4 main_cst_2
  let main_v11 : IVec S4x4 1 := cmpf .olt main_v9 main_v10
  let main_c_3 : IVec S_ 1 := constantI S_ 1 1#1
  let main_v12 : IVec S_ 1 := (fun x v => Host.reduce IntOp.andi x v reducesTo_S4x4_S_d0_1 h_S_) main_v11 main_c_3
  let main_v13 : IVec S_ 1 := andi main_v8 main_v12
  let main_v14 : FVec F S4 .f32 := Host.absf main_arg4
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg0 main_v13 main_v16
-- ==== Kernel.lean ====
abbrev S16384x200 : Shape := ⟨2, ![16384, 200]⟩
abbrev S16384x200x4 : Shape := ⟨3, ![16384, 200, 4]⟩
abbrev S256x4 : Shape := ⟨2, ![256, 4]⟩
abbrev S4x4 : Shape := ⟨2, ![4, 4]⟩
abbrev S4 : Shape := ⟨1, ![4]⟩
abbrev S3276800 : Shape := ⟨1, ![3276800]⟩
abbrev S13107200 : Shape := ⟨1, ![13107200]⟩
abbrev S1x4 : Shape := ⟨2, ![1, 4]⟩
abbrev S256 : Shape := ⟨1, ![256]⟩
abbrev S256x1 : Shape := ⟨2, ![256, 1]⟩
abbrev S1024 : Shape := ⟨1, ![1024]⟩
abbrev S32x16 : Shape := ⟨2, ![32, 16]⟩
abbrev S6400 : Shape := ⟨1, ![6400]⟩
abbrev S25600 : Shape := ⟨1, ![25600]⟩
abbrev S16 : Shape := ⟨1, ![16]⟩
abbrev S_ : Shape := ⟨0, ![]⟩
abbrev S1x16 : Shape := ⟨2, ![1, 16]⟩
abbrev S1x1 : Shape := ⟨2, ![1, 1]⟩
abbrev S1x32x16 : Shape := ⟨3, ![1, 32, 16]⟩
abbrev S1 : Shape := ⟨1, ![1]⟩
abbrev S1x1x1 : Shape := ⟨3, ![1, 1, 1]⟩

abbrev nBuf : Table → Nat
  | .hbm => 17
  | .local .tc .vmem => 6
  | .local .scVector .vmem => 5
  | _ => 0

abbrev bufTy : (tb : Table) → Fin (nBuf tb) → BufTy
  | .hbm, ⟨0, _⟩ => ⟨S16384x200, .i32⟩
  | .hbm, ⟨1, _⟩ => ⟨S16384x200x4, .f32⟩
  | .hbm, ⟨2, _⟩ => ⟨S256x4, .f32⟩
  | .hbm, ⟨3, _⟩ => ⟨S4x4, .f32⟩
  | .hbm, ⟨4, _⟩ => ⟨S4, .f32⟩
  | .hbm, ⟨5, _⟩ => ⟨S3276800, .i32⟩
  | .hbm, ⟨6, _⟩ => ⟨S13107200, .f32⟩
  | .hbm, ⟨7, _⟩ => ⟨S4x4, .f32⟩
  | .hbm, ⟨8, _⟩ => ⟨S1x4, .f32⟩
  | .hbm, ⟨9, _⟩ => ⟨S256x4, .f32⟩
  | .hbm, ⟨10, _⟩ => ⟨S1024, .f32⟩
  | .hbm, ⟨11, _⟩ => ⟨S13107200, .f32⟩
  | .hbm, ⟨12, _⟩ => ⟨S32x16, .f32⟩
  | .hbm, ⟨13, _⟩ => ⟨S1x1, .f32⟩
  | .hbm, ⟨14, _⟩ => ⟨S_, .f32⟩
  | .hbm, ⟨15, _⟩ => ⟨S16384x200x4, .f32⟩
  | .hbm, ⟨16, _⟩ => ⟨S_, .f32⟩
  | .local .tc .vmem, ⟨0, _⟩ => ⟨S256x4, .f32⟩
  | .local .tc .vmem, ⟨1, _⟩ => ⟨S4x4, .f32⟩
  | .local .tc .vmem, ⟨2, _⟩ => ⟨S1x4, .f32⟩
  | .local .tc .vmem, ⟨3, _⟩ => ⟨S256x4, .f32⟩
  | .local .tc .vmem, ⟨4, _⟩ => ⟨S32x16, .f32⟩
  | .local .tc .vmem, ⟨5, _⟩ => ⟨S1x1, .f32⟩
  | .local .scVector .vmem, ⟨0, _⟩ => ⟨S1024, .f32⟩
  | .local .scVector .vmem, ⟨1, _⟩ => ⟨S6400, .i32⟩
  | .local .scVector .vmem, ⟨2, _⟩ => ⟨S25600, .f32⟩
  | .local .scVector .vmem, ⟨3, _⟩ => ⟨S25600, .f32⟩
  | .local .scVector .vmem, ⟨4, _⟩ => ⟨S16, .f32⟩
  | _, _ => ⟨S16384x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v0_scv : Ref sig .scVector := ⟨.hbm, 5, rfl⟩
abbrev main_v1_scv : Ref sig .scVector := ⟨.hbm, 6, rfl⟩
abbrev main_v5_scv : Ref sig .scVector := ⟨.hbm, 10, rfl⟩
abbrev main_v6_0_scv : Ref sig .scVector := ⟨.hbm, 11, rfl⟩
abbrev main_v6_1_scv : Ref sig .scVector := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc2_stg0_0 : Ref sig .tc := ⟨.vmem, 4, rfl⟩
abbrev cc2_stg1_0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc2_sem0_0 : DmaSem sig := 9
abbrev cc2_sem1_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S256x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

@[reducible] def k1_t1_loop : Scf.Loop 32 :=
  let c0_i32_4 : BitVec 32 := 0#32
  let c16_i32 : BitVec 32 := 16#32
  let v21 : BitVec 32 := Scalar.addi c0_i32_4 c16_i32
  let c1_i32_5 : BitVec 32 := 1#32
  ⟨c0_i32_4, v21, c1_i32_5⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_4 : BitVec 32 := 0#32
  let c1_i32_5 : BitVec 32 := 1#32
  let arg12 : BitVec 32 := Scf.iv c0_i32_4 c1_i32_5 k1_t1
  let c6400_i32 : BitVec 32 := 6400#32
  let v24 : BitVec 32 := Scalar.muli arg12 c6400_i32
  let v25 : BitVec 32 := Scalar.addi v2 v24
  ![v25.toNat]
def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c102400_i32 : BitVec 32 := 102400#32
  let v2 : BitVec 32 := Scalar.muli v1 c102400_i32
  let c0_i32_4 : BitVec 32 := 0#32
  let c1_i32_5 : BitVec 32 := 1#32
  let arg12 : BitVec 32 := Scf.iv c0_i32_4 c1_i32_5 k1_t1
  let c6400_i32 : BitVec 32 := 6400#32
  let v24 : BitVec 32 := Scalar.muli arg12 c6400_i32
  let v25 : BitVec 32 := Scalar.addi v2 v24
  let c4_i32_7 : BitVec 32 := 4#32
  let v26 : BitVec 32 := Scalar.muli v25 c4_i32_7
  ![v26.toNat]
@[reducible] def k1_t2_loop : Scf.Loop 32 :=
  let c0_i32_8 : BitVec 32 := 0#32
  let c100_i32 : BitVec 32 := 100#32
  let v27 : BitVec 32 := Scalar.addi c0_i32_8 c100_i32
  let c1_i32_9 : BitVec 32 := 1#32
  ⟨c0_i32_8, v27, c1_i32_9⟩
def k1_off3 (k1_t2 : Fin k1_t2_loop.trips) : Fin 1 → Nat :=
  let c0_i32_8 : BitVec 32 := 0#32
  let c1_i32_9 : BitVec 32 := 1#32
  let arg14 : BitVec 32 := Scf.iv c0_i32_8 c1_i32_9 k1_t2
  let c4_i32_12 : BitVec 32 := 4#32
  let v30 : BitVec 32 := Scalar.muli arg14 c4_i32_12
  let c0_i32_13 : BitVec 32 := 0#32
  let v31 : BitVec 32 := Scalar.addi v30 c0_i32_13
  let c16_i32_14 : BitVec 32 := 16#32
  let v32 : BitVec 32 := Scalar.muli v31 c16_i32_14
  let v33 : Index := Scalar.indexCast v32
  ![v33.toNat]

def k1_chk1 (v41 : IVec S16 32) : Prop :=
  (∀ a x, ((![v41] : Fin 1 → IVec S16 32) a x).toNat < S1024.size a)
instance k1_chk1.dec : ∀ (v41 : IVec S16 32), Decidable (k1_chk1 v41) := fun v41 => decidable_of_iff' _ (Iff.of_eq (k1_chk1.eq_1 v41))
theorem k1_idx1_inb : ∀ (v41 : IVec S16 32) (k1_hw1 : k1_chk1 v41), ∀ a x, ((![v41] : Fin 1 → IVec S16 32) a x).toNat < S1024.size a := fun v41 k1_hw1 => k1_hw1

def k1_chk2 (v39 : IVec S16 32) : Prop :=
  (∀ a x, ((![v39] : Fin 1 → IVec S16 32) a x).toNat < S25600.size a) ∧
  (∀ a x, ((![v39] : Fin 1 → IVec S16 32) a x).toNat < S25600.size a)
instance k1_chk2.dec : ∀ (v39 : IVec S16 32), Decidable (k1_chk2 v39) := fun v39 => decidable_of_iff' _ (Iff.of_eq (k1_chk2.eq_1 v39))
theorem k1_idx2_inb : ∀ (v39 : IVec S16 32) (k1_hw2 : k1_chk2 v39), ∀ a x, ((![v39] : Fin 1 → IVec S16 32) a x).toNat < S25600.size a := fun v39 k1_hw2 => k1_hw2.1
theorem k1_idx3_inb : ∀ (v39 : IVec S16 32) (k1_hw2 : k1_chk2 v39), ∀ a x, ((![v39] : Fin 1 → IVec S16 32) a x).toNat < S25600.size a := fun v39 k1_hw2 => k1_hw2.2

def k1_chk3 (v49 : IVec S16 32) : Prop :=
  (∀ a x, ((![v49] : Fin 1 → IVec S16 32) a x).toNat < S1024.size a)
instance k1_chk3.dec : ∀ (v49 : IVec S16 32), Decidable (k1_chk3 v49) := fun v49 => decidable_of_iff' _ (Iff.of_eq (k1_chk3.eq_1 v49))
theorem k1_idx4_inb : ∀ (v49 : IVec S16 32) (k1_hw3 : k1_chk3 v49), ∀ a x, ((![v49] : Fin 1 → IVec S16 32) a x).toNat < S1024.size a := fun v49 k1_hw3 => k1_hw3

def k1_chk4 (v47 : IVec S16 32) : Prop :=
  (∀ a x, ((![v47] : Fin 1 → IVec S16 32) a x).toNat < S25600.size a) ∧
  (∀ a x, ((![v47] : Fin 1 → IVec S16 32) a x).toNat < S25600.size a)
instance k1_chk4.dec : ∀ (v47 : IVec S16 32), Decidable (k1_chk4 v47) := fun v47 => decidable_of_iff' _ (Iff.of_eq (k1_chk4.eq_1 v47))
theorem k1_idx5_inb : ∀ (v47 : IVec S16 32) (k1_hw4 : k1_chk4 v47), ∀ a x, ((![v47] : Fin 1 → IVec S16 32) a x).toNat < S25600.size a := fun v47 k1_hw4 => k1_hw4.1
theorem k1_idx6_inb : ∀ (v47 : IVec S16 32) (k1_hw4 : k1_chk4 v47), ∀ a x, ((![v47] : Fin 1 → IVec S16 32) a x).toNat < S25600.size a := fun v47 k1_hw4 => k1_hw4.2

def k1_chk5 (v58 : IVec S16 32) : Prop :=
  (∀ a x, ((![v58] : Fin 1 → IVec S16 32) a x).toNat < S1024.size a)
instance k1_chk5.dec : ∀ (v58 : IVec S16 32), Decidable (k1_chk5 v58) := fun v58 => decidable_of_iff' _ (Iff.of_eq (k1_chk5.eq_1 v58))
theorem k1_idx7_inb : ∀ (v58 : IVec S16 32) (k1_hw5 : k1_chk5 v58), ∀ a x, ((![v58] : Fin 1 → IVec S16 32) a x).toNat < S1024.size a := fun v58 k1_hw5 => k1_hw5

def k1_chk6 (v56 : IVec S16 32) : Prop :=
  (∀ a x, ((![v56] : Fin 1 → IVec S16 32) a x).toNat < S25600.size a) ∧
  (∀ a x, ((![v56] : Fin 1 → IVec S16 32) a x).toNat < S25600.size a)
instance k1_chk6.dec : ∀ (v56 : IVec S16 32), Decidable (k1_chk6 v56) := fun v56 => decidable_of_iff' _ (Iff.of_eq (k1_chk6.eq_1 v56))
theorem k1_idx8_inb : ∀ (v56 : IVec S16 32) (k1_hw6 : k1_chk6 v56), ∀ a x, ((![v56] : Fin 1 → IVec S16 32) a x).toNat < S25600.size a := fun v56 k1_hw6 => k1_hw6.1
theorem k1_idx9_inb : ∀ (v56 : IVec S16 32) (k1_hw6 : k1_chk6 v56), ∀ a x, ((![v56] : Fin 1 → IVec S16 32) a x).toNat < S25600.size a := fun v56 k1_hw6 => k1_hw6.2

def k1_chk7 (v67 : IVec S16 32) : Prop :=
  (∀ a x, ((![v67] : Fin 1 → IVec S16 32) a x).toNat < S1024.size a)
instance k1_chk7.dec : ∀ (v67 : IVec S16 32), Decidable (k1_chk7 v67) := fun v67 => decidable_of_iff' _ (Iff.of_eq (k1_chk7.eq_1 v67))
theorem k1_idx10_inb : ∀ (v67 : IVec S16 32) (k1_hw7 : k1_chk7 v67), ∀ a x, ((![v67] : Fin 1 → IVec S16 32) a x).toNat < S1024.size a := fun v67 k1_hw7 => k1_hw7

def k1_chk8 (v65 : IVec S16 32) : Prop :=
  (∀ a x, ((![v65] : Fin 1 → IVec S16 32) a x).toNat < S25600.size a) ∧
  (∀ a x, ((![v65] : Fin 1 → IVec S16 32) a x).toNat < S25600.size a)
instance k1_chk8.dec : ∀ (v65 : IVec S16 32), Decidable (k1_chk8 v65) := fun v65 => decidable_of_iff' _ (Iff.of_eq (k1_chk8.eq_1 v65))
theorem k1_idx11_inb : ∀ (v65 : IVec S16 32) (k1_hw8 : k1_chk8 v65), ∀ a x, ((![v65] : Fin 1 → IVec S16 32) a x).toNat < S25600.size a := fun v65 k1_hw8 => k1_hw8.1
theorem k1_idx12_inb : ∀ (v65 : IVec S16 32) (k1_hw8 : k1_chk8 v65), ∀ a x, ((![v65] : Fin 1 → IVec S16 32) a x).toNat < S25600.size a := fun v65 k1_hw8 => k1_hw8.2
def k1_off4 (k1_t2 : Fin k1_t2_loop.trips) : Fin 1 → Nat :=
  let c0_i32_8 : BitVec 32 := 0#32
  let c1_i32_9 : BitVec 32 := 1#32
  let arg14 : BitVec 32 := Scf.iv c0_i32_8 c1_i32_9 k1_t2
  let c4_i32_24 : BitVec 32 := 4#32
  let v74 : BitVec 32 := Scalar.muli arg14 c4_i32_24
  let c1_i32_25 : BitVec 32 := 1#32
  let v75 : BitVec 32 := Scalar.addi v74 c1_i32_25
  let c16_i32_26 : BitVec 32 := 16#32
  let v76 : BitVec 32 := Scalar.muli v75 c16_i32_26
  let v77 : Index := Scalar.indexCast v76
  ![v77.toNat]

def k1_chk9 (v85 : IVec S16 32) : Prop :=
  (∀ a x, ((![v85] : Fin 1 → IVec S16 32) a x).toNat < S1024.size a)
instance k1_chk9.dec : ∀ (v85 : IVec S16 32), Decidable (k1_chk9 v85) := fun v85 => decidable_of_iff' _ (Iff.of_eq (k1_chk9.eq_1 v85))
theorem k1_idx13_inb : ∀ (v85 : IVec S16 32) (k1_hw9 : k1_chk9 v85), ∀ a x, ((![v85] : Fin 1 → IVec S16 32) a x).toNat < S1024.size a := fun v85 k1_hw9 => k1_hw9

def k1_chk10 (v83 : IVec S16 32) : Prop :=
  (∀ a x, ((![v83] : Fin 1 → IVec S16 32) a x).toNat < S25600.size a) ∧
  (∀ a x, ((![v83] : Fin 1 → IVec S16 32) a x).toNat < S25600.size a)
instance k1_chk10.dec : ∀ (v83 : IVec S16 32), Decidable (k1_chk10 v83) := fun v83 => decidable_of_iff' _ (Iff.of_eq (k1_chk10.eq_1 v83))
theorem k1_idx14_inb : ∀ (v83 : IVec S16 32) (k1_hw10 : k1_chk10 v83), ∀ a x, ((![v83] : Fin 1 → IVec S16 32) a x).toNat < S25600.size a := fun v83 k1_hw10 => k1_hw10.1
theorem k1_idx15_inb : ∀ (v83 : IVec S16 32) (k1_hw10 : k1_chk10 v83), ∀ a x, ((![v83] : Fin 1 → IVec S16 32) a x).toNat < S25600.size a := fun v83 k1_hw10 => k1_hw10.2

def k1_chk11 (v93 : IVec S16 32) : Prop :=
  (∀ a x, ((![v93] : Fin 1 → IVec S16 32) a x).toNat < S1024.size a)
instance k1_chk11.dec : ∀ (v93 : IVec S16 32), Decidable (k1_chk11 v93) := fun v93 => decidable_of_iff' _ (Iff.of_eq (k1_chk11.eq_1 v93))
theorem k1_idx16_inb : ∀ (v93 : IVec S16 32) (k1_hw11 : k1_chk11 v93), ∀ a x, ((![v93] : Fin 1 → IVec S16 32) a x).toNat < S1024.size a := fun v93 k1_hw11 => k1_hw11

def k1_chk12 (v91 : IVec S16 32) : Prop :=
  (∀ a x, ((![v91] : Fin 1 → IVec S16 32) a x).toNat < S25600.size a) ∧
  (∀ a x, ((![v91] : Fin 1 → IVec S16 32) a x).toNat < S25600.size a)
instance k1_chk12.dec : ∀ (v91 : IVec S16 32), Decidable (k1_chk12 v91) := fun v91 => decidable_of_iff' _ (Iff.of_eq (k1_chk12.eq_1 v91))
theorem k1_idx17_inb : ∀ (v91 : IVec S16 32) (k1_hw12 : k1_chk12 v91), ∀ a x, ((![v91] : Fin 1 → IVec S16 32) a x).toNat < S25600.size a := fun v91 k1_hw12 => k1_hw12.1
theorem k1_idx18_inb : ∀ (v91 : IVec S16 32) (k1_hw12 : k1_chk12 v91), ∀ a x, ((![v91] : Fin 1 → IVec S16 32) a x).toNat < S25600.size a := fun v91 k1_hw12 => k1_hw12.2

def k1_chk13 (v102 : IVec S16 32) : Prop :=
  (∀ a x, ((![v102] : Fin 1 → IVec S16 32) a x).toNat < S1024.size a)
instance k1_chk13.dec : ∀ (v102 : IVec S16 32), Decidable (k1_chk13 v102) := fun v102 => decidable_of_iff' _ (Iff.of_eq (k1_chk13.eq_1 v102))
theorem k1_idx19_inb : ∀ (v102 : IVec S16 32) (k1_hw13 : k1_chk13 v102), ∀ a x, ((![v102] : Fin 1 → IVec S16 32) a x).toNat < S1024.size a := fun v102 k1_hw13 => k1_hw13

def k1_chk14 (v100 : IVec S16 32) : Prop :=
  (∀ a x, ((![v100] : Fin 1 → IVec S16 32) a x).toNat < S25600.size a) ∧
  (∀ a x, ((![v100] : Fin 1 → IVec S16 32) a x).toNat < S25600.size a)
instance k1_chk14.dec : ∀ (v100 : IVec S16 32), Decidable (k1_chk14 v100) := fun v100 => decidable_of_iff' _ (Iff.of_eq (k1_chk14.eq_1 v100))
theorem k1_idx20_inb : ∀ (v100 : IVec S16 32) (k1_hw14 : k1_chk14 v100), ∀ a x, ((![v100] : Fin 1 → IVec S16 32) a x).toNat < S25600.size a := fun v100 k1_hw14 => k1_hw14.1
theorem k1_idx21_inb : ∀ (v100 : IVec S16 32) (k1_hw14 : k1_chk14 v100), ∀ a x, ((![v100] : Fin 1 → IVec S16 32) a x).toNat < S25600.size a := fun v100 k1_hw14 => k1_hw14.2

def k1_chk15 (v111 : IVec S16 32) : Prop :=
  (∀ a x, ((![v111] : Fin 1 → IVec S16 32) a x).toNat < S1024.size a)
instance k1_chk15.dec : ∀ (v111 : IVec S16 32), Decidable (k1_chk15 v111) := fun v111 => decidable_of_iff' _ (Iff.of_eq (k1_chk15.eq_1 v111))
theorem k1_idx22_inb : ∀ (v111 : IVec S16 32) (k1_hw15 : k1_chk15 v111), ∀ a x, ((![v111] : Fin 1 → IVec S16 32) a x).toNat < S1024.size a := fun v111 k1_hw15 => k1_hw15

def k1_chk16 (v109 : IVec S16 32) : Prop :=
  (∀ a x, ((![v109] : Fin 1 → IVec S16 32) a x).toNat < S25600.size a) ∧
  (∀ a x, ((![v109] : Fin 1 → IVec S16 32) a x).toNat < S25600.size a)
instance k1_chk16.dec : ∀ (v109 : IVec S16 32), Decidable (k1_chk16 v109) := fun v109 => decidable_of_iff' _ (Iff.of_eq (k1_chk16.eq_1 v109))
theorem k1_idx23_inb : ∀ (v109 : IVec S16 32) (k1_hw16 : k1_chk16 v109), ∀ a x, ((![v109] : Fin 1 → IVec S16 32) a x).toNat < S25600.size a := fun v109 k1_hw16 => k1_hw16.1
theorem k1_idx24_inb : ∀ (v109 : IVec S16 32) (k1_hw16 : k1_chk16 v109), ∀ a x, ((![v109] : Fin 1 → IVec S16 32) a x).toNat < S25600.size a := fun v109 k1_hw16 => k1_hw16.2
def k1_off5 (k1_t2 : Fin k1_t2_loop.trips) : Fin 1 → Nat :=
  let c0_i32_8 : BitVec 32 := 0#32
  let c1_i32_9 : BitVec 32 := 1#32
  let arg14 : BitVec 32 := Scf.iv c0_i32_8 c1_i32_9 k1_t2
  let c4_i32_36 : BitVec 32 := 4#32
  let v118 : BitVec 32 := Scalar.muli arg14 c4_i32_36
  let c2_i32_37 : BitVec 32 := 2#32
  let v119 : BitVec 32 := Scalar.addi v118 c2_i32_37
  let c16_i32_38 : BitVec 32 := 16#32
  let v120 : BitVec 32 := Scalar.muli v119 c16_i32_38
  let v121 : Index := Scalar.indexCast v120
  ![v121.toNat]

def k1_chk17 (v129 : IVec S16 32) : Prop :=
  (∀ a x, ((![v129] : Fin 1 → IVec S16 32) a x).toNat < S1024.size a)
instance k1_chk17.dec : ∀ (v129 : IVec S16 32), Decidable (k1_chk17 v129) := fun v129 => decidable_of_iff' _ (Iff.of_eq (k1_chk17.eq_1 v129))
theorem k1_idx25_inb : ∀ (v129 : IVec S16 32) (k1_hw17 : k1_chk17 v129), ∀ a x, ((![v129] : Fin 1 → IVec S16 32) a x).toNat < S1024.size a := fun v129 k1_hw17 => k1_hw17

def k1_chk18 (v127 : IVec S16 32) : Prop :=
  (∀ a x, ((![v127] : Fin 1 → IVec S16 32) a x).toNat < S25600.size a) ∧
  (∀ a x, ((![v127] : Fin 1 → IVec S16 32) a x).toNat < S25600.size a)
instance k1_chk18.dec : ∀ (v127 : IVec S16 32), Decidable (k1_chk18 v127) := fun v127 => decidable_of_iff' _ (Iff.of_eq (k1_chk18.eq_1 v127))
theorem k1_idx26_inb : ∀ (v127 : IVec S16 32) (k1_hw18 : k1_chk18 v127), ∀ a x, ((![v127] : Fin 1 → IVec S16 32) a x).toNat < S25600.size a := fun v127 k1_hw18 => k1_hw18.1
theorem k1_idx27_inb : ∀ (v127 : IVec S16 32) (k1_hw18 : k1_chk18 v127), ∀ a x, ((![v127] : Fin 1 → IVec S16 32) a x).toNat < S25600.size a := fun v127 k1_hw18 => k1_hw18.2

def k1_chk19 (v137 : IVec S16 32) : Prop :=
  (∀ a x, ((![v137] : Fin 1 → IVec S16 32) a x).toNat < S1024.size a)
instance k1_chk19.dec : ∀ (v137 : IVec S16 32), Decidable (k1_chk19 v137) := fun v137 => decidable_of_iff' _ (Iff.of_eq (k1_chk19.eq_1 v137))
theorem k1_idx28_inb : ∀ (v137 : IVec S16 32) (k1_hw19 : k1_chk19 v137), ∀ a x, ((![v137] : Fin 1 → IVec S16 32) a x).toNat < S1024.size a := fun v137 k1_hw19 => k1_hw19

def k1_chk20 (v135 : IVec S16 32) : Prop :=
  (∀ a x, ((![v135] : Fin 1 → IVec S16 32) a x).toNat < S25600.size a) ∧
  (∀ a x, ((![v135] : Fin 1 → IVec S16 32) a x).toNat < S25600.size a)
instance k1_chk20.dec : ∀ (v135 : IVec S16 32), Decidable (k1_chk20 v135) := fun v135 => decidable_of_iff' _ (Iff.of_eq (k1_chk20.eq_1 v135))
theorem k1_idx29_inb : ∀ (v135 : IVec S16 32) (k1_hw20 : k1_chk20 v135), ∀ a x, ((![v135] : Fin 1 → IVec S16 32) a x).toNat < S25600.size a := fun v135 k1_hw20 => k1_hw20.1
theorem k1_idx30_inb : ∀ (v135 : IVec S16 32) (k1_hw20 : k1_chk20 v135), ∀ a x, ((![v135] : Fin 1 → IVec S16 32) a x).toNat < S25600.size a := fun v135 k1_hw20 => k1_hw20.2

def k1_chk21 (v146 : IVec S16 32) : Prop :=
  (∀ a x, ((![v146] : Fin 1 → IVec S16 32) a x).toNat < S1024.size a)
instance k1_chk21.dec : ∀ (v146 : IVec S16 32), Decidable (k1_chk21 v146) := fun v146 => decidable_of_iff' _ (Iff.of_eq (k1_chk21.eq_1 v146))
theorem k1_idx31_inb : ∀ (v146 : IVec S16 32) (k1_hw21 : k1_chk21 v146), ∀ a x, ((![v146] : Fin 1 → IVec S16 32) a x).toNat < S1024.size a := fun v146 k1_hw21 => k1_hw21

def k1_chk22 (v144 : IVec S16 32) : Prop :=
  (∀ a x, ((![v144] : Fin 1 → IVec S16 32) a x).toNat < S25600.size a) ∧
  (∀ a x, ((![v144] : Fin 1 → IVec S16 32) a x).toNat < S25600.size a)
instance k1_chk22.dec : ∀ (v144 : IVec S16 32), Decidable (k1_chk22 v144) := fun v144 => decidable_of_iff' _ (Iff.of_eq (k1_chk22.eq_1 v144))
theorem k1_idx32_inb : ∀ (v144 : IVec S16 32) (k1_hw22 : k1_chk22 v144), ∀ a x, ((![v144] : Fin 1 → IVec S16 32) a x).toNat < S25600.size a := fun v144 k1_hw22 => k1_hw22.1
theorem k1_idx33_inb : ∀ (v144 : IVec S16 32) (k1_hw22 : k1_chk22 v144), ∀ a x, ((![v144] : Fin 1 → IVec S16 32) a x).toNat < S25600.size a := fun v144 k1_hw22 => k1_hw22.2

def k1_chk23 (v155 : IVec S16 32) : Prop :=
  (∀ a x, ((![v155] : Fin 1 → IVec S16 32) a x).toNat < S1024.size a)
instance k1_chk23.dec : ∀ (v155 : IVec S16 32), Decidable (k1_chk23 v155) := fun v155 => decidable_of_iff' _ (Iff.of_eq (k1_chk23.eq_1 v155))
theorem k1_idx34_inb : ∀ (v155 : IVec S16 32) (k1_hw23 : k1_chk23 v155), ∀ a x, ((![v155] : Fin 1 → IVec S16 32) a x).toNat < S1024.size a := fun v155 k1_hw23 => k1_hw23

def k1_chk24 (v153 : IVec S16 32) : Prop :=
  (∀ a x, ((![v153] : Fin 1 → IVec S16 32) a x).toNat < S25600.size a) ∧
  (∀ a x, ((![v153] : Fin 1 → IVec S16 32) a x).toNat < S25600.size a)
instance k1_chk24.dec : ∀ (v153 : IVec S16 32), Decidable (k1_chk24 v153) := fun v153 => decidable_of_iff' _ (Iff.of_eq (k1_chk24.eq_1 v153))
theorem k1_idx35_inb : ∀ (v153 : IVec S16 32) (k1_hw24 : k1_chk24 v153), ∀ a x, ((![v153] : Fin 1 → IVec S16 32) a x).toNat < S25600.size a := fun v153 k1_hw24 => k1_hw24.1
theorem k1_idx36_inb : ∀ (v153 : IVec S16 32) (k1_hw24 : k1_chk24 v153), ∀ a x, ((![v153] : Fin 1 → IVec S16 32) a x).toNat < S25600.size a := fun v153 k1_hw24 => k1_hw24.2
def k1_off6 (k1_t2 : Fin k1_t2_loop.trips) : Fin 1 → Nat :=
  let c0_i32_8 : BitVec 32 := 0#32
  let c1_i32_9 : BitVec 32 := 1#32
  let arg14 : BitVec 32 := Scf.iv c0_i32_8 c1_i32_9 k1_t2
  let c4_i32_48 : BitVec 32 := 4#32
  let v162 : BitVec 32 := Scalar.muli arg14 c4_i32_48
  let c3_i32_49 : BitVec 32 := 3#32
  let v163 : BitVec 32 := Scalar.addi v162 c3_i32_49
  let c16_i32_50 : BitVec 32 := 16#32
  let v164 : BitVec 32 := Scalar.muli v163 c16_i32_50
  let v165 : Index := Scalar.indexCast v164
  ![v165.toNat]

def k1_chk25 (v173 : IVec S16 32) : Prop :=
  (∀ a x, ((![v173] : Fin 1 → IVec S16 32) a x).toNat < S1024.size a)
instance k1_chk25.dec : ∀ (v173 : IVec S16 32), Decidable (k1_chk25 v173) := fun v173 => decidable_of_iff' _ (Iff.of_eq (k1_chk25.eq_1 v173))
theorem k1_idx37_inb : ∀ (v173 : IVec S16 32) (k1_hw25 : k1_chk25 v173), ∀ a x, ((![v173] : Fin 1 → IVec S16 32) a x).toNat < S1024.size a := fun v173 k1_hw25 => k1_hw25

def k1_chk26 (v171 : IVec S16 32) : Prop :=
  (∀ a x, ((![v171] : Fin 1 → IVec S16 32) a x).toNat < S25600.size a) ∧
  (∀ a x, ((![v171] : Fin 1 → IVec S16 32) a x).toNat < S25600.size a)
instance k1_chk26.dec : ∀ (v171 : IVec S16 32), Decidable (k1_chk26 v171) := fun v171 => decidable_of_iff' _ (Iff.of_eq (k1_chk26.eq_1 v171))
theorem k1_idx38_inb : ∀ (v171 : IVec S16 32) (k1_hw26 : k1_chk26 v171), ∀ a x, ((![v171] : Fin 1 → IVec S16 32) a x).toNat < S25600.size a := fun v171 k1_hw26 => k1_hw26.1
theorem k1_idx39_inb : ∀ (v171 : IVec S16 32) (k1_hw26 : k1_chk26 v171), ∀ a x, ((![v171] : Fin 1 → IVec S16 32) a x).toNat < S25600.size a := fun v171 k1_hw26 => k1_hw26.2

def k1_chk27 (v181 : IVec S16 32) : Prop :=
  (∀ a x, ((![v181] : Fin 1 → IVec S16 32) a x).toNat < S1024.size a)
instance k1_chk27.dec : ∀ (v181 : IVec S16 32), Decidable (k1_chk27 v181) := fun v181 => decidable_of_iff' _ (Iff.of_eq (k1_chk27.eq_1 v181))
theorem k1_idx40_inb : ∀ (v181 : IVec S16 32) (k1_hw27 : k1_chk27 v181), ∀ a x, ((![v181] : Fin 1 → IVec S16 32) a x).toNat < S1024.size a := fun v181 k1_hw27 => k1_hw27

def k1_chk28 (v179 : IVec S16 32) : Prop :=
  (∀ a x, ((![v179] : Fin 1 → IVec S16 32) a x).toNat < S25600.size a) ∧
  (∀ a x, ((![v179] : Fin 1 → IVec S16 32) a x).toNat < S25600.size a)
instance k1_chk28.dec : ∀ (v179 : IVec S16 32), Decidable (k1_chk28 v179) := fun v179 => decidable_of_iff' _ (Iff.of_eq (k1_chk28.eq_1 v179))
theorem k1_idx41_inb : ∀ (v179 : IVec S16 32) (k1_hw28 : k1_chk28 v179), ∀ a x, ((![v179] : Fin 1 → IVec S16 32) a x).toNat < S25600.size a := fun v179 k1_hw28 => k1_hw28.1
theorem k1_idx42_inb : ∀ (v179 : IVec S16 32) (k1_hw28 : k1_chk28 v179), ∀ a x, ((![v179] : Fin 1 → IVec S16 32) a x).toNat < S25600.size a := fun v179 k1_hw28 => k1_hw28.2

def k1_chk29 (v190 : IVec S16 32) : Prop :=
  (∀ a x, ((![v190] : Fin 1 → IVec S16 32) a x).toNat < S1024.size a)
instance k1_chk29.dec : ∀ (v190 : IVec S16 32), Decidable (k1_chk29 v190) := fun v190 => decidable_of_iff' _ (Iff.of_eq (k1_chk29.eq_1 v190))
theorem k1_idx43_inb : ∀ (v190 : IVec S16 32) (k1_hw29 : k1_chk29 v190), ∀ a x, ((![v190] : Fin 1 → IVec S16 32) a x).toNat < S1024.size a := fun v190 k1_hw29 => k1_hw29

def k1_chk30 (v188 : IVec S16 32) : Prop :=
  (∀ a x, ((![v188] : Fin 1 → IVec S16 32) a x).toNat < S25600.size a) ∧
  (∀ a x, ((![v188] : Fin 1 → IVec S16 32) a x).toNat < S25600.size a)
instance k1_chk30.dec : ∀ (v188 : IVec S16 32), Decidable (k1_chk30 v188) := fun v188 => decidable_of_iff' _ (Iff.of_eq (k1_chk30.eq_1 v188))
theorem k1_idx44_inb : ∀ (v188 : IVec S16 32) (k1_hw30 : k1_chk30 v188), ∀ a x, ((![v188] : Fin 1 → IVec S16 32) a x).toNat < S25600.size a := fun v188 k1_hw30 => k1_hw30.1
theorem k1_idx45_inb : ∀ (v188 : IVec S16 32) (k1_hw30 : k1_chk30 v188), ∀ a x, ((![v188] : Fin 1 → IVec S16 32) a x).toNat < S25600.size a := fun v188 k1_hw30 => k1_hw30.2

def k1_chk31 (v199 : IVec S16 32) : Prop :=
  (∀ a x, ((![v199] : Fin 1 → IVec S16 32) a x).toNat < S1024.size a)
instance k1_chk31.dec : ∀ (v199 : IVec S16 32), Decidable (k1_chk31 v199) := fun v199 => decidable_of_iff' _ (Iff.of_eq (k1_chk31.eq_1 v199))
theorem k1_idx46_inb : ∀ (v199 : IVec S16 32) (k1_hw31 : k1_chk31 v199), ∀ a x, ((![v199] : Fin 1 → IVec S16 32) a x).toNat < S1024.size a := fun v199 k1_hw31 => k1_hw31

def k1_chk32 (v197 : IVec S16 32) : Prop :=
  (∀ a x, ((![v197] : Fin 1 → IVec S16 32) a x).toNat < S25600.size a) ∧
  (∀ a x, ((![v197] : Fin 1 → IVec S16 32) a x).toNat < S25600.size a)
instance k1_chk32.dec : ∀ (v197 : IVec S16 32), Decidable (k1_chk32 v197) := fun v197 => decidable_of_iff' _ (Iff.of_eq (k1_chk32.eq_1 v197))
theorem k1_idx47_inb : ∀ (v197 : IVec S16 32) (k1_hw32 : k1_chk32 v197), ∀ a x, ((![v197] : Fin 1 → IVec S16 32) a x).toNat < S25600.size a := fun v197 k1_hw32 => k1_hw32.1
theorem k1_idx48_inb : ∀ (v197 : IVec S16 32) (k1_hw32 : k1_chk32 v197), ∀ a x, ((![v197] : Fin 1 → IVec S16 32) a x).toNat < S25600.size a := fun v197 k1_hw32 => k1_hw32.2
def k1_off7 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_7_r4 : BitVec 32 := 0#32
  ![v1.toNat, 0]
abbrev grid2 : Pipeline.Grid := .none

abbrev stage2_0 : Fin 1 → Memref sig .tc .vmem S32x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16384x200_S3276800 : S16384x200.ShapeCasts S3276800
  shapeCasts_S16384x200x4_S13107200 : S16384x200x4.ShapeCasts S13107200
  transposes_S4x4_S4x4_1_0 : S4x4.Transposes [1, 0] S4x4
  shapeCasts_S4_S1x4 : S4.ShapeCasts S1x4
  inb_S256x4_S256x4_0_0 : ∀ a, (![0, 0] : Fin 2 → Nat) a + S256x4.size a ≤ S256x4.size a
  h_S256x4 : 0 < S256x4.numel
  inb_S4x4_S4x4_0_0 : ∀ a, (![0, 0] : Fin 2 → Nat) a + S4x4.size a ≤ S4x4.size a
  h_S4x4 : 0 < S4x4.numel
  shapeCasts_S4x4_S4x4 : S4x4.ShapeCasts S4x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S256x4 : S1x4.Broadcasts S256x4
  reduces_S256x4_S256 : S256x4.Reduces [1] S256
  shapeCasts_S256_S256x1 : S256.ShapeCasts S256x1
  broadcasts_S256x1_S256x4 : S256x1.Broadcasts S256x4
  shapeCasts_S256x4_S1024 : S256x4.ShapeCasts S1024
  iota_S16_d0_w32_scVector : S16.Iotas .scVector 32 [0]
  h_S16 : 0 < S16.numel
  h_S1024 : 0 < S1024.numel
  h_S25600 : 0 < S25600.numel
  inb_S16_S16_0 : ∀ a, (![0] : Fin 1 → Nat) a + S16.size a ≤ S16.size a
  squeezes_S1x16_S16 : S1x16.Squeezes S16
  inb_S32x16_S32x16_0_0 : ∀ a, (![0, 0] : Fin 2 → Nat) a + S32x16.size a ≤ S32x16.size a
  h_S32x16 : 0 < S32x16.numel
  shapeCasts_S32x16_S32x16 : S32x16.ShapeCasts S32x16
  shapeCasts_S32x16_S1x32x16 : S32x16.ShapeCasts S1x32x16
  reduces_S1x32x16_S1 : S1x32x16.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  h_S1x1 : 0 < S1x1.numel
  shapeCasts_S1x1_S_ : S1x1.ShapeCasts S_
  shapeCasts_S13107200_S16384x200x4 : S13107200.ShapeCasts S16384x200x4
  dot_S256x4_S4x4_S256x4_1_0_0_1_n_n_wf : DotDims.WF S256x4 S4x4 S256x4 [1] [0] [0] [1] [] []
  hcc1_scoped0 : 4 + S_.numel ≤ 11
  hcc1_scoped1 : 5 + S_.numel ≤ 11
  hcc1_scoped2 : 6 + S_.numel ≤ 11
  hcc1_scoped3 : 7 + S_.numel ≤ 11
  hcc1_scoped4 : 8 + S_.numel ≤ 11
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hcore1 : grid1.bound 0 ≤ τ.nSC
  hsub1 : grid1.bound 1 ≤ τ.nSub
  k1_t1_ok : k1_t1_loop.OK
  k1_off1_inb : ∀ (i : grid1.Coords) (k1_t1 : Fin k1_t1_loop.trips), ∀ a, (k1_off1 i k1_t1) a + S6400.size a ≤ S3276800.size a
  k1_off2_inb : ∀ (i : grid1.Coords) (k1_t1 : Fin k1_t1_loop.trips), ∀ a, (k1_off2 i k1_t1) a + S25600.size a ≤ S13107200.size a
  k1_t2_ok : k1_t2_loop.OK
  k1_off3_inb : ∀ k1_t2 : Fin k1_t2_loop.trips, ∀ a, (k1_off3 k1_t2) a + S16.size a ≤ S6400.size a
  k1_off4_inb : ∀ k1_t2 : Fin k1_t2_loop.trips, ∀ a, (k1_off4 k1_t2) a + S16.size a ≤ S6400.size a
  k1_off5_inb : ∀ k1_t2 : Fin k1_t2_loop.trips, ∀ a, (k1_off5 k1_t2) a + S16.size a ≤ S6400.size a
  k1_off6_inb : ∀ k1_t2 : Fin k1_t2_loop.trips, ∀ a, (k1_off6 k1_t2) a + S16.size a ≤ S6400.size a
  k1_off7_inb : ∀ i : grid1.Coords, ∀ a, (k1_off7 i) a + S1x16.size a ≤ S32x16.size a
  hstage2_0 : ∀ j, (stage2_0 j).IsWhole
  hstage2_1 : ∀ j, (stage2_1 j).IsWhole

variable [Facts₀]

abbrev cc1_scoped0 : DmaSems sig S_ := SemArray.consecutive 4 S_ hcc1_scoped0
abbrev cc1_scoped1 : DmaSems sig S_ := SemArray.consecutive 5 S_ hcc1_scoped1
abbrev cc1_scoped2 : DmaSems sig S_ := SemArray.consecutive 6 S_ hcc1_scoped2
abbrev cc1_scoped3 : DmaSems sig S_ := SemArray.consecutive 7 S_ hcc1_scoped3
abbrev cc1_scoped4 : DmaSems sig S_ := SemArray.consecutive 8 S_ hcc1_scoped4
def dot_S256x4_S4x4_S256x4_1_0_0_1_n_n : DotDims S256x4 S4x4 S256x4 where
  lhsContracting := [1]
  rhsContracting := [0]
  lhsNonContracting := [0]
  rhsNonContracting := [1]
  lhsBatch := []
  rhsBatch := []
  wf := dot_S256x4_S4x4_S256x4_1_0_0_1_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_v2) false false (stage0_1 0) (sem0_1 0) (Memref.isWhole_whole _) (hstage0_1 0)

abbrev win0_2 : Pipeline.Window sig grid0 :=
  Pipeline.Window.whole (Memref.whole main_v3) false false (stage0_2 0) (sem0_2 0) (Memref.isWhole_whole _) (hstage0_2 0)

abbrev win0_3 : Pipeline.Window sig grid0 :=
  Pipeline.Window.whole (Memref.whole main_v4) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win2_0 : Pipeline.Window sig grid2 :=
  Pipeline.Window.whole (Memref.whole main_v6_1) false false (stage2_0 0) (sem2_0 0) (Memref.isWhole_whole _) (hstage2_0 0)

abbrev win2_1 : Pipeline.Window sig grid2 :=
  Pipeline.Window.whole (Memref.whole main_v7) true false (stage2_1 0) (sem2_1 0) (Memref.isWhole_whole _) (hstage2_1 0)

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S16384x200 : Shape := ⟨2, ![16384, 200]⟩
abbrev S16384x200x4 : Shape := ⟨3, ![16384, 200, 4]⟩
abbrev S256x4 : Shape := ⟨2, ![256, 4]⟩
abbrev S4x4 : Shape := ⟨2, ![4, 4]⟩
abbrev S4 : Shape := ⟨1, ![4]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩
abbrev S1x1x4 : Shape := ⟨3, ![1, 1, 4]⟩

abbrev nBuf : Space → Nat
  | .hbm => 56
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S16384x200x4, .f32⟩
  | .hbm, ⟨2, _⟩ => ⟨S256x4, .f32⟩
  | .hbm, ⟨3, _⟩ => ⟨S4x4, .f32⟩
  | .hbm, ⟨4, _⟩ => ⟨S4, .f32⟩
  | .hbm, ⟨5, _⟩ => ⟨S_, .i32⟩
  | .hbm, ⟨6, _⟩ => ⟨S16384x200, .i32⟩
  | .hbm, ⟨7, _⟩ => ⟨S16384x200, .i1⟩
  | .hbm, ⟨8, _⟩ => ⟨S_, .i32⟩
  | .hbm, ⟨9, _⟩ => ⟨S16384x200, .i32⟩
  | .hbm, ⟨10, _⟩ => ⟨S16384x200, .i32⟩
  | .hbm, ⟨11, _⟩ => ⟨S16384x200, .i32⟩
  | .hbm, ⟨12, _⟩ => ⟨S16384x200x1, .i32⟩
  | .hbm, ⟨13, _⟩ => ⟨S1, .i32⟩
  | .hbm, ⟨14, _⟩ => ⟨S_, .i32⟩
  | .hbm, ⟨15, _⟩ => ⟨S16384x200x1, .i32⟩
  | .hbm, ⟨16, _⟩ => ⟨S16384x200x1, .i1⟩
  | .hbm, ⟨17, _⟩ => ⟨S1x1x1, .i32⟩
  | .hbm, ⟨18, _⟩ => ⟨S16384x200x1, .i32⟩
  | .hbm, ⟨19, _⟩ => ⟨S16384x200x1, .i1⟩
  | .hbm, ⟨20, _⟩ => ⟨S16384x200x1, .i1⟩
  | .hbm, ⟨21, _⟩ => ⟨S_, .i1⟩
  | .hbm, ⟨22, _⟩ => ⟨S16384x200, .i1⟩
  | .hbm, ⟨23, _⟩ => ⟨S16384x200x4, .f32⟩
  | .hbm, ⟨24, _⟩ => ⟨S16384x200x4, .i1⟩
  | .hbm, ⟨25, _⟩ => ⟨S_, .f32⟩
  | .hbm, ⟨26, _⟩ => ⟨S16384x200x4, .f32⟩
  | .hbm, ⟨27, _⟩ => ⟨S16384x200x4, .f32⟩
  | .hbm, ⟨28, _⟩ => ⟨S4x4, .f32⟩
  | .hbm, ⟨29, _⟩ => ⟨S16384x200x4, .f32⟩
  | .hbm, ⟨30, _⟩ => ⟨S1x1x4, .f32⟩
  | .hbm, ⟨31, _⟩ => ⟨S16384x200x4, .f32⟩
  | .hbm, ⟨32, _⟩ => ⟨S16384x200x4, .f32⟩
  | .hbm, ⟨33, _⟩ => ⟨S16384x200x4, .f32⟩
  | .hbm, ⟨34, _⟩ => ⟨S_, .f32⟩
  | .hbm, ⟨35, _⟩ => ⟨S16384x200, .f32⟩
  | .hbm, ⟨36, _⟩ => ⟨S16384x200x1, .f32⟩
  | .hbm, ⟨37, _⟩ => ⟨S16384x200x1, .f32⟩
  | .hbm, ⟨38, _⟩ => ⟨S_, .f32⟩
  | .hbm, ⟨39, _⟩ => ⟨S16384x200x1, .f32⟩
  | .hbm, ⟨40, _⟩ => ⟨S16384x200x1, .f32⟩
  | .hbm, ⟨41, _⟩ => ⟨S16384x200x4, .f32⟩
  | .hbm, ⟨42, _⟩ => ⟨S16384x200x4, .f32⟩
  | .hbm, ⟨43, _⟩ => ⟨S16384x200x4, .f32⟩
  | .hbm, ⟨44, _⟩ => ⟨S_, .f32⟩
  | .hbm, ⟨45, _⟩ => ⟨S16384x200, .f32⟩
  | .hbm, ⟨46, _⟩ => ⟨S16384x200, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_call1_v2 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_cst_0 : Ref sig .tc := ⟨.hbm, 44, rfl⟩
abbrev main_v12 : Ref sig .tc := ⟨.hbm, 45, rfl⟩
abbrev main_v13 : Ref sig .tc := ⟨.hbm, 46, rfl⟩
abbrev main_cst_1 : Ref sig .tc := ⟨.hbm, 47, rfl⟩
abbrev main_v14 : Ref sig .tc := ⟨.hbm, 48, rfl⟩
abbrev main_cst_2 : Ref sig .tc := ⟨.hbm, 49, rfl⟩
abbrev main_v15 : Ref sig .tc := ⟨.hbm, 50, rfl⟩
abbrev main_cst_3 : Ref sig .tc := ⟨.hbm, 51, rfl⟩
abbrev main_v16 : Ref sig .tc := ⟨.hbm, 52, rfl⟩
abbrev main_cst_4 : Ref sig .tc := ⟨.hbm, 53, rfl⟩
abbrev main_v17 : Ref sig .tc := ⟨.hbm, 54, rfl⟩
abbrev main_cst_5 : Ref sig .tc := ⟨.hbm, 55, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  bcast_S16384x200_S16384x200x4_0_1 : S16384x200.BroadcastsInDim S16384x200x4 (![0, 1] : Fin 2 → Fin S16384x200x4.rank)
  bcast_S_S16384x200x4 : S_.BroadcastsInDim S16384x200x4 (![] : Fin 0 → Fin S16384x200x4.rank)
  transposes_S4x4_S4x4_1_0 : S4x4.Transposes [1, 0] S4x4
  bcast_S4_S1x1x4_2 : S4.BroadcastsInDim S1x1x4 (![2] : Fin 1 → Fin S1x1x4.rank)
  bcast_S1x1x4_S16384x200x4_0_1_2 : S1x1x4.BroadcastsInDim S16384x200x4 (![0, 1, 2] : Fin 3 → Fin S16384x200x4.rank)
  reducesTo_S16384x200x4_S16384x200_d2 : S16384x200x4.ReducesTo [2] S16384x200
  bcast_S16384x200x1_S16384x200x4_0_1_2 : S16384x200x1.BroadcastsInDim S16384x200x4 (![0, 1, 2] : Fin 3 → Fin S16384x200x4.rank)
  reducesTo_S16384x200_S_d0_1 : S16384x200.ReducesTo [0, 1] S_
  gather_S256x4_S16384x200x1_S16384x200x4_2_0_n_n_0_2_14_wf : GatherDims.WF S256x4 S16384x200x1 S16384x200x4 [2] [0] [] [0] [] 2 ![1, 4]
  dot_S16384x200x4_S4x4_S16384x200x4_2_0_01_1_n_n_wf : DotDims.WF S16384x200x4 S4x4 S16384x200x4 [2] [0] [0, 1] [1] [] []

variable [Facts₀]

def gather_S256x4_S16384x200x1_S16384x200x4_2_0_n_n_0_2_14 : GatherDims S256x4 S16384x200x1 S16384x200x4 where
  offsetDims := [2]
  collapsedSliceDims := [0]
  operandBatchingDims := []
  startIndicesBatchingDims := []
  startIndexMap := [0]
  indexVectorDim := 2
  sliceSizes := ![1, 4]
  wf := gather_S256x4_S16384x200x1_S16384x200x4_2_0_n_n_0_2_14_wf
def dot_S16384x200x4_S4x4_S16384x200x4_2_0_01_1_n_n : DotDims S16384x200x4 S4x4 S16384x200x4 where
  lhsContracting := [2]
  rhsContracting := [0]
  lhsNonContracting := [0, 1]
  rhsNonContracting := [1]
  lhsBatch := []
  rhsBatch := []
  wf := dot_S16384x200x4_S4x4_S16384x200x4_2_0_01_1_n_n_wf

class Facts : Prop extends Facts₀ where

variable [Facts]
-- ==== Proof.Common.lean ====
/-
  The idealized kernel's program as the SparseCore launch theorem sees it: the label signature of its two TensorCore
  regions (the code table, the loss) beside the one SparseCore call (the lookup and per-lane partial sums), the body
  table, and the ghost state the proof runs under — the launch handshakes' rounds, the rounds of the TensorCore
  regions' staging cells, and the counters of the vector subcores' local copies.
-/
import proofs.«204536_g87462714016206_cont_9to1c4b_719_4_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«204536_g87462714016206_cont_9to1c4b_719_4_alg».proof.Proof.Gen.KernelIdeal
import proofs.«204536_g87462714016206_cont_9to1c4b_719_4_alg».proof.Proof.Gen.KernelIdeal.Skeleton
import proofs.«204536_g87462714016206_cont_9to1c4b_719_4_alg».proof.Proof.Gen.KernelIdeal.Launch
import proofs.«204536_g87462714016206_cont_9to1c4b_719_4_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] [Named F] : Labels := Pipeline.Sig Λ₀ (Fin 2) fun p => (pcfgs (F := F) p).Adm
abbrev K [FloatOps F] [Named F] : SparseCore.Cfg τ sig (ΛP (F := F)) 1 := sc (F := F)
theorem nSub_zero [FloatOps F] [Named F] : (K (F := F)).nSub 0 = 16 := rfl
theorem nCore_zero [FloatOps F] [Named F] : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] [Named F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The rounds of the TensorCore regions' staging cells: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

example : CountersIn UU := inferInstance

/-! ## The arrays -/

variable (m : (ℓ : Loc nD τ sig) → Buf (Elt F) ℓ) (ρ : Dev nD → PrngReg)

/-- The flattened byte stream, the flattened target, the flattened code table (the SparseCore call's operands), the
    flattened code path and the per-lane partial sums (its results), as locations of device `d`. -/
abbrev bLoc (d : Dev nD) : Loc nD τ sig := (SparseCore.T d).loc main_v0
abbrev gLoc (d : Dev nD) : Loc nD τ sig := (SparseCore.T d).loc main_v1
abbrev tLoc (d : Dev nD) : Loc nD τ sig := (SparseCore.T d).loc main_v5
abbrev oLoc (d : Dev nD) : Loc nD τ sig := (SparseCore.T d).loc main_v6_0
abbrev pLoc (d : Dev nD) : Loc nD τ sig := (SparseCore.T d).loc main_v6_1

end Cert.Proof.KI

end
-- ==== Proof.RegionInv.lean ====
/-
  The invariant both TensorCore regions run under: the core's scoped buffers that are no staging buffer of the region,
  each at some contents, and its generator register at some state — what a body that loads its inputs, computes and
  stores its output may use and need not describe.
-/
import proofs.«204536_g87462714016206_cont_9to1c4b_719_4_alg».proof.Proof.Common
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-- The region invariant on core `c` for the windows `win`. -/
def ΦR {gr : Nat} {Wn : Nat} (win : Fin Wn → Pipeline.WinSpec sig gr) (c : Dev nD) : sProp 𝕄 :=
  iprop(Pipeline.scopedRest (Ix := HIx 1) (Name := ℕ) (U := UU) (Lvl := ℕ) (Val := Elt F) win c ∗ ∃ r, prngReg c r)

end Cert.Proof.KI

end
-- ==== Proof.RegionTable.lean ====
/-
  The code-table region on the TensorCore (the first pallas_call): one point, four whole-array windows — the embedding
  table, the transposed projection, the bias row read; the code table written. The body loads the three inputs whole,
  computes each row's projection, adds the bias, divides the row by its norm plus the small constant, and stores the
  256 × 4 result whole. Stated at the buffer contents `Vt` the region is entered with and at what the TensorCore owes
  the launch while it runs (`Ow`: its start signals), which passes through the region unpaid.
-/
import proofs.«204536_g87462714016206_cont_9to1c4b_719_4_alg».proof.Proof.RegionInv
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

section TableRegion

variable (Vt : (c : Dev nD) → (b : Ref sig .tc) → Buf (Elt F) ((c : Thread nD τ).loc b))
  (Ow : Dev nD → CellTallies nD τ sig (HIx 1)) (Rc : Dev nD → Set (SemLoc sig × HIx 1))

/-! ## The windows' blocks -/

/-- Window `w`'s block at the point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vt c (Pipeline.arrRef spec0 w))

/-- An input window's staging buffer holds its block when the body runs, for any proof data over these arrays whose
    body leaves the block in place. -/
theorem before0_0_of {c : Dev nD} (dat : Dat τ (Elt F) (HIx 1) ℕ UU ℕ cfg0 c) (hA : dat.A 0 = Vt c (Pipeline.arrRef spec0 0))
    (hafter : ∀ t, dat.after 0 t = iblk0 Vt c 0 t) (t : Fin cfg0.N) (d) : dat.before 0 t d = iblk0 Vt c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = Vt c (Pipeline.arrRef spec0 1))
    (hafter : ∀ t, dat.after 1 t = iblk0 Vt c 1 t) (t : Fin cfg0.N) (d) : dat.before 1 t d = iblk0 Vt c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) (HIx 1) ℕ UU ℕ cfg0 c) (hA : dat.A 2 = Vt c (Pipeline.arrRef spec0 2))
    (hafter : ∀ t, dat.after 2 t = iblk0 Vt c 2 t) (t : Fin cfg0.N) (d) : dat.before 2 t d = iblk0 Vt c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and its one store -/

abbrev rE : Rect S256x4 := Rect.unit (s := S256x4) ![0, 0] S256x4.size inb_S256x4_S256x4_0_0
abbrev rW : Rect S4x4 := Rect.unit (s := S4x4) ![0, 0] S4x4.size inb_S4x4_S4x4_0_0
abbrev rB : Rect S1x4 := Rect.unit (s := S1x4) ![0, 0] S1x4.size inb_S1x4_S1x4_0_0

/-- The code table's staging buffer after the body, from the three input blocks. -/
def tableOut (x0 : Vec F S256x4 .f32) (x1 : Vec F S4x4 .f32) (x2 : Vec F S1x4 .f32) : Vec F S256x4 .f32 :=
  View.canon [⟨rE, k0_pay1 (View.ld x0 rE) (View.ld x1 rW) (View.ld x2 rB)⟩]

/-- The one store covers the buffer. -/
theorem tableCover (p0 : Vec F S256x4 .f32) (y : S256x4.Idx) :
    ∃ pc ∈ ([⟨rE, p0⟩] : List (View.Piece (Elt F) S256x4 .f32)), y ∈ pc.1.set :=
  View.cover_of_tiled [⟨rE, p0⟩] S256x4.size (by rfl) y

/-! ## The body's triple -/

set_option maxHeartbeats 1000000 in
/-- The body on whole staging memrefs, the inputs' at read contents and the output's at anything, runs to the
    continuation holding the inputs' as they were and the output's at `tableOut` of them. -/
theorem sound_table (c : Dev nD) (E : Set ℕ) (arg0 : Memref sig .tc .vmem S256x4 .f32) (harg0 : arg0.IsWhole)
    (arg1 : Memref sig .tc .vmem S4x4 .f32) (harg1 : arg1.IsWhole) (arg2 : Memref sig .tc .vmem S1x4 .f32) (harg2 : arg2.IsWhole)
    (arg3 : Memref sig .tc .vmem S256x4 .f32) (harg3 : arg3.IsWhole)
    (x0 : Vec F S256x4 .f32) (x1 : Vec F S4x4 .f32) (x2 : Vec F S1x4 .f32) (Kc : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (tableOut x0 x1 x2)) -∗ Kc ⟨⟩))
      ⊢ wp frame (wpE (defs₀ (F := F)) Variants.none c none) E (cc0__table_body arg0 harg0 arg1 harg1 arg2 harg2 arg3 harg3) Kc := by
  simp only [cc0__table_body_eq_skeleton]; unfold cc0__table_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tableCover _)

/-! ## The pipeline's proof data -/

/-- The proof data of the code-table pipeline on core `c`: the arrays as the region finds them; after the body each
    input's buffer at its block and the output's at `tableOut` of the input blocks; the class invariant (the scoped rest
    and the generator register, untouched); what the TensorCore owes the launch, unchanged; full shares. -/
def dat0 (c : Dev nD) : Dat τ (Elt F) (HIx 1) ℕ UU ℕ cfg0 c where
  A w := Vt c (Pipeline.arrRef spec0 w)
  after w t := match w with
    | ⟨0, _⟩ => iblk0 Vt c 0 t
    | ⟨1, _⟩ => iblk0 Vt c 1 t
    | ⟨2, _⟩ => iblk0 Vt c 2 t
    | ⟨3, _⟩ => tableOut (iblk0 Vt c 0 t) (iblk0 Vt c 1 t) (iblk0 Vt c 2 t)
  Φ _ := ΦR spec0 c
  q _ := fullShare
  owed _ := Ow c
  recorded _ := Rc c

theorem A_eq0 (c : Dev nD) (w : Fin cfg0.W) : (dat0 Vt Ow Rc c).A w = Vt c (Pipeline.arrRef spec0 w) := by
  dsimp only [dat0]

theorem after0_0 (c : Dev nD) (t : Fin cfg0.N) : (dat0 Vt Ow Rc c).after 0 t = iblk0 Vt c 0 t := by dsimp only [dat0]
theorem after0_1 (c : Dev nD) (t : Fin cfg0.N) : (dat0 Vt Ow Rc c).after 1 t = iblk0 Vt c 1 t := by dsimp only [dat0]
theorem after0_2 (c : Dev nD) (t : Fin cfg0.N) : (dat0 Vt Ow Rc c).after 2 t = iblk0 Vt c 2 t := by dsimp only [dat0]
theorem after0_3 (c : Dev nD) (t : Fin cfg0.N) :
    (dat0 Vt Ow Rc c).after 3 t = tableOut (iblk0 Vt c 0 t) (iblk0 Vt c 1 t) (iblk0 Vt c 2 t) := by dsimp only [dat0]

theorem before0_0 (c : Dev nD) (t : Fin cfg0.N) (d) : (dat0 Vt Ow Rc c).before 0 t d = iblk0 Vt c 0 t :=
  before0_0_of Vt (dat0 Vt Ow Rc c) (A_eq0 Vt Ow Rc c 0) (after0_0 Vt Ow Rc c) t d
theorem before0_1 (c : Dev nD) (t : Fin cfg0.N) (d) : (dat0 Vt Ow Rc c).before 1 t d = iblk0 Vt c 1 t :=
  before0_1_of Vt (dat0 Vt Ow Rc c) (A_eq0 Vt Ow Rc c 1) (after0_1 Vt Ow Rc c) t d
theorem before0_2 (c : Dev nD) (t : Fin cfg0.N) (d) : (dat0 Vt Ow Rc c).before 2 t d = iblk0 Vt c 2 t :=
  before0_2_of Vt (dat0 Vt Ow Rc c) (A_eq0 Vt Ow Rc c 2) (after0_2 Vt Ow Rc c) t d

/-! ## The body obligation -/

/-- What the body is called with at the point, the windows one by one, -/
def bodyPre0 (c : Dev nD) (t : Fin cfg0.N) : sProp 𝕄 :=
  iprop((dat0 Vt Ow Rc c).Φ t.castSucc ∗ (dat0 Vt Ow Rc c).owesAt (none : HIx 1) t.castSucc
    ∗ (∃ d, owns (c : Thread nD τ) (st0_0 t) fullShare ((dat0 Vt Ow Rc c).before 0 t d))
    ∗ (∃ d, owns (c : Thread nD τ) (st0_1 t) fullShare ((dat0 Vt Ow Rc c).before 1 t d))
    ∗ (∃ d, owns (c : Thread nD τ) (st0_2 t) fullShare ((dat0 Vt Ow Rc c).before 2 t d))
    ∗ (∃ d, owns (c : Thread nD τ) (st0_3 t) fullShare ((dat0 Vt Ow Rc c).before 3 t d)))

/-- and what it returns. -/
def bodyPost0 (c : Dev nD) (t : Fin cfg0.N) : sProp 𝕄 :=
  iprop((dat0 Vt Ow Rc c).Φ t.succ ∗ (dat0 Vt Ow Rc c).owesAt (none : HIx 1) t.succ
    ∗ owns (c : Thread nD τ) (st0_0 t) fullShare ((dat0 Vt Ow Rc c).after 0 t)
    ∗ owns (c : Thread nD τ) (st0_1 t) fullShare ((dat0 Vt Ow Rc c).after 1 t)
    ∗ owns (c : Thread nD τ) (st0_2 t) fullShare ((dat0 Vt Ow Rc c).after 2 t)
    ∗ owns (c : Thread nD τ) (st0_3 t) fullShare ((dat0 Vt Ow Rc c).after 3 t))

theorem sound_body0 (c : Dev nD) (t : Fin cfg0.N) :
    bodyPre0 Vt Ow Rc c t ⊢ wp frame (wpE (defs₀ (F := F)) Variants.none c none) Set.univ (bodyAt0 t) (fun _ => bodyPost0 Vt Ow Rc c t) := by
  unfold bodyPre0 bodyPost0 bodyAt0
  simp only [before0_0, before0_1, before0_2]
  rw [show (dat0 Vt Ow Rc c).Φ t.succ = (dat0 Vt Ow Rc c).Φ t.castSucc from rfl,
    show (dat0 Vt Ow Rc c).owesAt (none : HIx 1) t.succ = (dat0 Vt Ow Rc c).owesAt (none : HIx 1) t.castSucc from rfl,
    after0_0, after0_1, after0_2, after0_3]
  iintro ⟨HΦ, Ho, ⟨%d0, H0⟩, ⟨%d1, H1⟩, ⟨%d2, H2⟩, ⟨%d3, H3⟩⟩
  iapply (sound_table c Set.univ _ _ _ _ _ _ _ _ (iblk0 Vt c 0 t) (iblk0 Vt c 1 t) (iblk0 Vt c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the point. -/
theorem body_obligation0 (c : Dev nD) : BodyObligation (dat0 (F := F) Vt Ow Rc c) (defs₀ (F := F)) Variants.none (none : HIx 1) Set.univ := fun t => by
  rw [bigSep_W0, bigSep_W0]
  exact sound_body0 Vt Ow Rc c t

end TableRegion

end Cert.Proof.KI

end
-- ==== Proof.RegionLoss.lean ====
/-
  The loss region on the TensorCore (the second pallas_call): one point, two whole-array windows — the 32 × 16 partial
  sums read, the 1 × 1 loss written. The body loads the partial sums whole, adds them all, multiplies by the named
  reciprocal of the token count, subtracts from one and stores the result. Stated at the buffer contents `Vl` the region
  is entered with and at what the TensorCore owes the launch while it runs (`Ow`).
-/
import proofs.«204536_g87462714016206_cont_9to1c4b_719_4_alg».proof.Proof.RegionInv
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

section LossRegion

variable (Vl : (c : Dev nD) → (b : Ref sig .tc) → Buf (Elt F) ((c : Thread nD τ).loc b))
  (Ow : Dev nD → CellTallies nD τ sig (HIx 1)) (Rc : Dev nD → Set (SemLoc sig × HIx 1))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (Vl c (Pipeline.arrRef spec2 w))

theorem before2_0_of {c : Dev nD} (dat : Dat τ (Elt F) (HIx 1) ℕ UU ℕ cfg2 c) (hA : dat.A 0 = Vl c (Pipeline.arrRef spec2 0))
    (hafter : ∀ t, dat.after 0 t = iblk2 Vl c 0 t) (t : Fin cfg2.N) (d) : dat.before 0 t d = iblk2 Vl c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses and its one store -/

abbrev rP : Rect S32x16 := Rect.unit (s := S32x16) ![0, 0] S32x16.size inb_S32x16_S32x16_0_0
abbrev rL : Rect S1x1 := Rect.unit (s := S1x1) ![0, 0] S1x1.size inb_S1x1_S1x1_0_0

/-- The loss's staging buffer after the body, from the partial sums' block. -/
def lossOut (x0 : Vec F S32x16 .f32) : Vec F S1x1 .f32 :=
  View.canon [⟨rL, k2_pay1 (View.ld x0 rP)⟩]

theorem lossCover (p0 : Vec F S1x1 .f32) (y : S1x1.Idx) :
    ∃ pc ∈ ([⟨rL, p0⟩] : List (View.Piece (Elt F) S1x1 .f32)), y ∈ pc.1.set :=
  View.cover_of_tiled [⟨rL, p0⟩] S1x1.size (by rfl) y

/-! ## The body's triple -/

set_option maxHeartbeats 1000000 in
theorem sound_loss (c : Dev nD) (E : Set ℕ) (arg0 : Memref sig .tc .vmem S32x16 .f32) (harg0 : arg0.IsWhole)
    (arg1 : Memref sig .tc .vmem S1x1 .f32) (harg1 : arg1.IsWhole)
    (x0 : Vec F S32x16 .f32) (Kc : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (lossOut x0)) -∗ Kc ⟨⟩))
      ⊢ wp frame (wpE (defs₀ (F := F)) Variants.none c none) E (cc2__loss_body arg0 harg0 arg1 harg1) Kc := by
  simp only [cc2__loss_body_eq_skeleton]; unfold cc2__loss_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (lossCover _)

/-! ## The pipeline's proof data -/

def dat2 (c : Dev nD) : Dat τ (Elt F) (HIx 1) ℕ UU ℕ cfg2 c where
  A w := Vl c (Pipeline.arrRef spec2 w)
  after w t := match w with
    | ⟨0, _⟩ => iblk2 Vl c 0 t
    | ⟨1, _⟩ => lossOut (iblk2 Vl c 0 t)
  Φ _ := ΦR spec2 c
  q _ := fullShare
  owed _ := Ow c
  recorded _ := Rc c

theorem A_eq2 (c : Dev nD) (w : Fin cfg2.W) : (dat2 Vl Ow Rc c).A w = Vl c (Pipeline.arrRef spec2 w) := by
  dsimp only [dat2]

theorem after2_0 (c : Dev nD) (t : Fin cfg2.N) : (dat2 Vl Ow Rc c).after 0 t = iblk2 Vl c 0 t := by dsimp only [dat2]
theorem after2_1 (c : Dev nD) (t : Fin cfg2.N) : (dat2 Vl Ow Rc c).after 1 t = lossOut (iblk2 Vl c 0 t) := by dsimp only [dat2]

theorem before2_0 (c : Dev nD) (t : Fin cfg2.N) (d) : (dat2 Vl Ow Rc c).before 0 t d = iblk2 Vl c 0 t :=
  before2_0_of Vl (dat2 Vl Ow Rc c) (A_eq2 Vl Ow Rc c 0) (after2_0 Vl Ow Rc c) t d

/-! ## The body obligation -/

def bodyPre2 (c : Dev nD) (t : Fin cfg2.N) : sProp 𝕄 :=
  iprop((dat2 Vl Ow Rc c).Φ t.castSucc ∗ (dat2 Vl Ow Rc c).owesAt (none : HIx 1) t.castSucc
    ∗ (∃ d, owns (c : Thread nD τ) (st2_0 t) fullShare ((dat2 Vl Ow Rc c).before 0 t d))
    ∗ (∃ d, owns (c : Thread nD τ) (st2_1 t) fullShare ((dat2 Vl Ow Rc c).before 1 t d)))

def bodyPost2 (c : Dev nD) (t : Fin cfg2.N) : sProp 𝕄 :=
  iprop((dat2 Vl Ow Rc c).Φ t.succ ∗ (dat2 Vl Ow Rc c).owesAt (none : HIx 1) t.succ
    ∗ owns (c : Thread nD τ) (st2_0 t) fullShare ((dat2 Vl Ow Rc c).after 0 t)
    ∗ owns (c : Thread nD τ) (st2_1 t) fullShare ((dat2 Vl Ow Rc c).after 1 t))

theorem sound_body2 (c : Dev nD) (t : Fin cfg2.N) :
    bodyPre2 Vl Ow Rc c t ⊢ wp frame (wpE (defs₀ (F := F)) Variants.none c none) Set.univ (bodyAt2 t) (fun _ => bodyPost2 Vl Ow Rc c t) := by
  unfold bodyPre2 bodyPost2 bodyAt2
  simp only [before2_0]
  rw [show (dat2 Vl Ow Rc c).Φ t.succ = (dat2 Vl Ow Rc c).Φ t.castSucc from rfl,
    show (dat2 Vl Ow Rc c).owesAt (none : HIx 1) t.succ = (dat2 Vl Ow Rc c).owesAt (none : HIx 1) t.castSucc from rfl,
    after2_0, after2_1]
  iintro ⟨HΦ, Ho, ⟨%d0, H0⟩, ⟨%d1, H1⟩⟩
  iapply (sound_loss c Set.univ _ _ _ _ (iblk2 Vl c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) Vl Ow Rc c) (defs₀ (F := F)) Variants.none (none : HIx 1) Set.univ := fun t => by
  rw [bigSep_W2, bigSep_W2]
  exact sound_body2 Vl Ow Rc c t

end LossRegion

end Cert.Proof.KI

end
-- ==== Proof.Segs.lean ====
/-
  The two TensorCore regions as segments of @main's run on the TensorCore thread, inside the SparseCore launch: each
  entered from every unscoped buffer at a valuation, the generator register at some state and the TensorCore owing the
  launch its later start signals (its recorded waits within a bound); each left at the valuation with the region's
  arrays replaced by what its write-backs leave, the same debt unpaid and the recorded waits within the bound widened by
  the region's own staging waits, which sit at the index below every level.
-/
import proofs.«204536_g87462714016206_cont_9to1c4b_719_4_alg».proof.Proof.RegionTable
import proofs.«204536_g87462714016206_cont_9to1c4b_719_4_alg».proof.Proof.RegionLoss
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

section Segs

/-- No pipeline has a prefetched table. -/
abbrev adm : (p : Fin 2) → (pcfgs (F := F) p).Adm := fun p => (cfgs p).toPCfg_adm

variable (Wt Wl : Dev nD → Valuation τ sig (Elt F))
  (Ow0 Ow1 : Dev nD → CellTallies nD τ sig (HIx 1)) (Rc0 Rc1 : Dev nD → Set (SemLoc sig × HIx 1))

/-- The valuations read at the TensorCore's references. -/
abbrev VtOf : (c : Dev nD) → (b : Ref sig .tc) → Buf (Elt F) ((c : Thread nD τ).loc b) := fun c b => Wt c b
abbrev VlOf : (c : Dev nD) → (b : Ref sig .tc) → Buf (Elt F) ((c : Thread nD τ).loc b) := fun c b => Wl c b

/-- Both pipelines' proof data, each at its region's entry contents: a literal match on the pipeline. -/
def pdats : (p : Fin 2) → (c : Dev nD) → Dat τ (Elt F) (HIx 1) ℕ UU ℕ (Pipeline.pin (pcfgs (F := F)) adm p) c
  | ⟨0, _⟩ => fun c => dat0 (VtOf Wt) Ow0 Rc0 c
  | ⟨1, _⟩ => fun c => dat2 (VlOf Wl) Ow1 Rc1 c

/-- The buffers when the code-table region is left: its arrays at what the pipeline leaves, every other as entered. -/
def WtOut (c : Dev nD) : Valuation τ sig (Elt F) :=
  Pipeline.withArrays spec0 c (Wt c) fun w => (dat0 (VtOf Wt) Ow0 Rc0 c).arrAt w cfg0.N
theorem WtOut_arr (c : Dev nD) (w : Fin cfg0.W) :
    WtOut Wt Ow0 Rc0 c (Proc.devRef .tc (Pipeline.arrRef spec0 w)) = (dat0 (VtOf Wt) Ow0 Rc0 c).arrAt w cfg0.N := by
  unfold WtOut; exact Pipeline.withArrays_arr spec0 launch0.win.arr_inj c _ _ w
theorem WtOut_of_ne (c : Dev nD) (b : Ref sig .tc) (hb : ∀ w, Pipeline.arrRef spec0 w ≠ b) :
    WtOut Wt Ow0 Rc0 c (Proc.devRef .tc b) = Wt c (Proc.devRef .tc b) := by
  unfold WtOut; exact Pipeline.withArrays_of_ne spec0 c _ _ b hb

/-- The buffers when the loss region is left. -/
def WlOut (c : Dev nD) : Valuation τ sig (Elt F) :=
  Pipeline.withArrays spec2 c (Wl c) fun w => (dat2 (VlOf Wl) Ow1 Rc1 c).arrAt w cfg2.N
theorem WlOut_arr (c : Dev nD) (w : Fin cfg2.W) :
    WlOut Wl Ow1 Rc1 c (Proc.devRef .tc (Pipeline.arrRef spec2 w)) = (dat2 (VlOf Wl) Ow1 Rc1 c).arrAt w cfg2.N := by
  unfold WlOut; exact Pipeline.withArrays_arr spec2 launch2.win.arr_inj c _ _ w
theorem WlOut_of_ne (c : Dev nD) (b : Ref sig .tc) (hb : ∀ w, Pipeline.arrRef spec2 w ≠ b) :
    WlOut Wl Ow1 Rc1 c (Proc.devRef .tc b) = Wl c (Proc.devRef .tc b) := by
  unfold WlOut; exact Pipeline.withArrays_of_ne spec2 c _ _ b hb

/-- What rides beside the buffers through a region: the generator register at some state. -/
abbrev Rg (c : Dev nD) : sProp 𝕄 := iprop(∃ r, prngReg c r)

set_option backward.isDefEq.respectTransparency.types false in
/-- The code-table region as a segment. -/
def regTable (hOw : ∀ c g, Ow0 c g none = 0) :
    Pipeline.RegionSeg (pcfgs (F := F)) adm (pdats Wt Wl Ow0 Ow1 Rc0 Rc1) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (VtOf Wt) Ow0 Rc0 c).loose
  hwaits c := Pipeline.cellsWaits_intro _ _ _ 0 c fun w s t => (K (F := F)).mayWait_none _ (hOw c)
  pre c := iprop(StableHlo.held (c : Thread nD τ) (Pipeline.ucRefs τ sig) (Wt c) ∗ Rg c ∗ Pipeline.owesWithin c (Ow0 c) (Rc0 c))
  post c := iprop(StableHlo.held (c : Thread nD τ) (Pipeline.ucRefs τ sig) (WtOut Wt Ow0 Rc0 c) ∗ Rg c
    ∗ Pipeline.owesWithin c (Ow0 c) (Rc0 c ∪ cfg0.waitPairs (none : HIx 1)))
  X c := Rg c
  Y c := Rg c
  Z c := Pipeline.unscopedRest (Ix := HIx 1) (Name := ℕ) (U := UU) (Lvl := ℕ) spec0 c (VtOf Wt c)
  hentry c := by
    rw [Pipeline.ownSems0_none]
    have hsplit := Pipeline.arrays_of_unscopedBufs (p := 0) (pcfgs (F := F)) adm (pdats Wt Wl Ow0 Ow1 Rc0 Rc1) launch0.win launch0.arr_whole c
      ((pdats Wt Wl Ow0 Ow1 Rc0 Rc1 0 c).share_full fun _ => rfl) (VtOf Wt c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitl [Hp]; · iexact Hp
    iexact Hrest
  hin c := by
    rw [show (pdats Wt Wl Ow0 Ow1 Rc0 Rc1 0 c).Φ 0 = ΦR spec0 c from rfl]; unfold ΦR
    iintro ⟨Hp, -, Hr⟩
    isplitl [Hr]; · iexact Hr
    iexact Hp
  hout c := by
    rw [Pipeline.ownSems0_none, show (pdats Wt Wl Ow0 Ow1 Rc0 Rc1 0 c).Φ (Fin.last _) = ΦR spec0 c from rfl]; unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats Wt Wl Ow0 Ow1 Rc0 Rc1) ((pdats Wt Wl Ow0 Ow1 Rc0 Rc1 0 c).share_full fun _ => rfl)
      (VtOf Wt c) (fun b => WtOut Wt Ow0 Rc0 c b) ((pdats Wt Wl Ow0 Ow1 Rc0 Rc1 0 c).arrAt · cfg0.N)
      (fun w => (WtOut_arr Wt Ow0 Rc0 c w).symm)
      (fun b hb => WtOut_of_ne Wt Ow0 Rc0 c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iexact HO

set_option backward.isDefEq.respectTransparency.types false in
/-- The loss region as a segment. -/
def regLoss (hOw : ∀ c g, Ow1 c g none = 0) :
    Pipeline.RegionSeg (pcfgs (F := F)) adm (pdats Wt Wl Ow0 Ow1 Rc0 Rc1) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (VlOf Wl) Ow1 Rc1 c).loose
  hwaits c := Pipeline.cellsWaits_intro _ _ _ 1 c fun w s t => (K (F := F)).mayWait_none _ (hOw c)
  pre c := iprop(StableHlo.held (c : Thread nD τ) (Pipeline.ucRefs τ sig) (Wl c) ∗ Rg c ∗ Pipeline.owesWithin c (Ow1 c) (Rc1 c))
  post c := iprop(StableHlo.held (c : Thread nD τ) (Pipeline.ucRefs τ sig) (WlOut Wl Ow1 Rc1 c) ∗ Rg c
    ∗ Pipeline.owesWithin c (Ow1 c) (Rc1 c ∪ cfg2.waitPairs (none : HIx 1)))
  X c := Rg c
  Y c := Rg c
  Z c := Pipeline.unscopedRest (Ix := HIx 1) (Name := ℕ) (U := UU) (Lvl := ℕ) spec2 c (VlOf Wl c)
  hentry c := by
    rw [Pipeline.ownSems0_none]
    have hsplit := Pipeline.arrays_of_unscopedBufs (p := 1) (pcfgs (F := F)) adm (pdats Wt Wl Ow0 Ow1 Rc0 Rc1) launch2.win launch2.arr_whole c
      ((pdats Wt Wl Ow0 Ow1 Rc0 Rc1 1 c).share_full fun _ => rfl) (VlOf Wl c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitl [Hp]; · iexact Hp
    iexact Hrest
  hin c := by
    rw [show (pdats Wt Wl Ow0 Ow1 Rc0 Rc1 1 c).Φ 0 = ΦR spec2 c from rfl]; unfold ΦR
    iintro ⟨Hp, -, Hr⟩
    isplitl [Hr]; · iexact Hr
    iexact Hp
  hout c := by
    rw [Pipeline.ownSems0_none, show (pdats Wt Wl Ow0 Ow1 Rc0 Rc1 1 c).Φ (Fin.last _) = ΦR spec2 c from rfl]; unfold ΦR
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats Wt Wl Ow0 Ow1 Rc0 Rc1) ((pdats Wt Wl Ow0 Ow1 Rc0 Rc1 1 c).share_full fun _ => rfl)
      (VlOf Wl c) (fun b => WlOut Wl Ow1 Rc1 c b) ((pdats Wt Wl Ow0 Ow1 Rc0 Rc1 1 c).arrAt · cfg2.N)
      (fun w => (WlOut_arr Wl Ow1 Rc1 c w).symm)
      (fun b hb => WlOut_of_ne Wl Ow1 Rc1 c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iexact HO

end Segs

end Cert.Proof.KI

end
-- ==== Proof.Pay.lean ====
/-
  What the SparseCore call's handshakes carry. The call reads three arrays — the flattened byte stream, the flattened
  target and the flattened code table — and writes two: the flattened code path, of which vector subcore `(c, s)`
  writes the sixteen chunks of 25600 words starting at word `(2 s + c) · 409600`, and the per-lane partial sums, of which
  it writes row `2 s + c`. Every vector subcore reads the inputs through a read token of its own on the whole array;
  its output chunks and its row it holds alone.
-/
import proofs.«204536_g87462714016206_cont_9to1c4b_719_4_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig (HIx 1) (Elt F) ℕ UU ℕ

/-! ## The kernel's memrefs -/

abbrev bV : Memref sig .scVector .hbm S3276800 .i32 := Memref.whole main_v0_scv
abbrev gV : Memref sig .scVector .hbm S13107200 .f32 := Memref.whole main_v1_scv
abbrev tV : Memref sig .scVector .hbm S1024 .f32 := Memref.whole main_v5_scv
abbrev oV : Memref sig .scVector .hbm S13107200 .f32 := Memref.whole main_v6_0_scv
abbrev pV : Memref sig .scVector .hbm S32x16 .f32 := Memref.whole main_v6_1_scv
/-- A vector subcore's scratch: the code table, a chunk's bytes, a chunk's targets, a chunk's code rows, the lane sums. -/
abbrev sT : Memref sig .scVector .vmem S1024 .f32 := Memref.whole cc1_scratch0
abbrev sI : Memref sig .scVector .vmem S6400 .i32 := Memref.whole cc1_scratch1
abbrev sG : Memref sig .scVector .vmem S25600 .f32 := Memref.whole cc1_scratch2
abbrev sR : Memref sig .scVector .vmem S25600 .f32 := Memref.whole cc1_scratch3
abbrev sA : Memref sig .scVector .vmem S16 .f32 := Memref.whole cc1_scratch4

/-! ## A vector subcore's place -/

def coordsV (c : Fin (grid1.bound 0)) (s : Fin (grid1.bound 1)) : grid1.Coords :=
  fun | 0 => c | 1 => s | ⟨_ + 2, h⟩ => absurd h (Nat.not_lt.2 (Nat.le_add_left _ _))

abbrev cV (L : grid1.Coords) : Fin τ.nSC := (L 0).castLE hcore1
abbrev jV (L : grid1.Coords) : Fin τ.nSub := (L 1).castLE hsub1

theorem bound_zero : grid1.bound 0 = 2 := rfl
theorem bound_one : grid1.bound 1 = 16 := rfl

/-- The worker number of a place: `2 s + c`, below 32. -/
def wid (L : grid1.Coords) : Fin 32 :=
  ⟨2 * (L 1).val + (L 0).val, by
    have h0 : (L 0).val < 2 := (L 0).isLt
    have h1 : (L 1).val < 16 := (L 1).isLt
    omega⟩

/-- Chunk `g` of the code path as the subcore at `L` slices it. -/
abbrev oChunk (L : grid1.Coords) (g : Fin k1_t1_loop.trips) : Memref sig .scVector .hbm S25600 .f32 :=
  (oV : Memref sig .scVector .hbm S13107200 .f32).slice (Rect.unit (s := S13107200) (k1_off2 L g) S25600.size (k1_off2_inb L g)) (fun _ => rfl)
/-- Its row of the partial sums, squeezed. -/
abbrev pRow (L : grid1.Coords) : Memref sig .scVector .hbm S16 .f32 :=
  ((pV : Memref sig .scVector .hbm S32x16 .f32).slice (Rect.unit (s := S32x16) (k1_off7 L) S1x16.size (k1_off7_inb L)) (fun _ => rfl)).squeeze S16 squeezes_S1x16_S16

/-! ## The operands' contents, and what a subcore is handed -/

section Handed

variable (fb : (d : Dev nD) → Buf (Elt F) (bLoc d)) (fg : (d : Dev nD) → Buf (Elt F) (gLoc d)) (ft : (d : Dev nD) → Buf (Elt F) (tLoc d))
  (fo : (d : Dev nD) → Buf (Elt F) (oLoc d)) (fp : (d : Dev nD) → Buf (Elt F) (pLoc d))

/-- Every byte is below 256: what makes each table index a subcore computes name a word of the table. -/
def PreOK : Prop := ∀ (d : Dev nD) (j : S3276800.Idx), (fb d j).toNat < 256

/-- The three inputs under the read token of worker `w`. -/
def inToks (d : Dev nD) (w : Fin 32) : sProp 𝕄 :=
  iprop((bLoc d ↦{shareTok fullShare 32 w} fb d) ∗ (gLoc d ↦{shareTok fullShare 32 w} fg d) ∗ (tLoc d ↦{shareTok fullShare 32 w} ft d))

/-- What the subcore at `L` is handed: its read tokens, its sixteen chunks of the code path and its row of the
    partial sums at the contents the call found. -/
def goL (d : Dev nD) (L : grid1.Coords) : sProp 𝕄 :=
  iprop(inToks fb fg ft d (wid L)
    ∗ (bigSep Finset.univ fun g : Fin k1_t1_loop.trips => oLoc d ↦[(oChunk L g).view.set]{fullShare} fo d)
    ∗ pLoc d ↦[(pRow L).view.set]{fullShare} fp d)

/-- What it hands back: the tokens, the chunks and the row at what it wrote. -/
def tdL (d : Dev nD) (L : grid1.Coords) : sProp 𝕄 :=
  iprop(inToks fb fg ft d (wid L)
    ∗ (bigSep Finset.univ fun g : Fin k1_t1_loop.trips => iprop(∃ f, oLoc d ↦[(oChunk L g).view.set]{fullShare} f))
    ∗ ∃ f, pLoc d ↦[(pRow L).view.set]{fullShare} f)

end Handed

end Cert.Proof.KI

end
-- ==== Proof.Call.lean ====
/-
  The SparseCore call's payloads and the launch theorem's obligations for it: what the TensorCore hands each SparseCore
  is simply what its sixteen vector subcores are handed, side by side, so the split among them is the identity; a
  vector subcore's obligation is its task's triple (stated here as a proposition, proved with the task's body) lifted
  to the extended body table.
-/
import proofs.«204536_g87462714016206_cont_9to1c4b_719_4_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig (HIx 1) (Elt F) ℕ UU ℕ

variable (fb : (d : Dev nD) → Buf (Elt F) (bLoc d)) (fg : (d : Dev nD) → Buf (Elt F) (gLoc d)) (ft : (d : Dev nD) → Buf (Elt F) (tLoc d))
  (fo : (d : Dev nD) → Buf (Elt F) (oLoc d)) (fp : (d : Dev nD) → Buf (Elt F) (pLoc d))

/-- The task's triple, at every place: what the body's proof establishes and the launch consumes. -/
def TileBodyStmt : Prop :=
  ∀ (hF : (K (F := F)).Facts) (hpre : PreOK fb) (d : Dev nD) (L : grid1.Coords)
    (O : CellTallies nD τ sig (HIx 1)) (W : Waits sig (HIx 1)) (hO : ∀ g, O g none = 0),
    iprop(levAts (K (F := F)).L (K (F := F)).lev ∗ emp ∗ goL fb fg ft fo fp d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_sc_kernel L bV (Memref.isWhole_whole _) gV (Memref.isWhole_whole _) tV (Memref.isWhole_whole _)
            oV (Memref.isWhole_whole _) pV (Memref.isWhole_whole _)
            sT (Memref.isWhole_whole _) sI (Memref.isWhole_whole _) sG (Memref.isWhole_whole _) sR (Memref.isWhole_whole _) sA (Memref.isWhole_whole _)
            cc1_scoped0 cc1_scoped1 cc1_scoped2 cc1_scoped3 cc1_scoped4)
          fun _ => iprop(tdL fb fg ft d L ∗ scopedBufs (V d (cV L) (jV L)) ∗ scopedSems0 (V d (cV L) (jV L))
            ∗ ∃ W', ⌜∀ p ∈ W', p ∈ W ∨ p.2 = none⌝ ∗ owes (V d (cV L) (jV L)) O W')

/-- The place of vector subcore `i` of SparseCore `c` of the call's grid. -/
abbrev placeOf (c : Fin ((K (F := F)).nCore 0)) (i : Fin ((K (F := F)).nSub 0)) : grid1.Coords :=
  coordsV (Fin.cast nCore_zero c) (Fin.cast nSub_zero i)

/-- The one call's payloads. -/
def P : (K (F := F)).Pay (nD := nD) (Val := Elt F) (Name := ℕ) (U := UU) where
  st := fun q d c => match q with
    | 0 => bigSep Finset.univ fun i : Fin ((K (F := F)).nSub 0) => goL fb fg ft fo fp d (placeOf c i)
  dn := fun q d c => match q with
    | 0 => bigSep Finset.univ fun i : Fin ((K (F := F)).nSub 0) => tdL fb fg ft d (placeOf c i)
  go := fun q d c i => match q with
    | 0 => goL fb fg ft fo fp d (placeOf c i)
  td := fun q d c i => match q with
    | 0 => tdL fb fg ft d (placeOf c i)
  x := fun _ _ => iprop(emp)

instance goL_storable (d : Dev nD) (L : grid1.Coords) : BI.Storable (upEmb : UEmb _ 𝕄) (goL fb fg ft fo fp d L) := by
  unfold goL inToks; infer_instance
instance tdL_storable (d : Dev nD) (L : grid1.Coords) : BI.Storable (upEmb : UEmb _ 𝕄) (tdL fb fg ft d L) := by
  unfold tdL inToks; infer_instance

instance P_storable : (P (F := F) fb fg ft fo fp).IsStorable where
  st q d c := match q with
    | 0 => (inferInstance : BI.Storable (upEmb : UEmb _ 𝕄) (bigSep Finset.univ fun i : Fin ((K (F := F)).nSub 0) => goL fb fg ft fo fp d (placeOf c i)))
  dn q d c := match q with
    | 0 => (inferInstance : BI.Storable (upEmb : UEmb _ 𝕄) (bigSep Finset.univ fun i : Fin ((K (F := F)).nSub 0) => tdL fb fg ft d (placeOf c i)))
  go q d c i := match q with
    | 0 => (inferInstance : BI.Storable (upEmb : UEmb _ 𝕄) (goL fb fg ft fo fp d (placeOf c i)))
  td q d c i := match q with
    | 0 => (inferInstance : BI.Storable (upEmb : UEmb _ 𝕄) (tdL fb fg ft d (placeOf c i)))

/-! ## The launch theorem's obligations for the call -/

theorem defs₀_vector (c : Fin τ.nSC) (s : Fin τ.nSub) :
    defs₀ (F := F) (.scVector c s) 1 ()
      = SparseCore.onTile hcore1 hsub1 (fun c s => cc1_sc_kernel (coordsV c s)
          bV (Memref.isWhole_whole _) gV (Memref.isWhole_whole _) tV (Memref.isWhole_whole _) oV (Memref.isWhole_whole _) pV (Memref.isWhole_whole _)
          sT (Memref.isWhole_whole _) sI (Memref.isWhole_whole _) sG (Memref.isWhole_whole _) sR (Memref.isWhole_whole _) sA (Memref.isWhole_whole _)
          cc1_scoped0 cc1_scoped1 cc1_scoped2 cc1_scoped3 cc1_scoped4) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBodyStmt fb fg ft fo fp) (hpre : PreOK fb) :
    (K (F := F)).TileObl (D (F := F)) 𝒱 (P fb fg ft fo fp) v₀ 0 := by
  intro d c i O W hO _ _
  simp only [show (P fb fg ft fo fp).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hbody facts hpre d (coordsV ⟨_, hc.1⟩ ⟨_, hc.2⟩) O W hO).trans (wp_mono frame _ _ fun _ => obl_post)

theorem vecSplit : (K (F := F)).VecSplit' (P fb fg ft fo fp) 0 := by
  intro d c
  show (bigSep Finset.univ fun i : Fin ((K (F := F)).nSub 0) => goL fb fg ft fo fp d (placeOf c i)) ⊢ |={Set.univ}=> iprop(
      (bigSep Finset.univ fun i : Fin ((K (F := F)).nSub 0) => goL fb fg ft fo fp d (placeOf c i))
      ∗ ((bigSep Finset.univ fun i : Fin ((K (F := F)).nSub 0) => tdL fb fg ft d (placeOf c i))
          -∗ (bigSep Finset.univ fun i : Fin ((K (F := F)).nSub 0) => tdL fb fg ft d (placeOf c i))))
  iintro H; imodintro
  isplitl [H]; · iexact H
  iintro H; iexact H

end Cert.Proof.KI

end
-- ==== Proof.Launch.lean ====
/-
  @main on the TensorCore inside the SparseCore launch: four host operations (two flattenings, the transpose of the
  projection, the bias as a row), the code-table region, the flattening of the table, the SparseCore call, the loss
  region, and three host operations (the loss as a scalar, the code path unflattened, the constant).
-/
import proofs.«204536_g87462714016206_cont_9to1c4b_719_4_alg».proof.Proof.Segs
import proofs.«204536_g87462714016206_cont_9to1c4b_719_4_alg».proof.Proof.Call

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop)
open Idealize.ShloMosaic.Pipeline (Dat Cfg Window BodyObligation cellOf)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The call's payloads, at any statement of what a vector subcore hands back -/

section General

variable (fb : (d : Dev nD) → Buf (Elt F) (bLoc d)) (fg : (d : Dev nD) → Buf (Elt F) (gLoc d)) (ft : (d : Dev nD) → Buf (Elt F) (tLoc d))
  (fo : (d : Dev nD) → Buf (Elt F) (oLoc d)) (fp : (d : Dev nD) → Buf (Elt F) (pLoc d))
  (tdG : Dev nD → grid1.Coords → sProp (MT nD τ sig (HIx 1) (Elt F) ℕ UU ℕ)) [htd : ∀ d L, BI.Storable (upEmb : UEmb _ (MT nD τ sig (HIx 1) (Elt F) ℕ UU ℕ)) (tdG d L)]

/-- The task's triple at every place, ending in `tdG`. -/
def TileBodyStmtG : Prop :=
  ∀ (hF : (K (F := F)).Facts) (hpre : PreOK fb) (d : Dev nD) (L : grid1.Coords)
    (O : CellTallies nD τ sig (HIx 1)) (W : Waits sig (HIx 1)) (hO : ∀ g, O g none = 0),
    iprop(levAts (K (F := F)).L (K (F := F)).lev ∗ emp ∗ goL fb fg ft fo fp d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_sc_kernel L bV (Memref.isWhole_whole _) gV (Memref.isWhole_whole _) tV (Memref.isWhole_whole _)
            oV (Memref.isWhole_whole _) pV (Memref.isWhole_whole _)
            sT (Memref.isWhole_whole _) sI (Memref.isWhole_whole _) sG (Memref.isWhole_whole _) sR (Memref.isWhole_whole _) sA (Memref.isWhole_whole _)
            cc1_scoped0 cc1_scoped1 cc1_scoped2 cc1_scoped3 cc1_scoped4)
          fun _ => iprop(tdG d L ∗ scopedBufs (V d (cV L) (jV L)) ∗ scopedSems0 (V d (cV L) (jV L))
            ∗ ∃ W', ⌜∀ p ∈ W', p ∈ W ∨ p.2 = none⌝ ∗ owes (V d (cV L) (jV L)) O W')

/-- The one call's payloads. -/
def PG : (K (F := F)).Pay (nD := nD) (Val := Elt F) (Name := ℕ) (U := UU) where
  st := fun q d c => match q with
    | 0 => bigSep Finset.univ fun i : Fin ((K (F := F)).nSub 0) => goL fb fg ft fo fp d (placeOf c i)
  dn := fun q d c => match q with
    | 0 => bigSep Finset.univ fun i : Fin ((K (F := F)).nSub 0) => tdG d (placeOf c i)
  go := fun q d c i => match q with
    | 0 => goL fb fg ft fo fp d (placeOf c i)
  td := fun q d c i => match q with
    | 0 => tdG d (placeOf c i)
  x := fun _ _ => iprop(emp)

instance PG_storable : (PG (F := F) fb fg ft fo fp tdG).IsStorable where
  st q d c := match q with
    | 0 => (inferInstance : BI.Storable (upEmb : UEmb _ 𝕄) (bigSep Finset.univ fun i : Fin ((K (F := F)).nSub 0) => goL fb fg ft fo fp d (placeOf c i)))
  dn q d c := match q with
    | 0 => (inferInstance : BI.Storable (upEmb : UEmb _ 𝕄) (bigSep Finset.univ fun i : Fin ((K (F := F)).nSub 0) => tdG d (placeOf c i)))
  go q d c i := match q with
    | 0 => (inferInstance : BI.Storable (upEmb : UEmb _ 𝕄) (goL fb fg ft fo fp d (placeOf c i)))
  td q d c i := match q with
    | 0 => (inferInstance : BI.Storable (upEmb : UEmb _ 𝕄) (tdG d (placeOf c i)))

theorem tileOblG (hbody : TileBodyStmtG fb fg ft fo fp tdG) (hpre : PreOK fb) :
    (K (F := F)).TileObl (D (F := F)) 𝒱 (PG fb fg ft fo fp tdG) v₀ 0 := by
  intro d c i O W hO _ _
  simp only [show (PG fb fg ft fo fp tdG).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hbody facts hpre d (coordsV ⟨_, hc.1⟩ ⟨_, hc.2⟩) O W hO).trans (wp_mono frame _ _ fun _ => obl_post)

theorem vecSplitG : (K (F := F)).VecSplit' (PG fb fg ft fo fp tdG) 0 := by
  intro d c
  show (bigSep Finset.univ fun i : Fin ((K (F := F)).nSub 0) => goL fb fg ft fo fp d (placeOf c i)) ⊢ |={Set.univ}=> iprop(
      (bigSep Finset.univ fun i : Fin ((K (F := F)).nSub 0) => goL fb fg ft fo fp d (placeOf c i))
      ∗ ((bigSep Finset.univ fun i : Fin ((K (F := F)).nSub 0) => tdG d (placeOf c i))
          -∗ (bigSep Finset.univ fun i : Fin ((K (F := F)).nSub 0) => tdG d (placeOf c i))))
  iintro H; imodintro
  isplitl [H]; · iexact H
  iintro H; iexact H

end General

/-! ## The host operations -/

abbrev opB : HloOp τ sig (Elt F) := StableHlo.reshape main_arg0 main_v0 rfl shapeCasts_S16384x200_S3276800
abbrev opG : HloOp τ sig (Elt F) := StableHlo.reshape main_arg1 main_v1 rfl shapeCasts_S16384x200x4_S13107200
abbrev opW : HloOp τ sig (Elt F) :=
  StableHlo.unary main_arg3 main_v2 ((transpose S4x4 [1, 0] · transposes_S4x4_S4x4_1_0) : (⟨S4x4, .f32⟩ : BufTy).Contents (Elt F) → (⟨S4x4, .f32⟩ : BufTy).Contents (Elt F))
abbrev opBias : HloOp τ sig (Elt F) := StableHlo.reshape main_arg4 main_v3 rfl shapeCasts_S4_S1x4
abbrev opT : HloOp τ sig (Elt F) := StableHlo.reshape main_v4 main_v5 rfl shapeCasts_S256x4_S1024
abbrev opLoss : HloOp τ sig (Elt F) := StableHlo.reshape main_v7 main_v8 rfl shapeCasts_S1x1_S_
abbrev opPath : HloOp τ sig (Elt F) := StableHlo.reshape main_v6_0 main_v9 rfl shapeCasts_S13107200_S16384x200x4
abbrev opC : HloOp τ sig (Elt F) := StableHlo.nullary main_cst (constant S_ .f32 0x3DCCCCCD#32)

/-! ## The buffers at each boundary -/

/-- At launch; -/
abbrev W0 (d : Dev nD) : Valuation τ sig (Elt F) := fun b => m (d, b)
/-- when the code-table region is entered. -/
abbrev W1 (d : Dev nD) : Valuation τ sig (Elt F) := (opBias).result ((opW).result ((opG).result ((opB).result (W0 m d))))

/-- What the TensorCore owes the launch before call `n`, and the bound on its recorded waits. -/
abbrev OwAt (n : ℕ) (d : Dev nD) : CellTallies nD τ sig (HIx 1) := (K (F := F)).Otc d n
abbrev RcAt (n : ℕ) (d : Dev nD) : Set (SemLoc sig × HIx 1) := {p | (K (F := F)).lev (T d, p.1) p.2 ≤ 8 * n}

/-- When the code-table region is left; -/
abbrev W2 (d : Dev nD) : Valuation τ sig (Elt F) := WtOut (W1 m) (OwAt (F := F) 0) (RcAt (F := F) 0) d
/-- when the SparseCore call is made. -/
abbrev W3 (d : Dev nD) : Valuation τ sig (Elt F) := (opT).result (W2 m d)

/-- The call's operands and the results' buffers as the call finds them. -/
abbrev fbOf (d : Dev nD) : Buf (Elt F) (bLoc d) := W3 m d (Proc.devRef .tc main_v0)
abbrev fgOf (d : Dev nD) : Buf (Elt F) (gLoc d) := W3 m d (Proc.devRef .tc main_v1)
abbrev ftOf (d : Dev nD) : Buf (Elt F) (tLoc d) := W3 m d (Proc.devRef .tc main_v5)
abbrev foOf (d : Dev nD) : Buf (Elt F) (oLoc d) := W3 m d (Proc.devRef .tc main_v6_0)
abbrev fpOf (d : Dev nD) : Buf (Elt F) (pLoc d) := W3 m d (Proc.devRef .tc main_v6_1)

/-- The five arrays the call takes. -/
abbrev callRefs : Finset (DevRef τ sig) :=
  {Proc.devRef .tc main_v0, Proc.devRef .tc main_v1, Proc.devRef .tc main_v5, Proc.devRef .tc main_v6_0, Proc.devRef .tc main_v6_1}
theorem callRefs_sub : (callRefs : Finset (DevRef τ sig)) ⊆ Pipeline.ucRefs τ sig := by decide

omit [FloatOps F] [Named F] in
theorem held_callRefs (d : Dev nD) (W : Valuation τ sig (Elt F)) :
    (held (T d) callRefs W : sProp 𝕄)
      = iprop((bLoc d ↦{fullShare} W (Proc.devRef .tc main_v0)) ∗ (gLoc d ↦{fullShare} W (Proc.devRef .tc main_v1)) ∗ (tLoc d ↦{fullShare} W (Proc.devRef .tc main_v5))
          ∗ (oLoc d ↦{fullShare} W (Proc.devRef .tc main_v6_0)) ∗ (pLoc d ↦{fullShare} W (Proc.devRef .tc main_v6_1))) := by
  unfold held callRefs
  rw [SparseCore.bigSep_insert' (by decide), SparseCore.bigSep_insert' (by decide), SparseCore.bigSep_insert' (by decide),
    SparseCore.bigSep_insert' (by decide), bigSep_singleton]

/-- The buffers when the loss region is entered: the call's results at what the subcores left. -/
abbrev W4 (d : Dev nD) (fo' : Buf (Elt F) (oLoc d)) (fp' : Buf (Elt F) (pLoc d)) : Valuation τ sig (Elt F) :=
  Function.update (Function.update (W3 m d) (Proc.devRef .tc main_v6_0) fo') (Proc.devRef .tc main_v6_1) fp'

omit [FloatOps F] [Named F] in
theorem held_callRefs_W4 [FloatOps F] [Named F] (d : Dev nD) (fo' : Buf (Elt F) (oLoc d)) (fp' : Buf (Elt F) (pLoc d)) :
    (held (T d) callRefs (W4 m d fo' fp') : sProp 𝕄)
      = iprop((bLoc d ↦{fullShare} fbOf m d) ∗ (gLoc d ↦{fullShare} fgOf m d) ∗ (tLoc d ↦{fullShare} ftOf m d)
          ∗ (oLoc d ↦{fullShare} fo') ∗ (pLoc d ↦{fullShare} fp')) := by
  rw [held_callRefs]
  have e0 : W4 m d fo' fp' (Proc.devRef .tc main_v0) = fbOf m d :=
    (Function.update_of_ne (by decide) _ _).trans (Function.update_of_ne (by decide) _ _)
  have e1 : W4 m d fo' fp' (Proc.devRef .tc main_v1) = fgOf m d :=
    (Function.update_of_ne (by decide) _ _).trans (Function.update_of_ne (by decide) _ _)
  have e2 : W4 m d fo' fp' (Proc.devRef .tc main_v5) = ftOf m d :=
    (Function.update_of_ne (by decide) _ _).trans (Function.update_of_ne (by decide) _ _)
  have e3 : W4 m d fo' fp' (Proc.devRef .tc main_v6_0) = fo' :=
    (Function.update_of_ne (by decide) _ _).trans (Function.update_self _ _ _)
  have e4 : W4 m d fo' fp' (Proc.devRef .tc main_v6_1) = fp' := Function.update_self _ _ _
  rw [e0, e1, e2, e3, e4]

theorem held_rest_W4 (d : Dev nD) (fo' : Buf (Elt F) (oLoc d)) (fp' : Buf (Elt F) (pLoc d)) :
    (held (T d) (Pipeline.ucRefs τ sig \ callRefs) (W4 m d fo' fp') : sProp 𝕄) = held (T d) (Pipeline.ucRefs τ sig \ callRefs) (W3 m d) :=
  StableHlo.held_congr (T d) fun b hb => by
    have hb' : b ∉ (callRefs : Finset (DevRef τ sig)) := (Finset.mem_sdiff.mp hb).2
    have h1 : b ≠ Proc.devRef .tc main_v6_1 := fun e => hb' (e ▸ by decide)
    have h0 : b ≠ Proc.devRef .tc main_v6_0 := fun e => hb' (e ▸ by decide)
    exact (Function.update_of_ne h1 _ _).trans (Function.update_of_ne h0 _ _)

/-- The loss region's entry contents on every core, from those on core `d` (there is one device). -/
abbrev WlAll (d : Dev nD) (fo' : Buf (Elt F) (oLoc d)) (fp' : Buf (Elt F) (pLoc d)) : Dev nD → Valuation τ sig (Elt F) :=
  fun c => W4 m c ((Subsingleton.elim d c) ▸ fo') ((Subsingleton.elim d c) ▸ fp')
theorem WlAll_self (d : Dev nD) (fo' : Buf (Elt F) (oLoc d)) (fp' : Buf (Elt F) (pLoc d)) : WlAll m d fo' fp' d = W4 m d fo' fp' := rfl

/-- When the loss region is left, and at the return. -/
abbrev W5 (d : Dev nD) (fo' : Buf (Elt F) (oLoc d)) (fp' : Buf (Elt F) (pLoc d)) : Valuation τ sig (Elt F) :=
  WlOut (WlAll m d fo' fp') (OwAt (F := F) 1) (RcAt (F := F) 1) d
abbrev W6 (d : Dev nD) (fo' : Buf (Elt F) (oLoc d)) (fp' : Buf (Elt F) (pLoc d)) : Valuation τ sig (Elt F) :=
  (opC).result ((opPath).result ((opLoss).result (W5 m d fo' fp')))

/-! ## The arguments end as launched -/

abbrev argRefs : Finset (DevRef τ sig) :=
  {Proc.devRef .tc main_arg0, Proc.devRef .tc main_arg1, Proc.devRef .tc main_arg2, Proc.devRef .tc main_arg3, Proc.devRef .tc main_arg4}
theorem argRefs_sub : (argRefs : Finset (DevRef τ sig)) ⊆ Pipeline.ucRefs τ sig := by decide
/-- The arguments and the three computed results. -/
abbrev outRefs : Finset (DevRef τ sig) :=
  {Proc.devRef .tc main_arg0, Proc.devRef .tc main_arg1, Proc.devRef .tc main_arg2, Proc.devRef .tc main_arg3, Proc.devRef .tc main_arg4,
    Proc.devRef .tc main_v8, Proc.devRef .tc main_v9, Proc.devRef .tc main_cst}
theorem outRefs_sub : (outRefs : Finset (DevRef τ sig)) ⊆ Pipeline.ucRefs τ sig := by decide

theorem W6_arg0 (d : Dev nD) (fo' : Buf (Elt F) (oLoc d)) (fp' : Buf (Elt F) (pLoc d)) :
    W6 m d fo' fp' (Proc.devRef .tc main_arg0) = W0 m d (Proc.devRef .tc main_arg0) := by
  have nR : ∀ {S S' : Shape} {e : EltTy} (x : Ref sig .tc) (y : Ref sig .tc), y ≠ main_arg0 → (Proc.devRef .tc main_arg0 : DevRef τ sig) ∉ ({Proc.devRef .tc y} : Finset (DevRef τ sig)) :=
    fun _ y h => by rw [Finset.mem_singleton]; exact StableHlo.devRef_ne_of_ne (Ne.symm h)
  have hC : (Proc.devRef .tc main_arg0 : DevRef τ sig) ∉ (opC (F := F)).writes := by
    simp only [StableHlo.nullary_writes, Finset.mem_singleton]; exact StableHlo.devRef_ne_of_ne (by decide)
  have hP : (Proc.devRef .tc main_arg0 : DevRef τ sig) ∉ (opPath (F := F)).writes := by
    simp only [StableHlo.reshape_writes, Finset.mem_singleton]; exact StableHlo.devRef_ne_of_ne (by decide)
  have hL : (Proc.devRef .tc main_arg0 : DevRef τ sig) ∉ (opLoss (F := F)).writes := by
    simp only [StableHlo.reshape_writes, Finset.mem_singleton]; exact StableHlo.devRef_ne_of_ne (by decide)
  have hT : (Proc.devRef .tc main_arg0 : DevRef τ sig) ∉ (opT (F := F)).writes := by
    simp only [StableHlo.reshape_writes, Finset.mem_singleton]; exact StableHlo.devRef_ne_of_ne (by decide)
  have hBi : (Proc.devRef .tc main_arg0 : DevRef τ sig) ∉ (opBias (F := F)).writes := by
    simp only [StableHlo.reshape_writes, Finset.mem_singleton]; exact StableHlo.devRef_ne_of_ne (by decide)
  have hW : (Proc.devRef .tc main_arg0 : DevRef τ sig) ∉ (opW (F := F)).writes := by
    simp only [StableHlo.unary_writes, Finset.mem_singleton]; exact StableHlo.devRef_ne_of_ne (by decide)
  have hG : (Proc.devRef .tc main_arg0 : DevRef τ sig) ∉ (opG (F := F)).writes := by
    simp only [StableHlo.reshape_writes, Finset.mem_singleton]; exact StableHlo.devRef_ne_of_ne (by decide)
  have hB : (Proc.devRef .tc main_arg0 : DevRef τ sig) ∉ (opB (F := F)).writes := by
    simp only [StableHlo.reshape_writes, Finset.mem_singleton]; exact StableHlo.devRef_ne_of_ne (by decide)
  exact ((opC).result_of_not_mem _ hC).trans (((opPath).result_of_not_mem _ hP).trans (((opLoss).result_of_not_mem _ hL).trans
    ((WlOut_of_ne (WlAll m d fo' fp') (OwAt (F := F) 1) (RcAt (F := F) 1) d main_arg0 (by decide)).trans
    (((Function.update_of_ne (by decide) _ _).trans (Function.update_of_ne (by decide) _ _)).trans
    (((opT).result_of_not_mem _ hT).trans ((WtOut_of_ne (W1 m) (OwAt (F := F) 0) (RcAt (F := F) 0) d main_arg0 (by decide)).trans
    (((opBias).result_of_not_mem _ hBi).trans (((opW).result_of_not_mem _ hW).trans (((opG).result_of_not_mem _ hG).trans ((opB).result_of_not_mem _ hB))))))))))

theorem W6_arg1 (d : Dev nD) (fo' : Buf (Elt F) (oLoc d)) (fp' : Buf (Elt F) (pLoc d)) :
    W6 m d fo' fp' (Proc.devRef .tc main_arg1) = W0 m d (Proc.devRef .tc main_arg1) := by
  have nR : ∀ {S S' : Shape} {e : EltTy} (x : Ref sig .tc) (y : Ref sig .tc), y ≠ main_arg1 → (Proc.devRef .tc main_arg1 : DevRef τ sig) ∉ ({Proc.devRef .tc y} : Finset (DevRef τ sig)) :=
    fun _ y h => by rw [Finset.mem_singleton]; exact StableHlo.devRef_ne_of_ne (Ne.symm h)
  have hC : (Proc.devRef .tc main_arg1 : DevRef τ sig) ∉ (opC (F := F)).writes := by
    simp only [StableHlo.nullary_writes, Finset.mem_singleton]; exact StableHlo.devRef_ne_of_ne (by decide)
  have hP : (Proc.devRef .tc main_arg1 : DevRef τ sig) ∉ (opPath (F := F)).writes := by
    simp only [StableHlo.reshape_writes, Finset.mem_singleton]; exact StableHlo.devRef_ne_of_ne (by decide)
  have hL : (Proc.devRef .tc main_arg1 : DevRef τ sig) ∉ (opLoss (F := F)).writes := by
    simp only [StableHlo.reshape_writes, Finset.mem_singleton]; exact StableHlo.devRef_ne_of_ne (by decide)
  have hT : (Proc.devRef .tc main_arg1 : DevRef τ sig) ∉ (opT (F := F)).writes := by
    simp only [StableHlo.reshape_writes, Finset.mem_singleton]; exact StableHlo.devRef_ne_of_ne (by decide)
  have hBi : (Proc.devRef .tc main_arg1 : DevRef τ sig) ∉ (opBias (F := F)).writes := by
    simp only [StableHlo.reshape_writes, Finset.mem_singleton]; exact StableHlo.devRef_ne_of_ne (by decide)
  have hW : (Proc.devRef .tc main_arg1 : DevRef τ sig) ∉ (opW (F := F)).writes := by
    simp only [StableHlo.unary_writes, Finset.mem_singleton]; exact StableHlo.devRef_ne_of_ne (by decide)
  have hG : (Proc.devRef .tc main_arg1 : DevRef τ sig) ∉ (opG (F := F)).writes := by
    simp only [StableHlo.reshape_writes, Finset.mem_singleton]; exact StableHlo.devRef_ne_of_ne (by decide)
  have hB : (Proc.devRef .tc main_arg1 : DevRef τ sig) ∉ (opB (F := F)).writes := by
    simp only [StableHlo.reshape_writes, Finset.mem_singleton]; exact StableHlo.devRef_ne_of_ne (by decide)
  exact ((opC).result_of_not_mem _ hC).trans (((opPath).result_of_not_mem _ hP).trans (((opLoss).result_of_not_mem _ hL).trans
    ((WlOut_of_ne (WlAll m d fo' fp') (OwAt (F := F) 1) (RcAt (F := F) 1) d main_arg1 (by decide)).trans
    (((Function.update_of_ne (by decide) _ _).trans (Function.update_of_ne (by decide) _ _)).trans
    (((opT).result_of_not_mem _ hT).trans ((WtOut_of_ne (W1 m) (OwAt (F := F) 0) (RcAt (F := F) 0) d main_arg1 (by decide)).trans
    (((opBias).result_of_not_mem _ hBi).trans (((opW).result_of_not_mem _ hW).trans (((opG).result_of_not_mem _ hG).trans ((opB).result_of_not_mem _ hB))))))))))

theorem W6_arg2 (d : Dev nD) (fo' : Buf (Elt F) (oLoc d)) (fp' : Buf (Elt F) (pLoc d)) :
    W6 m d fo' fp' (Proc.devRef .tc main_arg2) = W0 m d (Proc.devRef .tc main_arg2) := by
  have nR : ∀ {S S' : Shape} {e : EltTy} (x : Ref sig .tc) (y : Ref sig .tc), y ≠ main_arg2 → (Proc.devRef .tc main_arg2 : DevRef τ sig) ∉ ({Proc.devRef .tc y} : Finset (DevRef τ sig)) :=
    fun _ y h => by rw [Finset.mem_singleton]; exact StableHlo.devRef_ne_of_ne (Ne.symm h)
  have hC : (Proc.devRef .tc main_arg2 : DevRef τ sig) ∉ (opC (F := F)).writes := by
    simp only [StableHlo.nullary_writes, Finset.mem_singleton]; exact StableHlo.devRef_ne_of_ne (by decide)
  have hP : (Proc.devRef .tc main_arg2 : DevRef τ sig) ∉ (opPath (F := F)).writes := by
    simp only [StableHlo.reshape_writes, Finset.mem_singleton]; exact StableHlo.devRef_ne_of_ne (by decide)
  have hL : (Proc.devRef .tc main_arg2 : DevRef τ sig) ∉ (opLoss (F := F)).writes := by
    simp only [StableHlo.reshape_writes, Finset.mem_singleton]; exact StableHlo.devRef_ne_of_ne (by decide)
  have hT : (Proc.devRef .tc main_arg2 : DevRef τ sig) ∉ (opT (F := F)).writes := by
    simp only [StableHlo.reshape_writes, Finset.mem_singleton]; exact StableHlo.devRef_ne_of_ne (by decide)
  have hBi : (Proc.devRef .tc main_arg2 : DevRef τ sig) ∉ (opBias (F := F)).writes := by
    simp only [StableHlo.reshape_writes, Finset.mem_singleton]; exact StableHlo.devRef_ne_of_ne (by decide)
  have hW : (Proc.devRef .tc main_arg2 : DevRef τ sig) ∉ (opW (F := F)).writes := by
    simp only [StableHlo.unary_writes, Finset.mem_singleton]; exact StableHlo.devRef_ne_of_ne (by decide)
  have hG : (Proc.devRef .tc main_arg2 : DevRef τ sig) ∉ (opG (F := F)).writes := by
    simp only [StableHlo.reshape_writes, Finset.mem_singleton]; exact StableHlo.devRef_ne_of_ne (by decide)
  have hB : (Proc.devRef .tc main_arg2 : DevRef τ sig) ∉ (opB (F := F)).writes := by
    simp only [StableHlo.reshape_writes, Finset.mem_singleton]; exact StableHlo.devRef_ne_of_ne (by decide)
  exact ((opC).result_of_not_mem _ hC).trans (((opPath).result_of_not_mem _ hP).trans (((opLoss).result_of_not_mem _ hL).trans
    ((WlOut_of_ne (WlAll m d fo' fp') (OwAt (F := F) 1) (RcAt (F := F) 1) d main_arg2 (by decide)).trans
    (((Function.update_of_ne (by decide) _ _).trans (Function.update_of_ne (by decide) _ _)).trans
    (((opT).result_of_not_mem _ hT).trans (((WtOut_arr (W1 m) (OwAt (F := F) 0) (RcAt (F := F) 0) d 0).trans (((dat0 (VtOf (W1 m)) (OwAt (F := F) 0) (RcAt (F := F) 0) d).arrAt_in 0 rfl _).trans (A_eq0 (VtOf (W1 m)) (OwAt (F := F) 0) (RcAt (F := F) 0) d 0))).trans
    (((opBias).result_of_not_mem _ hBi).trans (((opW).result_of_not_mem _ hW).trans (((opG).result_of_not_mem _ hG).trans ((opB).result_of_not_mem _ hB))))))))))

theorem W6_arg3 (d : Dev nD) (fo' : Buf (Elt F) (oLoc d)) (fp' : Buf (Elt F) (pLoc d)) :
    W6 m d fo' fp' (Proc.devRef .tc main_arg3) = W0 m d (Proc.devRef .tc main_arg3) := by
  have nR : ∀ {S S' : Shape} {e : EltTy} (x : Ref sig .tc) (y : Ref sig .tc), y ≠ main_arg3 → (Proc.devRef .tc main_arg3 : DevRef τ sig) ∉ ({Proc.devRef .tc y} : Finset (DevRef τ sig)) :=
    fun _ y h => by rw [Finset.mem_singleton]; exact StableHlo.devRef_ne_of_ne (Ne.symm h)
  have hC : (Proc.devRef .tc main_arg3 : DevRef τ sig) ∉ (opC (F := F)).writes := by
    simp only [StableHlo.nullary_writes, Finset.mem_singleton]; exact StableHlo.devRef_ne_of_ne (by decide)
  have hP : (Proc.devRef .tc main_arg3 : DevRef τ sig) ∉ (opPath (F := F)).writes := by
    simp only [StableHlo.reshape_writes, Finset.mem_singleton]; exact StableHlo.devRef_ne_of_ne (by decide)
  have hL : (Proc.devRef .tc main_arg3 : DevRef τ sig) ∉ (opLoss (F := F)).writes := by
    simp only [StableHlo.reshape_writes, Finset.mem_singleton]; exact StableHlo.devRef_ne_of_ne (by decide)
  have hT : (Proc.devRef .tc main_arg3 : DevRef τ sig) ∉ (opT (F := F)).writes := by
    simp only [StableHlo.reshape_writes, Finset.mem_singleton]; exact StableHlo.devRef_ne_of_ne (by decide)
  have hBi : (Proc.devRef .tc main_arg3 : DevRef τ sig) ∉ (opBias (F := F)).writes := by
    simp only [StableHlo.reshape_writes, Finset.mem_singleton]; exact StableHlo.devRef_ne_of_ne (by decide)
  have hW : (Proc.devRef .tc main_arg3 : DevRef τ sig) ∉ (opW (F := F)).writes := by
    simp only [StableHlo.unary_writes, Finset.mem_singleton]; exact StableHlo.devRef_ne_of_ne (by decide)
  have hG : (Proc.devRef .tc main_arg3 : DevRef τ sig) ∉ (opG (F := F)).writes := by
    simp only [StableHlo.reshape_writes, Finset.mem_singleton]; exact StableHlo.devRef_ne_of_ne (by decide)
  have hB : (Proc.devRef .tc main_arg3 : DevRef τ sig) ∉ (opB (F := F)).writes := by
    simp only [StableHlo.reshape_writes, Finset.mem_singleton]; exact StableHlo.devRef_ne_of_ne (by decide)
  exact ((opC).result_of_not_mem _ hC).trans (((opPath).result_of_not_mem _ hP).trans (((opLoss).result_of_not_mem _ hL).trans
    ((WlOut_of_ne (WlAll m d fo' fp') (OwAt (F := F) 1) (RcAt (F := F) 1) d main_arg3 (by decide)).trans
    (((Function.update_of_ne (by decide) _ _).trans (Function.update_of_ne (by decide) _ _)).trans
    (((opT).result_of_not_mem _ hT).trans ((WtOut_of_ne (W1 m) (OwAt (F := F) 0) (RcAt (F := F) 0) d main_arg3 (by decide)).trans
    (((opBias).result_of_not_mem _ hBi).trans (((opW).result_of_not_mem _ hW).trans (((opG).result_of_not_mem _ hG).trans ((opB).result_of_not_mem _ hB))))))))))

theorem W6_arg4 (d : Dev nD) (fo' : Buf (Elt F) (oLoc d)) (fp' : Buf (Elt F) (pLoc d)) :
    W6 m d fo' fp' (Proc.devRef .tc main_arg4) = W0 m d (Proc.devRef .tc main_arg4) := by
  have nR : ∀ {S S' : Shape} {e : EltTy} (x : Ref sig .tc) (y : Ref sig .tc), y ≠ main_arg4 → (Proc.devRef .tc main_arg4 : DevRef τ sig) ∉ ({Proc.devRef .tc y} : Finset (DevRef τ sig)) :=
    fun _ y h => by rw [Finset.mem_singleton]; exact StableHlo.devRef_ne_of_ne (Ne.symm h)
  have hC : (Proc.devRef .tc main_arg4 : DevRef τ sig) ∉ (opC (F := F)).writes := by
    simp only [StableHlo.nullary_writes, Finset.mem_singleton]; exact StableHlo.devRef_ne_of_ne (by decide)
  have hP : (Proc.devRef .tc main_arg4 : DevRef τ sig) ∉ (opPath (F := F)).writes := by
    simp only [StableHlo.reshape_writes, Finset.mem_singleton]; exact StableHlo.devRef_ne_of_ne (by decide)
  have hL : (Proc.devRef .tc main_arg4 : DevRef τ sig) ∉ (opLoss (F := F)).writes := by
    simp only [StableHlo.reshape_writes, Finset.mem_singleton]; exact StableHlo.devRef_ne_of_ne (by decide)
  have hT : (Proc.devRef .tc main_arg4 : DevRef τ sig) ∉ (opT (F := F)).writes := by
    simp only [StableHlo.reshape_writes, Finset.mem_singleton]; exact StableHlo.devRef_ne_of_ne (by decide)
  have hBi : (Proc.devRef .tc main_arg4 : DevRef τ sig) ∉ (opBias (F := F)).writes := by
    simp only [StableHlo.reshape_writes, Finset.mem_singleton]; exact StableHlo.devRef_ne_of_ne (by decide)
  have hW : (Proc.devRef .tc main_arg4 : DevRef τ sig) ∉ (opW (F := F)).writes := by
    simp only [StableHlo.unary_writes, Finset.mem_singleton]; exact StableHlo.devRef_ne_of_ne (by decide)
  have hG : (Proc.devRef .tc main_arg4 : DevRef τ sig) ∉ (opG (F := F)).writes := by
    simp only [StableHlo.reshape_writes, Finset.mem_singleton]; exact StableHlo.devRef_ne_of_ne (by decide)
  have hB : (Proc.devRef .tc main_arg4 : DevRef τ sig) ∉ (opB (F := F)).writes := by
    simp only [StableHlo.reshape_writes, Finset.mem_singleton]; exact StableHlo.devRef_ne_of_ne (by decide)
  exact ((opC).result_of_not_mem _ hC).trans (((opPath).result_of_not_mem _ hP).trans (((opLoss).result_of_not_mem _ hL).trans
    ((WlOut_of_ne (WlAll m d fo' fp') (OwAt (F := F) 1) (RcAt (F := F) 1) d main_arg4 (by decide)).trans
    (((Function.update_of_ne (by decide) _ _).trans (Function.update_of_ne (by decide) _ _)).trans
    (((opT).result_of_not_mem _ hT).trans ((WtOut_of_ne (W1 m) (OwAt (F := F) 0) (RcAt (F := F) 0) d main_arg4 (by decide)).trans
    (((opBias).result_of_not_mem _ hBi).trans (((opW).result_of_not_mem _ hW).trans (((opG).result_of_not_mem _ hG).trans ((opB).result_of_not_mem _ hB))))))))))

theorem W6_args (d : Dev nD) (fo' : Buf (Elt F) (oLoc d)) (fp' : Buf (Elt F) (pLoc d)) :
    ∀ b ∈ (argRefs : Finset (DevRef τ sig)), W6 m d fo' fp' b = W0 m d b := by
  intro b hb
  simp only [argRefs, Finset.mem_insert, Finset.mem_singleton] at hb
  rcases hb with rfl | rfl | rfl | rfl | rfl
  exacts [W6_arg0 m d fo' fp', W6_arg1 m d fo' fp', W6_arg2 m d fo' fp', W6_arg3 m d fo' fp', W6_arg4 m d fo' fp']

-- a relation the call's results satisfy: nothing, for the frames; being the stated functions, for the values
variable (Rr : (d : Dev nD) → Buf (Elt F) (oLoc d) → Buf (Elt F) (pLoc d) → Prop)

/-- What @main leaves the claim: the arguments and the results at the return's contents, for results of the call in the relation. -/
abbrev FIN (d : Dev nD) : sProp 𝕄 :=
  iprop(∃ fo' fp', ⌜Rr d fo' fp'⌝ ∗ held (T d) outRefs (W6 m d fo' fp'))

/-- The pipelines as the launch pins them, and their ghost state on a core. -/
abbrev cfgsP : Fin 2 → Pipeline.Cfg sig Λ₀ := Pipeline.pin (pcfgs (F := F)) adm
abbrev G (d : Dev nD) : sProp 𝕄 :=
  iprop((bigSep Finset.univ fun p : Fin 2 => Pipeline.cellsGhost (cfgsP (F := F)) EP p d)
    ∗ (bigSep Finset.univ fun p : Fin 2 => Pipeline.toksInit (cfgsP (F := F)) EP p d))

theorem Otc_none (d : Dev nD) (n : ℕ) (g : GSem nD τ sig) : (K (F := F)).Otc d n g none = 0 := by
  by_contra h
  have := (K (F := F)).lev_of_Otc_pos (Nat.pos_of_ne_zero h)
  simp at this

/-- A TensorCore region of the certificate's signature, entered from the extended body table. -/
theorem wp_entry_lift (d : Dev nD) (p : Fin 2) (Φ : PUnit → sProp 𝕄) :
    wp frame (wpE (D (F := F)) 𝒱 (T d) none) Set.univ (.op (.customCall (Pipeline.entry p) ()) .ret) Φ
      ⊢ wp frame (wpE ((K (F := F)).defs (D (F := F))) 𝒱 (T d) none) Set.univ (Prog.lift (.customCall (SparseCore.inner (Pipeline.entry p)) ())) Φ :=
  (K (F := F)).wp_liftProg (D (F := F)) 𝒱 (T d) Set.univ none _ Φ

section Main

variable (fb : (d : Dev nD) → Buf (Elt F) (bLoc d)) (fg : (d : Dev nD) → Buf (Elt F) (gLoc d)) (ft : (d : Dev nD) → Buf (Elt F) (tLoc d))
  (fo : (d : Dev nD) → Buf (Elt F) (oLoc d)) (fp : (d : Dev nD) → Buf (Elt F) (pLoc d))
  (tdG : Dev nD → grid1.Coords → sProp (MT nD τ sig (HIx 1) (Elt F) ℕ UU ℕ)) [htd : ∀ d L, BI.Storable (upEmb : UEmb _ (MT nD τ sig (HIx 1) (Elt F) ℕ UU ℕ)) (tdG d L)]

/-- The remainders of the three inputs' shares the TensorCore keeps while the subcores hold their read tokens. -/
abbrev Rem (d : Dev nD) : sProp 𝕄 :=
  iprop((bLoc d ↦{shareDrop fullShare 32} fb d) ∗ (gLoc d ↦{shareDrop fullShare 32} fg d) ∗ (tLoc d ↦{shareDrop fullShare 32} ft d))

/-- The five arrays whole make the remainders and what the call hands the two SparseCores; -/
def StIntro : Prop := ∀ d : Dev nD,
  iprop((bLoc d ↦{fullShare} fb d) ∗ (gLoc d ↦{fullShare} fg d) ∗ (tLoc d ↦{fullShare} ft d) ∗ (oLoc d ↦{fullShare} fo d) ∗ (pLoc d ↦{fullShare} fp d))
    ⊢ (iprop(Rem fb fg ft d ∗ bigSep Finset.univ fun c : Fin ((K (F := F)).nCore 0) => (PG fb fg ft fo fp tdG).st 0 d c) : sProp 𝕄)
/-- and what it hands back with the remainders makes the inputs whole as they were and the results whole at some contents. -/
def DnElim : Prop := ∀ d : Dev nD,
  (iprop(Rem fb fg ft d ∗ bigSep Finset.univ fun c : Fin ((K (F := F)).nCore 0) => (PG fb fg ft fo fp tdG).dn 0 d c) : sProp 𝕄)
    ⊢ iprop((bLoc d ↦{fullShare} fb d) ∗ (gLoc d ↦{fullShare} fg d) ∗ (tLoc d ↦{fullShare} ft d)
        ∗ ∃ fo' fp', ⌜Rr d fo' fp'⌝ ∗ (oLoc d ↦{fullShare} fo') ∗ (pLoc d ↦{fullShare} fp'))

theorem hOpB : (opB (F := F)).bufs ⊆ Pipeline.ucRefs τ sig := Pipeline.sub_ucRefs _ (StableHlo.reshape_bufs_sub ..)
theorem hOpG : (opG (F := F)).bufs ⊆ Pipeline.ucRefs τ sig := Pipeline.sub_ucRefs _ (StableHlo.reshape_bufs_sub ..)
theorem hOpW : (opW (F := F)).bufs ⊆ Pipeline.ucRefs τ sig := Pipeline.sub_ucRefs _ (StableHlo.unary_bufs_sub ..)
theorem hOpBias : (opBias (F := F)).bufs ⊆ Pipeline.ucRefs τ sig := Pipeline.sub_ucRefs _ (StableHlo.reshape_bufs_sub ..)
theorem hOpT : (opT (F := F)).bufs ⊆ Pipeline.ucRefs τ sig := Pipeline.sub_ucRefs _ (StableHlo.reshape_bufs_sub ..)
theorem hOpLoss : (opLoss (F := F)).bufs ⊆ Pipeline.ucRefs τ sig := Pipeline.sub_ucRefs _ (StableHlo.reshape_bufs_sub ..)
theorem hOpPath : (opPath (F := F)).bufs ⊆ Pipeline.ucRefs τ sig := Pipeline.sub_ucRefs _ (StableHlo.reshape_bufs_sub ..)
theorem hOpC : (opC (F := F)).bufs ⊆ Pipeline.ucRefs τ sig := Pipeline.sub_ucRefs _ (StableHlo.nullary_bufs_sub ..)

set_option maxHeartbeats 2000000 in
set_option backward.isDefEq.respectTransparency.types false in
theorem hmain (hst : StIntro (fbOf m) (fgOf m) (ftOf m) (foOf m) (fpOf m) tdG) (hdn : DnElim Rr (fbOf m) (fgOf m) (ftOf m) (foOf m) (fpOf m) tdG)
    (κ : GSem nD τ sig → ℕ) (d : Dev nD) :
    iprop((K (F := F)).ctx EH (PG (fbOf m) (fgOf m) (ftOf m) (foOf m) (fpOf m) tdG) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m Rr d) := by
  unfold SparseCore.Cfg.tcRes SparseCore.Cfg.tcSt
  simp only [main, wp_bind, wp_pure]
  iintro ⟨#Hctx, ⟨⟨%Ws, %hWs, HO⟩, Htail⟩, ⟨Hb, Hub, Hsems, Hprng⟩, ⟨Hcgs, Htks⟩⟩
  ihave Hcg := (Entails.of_eq (bigSep_W2 (fun p : Fin 2 => (Pipeline.cellsGhost (cfgsP (F := F)) EP p d : sProp 𝕄)))) $$ Hcgs
  icases Hcg with ⟨Hcg0, Hcg1⟩
  ihave Htk := (Entails.of_eq (bigSep_W2 (fun p : Fin 2 => (Pipeline.toksInit (cfgsP (F := F)) EP p d : sProp 𝕄)))) $$ Htks
  icases Htk with ⟨Htk0, Htk1⟩
  ihave Hlev := (SparseCore.Cfg.ctx_levAts κ) $$ Hctx
  ihave Hheld := (Entails.of_eq (Pipeline.unscopedBufs_held (Ix := HIx 1) (Name := ℕ) (U := UU) (Lvl := ℕ) d (W0 m d))) $$ Hub
  iapply (wp_hlo_within 𝒱 (T d) none Set.univ (op := opB) (S := Pipeline.ucRefs τ sig) hOpB (V := W0 m d)) $$ [Hb Hheld]
  · isplitl [Hb]; · iexact Hb
    iexact Hheld
  iintro ⟨Hb, Hheld⟩
  rw [wp_ret]; imodintro
  iapply (wp_hlo_within 𝒱 (T d) none Set.univ (op := opG) (S := Pipeline.ucRefs τ sig) hOpG (V := (opB).result (W0 m d))) $$ [Hb Hheld]
  · isplitl [Hb]; · iexact Hb
    iexact Hheld
  iintro ⟨Hb, Hheld⟩
  rw [wp_ret]; imodintro
  iapply (wp_hlo_within 𝒱 (T d) none Set.univ (op := opW) (S := Pipeline.ucRefs τ sig) hOpW (V := (opG).result ((opB).result (W0 m d)))) $$ [Hb Hheld]
  · isplitl [Hb]; · iexact Hb
    iexact Hheld
  iintro ⟨Hb, Hheld⟩
  rw [wp_ret]; imodintro
  iapply (wp_hlo_within 𝒱 (T d) none Set.univ (op := opBias) (S := Pipeline.ucRefs τ sig) hOpBias (V := (opW).result ((opG).result ((opB).result (W0 m d))))) $$ [Hb Hheld]
  · isplitl [Hb]; · iexact Hb
    iexact Hheld
  iintro ⟨Hb, Hheld⟩
  rw [wp_ret]; imodintro
  iapply (wp_entry_lift d 0 _)
  iapply (Pipeline.RegionSeg.wp (pcfgs (F := F)) adm
      (pdats (W1 m) (W1 m) (OwAt (F := F) 0) (OwAt (F := F) 0) (RcAt (F := F) 0) (RcAt (F := F) 0)) (none : HIx 1) cellOf_inj EP defs₀ 𝒱₀
      (K (F := F)).L (K (F := F)).lev
      (regTable (W1 m) (W1 m) (OwAt (F := F) 0) (OwAt (F := F) 0) (RcAt (F := F) 0) (RcAt (F := F) 0) (fun c g => Otc_none c 0 g))
      d none (fun u hu => nomatch hu) Prog.ret _)
  dsimp only [regTable]
  isplitr [Hb Hheld Hprng HO Hcg0 Htk0]
  swap
  · isplitl [Hb]; · iexact Hb
    isplitl [Hheld Hprng HO]
    · isplitl [Hheld]; · iexact Hheld
      isplitl [Hprng]; · iexists _; iexact Hprng
      iexists Ws; isplitr
      · ipureintro; exact fun p hp => hWs p hp
      iexact HO
    isplitr; · iexact Hlev
    isplitl [Hcg0]; · iexact Hcg0
    iexact Htk0
  iintro ⟨Hb, Hheld, Hprng, HO⟩
  rw [wp_ret]; imodintro
  -- the table flattened
  iapply (wp_hlo_within 𝒱 (T d) none Set.univ (op := opT) (S := Pipeline.ucRefs τ sig) hOpT (V := W2 m d)) $$ [Hb Hheld]
  · isplitl [Hb]; · iexact Hb
    iexact Hheld
  iintro ⟨Hb, Hheld⟩
  rw [wp_ret]; imodintro
  -- the call: its five arrays out of the unscoped buffers, split among the subcores
  ihave Hh := (Entails.of_eq (StableHlo.held_sub_split (T d) callRefs_sub (W3 m d))) $$ Hheld
  icases Hh with ⟨Hcall, Hrest⟩
  ihave Hc := (Entails.of_eq (held_callRefs d (W3 m d))) $$ Hcall
  ihave Hc' := (hst d) $$ Hc
  icases Hc' with ⟨Hrem, Hsts⟩
  icases HO with ⟨%W1s, %hW1, HO⟩
  iapply ((K (F := F)).wp_run (D (F := F)) 𝒱 (EH := EH) (P := PG (fbOf m) (fgOf m) (ftOf m) (foOf m) (fpOf m) tdG) κ d 0)
  unfold SparseCore.Cfg.tcSt
  isplitr; · iexact Hctx
  isplitl [HO Htail]
  · isplitl [HO]
    · iexists W1s; isplitr
      · ipureintro; intro p hp
        rcases hW1 hp with h | ⟨w, s, rfl⟩
        · exact h
        · simp
      iexact HO
    iexact Htail
  isplitl [Hsts]; · iexact Hsts
  iintro ⟨⟨⟨%W2s, %hW2, HO⟩, Htail⟩, Hdn⟩
  -- the results back, the inputs whole again
  ihave Hback := (hdn d) $$ [Hrem Hdn]
  · isplitl [Hrem] <;> iassumption
  icases Hback with ⟨Hbb, Hgg, Htt, %fo', %fp', %hRr, Hoo, Hpp⟩
  ihave Hcall := (Entails.of_eq (held_callRefs_W4 m d fo' fp').symm) $$ [Hbb Hgg Htt Hoo Hpp]
  · isplitl [Hbb]; · iexact Hbb
    isplitl [Hgg]; · iexact Hgg
    isplitl [Htt]; · iexact Htt
    isplitl [Hoo]; · iexact Hoo
    iexact Hpp
  ihave Hrest' := (Entails.of_eq (held_rest_W4 m d fo' fp').symm) $$ Hrest
  ihave Hheld := (Entails.of_eq (StableHlo.held_sub_split (T d) callRefs_sub (W4 m d fo' fp')).symm) $$ [Hcall Hrest']
  · isplitl [Hcall] <;> iassumption
  -- the loss region
  iapply (wp_entry_lift d 1 _)
  iapply (Pipeline.RegionSeg.wp (pcfgs (F := F)) adm
      (pdats (W1 m) (WlAll m d fo' fp') (OwAt (F := F) 0) (OwAt (F := F) 1) (RcAt (F := F) 0) (RcAt (F := F) 1)) (none : HIx 1) cellOf_inj EP defs₀ 𝒱₀
      (K (F := F)).L (K (F := F)).lev
      (regLoss (W1 m) (WlAll m d fo' fp') (OwAt (F := F) 0) (OwAt (F := F) 1) (RcAt (F := F) 0) (RcAt (F := F) 1) (fun c g => Otc_none c 1 g))
      d none (fun u hu => nomatch hu) Prog.ret _)
  dsimp only [regLoss]
  isplitr [Hb Hheld Hprng HO Hcg1 Htk1]
  swap
  · isplitl [Hb]; · iexact Hb
    isplitl [Hheld Hprng HO]
    · isplitl [Hheld]; · iexact Hheld
      isplitl [Hprng]; · iexact Hprng
      iexists W2s; isplitr
      · ipureintro; exact fun p hp => hW2 p hp
      iexact HO
    isplitr; · iexact Hlev
    isplitl [Hcg1]; · iexact Hcg1
    iexact Htk1
  iintro ⟨Hb, Hheld, Hprng, HO⟩
  rw [wp_ret]; imodintro
  -- the loss as a scalar, the code path unflattened, the constant
  iapply (wp_hlo_within 𝒱 (T d) none Set.univ (op := opLoss) (S := Pipeline.ucRefs τ sig) hOpLoss (V := W5 m d fo' fp')) $$ [Hb Hheld]
  · isplitl [Hb]; · iexact Hb
    iexact Hheld
  iintro ⟨Hb, Hheld⟩
  rw [wp_ret]; imodintro
  iapply (wp_hlo_within 𝒱 (T d) none Set.univ (op := opPath) (S := Pipeline.ucRefs τ sig) hOpPath (V := (opLoss).result (W5 m d fo' fp'))) $$ [Hb Hheld]
  · isplitl [Hb]; · iexact Hb
    iexact Hheld
  iintro ⟨Hb, Hheld⟩
  rw [wp_ret]; imodintro
  iapply (wp_hlo_within 𝒱 (T d) none Set.univ (op := opC) (S := Pipeline.ucRefs τ sig) hOpC (V := (opPath).result ((opLoss).result (W5 m d fo' fp')))) $$ [Hb Hheld]
  · isplitl [Hb]; · iexact Hb
    iexact Hheld
  iintro ⟨Hb, Hheld⟩
  rw [wp_ret]; imodintro; imodintro
  isplitl [HO Htail]
  · isplitl [HO]
    · icases HO with ⟨%W3s, %hW3, HO⟩
      iexists W3s; isplitr
      · ipureintro; intro p hp
        rcases hW3 hp with h | ⟨w, s, rfl⟩
        · exact h
        · simp
      iexact HO
    iexact Htail
  ihave Hh := (Entails.of_eq (StableHlo.held_sub_split (T d) outRefs_sub (W6 m d fo' fp'))) $$ Hheld
  icases Hh with ⟨Houts, -⟩
  iexists fo'; iexists fp'; isplitr
  · ipureintro; exact hRr
  iexact Houts

/-! ## Reading the claim off the final memory -/

def fq (d : Dev nD) (s' : Phys nD τ sig (Elt F)) : Prop :=
  ∃ fo' fp', Rr d fo' fp' ∧ ∀ b ∈ (outRefs : Finset (DevRef τ sig)), s'.mem.mem (d, b) = W6 m d fo' fp' b

theorem hfin (d : Dev nD) (s' : Phys nD τ sig (Elt F)) : iprop(FIN m Rr d ∗ SI s') ⊢ (⌜fq m Rr d s'⌝ : sProp 𝕄) := by
  show iprop((∃ fo' fp', ⌜Rr d fo' fp'⌝ ∗ bigSep outRefs fun b => (((d, b) : Loc nD τ sig) ↦{fullShare} W6 m d fo' fp' b : sProp 𝕄)) ∗ SI s') ⊢ _
  iintro ⟨⟨%fo', %fp', %hRr, Hh⟩, HSI⟩
  ihave H := ((pointsTo_read_all outRefs (fun b => ((d, b) : Loc nD τ sig)) (W6 m d fo' fp') s').trans sep_elim_left) $$ [Hh HSI]
  · isplitl [Hh]
    · iexact Hh
    iexact HSI
  icases H with %h
  ipureintro; exact ⟨fo', fp', hRr, h⟩

/-! ## The launch element -/

def u₀ : UU :=
  (initOf (K (F := F)).hsCells (K (F := F)).hsToks,
    (initOf (Pipeline.cells (nD := nD) (τ := τ) (cfgsP (F := F)) cellOf_inj) (Pipeline.launchToks (nD := nD) (τ := τ) (cfgsP (F := F)) cellOf_inj), (1 : Counters)))

omit [FloatOps F] [Named F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PG fb fg ft fo fp tdG).x q thr) := by
  unfold u₀
  iintro Hu
  ihave H := (ownU_pair _ _) $$ Hu
  icases H with ⟨HH, HR⟩
  ihave HP := (show (BI.own (embR (A := UH) ((initOf (Pipeline.cells (nD := nD) (τ := τ) (cfgsP (F := F)) cellOf_inj) (Pipeline.launchToks (nD := nD) (τ := τ) (cfgsP (F := F)) cellOf_inj), (1 : Counters)) : UP × Counters)) : sProp 𝕄)
      ⊢ BI.own (EP (initOf (Pipeline.cells (nD := nD) (τ := τ) (cfgsP (F := F)) cellOf_inj) (Pipeline.launchToks (nD := nD) (τ := τ) (cfgsP (F := F)) cellOf_inj))) from .rfl) $$ HR
  imod (Pipeline.fund_ghost (cfgsP (F := F)) EP cellOf_inj) $$ HP with ⟨Hcg, Htk⟩
  imodintro
  isplitl [HH]; · iexact HH
  isplitl [Hcg Htk]
  · rw [bigSep_sep']
    isplitl [Hcg] <;> iassumption
  unfold PG; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Main

/-! ## The program's run -/

variable (Rr : (d : Dev nD) → Buf (Elt F) (oLoc d) → Buf (Elt F) (pLoc d) → Prop)
  (tdG : Dev nD → grid1.Coords → sProp (MT nD τ sig (HIx 1) (Elt F) ℕ UU ℕ)) [htd : ∀ d L, BI.Storable (upEmb : UEmb _ (MT nD τ sig (HIx 1) (Elt F) ℕ UU ℕ)) (tdG d L)]

/-- The final memory: for results of the call in the relation, the arguments and the results at the return's contents. -/
def QC : PUnit × MemSt nD τ sig (Elt F) → Prop := fun r => ∀ c : Dev nD,
  ∃ fo' fp', Rr c fo' fp' ∧ ∀ b ∈ (outRefs : Finset (DevRef τ sig)), r.2.mem (c, b) = W6 m c fo' fp' b

theorem run_main [∀ e, Nonempty (Elt F e)]
    (hbody : TileBodyStmtG (fbOf m) (fgOf m) (ftOf m) (foOf m) (fpOf m) tdG) (hpre : PreOK (fbOf m))
    (hst : StIntro (fbOf m) (fgOf m) (ftOf m) (foOf m) (fpOf m) tdG) (hdn : DnElim Rr (fbOf m) (fgOf m) (ftOf m) (foOf m) (fpOf m) tdG) :
    θ_run (Cert.KernelIdeal.defs (F := F)) (Cert.KernelIdeal.threads (F := F)) ⟨m, fun _ => 0, ρ⟩ (QC m Rr) :=
  SparseCore.Cfg.θ_run_sc (K := K (F := F)) (D := D (F := F)) (𝒱 := 𝒱) (EH := EH) (P := PG (fbOf m) (fgOf m) (ftOf m) (foOf m) (fpOf m) tdG) facts v₀
    (fun q hq => match q with | 0 => nomatch hq)
    (fun q _ => match q with | 0 => tileOblG _ _ _ _ _ tdG hbody hpre)
    (fun q _ => match q with | 0 => SparseCore.Cfg.VecSplit.of_plain (vecSplitG _ _ _ _ _ tdG))
    m ρ main (G (F := F)) (FIN m Rr) (u₀ (F := F)) (sep_elim_left.trans (hu₀ _ _ _ _ _ tdG)) (hmain m ρ Rr tdG hst hdn) (fq m Rr) (hfin m Rr) (QC m Rr)
    (fun s' h c => h c)

end Cert.Proof.KI

end
-- ==== Proof.PreBytes.lean ====
/- The precondition's last conjunct, read back: every byte word of the first argument lies in [0, 255]
   signed, hence is below 256 unsigned. The float conjuncts before it play no part, so the statement holds
   at every float instance. -/
import proofs.«204536_g87462714016206_cont_9to1c4b_719_4_alg».proof.Pre_input_domain
import proofs.«204536_g87462714016206_cont_9to1c4b_719_4_alg».proof.Proof.Gen.Pre_input_domain
import Idealize.ShloMosaic.Lib.ReduceAll
import Idealize.ShloMosaic.Lib.ValueIdx

noncomputable section

namespace Cert.PreBytes

open Idealize.ShloMosaic Idealize.ShloMosaic.ValueIdx

theorem ofBool_eq_one (b : Bool) : BitVec.ofBool b = 1#1 ↔ b = true := by cases b <;> decide

/-- A word in [0, 255] signed is below 256 unsigned. -/
theorem toNat_lt_of_cmp (w : BitVec 32) (h0 : IntOp.cmpi .sge w 0#32 = 1#1) (h1 : IntOp.cmpi .sle w 255#32 = 1#1) :
    w.toNat < 256 := by
  have z0 : (0#32 : BitVec 32).toInt = 0 := by decide
  have z1 : (255#32 : BitVec 32).toInt = 255 := by decide
  have a0 : (0#32 : BitVec 32).sle w = true := (ofBool_eq_one _).1 h0
  have a1 : w.sle 255#32 = true := (ofBool_eq_one _).1 h1
  simp only [BitVec.sle, decide_eq_true_eq, z0] at a0
  simp only [BitVec.sle, decide_eq_true_eq, z1] at a1
  have hw := w.isLt
  have ti : w.toInt = if 2 * w.toNat < 2 ^ 32 then (w.toNat : Int) else (w.toNat : Int) - 2 ^ 32 := rfl
  split at ti <;> omega

/-- Under the precondition every byte word is below 256. -/
theorem byte_lt {F : FTy → Type} [FloatOps F] (a0 : IVec Cert.Pre_input_domain.S16384x200 32)
    (a1 : FVec F Cert.Pre_input_domain.S16384x200x4 .f32) (a2 : FVec F Cert.Pre_input_domain.S256x4 .f32)
    (a3 : FVec F Cert.Pre_input_domain.S4x4 .f32) (a4 : FVec F Cert.Pre_input_domain.S4 .f32)
    (h : Cert.Pre_input_domain.fn (F := F) a0 a1 a2 a3 a4 = fun _ => 1#1) : ∀ j, (a0 j).toNat < 256 := by
  intro j
  have e := congrFun h ix0
  unfold Cert.Pre_input_domain.fn Cert.Pre_input_domain.fn_part1 at e
  have e' : IntOp.andi _ _ = 1#1 := e
  have e24 := (IntOp.andi_eq_one.1 e').2
  have ej := Host.reduce_andi_eq_one _ _ _ _ _ e24 j (funext fun a => a.elim0)
  have ej' : IntOp.andi (IntOp.cmpi .sge (a0 j) 0#32) (IntOp.cmpi .sle (a0 j) 255#32) = 1#1 := ej
  obtain ⟨h0, h1⟩ := IntOp.andi_eq_one.1 ej'
  exact toNat_lt_of_cmp _ h0 h1

end Cert.PreBytes

end
-- ==== Proof.PreOK.lean ====
/-
  The flattened byte stream the SparseCore call reads is the byte argument reshaped: no later host operation and no
  TensorCore region writes it. So under the precondition — every byte between 0 and 255 — every word of it is below
  256, which is what makes each table index a vector subcore computes name a word of the code table.
-/
import proofs.«204536_g87462714016206_cont_9to1c4b_719_4_alg».proof.Proof.Launch
import proofs.«204536_g87462714016206_cont_9to1c4b_719_4_alg».proof.Proof.PreBytes

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.Sem

variable {F : FTy → Type} [FloatOps F] [Named F]

variable (m : (ℓ : Loc nD τ sig) → Buf (Elt F) ℓ)

theorem fbOf_eq (d : Dev nD) :
    fbOf m d = shapeCast S3276800 (m ((SparseCore.T d).loc main_arg0) : IVec S16384x200 32) shapeCasts_S16384x200_S3276800 := by
  have hT : (Proc.devRef .tc main_v0 : DevRef τ sig) ∉ (opT (F := F)).writes := by
    simp only [StableHlo.reshape_writes, Finset.mem_singleton]; exact StableHlo.devRef_ne_of_ne (by decide)
  have hBi : (Proc.devRef .tc main_v0 : DevRef τ sig) ∉ (opBias (F := F)).writes := by
    simp only [StableHlo.reshape_writes, Finset.mem_singleton]; exact StableHlo.devRef_ne_of_ne (by decide)
  have hW : (Proc.devRef .tc main_v0 : DevRef τ sig) ∉ (opW (F := F)).writes := by
    simp only [StableHlo.unary_writes, Finset.mem_singleton]; exact StableHlo.devRef_ne_of_ne (by decide)
  have hG : (Proc.devRef .tc main_v0 : DevRef τ sig) ∉ (opG (F := F)).writes := by
    simp only [StableHlo.reshape_writes, Finset.mem_singleton]; exact StableHlo.devRef_ne_of_ne (by decide)
  exact ((opT).result_of_not_mem _ hT).trans ((WtOut_of_ne (W1 m) (OwAt (F := F) 0) (RcAt (F := F) 0) d main_v0 (by decide)).trans
    (((opBias).result_of_not_mem _ hBi).trans (((opW).result_of_not_mem _ hW).trans (((opG).result_of_not_mem _ hG).trans
      (StableHlo.reshape_result main_arg0 main_v0 rfl shapeCasts_S16384x200_S3276800 _ _ (W0 m d))))))

/-- From the precondition's function at the argument arrays being all ones, every word the call reads as a byte is below 256. -/
theorem preOK_of_fn
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    PreOK (fbOf m) := by
  intro d j
  rw [fbOf_eq]
  unfold shapeCast
  exact Cert.PreBytes.byte_lt _ _ _ _ _ (h d) _

end Cert.Proof.KI

end
-- ==== Proof.Split.lean ====
/-
  How the SparseCore call's arrays divide among the 2 × 16 vector subcores and come back together: the code path is
  the disjoint union of the 512 chunks of 25600 words the subcores slice (chunk `g` of the subcore at `(c, s)` starts at
  word `(2 s + c) · 409600 + 25600 g`), the partial sums of the 32 rows (row `2 s + c`), and a full share of an input is
  a remainder and 32 read tokens, one per worker number `2 s + c`.
-/
import proofs.«204536_g87462714016206_cont_9to1c4b_719_4_alg».proof.Proof.Call

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type} [FloatOps F] [Named F]

local notation "𝕄" => MT nD τ sig (HIx 1) (Elt F) ℕ UU ℕ

theorem trips_eq : k1_t1_loop.trips = 16 := by decide

/-- Worker numbers: `(c, s) ↦ 2 s + c` is a bijection from `Fin 2 × Fin 16` onto `Fin 32`. -/
def widE : Fin 2 × Fin 16 ≃ Fin 32 where
  toFun p := ⟨2 * p.2.val + p.1.val, by have := p.1.isLt; have := p.2.isLt; omega⟩
  invFun w := (⟨w.val % 2, Nat.mod_lt _ (by omega)⟩, ⟨w.val / 2, by have := w.isLt; omega⟩)
  left_inv p := by
    have h1 := p.1.isLt; have h2 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

/-- Chunk numbers: `(c, s, g) ↦ 32 s + 16 c + g` is a bijection from `Fin 2 × Fin 16 × Fin 16` onto `Fin 512`. -/
def chunkE : Fin 2 × Fin 16 × Fin 16 ≃ Fin 512 where
  toFun t := ⟨32 * t.2.1.val + 16 * t.1.val + t.2.2.val, by have := t.1.isLt; have := t.2.1.isLt; have := t.2.2.isLt; omega⟩
  invFun n := (⟨n.val / 16 % 2, Nat.mod_lt _ (by omega)⟩, ⟨n.val / 32, by have := n.isLt; omega⟩, ⟨n.val % 16, Nat.mod_lt _ (by omega)⟩)
  left_inv t := by
    have h1 := t.1.isLt; have h2 := t.2.1.isLt; have h3 := t.2.2.isLt
    refine Prod.ext (Fin.ext ?_) (Prod.ext (Fin.ext ?_) (Fin.ext ?_))
    · show (32 * t.2.1.val + 16 * t.1.val + t.2.2.val) / 16 % 2 = t.1.val; omega
    · show (32 * t.2.1.val + 16 * t.1.val + t.2.2.val) / 32 = t.2.1.val; omega
    · show (32 * t.2.1.val + 16 * t.1.val + t.2.2.val) % 16 = t.2.2.val; omega
  right_inv n := by
    refine Fin.ext ?_
    show 32 * (n.val / 32) + 16 * (n.val / 16 % 2) + n.val % 16 = n.val; omega

theorem wid_coordsV (c : Fin 2) (s : Fin 16) : wid (coordsV c s) = widE (c, s) := rfl

theorem hdivO : 512 ∣ S13107200.size 0 := ⟨25600, rfl⟩
theorem hdivP : 32 ∣ S32x16.size 0 := ⟨1, rfl⟩
abbrev oPart (n : Fin 512) : Rect S13107200 := Rect.part (s := S13107200) (a₀ := 0) hdivO n
abbrev pPart (w : Fin 32) : Rect S32x16 := Rect.part (s := S32x16) (a₀ := 0) hdivP w

/-- The chunk a subcore slices, spelt through the program's offset, is one of the 512 parts of the code path. -/
theorem oRect_eq (c : Fin 2) (s : Fin 16) (g : Fin k1_t1_loop.trips) :
    Rect.unit (s := S13107200) (k1_off2 (coordsV c s) g) S25600.size (k1_off2_inb (coordsV c s) g)
      = oPart (chunkE (c, s, Fin.cast trips_eq g)) := by
  unfold oPart Rect.part Rect.block
  congr 1 <;> funext a
  · rw [k1_off2_eq]
    match a with
    | 0 => simp [Shape.partIx, Shape.partSize, chunkE, coordsV]; omega
  · match a with
    | 0 => simp [Shape.partSize]

theorem pRect_eq (c : Fin 2) (s : Fin 16) :
    Rect.unit (s := S32x16) (k1_off7 (coordsV c s)) S1x16.size (k1_off7_inb (coordsV c s)) = pPart (widE (c, s)) := by
  unfold pPart Rect.part Rect.block
  congr 1 <;> funext a
  · rw [k1_off7_eq]
    match a with
    | 0 => simp [Shape.partIx, Shape.partSize, widE, coordsV]
    | 1 => simp [Shape.partIx, Shape.partSize]
  · match a with
    | 0 => simp [Shape.partSize]
    | 1 => simp [Shape.partSize]

theorem set_oChunk (c : Fin 2) (s : Fin 16) (g : Fin k1_t1_loop.trips) :
    (oChunk (coordsV c s) g).view.set = (oPart (chunkE (c, s, Fin.cast trips_eq g))).set := by
  show ((oV : Memref sig .scVector .hbm S13107200 .f32).view.slice
      (Rect.unit (s := S13107200) (k1_off2 (coordsV c s) g) S25600.size (k1_off2_inb (coordsV c s) g))).set = _
  rw [View.set_slice, oRect_eq]; exact Finset.map_refl

theorem set_pRow (c : Fin 2) (s : Fin 16) : (pRow (coordsV c s)).view.set = (pPart (widE (c, s))).set := by
  show (((pV : Memref sig .scVector .hbm S32x16 .f32).view.slice
      (Rect.unit (s := S32x16) (k1_off7 (coordsV c s)) S1x16.size (k1_off7_inb (coordsV c s)))).reshape S16 squeezes_S1x16_S16.numel_eq).set = _
  rw [View.set_reshape, View.set_slice]
  exact Finset.map_refl.trans (congrArg (fun r : Rect S32x16 => r.set) (pRect_eq c s))

/-! ## Families over the subcores, renumbered -/

/-- A family over the 2 × 16 subcores that sees the place through its worker number only is the family over the 32
    worker numbers. -/
theorem bigSep_wids (Φ : Fin 32 → sProp 𝕄) :
    (bigSep Finset.univ fun c : Fin ((K (F := F)).nCore 0) => bigSep Finset.univ fun i : Fin ((K (F := F)).nSub 0) =>
        Φ (widE (Fin.cast nCore_zero c, Fin.cast nSub_zero i))) = bigSep Finset.univ Φ := by
  rw [bigSep_univ_equiv widE Φ, bigSep_univ_prod]
  exact bigSep_congr fun c _ => bigSep_congr fun i _ => rfl

/-- A family over the subcores' chunks that sees the chunk through its number only is the family over the 512 chunk
    numbers. -/
theorem bigSep_chunks (Φ : Fin 512 → sProp 𝕄) :
    (bigSep Finset.univ fun c : Fin ((K (F := F)).nCore 0) => bigSep Finset.univ fun i : Fin ((K (F := F)).nSub 0) =>
        bigSep Finset.univ fun g : Fin k1_t1_loop.trips =>
          Φ (chunkE (Fin.cast nCore_zero c, Fin.cast nSub_zero i, Fin.cast trips_eq g))) = bigSep Finset.univ Φ := by
  rw [bigSep_univ_equiv chunkE Φ, bigSep_univ_prod]
  refine bigSep_congr fun c _ => ?_
  rw [bigSep_univ_prod]
  exact bigSep_congr fun i _ => bigSep_congr fun g _ => rfl

/-! ## An array whole and its parts -/

section Parts

variable {ℓ : Loc nD τ sig} {X : Type} [Fintype X] [DecidableEq X] (J : X → Finset (Idx ℓ))
  (hd : ∀ x ∈ (Finset.univ : Finset X), ∀ y ∈ (Finset.univ : Finset X), x ≠ y → Disjoint (J x) (J y))
  (hc : (Finset.univ : Finset X).biUnion J = Finset.univ)

include hd hc in
/-- An array held whole is held part by part, over a family of pairwise disjoint parts that cover it. -/
theorem whole_parts (f : Buf (Elt F) ℓ) :
    (ℓ ↦{fullShare} f : sProp 𝕄) = bigSep Finset.univ fun x : X => ℓ ↦[J x]{fullShare} f := by
  rw [← pointsTo_biUnion Finset.univ (ℓ := ℓ) J hd, hc]

include hd hc in
/-- The parts, each held at some contents, are the array whole at some contents. -/
theorem parts_whole (x₀ : X) :
    (bigSep Finset.univ fun x : X => iprop(∃ f, ℓ ↦[J x]{fullShare} f)) ⊢ (iprop(∃ f, ℓ ↦{fullShare} f) : sProp 𝕄) := by
  refine (bigSep_exists_pi Finset.univ (fun x (f : Buf (Elt F) ℓ) => ℓ ↦[J x]{fullShare} f)).trans ?_
  iintro ⟨%fs, H⟩
  ihave H' := (pointsTo_biUnion_join Finset.univ J fs (fs x₀) hd) $$ H
  icases H' with ⟨%g, -, Hg⟩
  rw [hc]
  iexists g; iexact Hg

end Parts

theorem oParts_disjoint : ∀ n ∈ (Finset.univ : Finset (Fin 512)), ∀ n' ∈ (Finset.univ : Finset (Fin 512)), n ≠ n' →
    Disjoint (oPart n).set (oPart n').set := fun _ _ _ _ h => Rect.part_disjoint hdivO h
theorem oParts_cover : (Finset.univ : Finset (Fin 512)).biUnion (fun n => (oPart n).set) = Finset.univ := Rect.biUnion_part hdivO
theorem pParts_disjoint : ∀ w ∈ (Finset.univ : Finset (Fin 32)), ∀ w' ∈ (Finset.univ : Finset (Fin 32)), w ≠ w' →
    Disjoint (pPart w).set (pPart w').set := fun _ _ _ _ h => Rect.part_disjoint hdivP h
theorem pParts_cover : (Finset.univ : Finset (Fin 32)).biUnion (fun w => (pPart w).set) = Finset.univ := Rect.biUnion_part hdivP

/-- The code path whole is its 512 chunks. -/
theorem o_split (d : Dev nD) (f : Buf (Elt F) (oLoc d)) :
    (oLoc d ↦{fullShare} f : sProp 𝕄)
      ⊢ bigSep Finset.univ fun c : Fin ((K (F := F)).nCore 0) => bigSep Finset.univ fun i : Fin ((K (F := F)).nSub 0) =>
          bigSep Finset.univ fun g : Fin k1_t1_loop.trips => oLoc d ↦[(oChunk (placeOf (F := F) c i) g).view.set]{fullShare} f := by
  rw [whole_parts (ℓ := oLoc d) (fun n : Fin 512 => (oPart n).set) oParts_disjoint oParts_cover f,
    ← bigSep_chunks (F := F) (fun n => oLoc d ↦[(oPart n).set]{fullShare} f)]
  exact Entails.of_eq (bigSep_congr fun c _ => bigSep_congr fun i _ => bigSep_congr fun g _ =>
    congrArg (fun I => (oLoc d ↦[I]{fullShare} f : sProp 𝕄)) (set_oChunk _ _ g).symm)

/-- The chunks, each at some contents, are the code path whole at some contents. -/
theorem o_join (d : Dev nD) :
    (bigSep Finset.univ fun c : Fin ((K (F := F)).nCore 0) => bigSep Finset.univ fun i : Fin ((K (F := F)).nSub 0) =>
        bigSep Finset.univ fun g : Fin k1_t1_loop.trips => iprop(∃ f, oLoc d ↦[(oChunk (placeOf (F := F) c i) g).view.set]{fullShare} f))
      ⊢ (iprop(∃ f, oLoc d ↦{fullShare} f) : sProp 𝕄) := by
  refine (Entails.of_eq ?_).trans (parts_whole (ℓ := oLoc d) (fun n : Fin 512 => (oPart n).set) oParts_disjoint oParts_cover 0)
  rw [← bigSep_chunks (F := F) (fun n => iprop(∃ f, oLoc d ↦[(oPart n).set]{fullShare} f))]
  exact bigSep_congr fun c _ => bigSep_congr fun i _ => bigSep_congr fun g _ =>
    congrArg (fun I => (iprop(∃ f, oLoc d ↦[I]{fullShare} f) : sProp 𝕄)) (set_oChunk _ _ g)

/-- The partial sums whole are their 32 rows. -/
theorem p_split (d : Dev nD) (f : Buf (Elt F) (pLoc d)) :
    (pLoc d ↦{fullShare} f : sProp 𝕄)
      ⊢ bigSep Finset.univ fun c : Fin ((K (F := F)).nCore 0) => bigSep Finset.univ fun i : Fin ((K (F := F)).nSub 0) =>
          pLoc d ↦[(pRow (placeOf (F := F) c i)).view.set]{fullShare} f := by
  rw [whole_parts (ℓ := pLoc d) (fun w : Fin 32 => (pPart w).set) pParts_disjoint pParts_cover f,
    ← bigSep_wids (F := F) (fun w => pLoc d ↦[(pPart w).set]{fullShare} f)]
  exact Entails.of_eq (bigSep_congr fun c _ => bigSep_congr fun i _ =>
    congrArg (fun I => (pLoc d ↦[I]{fullShare} f : sProp 𝕄)) (set_pRow _ _).symm)

theorem p_join (d : Dev nD) :
    (bigSep Finset.univ fun c : Fin ((K (F := F)).nCore 0) => bigSep Finset.univ fun i : Fin ((K (F := F)).nSub 0) =>
        iprop(∃ f, pLoc d ↦[(pRow (placeOf (F := F) c i)).view.set]{fullShare} f))
      ⊢ (iprop(∃ f, pLoc d ↦{fullShare} f) : sProp 𝕄) := by
  refine (Entails.of_eq ?_).trans (parts_whole (ℓ := pLoc d) (fun w : Fin 32 => (pPart w).set) pParts_disjoint pParts_cover 0)
  rw [← bigSep_wids (F := F) (fun w => iprop(∃ f, pLoc d ↦[(pPart w).set]{fullShare} f))]
  exact bigSep_congr fun c _ => bigSep_congr fun i _ =>
    congrArg (fun I => (iprop(∃ f, pLoc d ↦[I]{fullShare} f) : sProp 𝕄)) (set_pRow _ _)

/-- A full share of an array is a remainder and one read token per vector subcore (the token of its worker number). -/
theorem tok_split (ℓ : Loc nD τ sig) (f : Buf (Elt F) ℓ) :
    (ℓ ↦{fullShare} f : sProp 𝕄)
      ⊢ iprop((ℓ ↦{shareDrop fullShare 32} f)
          ∗ bigSep Finset.univ fun c : Fin ((K (F := F)).nCore 0) => bigSep Finset.univ fun i : Fin ((K (F := F)).nSub 0) =>
              ℓ ↦{shareTok fullShare 32 (wid (placeOf (F := F) c i))} f) := by
  refine (Transfers.pointsTo_toks_split fullShare 32).trans (Entails.of_eq ?_)
  rw [← bigSep_wids (F := F) (fun w => ℓ ↦{shareTok fullShare 32 w} f)]
  rfl

theorem tok_join (ℓ : Loc nD τ sig) (f : Buf (Elt F) ℓ) :
    iprop((ℓ ↦{shareDrop fullShare 32} f)
        ∗ bigSep Finset.univ fun c : Fin ((K (F := F)).nCore 0) => bigSep Finset.univ fun i : Fin ((K (F := F)).nSub 0) =>
            ℓ ↦{shareTok fullShare 32 (wid (placeOf (F := F) c i))} f)
      ⊢ (ℓ ↦{fullShare} f : sProp 𝕄) := by
  refine (Entails.of_eq ?_).trans (Transfers.pointsTo_toks_join fullShare 32)
  rw [← bigSep_wids (F := F) (fun w => ℓ ↦{shareTok fullShare 32 w} f)]
  rfl

end Cert.Proof.KI

end
-- ==== Proof.CallSplit.lean ====
/-
  The SparseCore call's arrays before and after it, against what the TensorCore hands the two SparseCores: the five
  arrays held whole are, for each input, a remainder and the 32 subcores' read tokens, and, for the two outputs, the
  subcores' chunks and rows; side by side these are what the sixteen subcores of each SparseCore are handed. After the
  call the same regrouping, read backwards, gives the inputs back whole and each output whole at some contents.
-/
import proofs.«204536_g87462714016206_cont_9to1c4b_719_4_alg».proof.Proof.Split

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type} [FloatOps F] [Named F]

local notation "𝕄" => MT nD τ sig (HIx 1) (Elt F) ℕ UU ℕ

variable (fb : (d : Dev nD) → Buf (Elt F) (bLoc d)) (fg : (d : Dev nD) → Buf (Elt F) (gLoc d)) (ft : (d : Dev nD) → Buf (Elt F) (tLoc d))
  (fo : (d : Dev nD) → Buf (Elt F) (oLoc d)) (fp : (d : Dev nD) → Buf (Elt F) (pLoc d))

/-- Before the call: the five arrays held whole are the inputs' remainders beside what the two SparseCores are handed. -/
theorem st_intro (d : Dev nD) :
    iprop((bLoc d ↦{fullShare} fb d) ∗ (gLoc d ↦{fullShare} fg d) ∗ (tLoc d ↦{fullShare} ft d) ∗ (oLoc d ↦{fullShare} fo d) ∗ (pLoc d ↦{fullShare} fp d))
      ⊢ (iprop(((bLoc d ↦{shareDrop fullShare 32} fb d) ∗ (gLoc d ↦{shareDrop fullShare 32} fg d) ∗ (tLoc d ↦{shareDrop fullShare 32} ft d))
          ∗ bigSep Finset.univ fun c : Fin ((K (F := F)).nCore 0) => (P fb fg ft fo fp).st 0 d c) : sProp 𝕄) := by
  show _ ⊢ iprop(_ ∗ bigSep Finset.univ fun c : Fin ((K (F := F)).nCore 0) => bigSep Finset.univ fun i : Fin ((K (F := F)).nSub 0) =>
    goL fb fg ft fo fp d (placeOf c i))
  unfold goL inToks
  simp only [bigSep_sep']
  iintro ⟨Hb, Hg, Ht, Ho, Hp⟩
  ihave Hb' := (tok_split (F := F) (bLoc d) (fb d)) $$ Hb
  ihave Hg' := (tok_split (F := F) (gLoc d) (fg d)) $$ Hg
  ihave Ht' := (tok_split (F := F) (tLoc d) (ft d)) $$ Ht
  ihave Ho' := (o_split (F := F) d (fo d)) $$ Ho
  ihave Hp' := (p_split (F := F) d (fp d)) $$ Hp
  icases Hb' with ⟨Hbd, Hbt⟩
  icases Hg' with ⟨Hgd, Hgt⟩
  icases Ht' with ⟨Htd, Htt⟩
  isplitl [Hbd Hgd Htd]
  · isplitl [Hbd]; · iexact Hbd
    isplitl [Hgd]; · iexact Hgd
    iexact Htd
  isplitl [Hbt Hgt Htt]
  · isplitl [Hbt]; · iexact Hbt
    isplitl [Hgt]; · iexact Hgt
    iexact Htt
  isplitl [Ho']; · iexact Ho'
  iexact Hp'

/-- After the call: the remainders beside what the two SparseCores hand back are the inputs whole and each output whole at some contents. -/
theorem dn_elim (d : Dev nD) :
    (iprop(((bLoc d ↦{shareDrop fullShare 32} fb d) ∗ (gLoc d ↦{shareDrop fullShare 32} fg d) ∗ (tLoc d ↦{shareDrop fullShare 32} ft d))
        ∗ bigSep Finset.univ fun c : Fin ((K (F := F)).nCore 0) => (P fb fg ft fo fp).dn 0 d c) : sProp 𝕄)
      ⊢ iprop((bLoc d ↦{fullShare} fb d) ∗ (gLoc d ↦{fullShare} fg d) ∗ (tLoc d ↦{fullShare} ft d) ∗ (∃ f, oLoc d ↦{fullShare} f) ∗ (∃ f, pLoc d ↦{fullShare} f)) := by
  show iprop(_ ∗ bigSep Finset.univ fun c : Fin ((K (F := F)).nCore 0) => bigSep Finset.univ fun i : Fin ((K (F := F)).nSub 0) =>
    tdL fb fg ft d (placeOf c i)) ⊢ _
  unfold tdL inToks
  simp only [bigSep_sep']
  iintro ⟨⟨Hbd, Hgd, Htd⟩, ⟨Hbt, Hgt, Htt⟩, Ho, Hp⟩
  isplitl [Hbd Hbt]
  · iapply (tok_join (F := F) (bLoc d) (fb d))
    isplitl [Hbd]; · iexact Hbd
    iexact Hbt
  isplitl [Hgd Hgt]
  · iapply (tok_join (F := F) (gLoc d) (fg d))
    isplitl [Hgd]; · iexact Hgd
    iexact Hgt
  isplitl [Htd Htt]
  · iapply (tok_join (F := F) (tLoc d) (ft d))
    isplitl [Htd]; · iexact Htd
    iexact Htt
  isplitl [Ho]
  · iapply (o_join (F := F) d); iexact Ho
  · iapply (p_join (F := F) d); iexact Hp

end Cert.Proof.KI

end
-- ==== Proof.CallJoin.lean ====
/-
  The converse of handing the SparseCore call its arrays: when every subcore's chunks and row are held at the contents
  of one whole array, the chunks are the code path whole and the rows are the partial sums whole at those contents, and
  the read tokens beside the remainders are the inputs whole.
-/
import proofs.«204536_g87462714016206_cont_9to1c4b_719_4_alg».proof.Proof.CallSplit

noncomputable section

namespace Cert.Proof.KI

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type} [FloatOps F] [Named F]

local notation "𝕄" => MT nD τ sig (HIx 1) (Elt F) ℕ UU ℕ

/-- The 512 chunks held at the contents of one array are the code path whole at those contents. -/
theorem o_unsplit (d : Dev nD) (f : Buf (Elt F) (oLoc d)) :
    (bigSep Finset.univ fun c : Fin ((K (F := F)).nCore 0) => bigSep Finset.univ fun i : Fin ((K (F := F)).nSub 0) =>
        bigSep Finset.univ fun g : Fin k1_t1_loop.trips => oLoc d ↦[(oChunk (placeOf (F := F) c i) g).view.set]{fullShare} f)
      ⊢ (oLoc d ↦{fullShare} f : sProp 𝕄) := by
  rw [whole_parts (ℓ := oLoc d) (fun n : Fin 512 => (oPart n).set) oParts_disjoint oParts_cover f,
    ← bigSep_chunks (F := F) (fun n => oLoc d ↦[(oPart n).set]{fullShare} f)]
  exact Entails.of_eq (bigSep_congr fun c _ => bigSep_congr fun i _ => bigSep_congr fun g _ =>
    congrArg (fun I => (oLoc d ↦[I]{fullShare} f : sProp 𝕄)) (set_oChunk _ _ g))

/-- The 32 rows held at the contents of one array are the partial sums whole at those contents. -/
theorem p_unsplit (d : Dev nD) (f : Buf (Elt F) (pLoc d)) :
    (bigSep Finset.univ fun c : Fin ((K (F := F)).nCore 0) => bigSep Finset.univ fun i : Fin ((K (F := F)).nSub 0) =>
        pLoc d ↦[(pRow (placeOf (F := F) c i)).view.set]{fullShare} f)
      ⊢ (pLoc d ↦{fullShare} f : sProp 𝕄) := by
  rw [whole_parts (ℓ := pLoc d) (fun w : Fin 32 => (pPart w).set) pParts_disjoint pParts_cover f,
    ← bigSep_wids (F := F) (fun w => pLoc d ↦[(pPart w).set]{fullShare} f)]
  exact Entails.of_eq (bigSep_congr fun c _ => bigSep_congr fun i _ =>
    congrArg (fun I => (pLoc d ↦[I]{fullShare} f : sProp 𝕄)) (set_pRow _ _))

variable (fb : (d : Dev nD) → Buf (Elt F) (bLoc d)) (fg : (d : Dev nD) → Buf (Elt F) (gLoc d)) (ft : (d : Dev nD) → Buf (Elt F) (tLoc d))
  (fo : (d : Dev nD) → Buf (Elt F) (oLoc d)) (fp : (d : Dev nD) → Buf (Elt F) (pLoc d))

/-- What the two SparseCores are handed, beside the inputs' remainders, is the five arrays held whole at the same contents. -/
theorem st_join (d : Dev nD) :
    (iprop(((bLoc d ↦{shareDrop fullShare 32} fb d) ∗ (gLoc d ↦{shareDrop fullShare 32} fg d) ∗ (tLoc d ↦{shareDrop fullShare 32} ft d))
        ∗ bigSep Finset.univ fun c : Fin ((K (F := F)).nCore 0) => (P fb fg ft fo fp).st 0 d c) : sProp 𝕄)
      ⊢ iprop((bLoc d ↦{fullShare} fb d) ∗ (gLoc d ↦{fullShare} fg d) ∗ (tLoc d ↦{fullShare} ft d) ∗ (oLoc d ↦{fullShare} fo d) ∗ (pLoc d ↦{fullShare} fp d)) := by
  show iprop(_ ∗ bigSep Finset.univ fun c : Fin ((K (F := F)).nCore 0) => bigSep Finset.univ fun i : Fin ((K (F := F)).nSub 0) =>
    goL fb fg ft fo fp d (placeOf c i)) ⊢ _
  unfold goL inToks
  simp only [bigSep_sep']
  iintro ⟨⟨Hbd, Hgd, Htd⟩, ⟨Hbt, Hgt, Htt⟩, Ho, Hp⟩
  isplitl [Hbd Hbt]
  · iapply (tok_join (F := F) (bLoc d) (fb d))
    isplitl [Hbd]; · iexact Hbd
    iexact Hbt
  isplitl [Hgd Hgt]
  · iapply (tok_join (F := F) (gLoc d) (fg d))
    isplitl [Hgd]; · iexact Hgd
    iexact Hgt
  isplitl [Htd Htt]
  · iapply (tok_join (F := F) (tLoc d) (ft d))
    isplitl [Htd]; · iexact Htd
    iexact Htt
  isplitl [Ho]
  · iapply (o_unsplit (F := F) d (fo d)); iexact Ho
  · iapply (p_unsplit (F := F) d (fp d)); iexact Hp

end Cert.Proof.KI

end
-- ==== Proof.FrameRun.lean ====
/-
  The idealized kernel's frame: under the precondition the program's threads run to the end, nothing faulting, and the
  five argument arrays end as launched — the launch theorem's run with nothing stated of the call's results, read at
  the arguments, which no host operation, neither TensorCore region and no vector subcore writes.
-/
import proofs.«204536_g87462714016206_cont_9to1c4b_719_4_alg».proof.Proof.PreOK
import proofs.«204536_g87462714016206_cont_9to1c4b_719_4_alg».proof.Proof.CallJoin

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-- Nothing is asked of the call's results. -/
abbrev RTrue : (d : Dev nD) → Buf (Elt F) (oLoc d) → Buf (Elt F) (pLoc d) → Prop := fun _ _ _ => True

theorem stIntro_frame : StIntro (fbOf m) (fgOf m) (ftOf m) (foOf m) (fpOf m) (tdL (fbOf m) (fgOf m) (ftOf m)) :=
  fun d => st_intro (fbOf m) (fgOf m) (ftOf m) (foOf m) (fpOf m) d

theorem dnElim_frame : DnElim (RTrue (F := F)) (fbOf m) (fgOf m) (ftOf m) (foOf m) (fpOf m) (tdL (fbOf m) (fgOf m) (ftOf m)) := by
  intro d
  refine (dn_elim (fbOf m) (fgOf m) (ftOf m) (foOf m) (fpOf m) d).trans ?_
  iintro ⟨Hb, Hg, Ht, ⟨%fo', Ho⟩, ⟨%fp', Hp⟩⟩
  isplitl [Hb]; · iexact Hb
  isplitl [Hg]; · iexact Hg
  isplitl [Ht]; · iexact Ht
  iexists fo'; iexists fp'; isplitr
  · ipureintro; trivial
  isplitl [Ho]; · iexact Ho
  iexact Hp

/-- The run with the arguments read: every weakly fair execution ends, nothing faulting, the five arguments as launched. -/
theorem run_frame [∀ e, Nonempty (Elt F e)]
    (hbody : TileBodyStmt (fbOf m) (fgOf m) (ftOf m) (foOf m) (fpOf m))
    (hfn : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    θ_run (Cert.KernelIdeal.defs (F := F)) (Cert.KernelIdeal.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.KernelIdeal.defs (F := F)) _ _).mono (fun r h c => by
      obtain ⟨fo', fp', -, hall⟩ := h c
      exact ⟨(hall (Proc.devRef .tc main_arg0) (by decide)).trans (W6_arg0 m c fo' fp'), (hall (Proc.devRef .tc main_arg1) (by decide)).trans (W6_arg1 m c fo' fp'),
        (hall (Proc.devRef .tc main_arg2) (by decide)).trans (W6_arg2 m c fo' fp'), (hall (Proc.devRef .tc main_arg3) (by decide)).trans (W6_arg3 m c fo' fp'),
        (hall (Proc.devRef .tc main_arg4) (by decide)).trans (W6_arg4 m c fo' fp')⟩)
    (run_main m ρ (RTrue (F := F)) (tdL (fbOf m) (fgOf m) (ftOf m)) hbody (preOK_of_fn m hfn) (stIntro_frame m) (dnElim_frame m))

end Cert.Proof.KI

end
-- ==== Proof.BodyChecks.lean ====
/-
  The index arithmetic of one vector subcore's task. A table index is a byte times four plus a digit below four, so it
  is below 1024; a row index is four times a lane number plus a digit below four, plus sixty-four times a group number
  below four hundred, so it is below 25600. Neither wraps in 32-bit arithmetic.
-/
import proofs.«204536_g87462714016206_cont_9to1c4b_719_4_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F] [Named F]

local notation "𝕄" => MT nD τ sig (HIx 1) (Elt F) ℕ UU ℕ

/-- A vector of bytes: every lane below 256. -/
def Bytes (v : IVec S16 32) : Prop := ∀ x, (v x).toNat < 256

/-- Every lane names a word of the code table. -/
def TblOK (v : IVec S16 32) : Prop := ∀ a x, ((![v] : Fin 1 → IVec S16 32) a x).toNat < S1024.size a

/-- Every lane names a word of a chunk's rows. -/
def RowOK (v : IVec S16 32) : Prop := ∀ a x, ((![v] : Fin 1 → IVec S16 32) a x).toNat < S25600.size a

/-- Four times a byte plus a digit below four names a word of the table. -/
theorem tbl_ok {v : IVec S16 32} (hv : Bytes v) {k : BitVec 32} (hk : k.toNat < 4) :
    TblOK (addi (muli v (broadcast S16 4#32)) (broadcast S16 k)) := by
  intro a x
  obtain rfl : a = 0 := Subsingleton.elim _ _
  show (v x * 4#32 + k).toNat < 1024
  have h := hv x
  rw [BitVec.toNat_add, BitVec.toNat_mul]
  simp only [BitVec.toNat_ofNat]
  omega

/-- The lane numbers times four plus the digit kk, moved by the word offset of group j of trip t. -/
abbrev rowIdx (kk j : BitVec 32) (t : Nat) : IVec S16 32 :=
  addi (addi (muli (iota .scVector S16 32 [0] iota_S16_d0_w32_scVector) (broadcast S16 4#32)) (broadcast S16 kk))
    (broadcast S16 (Scalar.muli (Scalar.muli (Scalar.addi (Scalar.muli (Scf.iv 0#32 1#32 t) 4#32) j) 16#32) 4#32))

theorem iota16_apply (x : S16.Idx) : iota .scVector S16 32 [0] iota_S16_d0_w32_scVector x = BitVec.ofNat 32 (x 0).val := by
  simp [iota]

theorem rowIdx_apply (kk j : BitVec 32) (t : Nat) (x : S16.Idx) :
    rowIdx kk j t x = (BitVec.ofNat 32 (x 0).val * 4#32 + kk) + ((((0#32 + BitVec.ofNat 32 t * 1#32) * 4#32 + j) * 16#32) * 4#32) := by
  show (iota .scVector S16 32 [0] iota_S16_d0_w32_scVector x * 4#32 + kk) + _ = _
  rw [iota16_apply]
  rfl

/-- A row index of a trip below 100, a group below 4 and a digit below 4 names a word of the chunk's rows. -/
theorem row_ok {kk j : BitVec 32} (hkk : kk.toNat < 4) (hj : j.toNat < 4) {t : Nat} (ht : t < 100) : RowOK (rowIdx kk j t) := by
  intro a x
  obtain rfl : a = 0 := Subsingleton.elim _ _
  show (rowIdx kk j t x).toNat < 25600
  have hx : (x 0).val < 16 := (x 0).isLt
  rw [rowIdx_apply]
  simp only [BitVec.toNat_add, BitVec.toNat_mul, BitVec.toNat_ofNat]
  omega

theorem row_ok2 {kk j : BitVec 32} (hkk : kk.toNat < 4) (hj : j.toNat < 4) {t : Nat} (ht : t < 100) :
    RowOK (rowIdx kk j t) ∧ RowOK (rowIdx kk j t) := ⟨row_ok hkk hj ht, row_ok hkk hj ht⟩

theorem trip2_lt (t : Fin k1_t2_loop.trips) : t.val < 100 := Nat.lt_of_lt_of_le t.isLt k1_t2_abs.2.1

end Cert.Proof.KI

end
-- ==== Proof.BodyRules.lean ====
/-
  How one vector subcore's task is stepped through: the four scratches as the indexed loads and stores address them, and
  the rules for an indexed load, an indexed store and a load of sixteen bytes, each stated over every value read and
  every contents left, since the frame says nothing about the values.
-/
import proofs.«204536_g87462714016206_cont_9to1c4b_719_4_alg».proof.Proof.BodyChecks

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F] [Named F]

local notation "𝕄" => MT nD τ sig (HIx 1) (Elt F) ℕ UU ℕ

section Rules

variable (d : Dev nD) (L : grid1.Coords)

local notation "thr" => V d (cV L) (jV L)

/-- The table scratch, the byte scratch, the target scratch and the row scratch of the subcore at L, each whole. -/
abbrev HT (f : Buf (Elt F) ((thr).loc cc1_scratch0)) : sProp 𝕄 :=
  ((sT : Memref sig .scVector .vmem S1024 .f32).access (.whole S1024)).loc thr ↦{fullShare} f
abbrev HI (f : Buf (Elt F) ((thr).loc cc1_scratch1)) : sProp 𝕄 :=
  (sI : Memref sig .scVector .vmem S6400 .i32).view.loc thr ↦{fullShare} f
abbrev HG (f : Buf (Elt F) ((thr).loc cc1_scratch2)) : sProp 𝕄 :=
  ((sG : Memref sig .scVector .vmem S25600 .f32).access (.whole S25600)).loc thr ↦{fullShare} f
abbrev HR (f : Buf (Elt F) ((thr).loc cc1_scratch3)) : sProp 𝕄 :=
  ((sR : Memref sig .scVector .vmem S25600 .f32).access (.whole S25600)).loc thr
    ↦[((sR : Memref sig .scVector .vmem S25600 .f32).access (.whole S25600)).set]{fullShare} f

omit [FloatOps F] [Named F] in
theorem HT_eq (f : Buf (Elt F) ((thr).loc cc1_scratch0)) : (HT d L f : sProp 𝕄) = (thr).loc cc1_scratch0 ↦{fullShare} f := rfl
omit [FloatOps F] [Named F] in
theorem HI_eq (f : Buf (Elt F) ((thr).loc cc1_scratch1)) : (HI d L f : sProp 𝕄) = (thr).loc cc1_scratch1 ↦{fullShare} f := rfl
omit [FloatOps F] [Named F] in
theorem HG_eq (f : Buf (Elt F) ((thr).loc cc1_scratch2)) : (HG d L f : sProp 𝕄) = (thr).loc cc1_scratch2 ↦{fullShare} f := rfl
omit [FloatOps F] [Named F] in
theorem HR_eq (f : Buf (Elt F) ((thr).loc cc1_scratch3)) : (HR d L f : sProp 𝕄) = (thr).loc cc1_scratch3 ↦{fullShare} f := by
  unfold HR
  have h : ((sR : Memref sig .scVector .vmem S25600 .f32).access (.whole S25600)).set = Finset.univ := Memref.set_access_whole cc1_scratch3
  rw [h]

/-- The byte scratch holds bytes. -/
def BytesBuf (f : Buf (Elt F) ((thr).loc cc1_scratch1)) : Prop := ∀ j, (f j).toNat < 256

end Rules

section Step

variable {α : Type} (c : Thread nD τ) {s t : Shape} {e : EltTy}

/-- An indexed load, whatever it reads. -/
theorem wp_loadIdx_any {Post : α → sProp 𝕄} {base : Memref sig c.2.kind .vmem s e} {idxs : Fin s.rank → IVec t 32}
    {h : ∀ a x, (idxs a x).toNat < s.size a} {hl : base.view.Loads} {k : Vec F t e → Prog (TpuEff nD τ sig (Elt F) Λ₀ c.2) α}
    {f : Buf (Elt F) ((base.access (.whole s)).loc c)} :
    ((base.access (.whole s)).loc c ↦{fullShare} f : sProp 𝕄)
      ⊢ iprop((∀ v, ((base.access (.whole s)).loc c ↦{fullShare} f) -∗ wp frame (wpE (defs₀ (F := F)) 𝒱₀ c none) Set.univ (k v) Post)
        -∗ wp frame (wpE (defs₀ (F := F)) 𝒱₀ c none) Set.univ (SparseCore.vectorLoadIdx base idxs h hl >>= k) Post) := by
  iintro H Hk
  iapply (SparseCore.wp_vectorLoadIdx 𝒱₀ c none Set.univ (base := base) (S := Finset.univ) (q := fullShare) (Finset.subset_univ _)) $$ H
  iintro H
  iapply Hk $$ %(loadIdx ((base.access (.whole s)).read (Elt F) f) idxs h) H

/-- An indexed store, whatever it leaves. -/
theorem wp_storeIdx_any {Post : α → sProp 𝕄} {dd : Fin 1 → Nat} {base : Memref sig c.2.kind .vmem s e} {idxs : Fin s.rank → IVec ⟨1, dd⟩ 32} {v : Vec F ⟨1, dd⟩ e}
    {mask : IVec ⟨1, dd⟩ 1} {add : Bool} {h : ∀ a x, (idxs a x).toNat < s.size a} {hs : (base.access (.whole s)).Stores Finset.univ}
    {k : PUnit → Prog (TpuEff nD τ sig (Elt F) Λ₀ c.2) α} {f : Buf (Elt F) ((base.access (.whole s)).loc c)} :
    ((base.access (.whole s)).loc c ↦[(base.access (.whole s)).set]{fullShare} f : sProp 𝕄)
      ⊢ iprop((∀ f', ((base.access (.whole s)).loc c ↦[(base.access (.whole s)).set]{fullShare} f') -∗ wp frame (wpE (defs₀ (F := F)) 𝒱₀ c none) Set.univ (k ⟨⟩) Post)
        -∗ wp frame (wpE (defs₀ (F := F)) 𝒱₀ c none) Set.univ (SparseCore.vectorStoreIdx base idxs v mask add h hs >>= k) Post) := by
  iintro H Hk
  iapply (SparseCore.wp_vectorStoreIdx 𝒱₀ c none Set.univ (base := base)) $$ H
  iintro H
  iapply Hk $$ %((base.access (.whole s)).write (Elt F) f (storeIdx ((base.access (.whole s)).read (Elt F) f) idxs v mask add h) Finset.univ) H

end Step

end Cert.Proof.KI

end
-- ==== Proof.BodyParts.lean ====
/-
  One trip of the inner loop of a vector subcore's task, cut where the printed program cuts it: four parts and a tail. Each
  part loads sixteen bytes of the chunk, and for each of the four digits loads the table words and the target words the
  bytes name and stores the table words into the row scratch; every index is in range because the bytes are bytes and
  the trip is below one hundred. Each part is stated in continuation form: whatever it read and whatever it left in the
  row scratch, the program goes on from the values the next part needs, spelt as the printed payloads spell them.
-/
import proofs.«204536_g87462714016206_cont_9to1c4b_719_4_alg».proof.Proof.BodyRules

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F] [Named F]

local notation "𝕄" => MT nD τ sig (HIx 1) (Elt F) ℕ UU ℕ

section Parts

variable (d : Dev nD) (L : grid1.Coords)

local notation "thr" => V d (cV L) (jV L)

omit [FloatOps F] [Named F] in
/-- Sixteen words loaded from a scratch of bytes are bytes. -/
theorem bytes_load {fI : Buf (Elt F) ((thr).loc cc1_scratch1)} (hfI : BytesBuf d L fI) (off : Fin 1 → Nat)
    (inb : ∀ a, off a + S16.size a ≤ S6400.size a) :
    Bytes ((sI : Memref sig .scVector .vmem S6400 .i32).view.readAt (Elt F) (Rect.unit (s := S6400) off S16.size inb).toLoadRect fI) := by
  intro x
  simp only [View.readAt_apply, Memref.view_whole, View.read_whole]
  exact hfI _

/-- A load of sixteen words of the byte scratch: the program goes on at some vector of bytes. -/
theorem wp_loadBytes {α : Type} {Post : α → sProp 𝕄} {fI : Buf (Elt F) ((thr).loc cc1_scratch1)} (hfI : BytesBuf d L fI)
    {off : Fin 1 → Nat} {inb : ∀ a, off a + S16.size a ≤ S6400.size a}
    {hl : (sI : Memref sig .scVector .vmem S6400 .i32).view.LoadsAt (Rect.unit (s := S6400) off S16.size inb).toLoadRect}
    {k : Vec F S16 .i32 → Prog (TpuEff nD τ sig (Elt F) Λ₀ (thr).2) α} :
    (HI d L fI : sProp 𝕄)
      ⊢ iprop((∀ v : IVec S16 32, ⌜Bytes v⌝ -∗ HI d L fI -∗ wp frame (wpE (defs₀ (F := F)) 𝒱₀ thr none) Set.univ (k v) Post)
        -∗ wp frame (wpE (defs₀ (F := F)) 𝒱₀ thr none) Set.univ (.op (.load sI (Rect.unit (s := S6400) off S16.size inb).toLoadRect hl) k) Post) := by
  iintro H Hk
  iapply (wp_load 𝒱₀ thr none Set.univ (m := (sI : Memref sig .scVector .vmem S6400 .i32)) (S := Finset.univ) (Finset.subset_univ _)) $$ H
  iintro H
  iapply Hk $$ %((sI : Memref sig .scVector .vmem S6400 .i32).view.readAt (Elt F) (Rect.unit (s := S6400) off S16.size inb).toLoadRect fI) %(bytes_load d L hfI off inb) H

/-- An in-range check of the program: it holds, by the arithmetic of the indices. -/
macro "sl_chk" : tactic => `(tactic| (rw [wp_assume_of]; case h => first | exact row_ok2 (by decide) (by decide) (trip2_lt _) | exact tbl_ok (by assumption) (by decide)))

/-- The first part: the bytes of group 0 loaded, digits 0, 1, 2 of group 0 done, the row index of digit 3 checked. -/
theorem part1_run (k : Fin k1_t2_loop.trips) {α : Type} {Post : α → sProp 𝕄}
    {kont : (Σ' (arg14 : BitVec 32) (v36 : IVec S16 32) (v62 : FVec F S16 .f32) (v65 : IVec S16 32) (k1_hw8 : k1_chk8 v65), IVec S16 32) →
      Prog (TpuEff nD τ sig (Elt F) Λ₀ (thr).2) α}
    {fT : Buf (Elt F) ((thr).loc cc1_scratch0)} {fI : Buf (Elt F) ((thr).loc cc1_scratch1)} {fG : Buf (Elt F) ((thr).loc cc1_scratch2)}
    {fR : Buf (Elt F) ((thr).loc cc1_scratch3)} (hfI : BytesBuf d L fI) :
    (HT d L fT : sProp 𝕄) ⊢ iprop(HI d L fI -∗ HG d L fG -∗ HR d L fR
        -∗ (∀ (b : IVec S16 32) (w : FVec F S16 .f32) (fR' : Buf (Elt F) ((thr).loc cc1_scratch3)), ⌜Bytes b⌝ -∗ HT d L fT -∗ HI d L fI -∗ HG d L fG -∗ HR d L fR' -∗
            wp frame (wpE (defs₀ (F := F)) 𝒱₀ thr none) Set.univ (kont ⟨Scf.iv 0#32 1#32 k, k1_pay11 (F := F) b, w, k1_pay19 k1_pay4 0#32 1#32 k, row_ok2 (by decide) (by decide) (trip2_lt k), k1_pay20⟩) Post)
        -∗ wp frame (wpE (defs₀ (F := F)) 𝒱₀ thr none) Set.univ (k1_part1 L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 k1_pay1 k1_pay2 k1_pay3 k1_pay4 0#32 1#32 k >>= kont) Post) := by
  rw [k1_part1_eq_skeleton]; unfold k1_part1_skel
  simp only [Prog.lift, Prog.bind_op, Prog.bind_ret, Prog.pure_eq_ret, Prog.bind_assoc]
  iintro HT HI HG HR Hk
  iapply (wp_loadBytes d L hfI) $$ HI; iintro %v34 %hv34 HI
  sl_chk
  sl_chk
  iapply (wp_loadIdx_any (thr) (base := (sT : Memref sig .scVector .vmem S1024 .f32))) $$ HT; iintro %v42 HT
  iapply (wp_loadIdx_any (thr) (base := (sG : Memref sig .scVector .vmem S25600 .f32))) $$ HG; iintro %v43 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v50 HT
  iapply (wp_loadIdx_any (thr) (base := (sG : Memref sig .scVector .vmem S25600 .f32))) $$ HG; iintro %v51 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v59 HT
  iapply (wp_loadIdx_any (thr) (base := (sG : Memref sig .scVector .vmem S25600 .f32))) $$ HG; iintro %v60 HG
  iapply (wp_storeIdx_any (thr) (base := (sR : Memref sig .scVector .vmem S25600 .f32))) $$ HR; iintro %fR HR
  sl_chk
  iapply Hk $$ %v34 %(k1_pay18 v42 v43 v50 v51 v59 v60) %fR %hv34 HT HI HG HR

/-- The second part: digit 3 of group 0 done, the bytes of group 1 loaded, digits 0, 1, 2 of group 1 done. -/
theorem part2_run (k : Fin k1_t2_loop.trips) {α : Type} {Post : α → sProp 𝕄}
    {kont : (Σ' (v73 : FVec F S16 .f32) (v76 : BitVec 32) (v80 : IVec S16 32) (v97 : FVec F S16 .f32), FVec F S16 .f32) →
      Prog (TpuEff nD τ sig (Elt F) Λ₀ (thr).2) α}
    {fT : Buf (Elt F) ((thr).loc cc1_scratch0)} {fI : Buf (Elt F) ((thr).loc cc1_scratch1)} {fG : Buf (Elt F) ((thr).loc cc1_scratch2)}
    {fR : Buf (Elt F) ((thr).loc cc1_scratch3)} (hfI : BytesBuf d L fI) (arg15 : FVec F S16 .f32) {b : IVec S16 32} (hb : Bytes b) (w : FVec F S16 .f32) :
    (HT d L fT : sProp 𝕄) ⊢ iprop(HI d L fI -∗ HG d L fG -∗ HR d L fR
        -∗ (∀ (b' : IVec S16 32) (w1 w2 w3 : FVec F S16 .f32) (fR' : Buf (Elt F) ((thr).loc cc1_scratch3)), ⌜Bytes b'⌝ -∗ HT d L fT -∗ HI d L fI -∗ HG d L fG -∗ HR d L fR' -∗
            wp frame (wpE (defs₀ (F := F)) 𝒱₀ thr none) Set.univ (kont ⟨w1, (Scalar.muli (Scalar.addi (Scalar.muli (Scf.iv 0#32 1#32 k) 4#32) 1#32) 16#32), k1_pay22 (F := F) b', w2, w3⟩) Post)
        -∗ wp frame (wpE (defs₀ (F := F)) 𝒱₀ thr none) Set.univ (k1_part2 L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 k1_pay1 k1_pay2 k1_pay3 k arg15 (Scf.iv 0#32 1#32 k) (k1_pay11 (F := F) b) w (k1_pay19 k1_pay4 0#32 1#32 k) (row_ok2 (by decide) (by decide) (trip2_lt k)) k1_pay20 >>= kont) Post) := by
  rw [k1_part2_eq_skeleton]; unfold k1_part2_skel
  simp only [Prog.lift, Prog.bind_op, Prog.bind_ret, Prog.pure_eq_ret, Prog.bind_assoc]
  iintro HT HI HG HR Hk
  sl_chk
  iapply (wp_loadIdx_any (thr) (base := (sT : Memref sig .scVector .vmem S1024 .f32))) $$ HT; iintro %v68 HT
  iapply (wp_loadIdx_any (thr) (base := (sG : Memref sig .scVector .vmem S25600 .f32))) $$ HG; iintro %v69 HG
  iapply (wp_storeIdx_any (thr) (base := (sR : Memref sig .scVector .vmem S25600 .f32))) $$ HR; iintro %fR HR
  iapply (wp_loadBytes d L hfI) $$ HI; iintro %v78 %hv78 HI
  sl_chk
  sl_chk
  iapply (wp_loadIdx_any (thr) (base := (sT : Memref sig .scVector .vmem S1024 .f32))) $$ HT; iintro %v86 HT
  iapply (wp_loadIdx_any (thr) (base := (sG : Memref sig .scVector .vmem S25600 .f32))) $$ HG; iintro %v87 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v94 HT
  iapply (wp_loadIdx_any (thr) (base := (sG : Memref sig .scVector .vmem S25600 .f32))) $$ HG; iintro %v95 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v103 HT
  iapply (wp_loadIdx_any (thr) (base := (sG : Memref sig .scVector .vmem S25600 .f32))) $$ HG; iintro %v104 HG
  iapply (wp_storeIdx_any (thr) (base := (sR : Memref sig .scVector .vmem S25600 .f32))) $$ HR; iintro %fR HR
  iapply Hk $$ %v78 %(k1_pay21 arg15 w v68 v69) %(k1_pay27 v86 v87 v94 v95) %(k1_pay30 v103 v104) %fR %hv78 HT HI HG HR

/-- The third part: digit 3 of group 1 done, the bytes of group 2 loaded, digits 0, 1 of group 2 done, the row index of digit 2 checked. -/
theorem part3_run (k : Fin k1_t2_loop.trips) {α : Type} {Post : α → sProp 𝕄}
    {kont : (Σ' (v117 : FVec F S16 .f32) (v120 : BitVec 32) (v124 : IVec S16 32) (v141 : FVec F S16 .f32) (v144 : IVec S16 32), k1_chk22 v144) →
      Prog (TpuEff nD τ sig (Elt F) Λ₀ (thr).2) α}
    {fT : Buf (Elt F) ((thr).loc cc1_scratch0)} {fI : Buf (Elt F) ((thr).loc cc1_scratch1)} {fG : Buf (Elt F) ((thr).loc cc1_scratch2)}
    {fR : Buf (Elt F) ((thr).loc cc1_scratch3)} (hfI : BytesBuf d L fI) {b : IVec S16 32} (hb : Bytes b) (v73 v97 v105 : FVec F S16 .f32) :
    (HT d L fT : sProp 𝕄) ⊢ iprop(HI d L fI -∗ HG d L fG -∗ HR d L fR
        -∗ (∀ (b' : IVec S16 32) (w1 w2 : FVec F S16 .f32) (fR' : Buf (Elt F) ((thr).loc cc1_scratch3)), ⌜Bytes b'⌝ -∗ HT d L fT -∗ HI d L fI -∗ HG d L fG -∗ HR d L fR' -∗
            wp frame (wpE (defs₀ (F := F)) 𝒱₀ thr none) Set.univ (kont ⟨w1, (Scalar.muli (Scalar.addi (Scalar.muli (Scf.iv 0#32 1#32 k) 4#32) 2#32) 16#32), k1_pay34 (F := F) b', w2, k1_pay40 k1_pay3 (Scf.iv 0#32 1#32 k), (row_ok2 (by decide) (by decide) (trip2_lt k))⟩) Post)
        -∗ wp frame (wpE (defs₀ (F := F)) 𝒱₀ thr none) Set.univ (k1_part3 L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 k1_pay1 k1_pay2 k1_pay3 k1_pay4 k (Scf.iv 0#32 1#32 k) v73 (Scalar.muli (Scalar.addi (Scalar.muli (Scf.iv 0#32 1#32 k) 4#32) 1#32) 16#32) (k1_pay22 (F := F) b) v97 v105 >>= kont) Post) := by
  rw [k1_part3_eq_skeleton]; unfold k1_part3_skel
  simp only [Prog.lift, Prog.bind_op, Prog.bind_ret, Prog.pure_eq_ret, Prog.bind_assoc]
  iintro HT HI HG HR Hk
  sl_chk
  sl_chk
  iapply (wp_loadIdx_any (thr) (base := (sT : Memref sig .scVector .vmem S1024 .f32))) $$ HT; iintro %v112 HT
  iapply (wp_loadIdx_any (thr) (base := (sG : Memref sig .scVector .vmem S25600 .f32))) $$ HG; iintro %v113 HG
  iapply (wp_storeIdx_any (thr) (base := (sR : Memref sig .scVector .vmem S25600 .f32))) $$ HR; iintro %fR HR
  iapply (wp_loadBytes d L hfI) $$ HI; iintro %v122 %hv122 HI
  sl_chk
  sl_chk
  iapply (wp_loadIdx_any (thr) (base := (sT : Memref sig .scVector .vmem S1024 .f32))) $$ HT; iintro %v130 HT
  iapply (wp_loadIdx_any (thr) (base := (sG : Memref sig .scVector .vmem S25600 .f32))) $$ HG; iintro %v131 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v138 HT
  iapply (wp_loadIdx_any (thr) (base := (sG : Memref sig .scVector .vmem S25600 .f32))) $$ HG; iintro %v139 HG
  iapply (wp_storeIdx_any (thr) (base := (sR : Memref sig .scVector .vmem S25600 .f32))) $$ HR; iintro %fR HR
  sl_chk
  iapply Hk $$ %v122 %(k1_pay33 v73 v97 v105 v112 v113) %(k1_pay39 v130 v131 v138 v139) %fR %hv122 HT HI HG HR

/-- The fourth part: digits 2, 3 of group 2 done, the bytes of group 3 loaded, digit 0 of group 3 done, the words of digit 1 loaded. -/
theorem part4_run (k : Fin k1_t2_loop.trips) {α : Type} {Post : α → sProp 𝕄}
    {kont : (Σ' (v161 : FVec F S16 .f32) (v164 : BitVec 32) (v168 : IVec S16 32) (v176 : FVec F S16 .f32) (v179 : IVec S16 32) (k1_hw28 : k1_chk28 v179) (v182 : Vec F S16 .f32), Vec F S16 .f32) →
      Prog (TpuEff nD τ sig (Elt F) Λ₀ (thr).2) α}
    {fT : Buf (Elt F) ((thr).loc cc1_scratch0)} {fI : Buf (Elt F) ((thr).loc cc1_scratch1)} {fG : Buf (Elt F) ((thr).loc cc1_scratch2)}
    {fR : Buf (Elt F) ((thr).loc cc1_scratch3)} (hfI : BytesBuf d L fI) {b : IVec S16 32} (hb : Bytes b) (v117 v141 : FVec F S16 .f32) :
    (HT d L fT : sProp 𝕄) ⊢ iprop(HI d L fI -∗ HG d L fG -∗ HR d L fR
        -∗ (∀ (b' : IVec S16 32) (w1 w2 : FVec F S16 .f32) (w3 w4 : Vec F S16 .f32) (fR' : Buf (Elt F) ((thr).loc cc1_scratch3)), ⌜Bytes b'⌝ -∗ HT d L fT -∗ HI d L fI -∗ HG d L fG -∗ HR d L fR' -∗
            wp frame (wpE (defs₀ (F := F)) 𝒱₀ thr none) Set.univ (kont ⟨w1, (Scalar.muli (Scalar.addi (Scalar.muli (Scf.iv 0#32 1#32 k) 4#32) 3#32) 16#32), k1_pay45 (F := F) b', w2, k1_pay49 k1_pay2 (Scf.iv 0#32 1#32 k), (row_ok2 (by decide) (by decide) (trip2_lt k)), w3, w4⟩) Post)
        -∗ wp frame (wpE (defs₀ (F := F)) 𝒱₀ thr none) Set.univ (k1_part4 L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 k1_pay1 k1_pay2 k1_pay4 k (Scf.iv 0#32 1#32 k) v117 (Scalar.muli (Scalar.addi (Scalar.muli (Scf.iv 0#32 1#32 k) 4#32) 2#32) 16#32) (k1_pay34 (F := F) b) v141 (k1_pay40 k1_pay3 (Scf.iv 0#32 1#32 k)) (row_ok2 (by decide) (by decide) (trip2_lt k)) >>= kont) Post) := by
  rw [k1_part4_eq_skeleton]; unfold k1_part4_skel
  simp only [Prog.lift, Prog.bind_op, Prog.bind_ret, Prog.pure_eq_ret, Prog.bind_assoc]
  iintro HT HI HG HR Hk
  sl_chk
  iapply (wp_loadIdx_any (thr) (base := (sT : Memref sig .scVector .vmem S1024 .f32))) $$ HT; iintro %v147 HT
  iapply (wp_loadIdx_any (thr) (base := (sG : Memref sig .scVector .vmem S25600 .f32))) $$ HG; iintro %v148 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v156 HT
  iapply (wp_loadIdx_any (thr) (base := (sG : Memref sig .scVector .vmem S25600 .f32))) $$ HG; iintro %v157 HG
  iapply (wp_storeIdx_any (thr) (base := (sR : Memref sig .scVector .vmem S25600 .f32))) $$ HR; iintro %fR HR
  iapply (wp_loadBytes d L hfI) $$ HI; iintro %v166 %hv166 HI
  sl_chk
  sl_chk
  iapply (wp_loadIdx_any (thr) (base := (sT : Memref sig .scVector .vmem S1024 .f32))) $$ HT; iintro %v174 HT
  iapply (wp_loadIdx_any (thr) (base := (sG : Memref sig .scVector .vmem S25600 .f32))) $$ HG; iintro %v175 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v182 HT
  iapply (wp_loadIdx_any (thr) (base := (sG : Memref sig .scVector .vmem S25600 .f32))) $$ HG; iintro %v183 HG
  iapply Hk $$ %v166 %(k1_pay44 v117 v141 v147 v148 v156 v157) %(k1_pay48 v174 v175) %v182 %v183 %fR %hv166 HT HI HG HR

/-- One trip of the inner loop: the four parts and the tail, from the four scratches back to the four scratches, the row
    scratch at some contents. -/
theorem t2_run (k : Fin k1_t2_loop.trips) (acc : FVec F S16 .f32)
    {fT : Buf (Elt F) ((thr).loc cc1_scratch0)} {fI : Buf (Elt F) ((thr).loc cc1_scratch1)} {fG : Buf (Elt F) ((thr).loc cc1_scratch2)}
    {fR : Buf (Elt F) ((thr).loc cc1_scratch3)} (hfI : BytesBuf d L fI) :
    (HT d L fT : sProp 𝕄) ⊢ iprop(HI d L fI -∗ HG d L fG -∗ HR d L fR
        -∗ wp frame (wpE (defs₀ (F := F)) 𝒱₀ thr none) Set.univ (k1_t2_body L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 k acc) fun _ => iprop(HT d L fT ∗ HI d L fI ∗ HG d L fG ∗ ∃ fR', HR d L fR')) := by
  unfold k1_t2_body
  iintro HT HI HG HR
  iapply (part1_run d L k hfI) $$ HT HI HG HR
  iintro %b0 %w0 %fR %hb0 HT HI HG HR
  iapply (part2_run d L k hfI acc hb0 w0) $$ HT HI HG HR
  iintro %b1 %w1 %w2 %w3 %fR %hb1 HT HI HG HR
  iapply (part3_run d L k hfI hb1 w1 w2 w3) $$ HT HI HG HR
  iintro %b2 %w4 %w5 %fR %hb2 HT HI HG HR
  iapply (part4_run d L k hfI hb2 w4 w5) $$ HT HI HG HR
  iintro %b3 %w6 %w7 %w8 %w9 %fR %hb3 HT HI HG HR
  simp only [Prog.lift, Prog.bind_op, Prog.bind_ret, Prog.pure_eq_ret, Prog.bind_assoc]
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v191 HT
  iapply (wp_loadIdx_any (thr) (base := (sG : Memref sig .scVector .vmem S25600 .f32))) $$ HG; iintro %v192 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v200 HT
  iapply (wp_loadIdx_any (thr) (base := (sG : Memref sig .scVector .vmem S25600 .f32))) $$ HG; iintro %v201 HG
  iapply (wp_storeIdx_any (thr) (base := (sR : Memref sig .scVector .vmem S25600 .f32))) $$ HR; iintro %fR HR
  rw [wp_ret]; imodintro
  isplitl [HT]; · iexact HT
  isplitl [HI]; · iexact HI
  isplitl [HG]; · iexact HG
  iexists _; iexact HR

end Parts

end Cert.Proof.KI

end
-- ==== Proof.BodyOpen.lean ====
/-
  A vector subcore's own scoped storage opened into the five scratches and the five transfer semaphores the task names,
  and the rest.
-/
import proofs.«204536_g87462714016206_cont_9to1c4b_719_4_alg».proof.Proof.BodyRules

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F] [Named F]

local notation "𝕄" => MT nD τ sig (HIx 1) (Elt F) ℕ UU ℕ

section Open

variable (d : Dev nD) (L : grid1.Coords)

local notation "thr" => V d (cV L) (jV L)

/-- The cell of one of the subcore's transfer semaphores. -/
abbrev cellOf (x : DmaSem sig) : GSem nD τ sig := (thr, SemLoc.dma x)

theorem cellOf_ne {x y : DmaSem sig} (h : (SemLoc.dma x : SemLoc sig) ≠ SemLoc.dma y) : cellOf d L x ≠ cellOf d L y :=
  fun e => h (congrArg Prod.snd e)

/-- The cells that are not the five named ones. -/
abbrev restCells : Finset (GSem nD τ sig) := (((((ownCells (thr)).erase (cellOf d L cc1_scoped0.sem)).erase (cellOf d L cc1_scoped1.sem)).erase (cellOf d L cc1_scoped2.sem)).erase (cellOf d L cc1_scoped3.sem)).erase (cellOf d L cc1_scoped4.sem)
/-- The buffers that are not the five named scratches. -/
abbrev restRefs : Finset (DevRef τ sig) := (((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)

omit [FloatOps F] [Named F] in
theorem ownSems0_V5 :
    (ownSems0 (thr) : sProp 𝕄)
      = iprop(semVal (cellOf d L cc1_scoped0.sem) 0 ∗ semVal (cellOf d L cc1_scoped1.sem) 0 ∗ semVal (cellOf d L cc1_scoped2.sem) 0
          ∗ semVal (cellOf d L cc1_scoped3.sem) 0 ∗ semVal (cellOf d L cc1_scoped4.sem) 0 ∗ bigSep (restCells d L) fun g => semVal g 0) := by
  unfold SparseCore.Cfg.ownSems0
  rw [SparseCore.bigSep_erase' ((mem_ownCells (g := cellOf d L cc1_scoped0.sem)).mpr ⟨rfl, by show (SemLoc.dma cc1_scoped0.sem : SemLoc sig).isScoped .scVector = true; decide⟩),
    SparseCore.bigSep_erase' (Finset.mem_erase.mpr ⟨cellOf_ne d L (show (SemLoc.dma cc1_scoped1.sem : SemLoc sig) ≠ SemLoc.dma cc1_scoped0.sem by decide), ((mem_ownCells (g := cellOf d L cc1_scoped1.sem)).mpr ⟨rfl, by show (SemLoc.dma cc1_scoped1.sem : SemLoc sig).isScoped .scVector = true; decide⟩)⟩),
    SparseCore.bigSep_erase' (Finset.mem_erase.mpr ⟨cellOf_ne d L (show (SemLoc.dma cc1_scoped2.sem : SemLoc sig) ≠ SemLoc.dma cc1_scoped1.sem by decide), (Finset.mem_erase.mpr ⟨cellOf_ne d L (show (SemLoc.dma cc1_scoped2.sem : SemLoc sig) ≠ SemLoc.dma cc1_scoped0.sem by decide), ((mem_ownCells (g := cellOf d L cc1_scoped2.sem)).mpr ⟨rfl, by show (SemLoc.dma cc1_scoped2.sem : SemLoc sig).isScoped .scVector = true; decide⟩)⟩)⟩),
    SparseCore.bigSep_erase' (Finset.mem_erase.mpr ⟨cellOf_ne d L (show (SemLoc.dma cc1_scoped3.sem : SemLoc sig) ≠ SemLoc.dma cc1_scoped2.sem by decide), (Finset.mem_erase.mpr ⟨cellOf_ne d L (show (SemLoc.dma cc1_scoped3.sem : SemLoc sig) ≠ SemLoc.dma cc1_scoped1.sem by decide), (Finset.mem_erase.mpr ⟨cellOf_ne d L (show (SemLoc.dma cc1_scoped3.sem : SemLoc sig) ≠ SemLoc.dma cc1_scoped0.sem by decide), ((mem_ownCells (g := cellOf d L cc1_scoped3.sem)).mpr ⟨rfl, by show (SemLoc.dma cc1_scoped3.sem : SemLoc sig).isScoped .scVector = true; decide⟩)⟩)⟩)⟩),
    SparseCore.bigSep_erase' (Finset.mem_erase.mpr ⟨cellOf_ne d L (show (SemLoc.dma cc1_scoped4.sem : SemLoc sig) ≠ SemLoc.dma cc1_scoped3.sem by decide), (Finset.mem_erase.mpr ⟨cellOf_ne d L (show (SemLoc.dma cc1_scoped4.sem : SemLoc sig) ≠ SemLoc.dma cc1_scoped2.sem by decide), (Finset.mem_erase.mpr ⟨cellOf_ne d L (show (SemLoc.dma cc1_scoped4.sem : SemLoc sig) ≠ SemLoc.dma cc1_scoped1.sem by decide), (Finset.mem_erase.mpr ⟨cellOf_ne d L (show (SemLoc.dma cc1_scoped4.sem : SemLoc sig) ≠ SemLoc.dma cc1_scoped0.sem by decide), ((mem_ownCells (g := cellOf d L cc1_scoped4.sem)).mpr ⟨rfl, by show (SemLoc.dma cc1_scoped4.sem : SemLoc sig).isScoped .scVector = true; decide⟩)⟩)⟩)⟩)⟩)]

omit [FloatOps F] [Named F] in
theorem ownBufs_V5 :
    (ownBufs (thr) : sProp 𝕄)
      = iprop((∃ f, (thr).loc cc1_scratch0 ↦{fullShare} f) ∗ (∃ f, (thr).loc cc1_scratch1 ↦{fullShare} f) ∗ (∃ f, (thr).loc cc1_scratch2 ↦{fullShare} f)
          ∗ (∃ f, (thr).loc cc1_scratch3 ↦{fullShare} f) ∗ (∃ f, (thr).loc cc1_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), (SparseCore.Cfg.mem_ownRefs_of_owner (p := Proc.scVector (cV L) (jV L)) (b := (Proc.scVector (cV L) (jV L)).devRef cc1_scratch1) rfl)⟩),
    SparseCore.bigSep_erase' (Finset.mem_erase.mpr ⟨fun e => absurd (Proc.devRef_injective _ e) (show (cc1_scratch2 : Ref sig .scVector) ≠ cc1_scratch1 by decide), (Finset.mem_erase.mpr ⟨fun e => absurd (Proc.devRef_injective _ e) (show (cc1_scratch2 : Ref sig .scVector) ≠ cc1_scratch0 by decide), (SparseCore.Cfg.mem_ownRefs_of_owner (p := Proc.scVector (cV L) (jV L)) (b := (Proc.scVector (cV L) (jV L)).devRef cc1_scratch2) rfl)⟩)⟩),
    SparseCore.bigSep_erase' (Finset.mem_erase.mpr ⟨fun e => absurd (Proc.devRef_injective _ e) (show (cc1_scratch3 : Ref sig .scVector) ≠ cc1_scratch2 by decide), (Finset.mem_erase.mpr ⟨fun e => absurd (Proc.devRef_injective _ e) (show (cc1_scratch3 : Ref sig .scVector) ≠ cc1_scratch1 by decide), (Finset.mem_erase.mpr ⟨fun e => absurd (Proc.devRef_injective _ e) (show (cc1_scratch3 : Ref sig .scVector) ≠ cc1_scratch0 by decide), (SparseCore.Cfg.mem_ownRefs_of_owner (p := Proc.scVector (cV L) (jV L)) (b := (Proc.scVector (cV L) (jV L)).devRef cc1_scratch3) rfl)⟩)⟩)⟩),
    SparseCore.bigSep_erase' (Finset.mem_erase.mpr ⟨fun e => absurd (Proc.devRef_injective _ e) (show (cc1_scratch4 : Ref sig .scVector) ≠ cc1_scratch3 by decide), (Finset.mem_erase.mpr ⟨fun e => absurd (Proc.devRef_injective _ e) (show (cc1_scratch4 : Ref sig .scVector) ≠ cc1_scratch2 by decide), (Finset.mem_erase.mpr ⟨fun e => absurd (Proc.devRef_injective _ e) (show (cc1_scratch4 : Ref sig .scVector) ≠ cc1_scratch1 by decide), (Finset.mem_erase.mpr ⟨fun e => absurd (Proc.devRef_injective _ e) (show (cc1_scratch4 : Ref sig .scVector) ≠ cc1_scratch0 by decide), (SparseCore.Cfg.mem_ownRefs_of_owner (p := Proc.scVector (cV L) (jV L)) (b := (Proc.scVector (cV L) (jV L)).devRef cc1_scratch4) rfl)⟩)⟩)⟩)⟩)]

end Open

end Cert.Proof.KI

end
-- ==== Proof.BodyLoops.lean ====
/-
  The two counted loops of a vector subcore's task. The inner loop's hundred trips keep the table, the chunk's bytes and
  the chunk's targets as they are and leave the row scratch at some contents. A trip of the outer loop fetches chunk g of
  the bytes, which are bytes because the whole byte stream is, and of the targets, runs the inner loop, and writes the row
  scratch out to chunk g of the code path, which it takes out of the sixteen chunks it holds and puts back.
-/
import proofs.«204536_g87462714016206_cont_9to1c4b_719_4_alg».proof.Proof.BodyParts
import proofs.«204536_g87462714016206_cont_9to1c4b_719_4_alg».proof.Proof.BodyOpen

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F] [Named F]

local notation "𝕄" => MT nD τ sig (HIx 1) (Elt F) ℕ UU ℕ

section Loops

variable (fb : (d : Dev nD) → Buf (Elt F) (bLoc d)) (fg : (d : Dev nD) → Buf (Elt F) (gLoc d))
variable (d : Dev nD) (L : grid1.Coords)

local notation "thr" => V d (cV L) (jV L)

/-- The inner loop's invariant: the table, the bytes and the targets as they are, the rows at some contents. -/
def inv2 (fT : Buf (Elt F) ((thr).loc cc1_scratch0)) (fI : Buf (Elt F) ((thr).loc cc1_scratch1)) (fG : Buf (Elt F) ((thr).loc cc1_scratch2))
    (_ : Nat) (_ : FVec F S16 .f32) : sProp 𝕄 :=
  iprop(HT d L fT ∗ HI d L fI ∗ HG d L fG ∗ ∃ fR, HR d L fR)

/-- The outer loop's invariant. -/
def inv1 (O : CellTallies nD τ sig (HIx 1)) (W : Waits sig (HIx 1)) (_ : Nat) (_ : FVec F S16 .f32) : sProp 𝕄 :=
  iprop(Transfers.MayWaits (thr) (none : HIx 1) O
    ∗ ((bV : Memref sig .scVector .hbm S3276800 .i32).view.loc thr ↦{shareTok fullShare 32 (wid L)} fb d)
    ∗ ((gV : Memref sig .scVector .hbm S13107200 .f32).view.loc thr ↦{shareTok fullShare 32 (wid L)} fg d)
    ∗ (∃ f, (sT : Memref sig .scVector .vmem S1024 .f32).view.loc thr ↦{fullShare} f)
    ∗ (∃ f, (sI : Memref sig .scVector .vmem S6400 .i32).view.loc thr ↦{fullShare} f)
    ∗ (∃ f, (sG : Memref sig .scVector .vmem S25600 .f32).view.loc thr ↦{fullShare} f)
    ∗ (∃ f, (sR : Memref sig .scVector .vmem S25600 .f32).view.loc thr ↦{fullShare} f)
    ∗ semVal (cellOf d L cc1_scoped1.sem) 0 ∗ semVal (cellOf d L cc1_scoped2.sem) 0 ∗ semVal (cellOf d L cc1_scoped3.sem) 0
    ∗ (bigSep Finset.univ fun g : Fin k1_t1_loop.trips => iprop(∃ f, oLoc d ↦[(oChunk L g).view.set]{fullShare} f))
    ∗ ∃ W', ⌜∀ p ∈ W', p ∈ W ∨ p.2 = none⌝ ∗ owes (thr) O W')

omit [FloatOps F] [Named F] in
theorem HT_view (f : Buf (Elt F) ((thr).loc cc1_scratch0)) :
    (HT d L f : sProp 𝕄) = ((sT : Memref sig .scVector .vmem S1024 .f32).view.loc thr ↦{fullShare} f) := rfl
omit [FloatOps F] [Named F] in
theorem HG_view (f : Buf (Elt F) ((thr).loc cc1_scratch2)) :
    (HG d L f : sProp 𝕄) = ((sG : Memref sig .scVector .vmem S25600 .f32).view.loc thr ↦{fullShare} f) := rfl
omit [FloatOps F] [Named F] in
theorem HR_view (f : Buf (Elt F) ((thr).loc cc1_scratch3)) :
    (HR d L f : sProp 𝕄) = ((sR : Memref sig .scVector .vmem S25600 .f32).view.loc thr ↦{fullShare} f) := HR_eq d L f
omit [FloatOps F] [Named F] in
/-- A chunk of the code path as the subcore's slice of it addresses it. -/
theorem pts_oChunk (g : Fin k1_t1_loop.trips) (f : Buf (Elt F) (oLoc d)) :
    ((oChunk L g).view.loc thr ↦[(oChunk L g).view.set]{fullShare} f : sProp 𝕄) = oLoc d ↦[(oChunk L g).view.set]{fullShare} f := rfl

omit [FloatOps F] [Named F] in
/-- What the fetch of chunk g of the byte stream lands in the byte scratch is bytes. -/
theorem bytes_fetch (hpre : PreOK fb) (g : Fin k1_t1_loop.trips) (fI : Buf (Elt F) ((thr).loc cc1_scratch1)) :
    BytesBuf d L (View.write (Elt F) (sI : Memref sig .scVector .vmem S6400 .i32).view fI
      (((bV : Memref sig .scVector .hbm S3276800 .i32).slice (Rect.unit (s := S3276800) (k1_off1 L g) S6400.size (k1_off1_inb L g)) (fun _ => rfl)).view.read (Elt F) (fb d))
      Finset.univ) := by
  intro j
  show (View.write (Elt F) (View.whole cc1_scratch1) fI _ Finset.univ j).toNat < 256
  rw [View.write_whole_univ, View.read_apply, cast_eq]
  exact hpre d _

omit [FloatOps F] [Named F] in
/-- The byte scratch after the fetch, at some contents that are bytes. -/
theorem bytes_any (hpre : PreOK fb) (g : Fin k1_t1_loop.trips) (fI : Buf (Elt F) ((thr).loc cc1_scratch1)) :
    ((sI : Memref sig .scVector .vmem S6400 .i32).view.loc thr ↦{fullShare} (View.write (Elt F) (sI : Memref sig .scVector .vmem S6400 .i32).view fI
      (((bV : Memref sig .scVector .hbm S3276800 .i32).slice (Rect.unit (s := S3276800) (k1_off1 L g) S6400.size (k1_off1_inb L g)) (fun _ => rfl)).view.read (Elt F) (fb d))
      Finset.univ) : sProp 𝕄)
      ⊢ iprop(∃ f, ⌜BytesBuf d L f⌝ ∗ HI d L f) := by
  iintro H
  iexists _
  isplitr
  · ipureintro; exact bytes_fetch fb d L hpre g fI
  · iexact H

omit [FloatOps F] [Named F] in
theorem any_contents {ℓ : Loc nD τ sig} {S : Finset (Idx ℓ)} {q : PosShare TreeShare} (f : Buf (Elt F) ℓ) :
    (ℓ ↦[S]{q} f : sProp 𝕄) ⊢ iprop(∃ f', ℓ ↦[S]{q} f') := by
  iintro H; iexists f; iexact H

/-- The inner loop's hundred trips. -/
theorem t2_region {fT : Buf (Elt F) ((thr).loc cc1_scratch0)} {fI : Buf (Elt F) ((thr).loc cc1_scratch1)} {fG : Buf (Elt F) ((thr).loc cc1_scratch2)}
    (hfI : BytesBuf d L fI) (k : Fin k1_t2_loop.trips) (acc : FVec F S16 .f32) :
    inv2 d L fT fI fG k.val acc ⊢ wp frame (wpE (defs₀ (F := F)) 𝒱₀ thr none) Set.univ (k1_t2_body L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 k acc) (inv2 d L fT fI fG (k.val + 1)) := by
  unfold inv2
  iintro ⟨HT, HI, HG, %fR, HR⟩
  iapply (t2_run d L k acc hfI) $$ HT HI HG HR

/-- One trip of the outer loop. -/
theorem t1_run (hpre : PreOK fb) (O : CellTallies nD τ sig (HIx 1)) (W : Waits sig (HIx 1)) (g : Fin k1_t1_loop.trips) (acc : FVec F S16 .f32) :
    inv1 fb fg d L O W g.val acc
      ⊢ wp frame (wpE (defs₀ (F := F)) 𝒱₀ thr none) Set.univ (k1_t1_body L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 g acc) (inv1 fb fg d L O W (g.val + 1)) := by
  unfold k1_t1_body inv1
  iintro ⟨Hmw, Hb, Hg, ⟨%fT, HT⟩, ⟨%fI, HI⟩, ⟨%fG, HG⟩, ⟨%fR, HR⟩, Hs1, Hs2, Hs3, Hout, %W', %hW', HO⟩
  ihave Hout' := (Entails.of_eq (SparseCore.bigSep_erase' (Finset.mem_univ g))) $$ Hout
  icases Hout' with ⟨⟨%fo', Ho⟩, Hout⟩
  sl_exec
  sl_unfold_run_names
  ihave HI := (bytes_any fb d L hpre g fI) $$ HI
  icases HI with ⟨%fI2, %hfI2, HI⟩
  ihave HG := (any_contents _) $$ HG
  icases HG with ⟨%fG2, HG⟩
  ihave HT := (Entails.of_eq (HT_view d L _).symm) $$ HT
  ihave HG := (Entails.of_eq (HG_view d L _).symm) $$ HG
  ihave HR := (Entails.of_eq (HR_view d L _).symm) $$ HR
  sl_for (inv2 d L fT fI2 fG2) $$ [HT HI HG HR]
  case region =>
    intro k acc'
    exact t2_region d L hfI2 k acc'
  · unfold inv2
    isplitl [HT]; · iexact HT
    isplitl [HI]; · iexact HI
    isplitl [HG]; · iexact HG
    iexists _; iexact HR
  iintro %acc' HI2
  unfold inv2
  icases HI2 with ⟨HT, HI, HG, %fR', HR⟩
  ihave HT := (Entails.of_eq (HT_view d L _)) $$ HT
  ihave HG := (Entails.of_eq (HG_view d L _)) $$ HG
  ihave HR := (Entails.of_eq (HR_view d L _)) $$ HR
  ihave Ho := (Entails.of_eq (pts_oChunk d L g _).symm) $$ Ho
  sl_exec
  sl_step
  ihave Ho := (Entails.of_eq (pts_oChunk d L g _)) $$ Ho
  isplitl [Hmw]; · iexact Hmw
  isplitl [Hb]; · iexact Hb
  isplitl [Hg]; · iexact Hg
  isplitl [HT]; · iexists _; iexact HT
  isplitl [HI]; · iexists _; iexact HI
  isplitl [HG]; · iexists _; iexact HG
  isplitl [HR]; · iexists _; iexact HR
  isplitl [Hs1]; · iexact Hs1
  isplitl [Hs2]; · iexact Hs2
  isplitl [Hs3]; · iexact Hs3
  isplitl [Ho Hout]
  · iapply (Entails.of_eq (SparseCore.bigSep_erase' (Finset.mem_univ g)).symm)
    isplitl [Ho]; · iexists _; iexact Ho
    iexact Hout
  iexists _; isplitr
  swap
  · iexact HO
  · ipureintro; intro p hp
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    exact hW' p hp

end Loops

section Spell

variable (d : Dev nD) (L : grid1.Coords)

local notation "thr" => V d (cV L) (jV L)

omit [FloatOps F] [Named F] in
theorem pts_b (q : PosShare TreeShare) (f : Buf (Elt F) (bLoc d)) :
    ((bV : Memref sig .scVector .hbm S3276800 .i32).view.loc thr ↦{q} f : sProp 𝕄) = bLoc d ↦{q} f := rfl
omit [FloatOps F] [Named F] in
theorem pts_g (q : PosShare TreeShare) (f : Buf (Elt F) (gLoc d)) :
    ((gV : Memref sig .scVector .hbm S13107200 .f32).view.loc thr ↦{q} f : sProp 𝕄) = gLoc d ↦{q} f := rfl
omit [FloatOps F] [Named F] in
theorem pts_t (q : PosShare TreeShare) (f : Buf (Elt F) (tLoc d)) :
    ((tV : Memref sig .scVector .hbm S1024 .f32).view.loc thr ↦{q} f : sProp 𝕄) = tLoc d ↦{q} f := rfl
omit [FloatOps F] [Named F] in
theorem pts_pRow (f : Buf (Elt F) (pLoc d)) :
    ((pRow L).view.loc thr ↦[(pRow L).view.set]{fullShare} f : sProp 𝕄) = pLoc d ↦[(pRow L).view.set]{fullShare} f := rfl
omit [FloatOps F] [Named F] in
theorem pts_s0 (f : Buf (Elt F) ((thr).loc cc1_scratch0)) :
    ((sT : Memref sig .scVector .vmem S1024 .f32).view.loc thr ↦{fullShare} f : sProp 𝕄) = (thr).loc cc1_scratch0 ↦{fullShare} f := rfl
omit [FloatOps F] [Named F] in
theorem pts_s1 (f : Buf (Elt F) ((thr).loc cc1_scratch1)) :
    ((sI : Memref sig .scVector .vmem S6400 .i32).view.loc thr ↦{fullShare} f : sProp 𝕄) = (thr).loc cc1_scratch1 ↦{fullShare} f := rfl
omit [FloatOps F] [Named F] in
theorem pts_s2 (f : Buf (Elt F) ((thr).loc cc1_scratch2)) :
    ((sG : Memref sig .scVector .vmem S25600 .f32).view.loc thr ↦{fullShare} f : sProp 𝕄) = (thr).loc cc1_scratch2 ↦{fullShare} f := rfl
omit [FloatOps F] [Named F] in
theorem pts_s3 (f : Buf (Elt F) ((thr).loc cc1_scratch3)) :
    ((sR : Memref sig .scVector .vmem S25600 .f32).view.loc thr ↦{fullShare} f : sProp 𝕄) = (thr).loc cc1_scratch3 ↦{fullShare} f := rfl
omit [FloatOps F] [Named F] in
theorem pts_s4 (f : Buf (Elt F) ((thr).loc cc1_scratch4)) :
    ((sA : Memref sig .scVector .vmem S16 .f32).view.loc thr ↦{fullShare} f : sProp 𝕄) = (thr).loc cc1_scratch4 ↦{fullShare} f := rfl

omit [FloatOps F] [Named F] in
/-- The sixteen chunks at the contents the call found are the sixteen chunks at some contents. -/
theorem chunks_any (fo : (d : Dev nD) → Buf (Elt F) (oLoc d)) :
    (bigSep Finset.univ fun g : Fin k1_t1_loop.trips => oLoc d ↦[(oChunk L g).view.set]{fullShare} fo d : sProp 𝕄)
      ⊢ bigSep Finset.univ fun g : Fin k1_t1_loop.trips => iprop(∃ f, oLoc d ↦[(oChunk L g).view.set]{fullShare} f) :=
  BI.bigSep_mono fun g _ => any_contents (fo d)

end Spell

end Cert.Proof.KI

end
-- ==== Proof.Body.lean ====
/-
  One vector subcore's task: the code table fetched whole into its scratch; then, sixteen times, a chunk of 6400 bytes
  and its 25600 target words fetched, one hundred trips of four sixteen-lane groups — the table words and the target words
  each byte names loaded by index, the table words stored by index into the row scratch, the squared dot products added
  lane by lane — and the row scratch written out to the chunk of the code path; at the end the lane sums stored and written
  out to the subcore's row of the partial sums.
-/
import proofs.«204536_g87462714016206_cont_9to1c4b_719_4_alg».proof.Proof.BodyLoops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F] [Named F]

local notation "𝕄" => MT nD τ sig (HIx 1) (Elt F) ℕ UU ℕ

variable (fb : (d : Dev nD) → Buf (Elt F) (bLoc d)) (fg : (d : Dev nD) → Buf (Elt F) (gLoc d)) (ft : (d : Dev nD) → Buf (Elt F) (tLoc d))
  (fo : (d : Dev nD) → Buf (Elt F) (oLoc d)) (fp : (d : Dev nD) → Buf (Elt F) (pLoc d))

/-- The task of the vector subcore at `L` on device `d`: from what it is handed and its own scoped storage to what it
    hands back, every wait of its own at the index below everything it owes. -/
theorem tile_body (hF : (K (F := F)).Facts) (hpre : PreOK fb) (d : Dev nD) (L : grid1.Coords)
    (O : CellTallies nD τ sig (HIx 1)) (W : Waits sig (HIx 1)) (hO : ∀ g, O g none = 0) :
    iprop(levAts (K (F := F)).L (K (F := F)).lev ∗ emp ∗ goL fb fg ft fo fp d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_sc_kernel L bV (Memref.isWhole_whole _) gV (Memref.isWhole_whole _) tV (Memref.isWhole_whole _)
            oV (Memref.isWhole_whole _) pV (Memref.isWhole_whole _)
            sT (Memref.isWhole_whole _) sI (Memref.isWhole_whole _) sG (Memref.isWhole_whole _) sR (Memref.isWhole_whole _) sA (Memref.isWhole_whole _)
            cc1_scoped0 cc1_scoped1 cc1_scoped2 cc1_scoped3 cc1_scoped4)
          fun _ => iprop(tdL fb fg ft d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc1_sc_kernel_eq_skeleton]; unfold cc1_sc_kernel_skel
  rw [(K (F := F)).scopedBufs_V hF d (cV L) (jV L), SparseCore.Cfg.scopedSems0_V (Val := Elt F) d (cV L) (jV L), ownSems0_V5, ownBufs_V5]
  unfold goL tdL inToks
  iintro ⟨#Hlv, -, ⟨⟨Hb, Hg, Ht⟩, Hout, Hp⟩, ⟨⟨%f0, HT⟩, ⟨%f1, HI⟩, ⟨%f2, HG⟩, ⟨%f3, HR⟩, ⟨%f4, HA⟩, Hbufs⟩, ⟨Hs0, Hs1, Hs2, Hs3, Hs4, Hsems⟩, HO⟩
  ihave Hmw := ((K (F := F)).mayWaits_none (thr := V d (cV L) (jV L)) hO) $$ Hlv
  ihave Hb := (Entails.of_eq (pts_b d L _ _).symm) $$ Hb
  ihave Hg := (Entails.of_eq (pts_g d L _ _).symm) $$ Hg
  ihave Ht := (Entails.of_eq (pts_t d L _ _).symm) $$ Ht
  ihave Hp := (Entails.of_eq (pts_pRow d L _).symm) $$ Hp
  ihave HT := (Entails.of_eq (pts_s0 d L _).symm) $$ HT
  ihave HI := (Entails.of_eq (pts_s1 d L _).symm) $$ HI
  ihave HG := (Entails.of_eq (pts_s2 d L _).symm) $$ HG
  ihave HR := (Entails.of_eq (pts_s3 d L _).symm) $$ HR
  ihave HA := (Entails.of_eq (pts_s4 d L _).symm) $$ HA
  ihave Hout := (chunks_any d L fo) $$ Hout
  sl_exec
  sl_for (inv1 fb fg d L O W) $$ [Hmw Hb Hg HT HI HG HR Hs1 Hs2 Hs3 Hout HO]
  case region =>
    intro g acc
    exact t1_run fb fg d L hpre O W g acc
  · unfold inv1
    isplitl [Hmw]; · iexact Hmw
    isplitl [Hb]; · iexact Hb
    isplitl [Hg]; · iexact Hg
    isplitl [HT]; · iexists _; iexact HT
    isplitl [HI]; · iexists _; iexact HI
    isplitl [HG]; · iexists _; iexact HG
    isplitl [HR]; · iexists _; iexact HR
    isplitl [Hs1]; · iexact Hs1
    isplitl [Hs2]; · iexact Hs2
    isplitl [Hs3]; · iexact Hs3
    isplitl [Hout]; · iexact Hout
    iexists _; isplitr
    swap
    · iexact HO
    · ipureintro; intro p hp
      rcases Finset.mem_insert.mp hp with hp | hp
      · exact .inr (by subst hp; rfl)
      · exact .inl hp
  iintro %acc HI1
  unfold inv1
  icases HI1 with ⟨-, Hb, Hg, ⟨%f0', HT⟩, ⟨%f1', HI⟩, ⟨%f2', HG⟩, ⟨%f3', HR⟩, Hs1, Hs2, Hs3, Hout, %W', %hW', HO⟩
  sl_exec
  sl_step
  ihave Hb := (Entails.of_eq (pts_b d L _ _)) $$ Hb
  ihave Hg := (Entails.of_eq (pts_g d L _ _)) $$ Hg
  ihave Ht := (Entails.of_eq (pts_t d L _ _)) $$ Ht
  ihave Hp := (Entails.of_eq (pts_pRow d L _)) $$ Hp
  ihave HT := (Entails.of_eq (pts_s0 d L _)) $$ HT
  ihave HI := (Entails.of_eq (pts_s1 d L _)) $$ HI
  ihave HG := (Entails.of_eq (pts_s2 d L _)) $$ HG
  ihave HR := (Entails.of_eq (pts_s3 d L _)) $$ HR
  ihave HA := (Entails.of_eq (pts_s4 d L _)) $$ HA
  isplitl [Hb Hg Ht Hout Hp]
  · isplitl [Hb Hg Ht]
    · isplitl [Hb]; · iexact Hb
      isplitl [Hg]; · iexact Hg
      iexact Ht
    isplitl [Hout]; · iexact Hout
    iexists _; iexact Hp
  isplitl [HT HI HG HR HA Hbufs]
  · isplitl [HT]; · iexists _; iexact HT
    isplitl [HI]; · iexists _; iexact HI
    isplitl [HG]; · iexists _; iexact HG
    isplitl [HR]; · iexists _; iexact HR
    isplitl [HA]; · iexists _; iexact HA
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  swap
  · iexact HO
  · ipureintro; intro p hp
    rcases Finset.mem_insert.mp hp with hp | hp
    · exact .inr (by subst hp; rfl)
    exact hW' p hp

end Cert.Proof.KI

end
-- ==== Proof.FramePI.lean ====
/-
  The idealized kernel's frame conjunct: the launch's run read at the arguments, with each vector subcore's task proved.
-/
import proofs.«204536_g87462714016206_cont_9to1c4b_719_4_alg».proof.Proof.FrameRun
import proofs.«204536_g87462714016206_cont_9to1c4b_719_4_alg».proof.Proof.Body

noncomputable section

namespace Cert.Proof.KI

open Cert.KernelIdeal Cert.KernelIdeal.Gen
open Idealize.ShloMosaic Idealize.SL.Sem

/-- `Cert.frame_KernelIdeal` (Defs.lean). -/
theorem frame_pi : Cert.frame_KernelIdeal := fun m ρ hpre =>
  run_frame (F := Ideal) m ρ (tile_body (fbOf m) (fgOf m) (ftOf m) (foOf m) (fpOf m)) hpre

end Cert.Proof.KI

end
-- ==== Proof.CommonB.lean ====
/-
  The kernel's program as the SparseCore launch theorem sees it: the label signature of its two TensorCore
  regions (the code table, the loss) beside the one SparseCore call (the lookup and per-lane partial sums), the body
  table, and the ghost state the proof runs under — the launch handshakes' rounds, the rounds of the TensorCore
  regions' staging cells, and the counters of the vector subcores' local copies.
-/
import proofs.«204536_g87462714016206_cont_9to1c4b_719_4_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«204536_g87462714016206_cont_9to1c4b_719_4_alg».proof.Proof.Gen.Kernel
import proofs.«204536_g87462714016206_cont_9to1c4b_719_4_alg».proof.Proof.Gen.Kernel.Skeleton
import proofs.«204536_g87462714016206_cont_9to1c4b_719_4_alg».proof.Proof.Gen.Kernel.Launch
import proofs.«204536_g87462714016206_cont_9to1c4b_719_4_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP [FloatOps F] : Labels := Pipeline.Sig Λ₀ (Fin 2) fun p => (pcfgs (F := F) p).Adm
abbrev K [FloatOps F] : SparseCore.Cfg τ sig (ΛP (F := F)) 1 := sc (F := F)
theorem nSub_zero [FloatOps F] : (K (F := F)).nSub 0 = 16 := rfl
theorem nCore_zero [FloatOps F] : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The rounds of the TensorCore regions' staging cells: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

example : CountersIn UU := inferInstance

/-! ## The arrays -/

variable (m : (ℓ : Loc nD τ sig) → Buf (Elt F) ℓ) (ρ : Dev nD → PrngReg)

/-- The flattened byte stream, the flattened target, the flattened code table (the SparseCore call's operands), the
    flattened code path and the per-lane partial sums (its results), as locations of device `d`. -/
abbrev bLoc (d : Dev nD) : Loc nD τ sig := (SparseCore.T d).loc main_v0
abbrev gLoc (d : Dev nD) : Loc nD τ sig := (SparseCore.T d).loc main_v1
abbrev tLoc (d : Dev nD) : Loc nD τ sig := (SparseCore.T d).loc main_v5
abbrev oLoc (d : Dev nD) : Loc nD τ sig := (SparseCore.T d).loc main_v6_0
abbrev pLoc (d : Dev nD) : Loc nD τ sig := (SparseCore.T d).loc main_v6_1

end Cert.Proof.KB

end
-- ==== Proof.RegionInvB.lean ====
/-
  The invariant both TensorCore regions run under: the core's scoped buffers that are no staging buffer of the region,
  each at some contents, and its generator register at some state — what a body that loads its inputs, computes and
  stores its output may use and need not describe.
-/
import proofs.«204536_g87462714016206_cont_9to1c4b_719_4_alg».proof.Proof.CommonB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The region invariant on core `c` for the windows `win`. -/
def ΦR {gr : Nat} {Wn : Nat} (win : Fin Wn → Pipeline.WinSpec sig gr) (c : Dev nD) : sProp 𝕄 :=
  iprop(Pipeline.scopedRest (Ix := HIx 1) (Name := ℕ) (U := UU) (Lvl := ℕ) (Val := Elt F) win c ∗ ∃ r, prngReg c r)

end Cert.Proof.KB

end
-- ==== Proof.RegionTableB.lean ====
/-
  The code-table region on the TensorCore (the first pallas_call): one point, four whole-array windows — the embedding
  table, the transposed projection, the bias row read; the code table written. The body loads the three inputs whole,
  computes each row's projection, adds the bias, divides the row by its norm plus the small constant, and stores the
  256 × 4 result whole. Stated at the buffer contents `Vt` the region is entered with and at what the TensorCore owes
  the launch while it runs (`Ow`: its start signals), which passes through the region unpaid.
-/
import proofs.«204536_g87462714016206_cont_9to1c4b_719_4_alg».proof.Proof.RegionInvB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section TableRegion

variable (Vt : (c : Dev nD) → (b : Ref sig .tc) → Buf (Elt F) ((c : Thread nD τ).loc b))
  (Ow : Dev nD → CellTallies nD τ sig (HIx 1)) (Rc : Dev nD → Set (SemLoc sig × HIx 1))

/-! ## The windows' blocks -/

/-- Window `w`'s block at the point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (Vt c (Pipeline.arrRef spec0 w))

/-- An input window's staging buffer holds its block when the body runs, for any proof data over these arrays whose
    body leaves the block in place. -/
theorem before0_0_of {c : Dev nD} (dat : Dat τ (Elt F) (HIx 1) ℕ UU ℕ cfg0 c) (hA : dat.A 0 = Vt c (Pipeline.arrRef spec0 0))
    (hafter : ∀ t, dat.after 0 t = iblk0 Vt c 0 t) (t : Fin cfg0.N) (d) : dat.before 0 t d = iblk0 Vt c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) (HIx 1) ℕ UU ℕ cfg0 c) (hA : dat.A 1 = Vt c (Pipeline.arrRef spec0 1))
    (hafter : ∀ t, dat.after 1 t = iblk0 Vt c 1 t) (t : Fin cfg0.N) (d) : dat.before 1 t d = iblk0 Vt c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) (HIx 1) ℕ UU ℕ cfg0 c) (hA : dat.A 2 = Vt c (Pipeline.arrRef spec0 2))
    (hafter : ∀ t, dat.after 2 t = iblk0 Vt c 2 t) (t : Fin cfg0.N) (d) : dat.before 2 t d = iblk0 Vt c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses and its one store -/

abbrev rE : Rect S256x4 := Rect.unit (s := S256x4) ![0, 0] S256x4.size inb_S256x4_S256x4_0_0
abbrev rW : Rect S4x4 := Rect.unit (s := S4x4) ![0, 0] S4x4.size inb_S4x4_S4x4_0_0
abbrev rB : Rect S1x4 := Rect.unit (s := S1x4) ![0, 0] S1x4.size inb_S1x4_S1x4_0_0

/-- The code table's staging buffer after the body, from the three input blocks. -/
def tableOut (x0 : Vec F S256x4 .f32) (x1 : Vec F S4x4 .f32) (x2 : Vec F S1x4 .f32) : Vec F S256x4 .f32 :=
  View.canon [⟨rE, k0_pay1 (View.ld x0 rE) (View.ld x1 rW) (View.ld x2 rB)⟩]

/-- The one store covers the buffer. -/
theorem tableCover (p0 : Vec F S256x4 .f32) (y : S256x4.Idx) :
    ∃ pc ∈ ([⟨rE, p0⟩] : List (View.Piece (Elt F) S256x4 .f32)), y ∈ pc.1.set :=
  View.cover_of_tiled [⟨rE, p0⟩] S256x4.size (by rfl) y

/-! ## The body's triple -/

set_option maxHeartbeats 1000000 in
/-- The body on whole staging memrefs, the inputs' at read contents and the output's at anything, runs to the
    continuation holding the inputs' as they were and the output's at `tableOut` of them. -/
theorem sound_table (c : Dev nD) (E : Set ℕ) (arg0 : Memref sig .tc .vmem S256x4 .f32) (harg0 : arg0.IsWhole)
    (arg1 : Memref sig .tc .vmem S4x4 .f32) (harg1 : arg1.IsWhole) (arg2 : Memref sig .tc .vmem S1x4 .f32) (harg2 : arg2.IsWhole)
    (arg3 : Memref sig .tc .vmem S256x4 .f32) (harg3 : arg3.IsWhole)
    (x0 : Vec F S256x4 .f32) (x1 : Vec F S4x4 .f32) (x2 : Vec F S1x4 .f32) (Kc : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (tableOut x0 x1 x2)) -∗ Kc ⟨⟩))
      ⊢ wp frame (wpE (defs₀ (F := F)) Variants.none c none) E (cc0__table_body arg0 harg0 arg1 harg1 arg2 harg2 arg3 harg3) Kc := by
  simp only [cc0__table_body_eq_skeleton]; unfold cc0__table_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (tableCover _)

/-! ## The pipeline's proof data -/

/-- The proof data of the code-table pipeline on core `c`: the arrays as the region finds them; after the body each
    input's buffer at its block and the output's at `tableOut` of the input blocks; the class invariant (the scoped rest
    and the generator register, untouched); what the TensorCore owes the launch, unchanged; full shares. -/
def dat0 (c : Dev nD) : Dat τ (Elt F) (HIx 1) ℕ UU ℕ cfg0 c where
  A w := Vt c (Pipeline.arrRef spec0 w)
  after w t := match w with
    | ⟨0, _⟩ => iblk0 Vt c 0 t
    | ⟨1, _⟩ => iblk0 Vt c 1 t
    | ⟨2, _⟩ => iblk0 Vt c 2 t
    | ⟨3, _⟩ => tableOut (iblk0 Vt c 0 t) (iblk0 Vt c 1 t) (iblk0 Vt c 2 t)
  Φ _ := ΦR spec0 c
  q _ := fullShare
  owed _ := Ow c
  recorded _ := Rc c

theorem A_eq0 (c : Dev nD) (w : Fin cfg0.W) : (dat0 Vt Ow Rc c).A w = Vt c (Pipeline.arrRef spec0 w) := by
  dsimp only [dat0]

theorem after0_0 (c : Dev nD) (t : Fin cfg0.N) : (dat0 Vt Ow Rc c).after 0 t = iblk0 Vt c 0 t := by dsimp only [dat0]
theorem after0_1 (c : Dev nD) (t : Fin cfg0.N) : (dat0 Vt Ow Rc c).after 1 t = iblk0 Vt c 1 t := by dsimp only [dat0]
theorem after0_2 (c : Dev nD) (t : Fin cfg0.N) : (dat0 Vt Ow Rc c).after 2 t = iblk0 Vt c 2 t := by dsimp only [dat0]
theorem after0_3 (c : Dev nD) (t : Fin cfg0.N) :
    (dat0 Vt Ow Rc c).after 3 t = tableOut (iblk0 Vt c 0 t) (iblk0 Vt c 1 t) (iblk0 Vt c 2 t) := by dsimp only [dat0]

theorem before0_0 (c : Dev nD) (t : Fin cfg0.N) (d) : (dat0 Vt Ow Rc c).before 0 t d = iblk0 Vt c 0 t :=
  before0_0_of Vt (dat0 Vt Ow Rc c) (A_eq0 Vt Ow Rc c 0) (after0_0 Vt Ow Rc c) t d
theorem before0_1 (c : Dev nD) (t : Fin cfg0.N) (d) : (dat0 Vt Ow Rc c).before 1 t d = iblk0 Vt c 1 t :=
  before0_1_of Vt (dat0 Vt Ow Rc c) (A_eq0 Vt Ow Rc c 1) (after0_1 Vt Ow Rc c) t d
theorem before0_2 (c : Dev nD) (t : Fin cfg0.N) (d) : (dat0 Vt Ow Rc c).before 2 t d = iblk0 Vt c 2 t :=
  before0_2_of Vt (dat0 Vt Ow Rc c) (A_eq0 Vt Ow Rc c 2) (after0_2 Vt Ow Rc c) t d

/-! ## The body obligation -/

/-- What the body is called with at the point, the windows one by one, -/
def bodyPre0 (c : Dev nD) (t : Fin cfg0.N) : sProp 𝕄 :=
  iprop((dat0 Vt Ow Rc c).Φ t.castSucc ∗ (dat0 Vt Ow Rc c).owesAt (none : HIx 1) t.castSucc
    ∗ (∃ d, owns (c : Thread nD τ) (st0_0 t) fullShare ((dat0 Vt Ow Rc c).before 0 t d))
    ∗ (∃ d, owns (c : Thread nD τ) (st0_1 t) fullShare ((dat0 Vt Ow Rc c).before 1 t d))
    ∗ (∃ d, owns (c : Thread nD τ) (st0_2 t) fullShare ((dat0 Vt Ow Rc c).before 2 t d))
    ∗ (∃ d, owns (c : Thread nD τ) (st0_3 t) fullShare ((dat0 Vt Ow Rc c).before 3 t d)))

/-- and what it returns. -/
def bodyPost0 (c : Dev nD) (t : Fin cfg0.N) : sProp 𝕄 :=
  iprop((dat0 Vt Ow Rc c).Φ t.succ ∗ (dat0 Vt Ow Rc c).owesAt (none : HIx 1) t.succ
    ∗ owns (c : Thread nD τ) (st0_0 t) fullShare ((dat0 Vt Ow Rc c).after 0 t)
    ∗ owns (c : Thread nD τ) (st0_1 t) fullShare ((dat0 Vt Ow Rc c).after 1 t)
    ∗ owns (c : Thread nD τ) (st0_2 t) fullShare ((dat0 Vt Ow Rc c).after 2 t)
    ∗ owns (c : Thread nD τ) (st0_3 t) fullShare ((dat0 Vt Ow Rc c).after 3 t))

theorem sound_body0 (c : Dev nD) (t : Fin cfg0.N) :
    bodyPre0 Vt Ow Rc c t ⊢ wp frame (wpE (defs₀ (F := F)) Variants.none c none) Set.univ (bodyAt0 t) (fun _ => bodyPost0 Vt Ow Rc c t) := by
  unfold bodyPre0 bodyPost0 bodyAt0
  simp only [before0_0, before0_1, before0_2]
  rw [show (dat0 Vt Ow Rc c).Φ t.succ = (dat0 Vt Ow Rc c).Φ t.castSucc from rfl,
    show (dat0 Vt Ow Rc c).owesAt (none : HIx 1) t.succ = (dat0 Vt Ow Rc c).owesAt (none : HIx 1) t.castSucc from rfl,
    after0_0, after0_1, after0_2, after0_3]
  iintro ⟨HΦ, Ho, ⟨%d0, H0⟩, ⟨%d1, H1⟩, ⟨%d2, H2⟩, ⟨%d3, H3⟩⟩
  iapply (sound_table c Set.univ _ _ _ _ _ _ _ _ (iblk0 Vt c 0 t) (iblk0 Vt c 1 t) (iblk0 Vt c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at the point. -/
theorem body_obligation0 (c : Dev nD) : BodyObligation (dat0 (F := F) Vt Ow Rc c) (defs₀ (F := F)) Variants.none (none : HIx 1) Set.univ := fun t => by
  rw [bigSep_W0, bigSep_W0]
  exact sound_body0 Vt Ow Rc c t

end TableRegion

end Cert.Proof.KB

end
-- ==== Proof.RegionLossB.lean ====
/-
  The loss region on the TensorCore (the second pallas_call): one point, two whole-array windows — the 32 × 16 partial
  sums read, the 1 × 1 loss written. The body loads the partial sums whole, adds them all, multiplies by the named
  reciprocal of the token count, subtracts from one and stores the result. Stated at the buffer contents `Vl` the region
  is entered with and at what the TensorCore owes the launch while it runs (`Ow`).
-/
import proofs.«204536_g87462714016206_cont_9to1c4b_719_4_alg».proof.Proof.RegionInvB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section LossRegion

variable (Vl : (c : Dev nD) → (b : Ref sig .tc) → Buf (Elt F) ((c : Thread nD τ).loc b))
  (Ow : Dev nD → CellTallies nD τ sig (HIx 1)) (Rc : Dev nD → Set (SemLoc sig × HIx 1))

/-! ## The windows' blocks -/

def iblk2 (c : Dev nD) (w : Fin cfg2.W) (t : Fin cfg2.N) : ((cfg2.win w).xblock (cfg2.grid.coords t)).Idx → Elt F (cfg2.win w).elt :=
  ((cfg2.win w).blk t).view.read (Elt F) (Vl c (Pipeline.arrRef spec2 w))

theorem before2_0_of {c : Dev nD} (dat : Dat τ (Elt F) (HIx 1) ℕ UU ℕ cfg2 c) (hA : dat.A 0 = Vl c (Pipeline.arrRef spec2 0))
    (hafter : ∀ t, dat.after 0 t = iblk2 Vl c 0 t) (t : Fin cfg2.N) (d) : dat.before 0 t d = iblk2 Vl c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses and its one store -/

abbrev rP : Rect S32x16 := Rect.unit (s := S32x16) ![0, 0] S32x16.size inb_S32x16_S32x16_0_0
abbrev rL : Rect S1x1 := Rect.unit (s := S1x1) ![0, 0] S1x1.size inb_S1x1_S1x1_0_0

/-- The loss's staging buffer after the body, from the partial sums' block. -/
def lossOut (x0 : Vec F S32x16 .f32) : Vec F S1x1 .f32 :=
  View.canon [⟨rL, k2_pay1 (View.ld x0 rP)⟩]

theorem lossCover (p0 : Vec F S1x1 .f32) (y : S1x1.Idx) :
    ∃ pc ∈ ([⟨rL, p0⟩] : List (View.Piece (Elt F) S1x1 .f32)), y ∈ pc.1.set :=
  View.cover_of_tiled [⟨rL, p0⟩] S1x1.size (by rfl) y

/-! ## The body's triple -/

set_option maxHeartbeats 1000000 in
theorem sound_loss (c : Dev nD) (E : Set ℕ) (arg0 : Memref sig .tc .vmem S32x16 .f32) (harg0 : arg0.IsWhole)
    (arg1 : Memref sig .tc .vmem S1x1 .f32) (harg1 : arg1.IsWhole)
    (x0 : Vec F S32x16 .f32) (Kc : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (lossOut x0)) -∗ Kc ⟨⟩))
      ⊢ wp frame (wpE (defs₀ (F := F)) Variants.none c none) E (cc2__loss_body arg0 harg0 arg1 harg1) Kc := by
  simp only [cc2__loss_body_eq_skeleton]; unfold cc2__loss_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (lossCover _)

/-! ## The pipeline's proof data -/

def dat2 (c : Dev nD) : Dat τ (Elt F) (HIx 1) ℕ UU ℕ cfg2 c where
  A w := Vl c (Pipeline.arrRef spec2 w)
  after w t := match w with
    | ⟨0, _⟩ => iblk2 Vl c 0 t
    | ⟨1, _⟩ => lossOut (iblk2 Vl c 0 t)
  Φ _ := ΦR spec2 c
  q _ := fullShare
  owed _ := Ow c
  recorded _ := Rc c

theorem A_eq2 (c : Dev nD) (w : Fin cfg2.W) : (dat2 Vl Ow Rc c).A w = Vl c (Pipeline.arrRef spec2 w) := by
  dsimp only [dat2]

theorem after2_0 (c : Dev nD) (t : Fin cfg2.N) : (dat2 Vl Ow Rc c).after 0 t = iblk2 Vl c 0 t := by dsimp only [dat2]
theorem after2_1 (c : Dev nD) (t : Fin cfg2.N) : (dat2 Vl Ow Rc c).after 1 t = lossOut (iblk2 Vl c 0 t) := by dsimp only [dat2]

theorem before2_0 (c : Dev nD) (t : Fin cfg2.N) (d) : (dat2 Vl Ow Rc c).before 0 t d = iblk2 Vl c 0 t :=
  before2_0_of Vl (dat2 Vl Ow Rc c) (A_eq2 Vl Ow Rc c 0) (after2_0 Vl Ow Rc c) t d

/-! ## The body obligation -/

def bodyPre2 (c : Dev nD) (t : Fin cfg2.N) : sProp 𝕄 :=
  iprop((dat2 Vl Ow Rc c).Φ t.castSucc ∗ (dat2 Vl Ow Rc c).owesAt (none : HIx 1) t.castSucc
    ∗ (∃ d, owns (c : Thread nD τ) (st2_0 t) fullShare ((dat2 Vl Ow Rc c).before 0 t d))
    ∗ (∃ d, owns (c : Thread nD τ) (st2_1 t) fullShare ((dat2 Vl Ow Rc c).before 1 t d)))

def bodyPost2 (c : Dev nD) (t : Fin cfg2.N) : sProp 𝕄 :=
  iprop((dat2 Vl Ow Rc c).Φ t.succ ∗ (dat2 Vl Ow Rc c).owesAt (none : HIx 1) t.succ
    ∗ owns (c : Thread nD τ) (st2_0 t) fullShare ((dat2 Vl Ow Rc c).after 0 t)
    ∗ owns (c : Thread nD τ) (st2_1 t) fullShare ((dat2 Vl Ow Rc c).after 1 t))

theorem sound_body2 (c : Dev nD) (t : Fin cfg2.N) :
    bodyPre2 Vl Ow Rc c t ⊢ wp frame (wpE (defs₀ (F := F)) Variants.none c none) Set.univ (bodyAt2 t) (fun _ => bodyPost2 Vl Ow Rc c t) := by
  unfold bodyPre2 bodyPost2 bodyAt2
  simp only [before2_0]
  rw [show (dat2 Vl Ow Rc c).Φ t.succ = (dat2 Vl Ow Rc c).Φ t.castSucc from rfl,
    show (dat2 Vl Ow Rc c).owesAt (none : HIx 1) t.succ = (dat2 Vl Ow Rc c).owesAt (none : HIx 1) t.castSucc from rfl,
    after2_0, after2_1]
  iintro ⟨HΦ, Ho, ⟨%d0, H0⟩, ⟨%d1, H1⟩⟩
  iapply (sound_loss c Set.univ _ _ _ _ (iblk2 Vl c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation2 (c : Dev nD) : BodyObligation (dat2 (F := F) Vl Ow Rc c) (defs₀ (F := F)) Variants.none (none : HIx 1) Set.univ := fun t => by
  rw [bigSep_W2, bigSep_W2]
  exact sound_body2 Vl Ow Rc c t

end LossRegion

end Cert.Proof.KB

end
-- ==== Proof.SegsB.lean ====
/-
  The two TensorCore regions as segments of @main's run on the TensorCore thread, inside the SparseCore launch: each
  entered from every unscoped buffer at a valuation, the generator register at some state and the TensorCore owing the
  launch its later start signals (its recorded waits within a bound); each left at the valuation with the region's
  arrays replaced by what its write-backs leave, the same debt unpaid and the recorded waits within the bound widened by
  the region's own staging waits, which sit at the index below every level.
-/
import proofs.«204536_g87462714016206_cont_9to1c4b_719_4_alg».proof.Proof.RegionTableB
import proofs.«204536_g87462714016206_cont_9to1c4b_719_4_alg».proof.Proof.RegionLossB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Segs

/-- No pipeline has a prefetched table. -/
abbrev adm : (p : Fin 2) → (pcfgs (F := F) p).Adm := fun p => (cfgs p).toPCfg_adm

variable (Wt Wl : Dev nD → Valuation τ sig (Elt F))
  (Ow0 Ow1 : Dev nD → CellTallies nD τ sig (HIx 1)) (Rc0 Rc1 : Dev nD → Set (SemLoc sig × HIx 1))

/-- The valuations read at the TensorCore's references. -/
abbrev VtOf : (c : Dev nD) → (b : Ref sig .tc) → Buf (Elt F) ((c : Thread nD τ).loc b) := fun c b => Wt c b
abbrev VlOf : (c : Dev nD) → (b : Ref sig .tc) → Buf (Elt F) ((c : Thread nD τ).loc b) := fun c b => Wl c b

/-- Both pipelines' proof data, each at its region's entry contents: a literal match on the pipeline. -/
def pdats : (p : Fin 2) → (c : Dev nD) → Dat τ (Elt F) (HIx 1) ℕ UU ℕ (Pipeline.pin (pcfgs (F := F)) adm p) c
  | ⟨0, _⟩ => fun c => dat0 (VtOf Wt) Ow0 Rc0 c
  | ⟨1, _⟩ => fun c => dat2 (VlOf Wl) Ow1 Rc1 c

/-- The buffers when the code-table region is left: its arrays at what the pipeline leaves, every other as entered. -/
def WtOut (c : Dev nD) : Valuation τ sig (Elt F) :=
  Pipeline.withArrays spec0 c (Wt c) fun w => (dat0 (VtOf Wt) Ow0 Rc0 c).arrAt w cfg0.N
theorem WtOut_arr (c : Dev nD) (w : Fin cfg0.W) :
    WtOut Wt Ow0 Rc0 c (Proc.devRef .tc (Pipeline.arrRef spec0 w)) = (dat0 (VtOf Wt) Ow0 Rc0 c).arrAt w cfg0.N := by
  unfold WtOut; exact Pipeline.withArrays_arr spec0 launch0.win.arr_inj c _ _ w
theorem WtOut_of_ne (c : Dev nD) (b : Ref sig .tc) (hb : ∀ w, Pipeline.arrRef spec0 w ≠ b) :
    WtOut Wt Ow0 Rc0 c (Proc.devRef .tc b) = Wt c (Proc.devRef .tc b) := by
  unfold WtOut; exact Pipeline.withArrays_of_ne spec0 c _ _ b hb

/-- The buffers when the loss region is left. -/
def WlOut (c : Dev nD) : Valuation τ sig (Elt F) :=
  Pipeline.withArrays spec2 c (Wl c) fun w => (dat2 (VlOf Wl) Ow1 Rc1 c).arrAt w cfg2.N
theorem WlOut_arr (c : Dev nD) (w : Fin cfg2.W) :
    WlOut Wl Ow1 Rc1 c (Proc.devRef .tc (Pipeline.arrRef spec2 w)) = (dat2 (VlOf Wl) Ow1 Rc1 c).arrAt w cfg2.N := by
  unfold WlOut; exact Pipeline.withArrays_arr spec2 launch2.win.arr_inj c _ _ w
theorem WlOut_of_ne (c : Dev nD) (b : Ref sig .tc) (hb : ∀ w, Pipeline.arrRef spec2 w ≠ b) :
    WlOut Wl Ow1 Rc1 c (Proc.devRef .tc b) = Wl c (Proc.devRef .tc b) := by
  unfold WlOut; exact Pipeline.withArrays_of_ne spec2 c _ _ b hb

/-- What rides beside the buffers through a region: the generator register at some state. -/
abbrev Rg (c : Dev nD) : sProp 𝕄 := iprop(∃ r, prngReg c r)

set_option backward.isDefEq.respectTransparency.types false in
/-- The code-table region as a segment. -/
def regTable (hOw : ∀ c g, Ow0 c g none = 0) :
    Pipeline.RegionSeg (pcfgs (F := F)) adm (pdats Wt Wl Ow0 Ow1 Rc0 Rc1) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 (VtOf Wt) Ow0 Rc0 c).loose
  hwaits c := Pipeline.cellsWaits_intro _ _ _ 0 c fun w s t => (K (F := F)).mayWait_none _ (hOw c)
  pre c := iprop(StableHlo.held (c : Thread nD τ) (Pipeline.ucRefs τ sig) (Wt c) ∗ Rg c ∗ Pipeline.owesWithin c (Ow0 c) (Rc0 c))
  post c := iprop(StableHlo.held (c : Thread nD τ) (Pipeline.ucRefs τ sig) (WtOut Wt Ow0 Rc0 c) ∗ Rg c
    ∗ Pipeline.owesWithin c (Ow0 c) (Rc0 c ∪ cfg0.waitPairs (none : HIx 1)))
  X c := Rg c
  Y c := Rg c
  Z c := Pipeline.unscopedRest (Ix := HIx 1) (Name := ℕ) (U := UU) (Lvl := ℕ) spec0 c (VtOf Wt c)
  hentry c := by
    rw [Pipeline.ownSems0_none]
    have hsplit := Pipeline.arrays_of_unscopedBufs (p := 0) (pcfgs (F := F)) adm (pdats Wt Wl Ow0 Ow1 Rc0 Rc1) launch0.win launch0.arr_whole c
      ((pdats Wt Wl Ow0 Ow1 Rc0 Rc1 0 c).share_full fun _ => rfl) (VtOf Wt c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitl [Hp]; · iexact Hp
    iexact Hrest
  hin c := by
    rw [show (pdats Wt Wl Ow0 Ow1 Rc0 Rc1 0 c).Φ 0 = ΦR spec0 c from rfl]; unfold ΦR
    iintro ⟨Hp, -, Hr⟩
    isplitl [Hr]; · iexact Hr
    iexact Hp
  hout c := by
    rw [Pipeline.ownSems0_none, show (pdats Wt Wl Ow0 Ow1 Rc0 Rc1 0 c).Φ (Fin.last _) = ΦR spec0 c from rfl]; unfold ΦR
    iintro ⟨Hr, Hp⟩
    isplitl [Hp]; · iexact Hp
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats Wt Wl Ow0 Ow1 Rc0 Rc1) ((pdats Wt Wl Ow0 Ow1 Rc0 Rc1 0 c).share_full fun _ => rfl)
      (VtOf Wt c) (fun b => WtOut Wt Ow0 Rc0 c b) ((pdats Wt Wl Ow0 Ow1 Rc0 Rc1 0 c).arrAt · cfg0.N)
      (fun w => (WtOut_arr Wt Ow0 Rc0 c w).symm)
      (fun b hb => WtOut_of_ne Wt Ow0 Rc0 c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iexact HO

set_option backward.isDefEq.respectTransparency.types false in
/-- The loss region as a segment. -/
def regLoss (hOw : ∀ c g, Ow1 c g none = 0) :
    Pipeline.RegionSeg (pcfgs (F := F)) adm (pdats Wt Wl Ow0 Ow1 Rc0 Rc1) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (VlOf Wl) Ow1 Rc1 c).loose
  hwaits c := Pipeline.cellsWaits_intro _ _ _ 1 c fun w s t => (K (F := F)).mayWait_none _ (hOw c)
  pre c := iprop(StableHlo.held (c : Thread nD τ) (Pipeline.ucRefs τ sig) (Wl c) ∗ Rg c ∗ Pipeline.owesWithin c (Ow1 c) (Rc1 c))
  post c := iprop(StableHlo.held (c : Thread nD τ) (Pipeline.ucRefs τ sig) (WlOut Wl Ow1 Rc1 c) ∗ Rg c
    ∗ Pipeline.owesWithin c (Ow1 c) (Rc1 c ∪ cfg2.waitPairs (none : HIx 1)))
  X c := Rg c
  Y c := Rg c
  Z c := Pipeline.unscopedRest (Ix := HIx 1) (Name := ℕ) (U := UU) (Lvl := ℕ) spec2 c (VlOf Wl c)
  hentry c := by
    rw [Pipeline.ownSems0_none]
    have hsplit := Pipeline.arrays_of_unscopedBufs (p := 1) (pcfgs (F := F)) adm (pdats Wt Wl Ow0 Ow1 Rc0 Rc1) launch2.win launch2.arr_whole c
      ((pdats Wt Wl Ow0 Ow1 Rc0 Rc1 1 c).share_full fun _ => rfl) (VlOf Wl c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW hp)
      iexact HO
    isplitl [Hp]; · iexact Hp
    iexact Hrest
  hin c := by
    rw [show (pdats Wt Wl Ow0 Ow1 Rc0 Rc1 1 c).Φ 0 = ΦR spec2 c from rfl]; unfold ΦR
    iintro ⟨Hp, -, Hr⟩
    isplitl [Hr]; · iexact Hr
    iexact Hp
  hout c := by
    rw [Pipeline.ownSems0_none, show (pdats Wt Wl Ow0 Ow1 Rc0 Rc1 1 c).Φ (Fin.last _) = ΦR spec2 c from rfl]; unfold ΦR
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats Wt Wl Ow0 Ow1 Rc0 Rc1) ((pdats Wt Wl Ow0 Ow1 Rc0 Rc1 1 c).share_full fun _ => rfl)
      (VlOf Wl c) (fun b => WlOut Wl Ow1 Rc1 c b) ((pdats Wt Wl Ow0 Ow1 Rc0 Rc1 1 c).arrAt · cfg2.N)
      (fun w => (WlOut_arr Wl Ow1 Rc1 c w).symm)
      (fun b hb => WlOut_of_ne Wl Ow1 Rc1 c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    iexact HO

end Segs

end Cert.Proof.KB

end
-- ==== Proof.PayB.lean ====
/-
  What the SparseCore call's handshakes carry. The call reads three arrays — the flattened byte stream, the flattened
  target and the flattened code table — and writes two: the flattened code path, of which vector subcore `(c, s)`
  writes the sixteen chunks of 25600 words starting at word `(2 s + c) · 409600`, and the per-lane partial sums, of which
  it writes row `2 s + c`. Every vector subcore reads the inputs through a read token of its own on the whole array;
  its output chunks and its row it holds alone.
-/
import proofs.«204536_g87462714016206_cont_9to1c4b_719_4_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig (HIx 1) (Elt F) ℕ UU ℕ

/-! ## The kernel's memrefs -/

abbrev bV : Memref sig .scVector .hbm S3276800 .i32 := Memref.whole main_v0_scv
abbrev gV : Memref sig .scVector .hbm S13107200 .f32 := Memref.whole main_v1_scv
abbrev tV : Memref sig .scVector .hbm S1024 .f32 := Memref.whole main_v5_scv
abbrev oV : Memref sig .scVector .hbm S13107200 .f32 := Memref.whole main_v6_0_scv
abbrev pV : Memref sig .scVector .hbm S32x16 .f32 := Memref.whole main_v6_1_scv
/-- A vector subcore's scratch: the code table, a chunk's bytes, a chunk's targets, a chunk's code rows, the lane sums. -/
abbrev sT : Memref sig .scVector .vmem S1024 .f32 := Memref.whole cc1_scratch0
abbrev sI : Memref sig .scVector .vmem S6400 .i32 := Memref.whole cc1_scratch1
abbrev sG : Memref sig .scVector .vmem S25600 .f32 := Memref.whole cc1_scratch2
abbrev sR : Memref sig .scVector .vmem S25600 .f32 := Memref.whole cc1_scratch3
abbrev sA : Memref sig .scVector .vmem S16 .f32 := Memref.whole cc1_scratch4

/-! ## A vector subcore's place -/

def coordsV (c : Fin (grid1.bound 0)) (s : Fin (grid1.bound 1)) : grid1.Coords :=
  fun | 0 => c | 1 => s | ⟨_ + 2, h⟩ => absurd h (Nat.not_lt.2 (Nat.le_add_left _ _))

abbrev cV (L : grid1.Coords) : Fin τ.nSC := (L 0).castLE hcore1
abbrev jV (L : grid1.Coords) : Fin τ.nSub := (L 1).castLE hsub1

theorem bound_zero : grid1.bound 0 = 2 := rfl
theorem bound_one : grid1.bound 1 = 16 := rfl

/-- The worker number of a place: `2 s + c`, below 32. -/
def wid (L : grid1.Coords) : Fin 32 :=
  ⟨2 * (L 1).val + (L 0).val, by
    have h0 : (L 0).val < 2 := (L 0).isLt
    have h1 : (L 1).val < 16 := (L 1).isLt
    omega⟩

/-- Chunk `g` of the code path as the subcore at `L` slices it. -/
abbrev oChunk (L : grid1.Coords) (g : Fin k1_t1_loop.trips) : Memref sig .scVector .hbm S25600 .f32 :=
  (oV : Memref sig .scVector .hbm S13107200 .f32).slice (Rect.unit (s := S13107200) (k1_off2 L g) S25600.size (k1_off2_inb L g)) (fun _ => rfl)
/-- Its row of the partial sums, squeezed. -/
abbrev pRow (L : grid1.Coords) : Memref sig .scVector .hbm S16 .f32 :=
  ((pV : Memref sig .scVector .hbm S32x16 .f32).slice (Rect.unit (s := S32x16) (k1_off7 L) S1x16.size (k1_off7_inb L)) (fun _ => rfl)).squeeze S16 squeezes_S1x16_S16

/-! ## The operands' contents, and what a subcore is handed -/

section Handed

variable (fb : (d : Dev nD) → Buf (Elt F) (bLoc d)) (fg : (d : Dev nD) → Buf (Elt F) (gLoc d)) (ft : (d : Dev nD) → Buf (Elt F) (tLoc d))
  (fo : (d : Dev nD) → Buf (Elt F) (oLoc d)) (fp : (d : Dev nD) → Buf (Elt F) (pLoc d))

/-- Every byte is below 256: what makes each table index a subcore computes name a word of the table. -/
def PreOK : Prop := ∀ (d : Dev nD) (j : S3276800.Idx), (fb d j).toNat < 256

/-- The three inputs under the read token of worker `w`. -/
def inToks (d : Dev nD) (w : Fin 32) : sProp 𝕄 :=
  iprop((bLoc d ↦{shareTok fullShare 32 w} fb d) ∗ (gLoc d ↦{shareTok fullShare 32 w} fg d) ∗ (tLoc d ↦{shareTok fullShare 32 w} ft d))

/-- What the subcore at `L` is handed: its read tokens, its sixteen chunks of the code path and its row of the
    partial sums at the contents the call found. -/
def goL (d : Dev nD) (L : grid1.Coords) : sProp 𝕄 :=
  iprop(inToks fb fg ft d (wid L)
    ∗ (bigSep Finset.univ fun g : Fin k1_t1_loop.trips => oLoc d ↦[(oChunk L g).view.set]{fullShare} fo d)
    ∗ pLoc d ↦[(pRow L).view.set]{fullShare} fp d)

/-- What it hands back: the tokens, the chunks and the row at what it wrote. -/
def tdL (d : Dev nD) (L : grid1.Coords) : sProp 𝕄 :=
  iprop(inToks fb fg ft d (wid L)
    ∗ (bigSep Finset.univ fun g : Fin k1_t1_loop.trips => iprop(∃ f, oLoc d ↦[(oChunk L g).view.set]{fullShare} f))
    ∗ ∃ f, pLoc d ↦[(pRow L).view.set]{fullShare} f)

end Handed

end Cert.Proof.KB

end
-- ==== Proof.CallB.lean ====
/-
  The SparseCore call's payloads and the launch theorem's obligations for it: what the TensorCore hands each SparseCore
  is simply what its sixteen vector subcores are handed, side by side, so the split among them is the identity; a
  vector subcore's obligation is its task's triple (stated here as a proposition, proved with the task's body) lifted
  to the extended body table.
-/
import proofs.«204536_g87462714016206_cont_9to1c4b_719_4_alg».proof.Proof.PayB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig (HIx 1) (Elt F) ℕ UU ℕ

variable (fb : (d : Dev nD) → Buf (Elt F) (bLoc d)) (fg : (d : Dev nD) → Buf (Elt F) (gLoc d)) (ft : (d : Dev nD) → Buf (Elt F) (tLoc d))
  (fo : (d : Dev nD) → Buf (Elt F) (oLoc d)) (fp : (d : Dev nD) → Buf (Elt F) (pLoc d))

/-- The task's triple, at every place: what the body's proof establishes and the launch consumes. -/
def TileBodyStmt : Prop :=
  ∀ (hF : (K (F := F)).Facts) (hpre : PreOK fb) (d : Dev nD) (L : grid1.Coords)
    (O : CellTallies nD τ sig (HIx 1)) (W : Waits sig (HIx 1)) (hO : ∀ g, O g none = 0),
    iprop(levAts (K (F := F)).L (K (F := F)).lev ∗ emp ∗ goL fb fg ft fo fp d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_sc_kernel L bV (Memref.isWhole_whole _) gV (Memref.isWhole_whole _) tV (Memref.isWhole_whole _)
            oV (Memref.isWhole_whole _) pV (Memref.isWhole_whole _)
            sT (Memref.isWhole_whole _) sI (Memref.isWhole_whole _) sG (Memref.isWhole_whole _) sR (Memref.isWhole_whole _) sA (Memref.isWhole_whole _)
            cc1_scoped0 cc1_scoped1 cc1_scoped2 cc1_scoped3 cc1_scoped4)
          fun _ => iprop(tdL fb fg ft d L ∗ scopedBufs (V d (cV L) (jV L)) ∗ scopedSems0 (V d (cV L) (jV L))
            ∗ ∃ W', ⌜∀ p ∈ W', p ∈ W ∨ p.2 = none⌝ ∗ owes (V d (cV L) (jV L)) O W')

/-- The place of vector subcore `i` of SparseCore `c` of the call's grid. -/
abbrev placeOf (c : Fin ((K (F := F)).nCore 0)) (i : Fin ((K (F := F)).nSub 0)) : grid1.Coords :=
  coordsV (Fin.cast nCore_zero c) (Fin.cast nSub_zero i)

/-- The one call's payloads. -/
def P : (K (F := F)).Pay (nD := nD) (Val := Elt F) (Name := ℕ) (U := UU) where
  st := fun q d c => match q with
    | 0 => bigSep Finset.univ fun i : Fin ((K (F := F)).nSub 0) => goL fb fg ft fo fp d (placeOf c i)
  dn := fun q d c => match q with
    | 0 => bigSep Finset.univ fun i : Fin ((K (F := F)).nSub 0) => tdL fb fg ft d (placeOf c i)
  go := fun q d c i => match q with
    | 0 => goL fb fg ft fo fp d (placeOf c i)
  td := fun q d c i => match q with
    | 0 => tdL fb fg ft d (placeOf c i)
  x := fun _ _ => iprop(emp)

instance goL_storable (d : Dev nD) (L : grid1.Coords) : BI.Storable (upEmb : UEmb _ 𝕄) (goL fb fg ft fo fp d L) := by
  unfold goL inToks; infer_instance
instance tdL_storable (d : Dev nD) (L : grid1.Coords) : BI.Storable (upEmb : UEmb _ 𝕄) (tdL fb fg ft d L) := by
  unfold tdL inToks; infer_instance

instance P_storable : (P (F := F) fb fg ft fo fp).IsStorable where
  st q d c := match q with
    | 0 => (inferInstance : BI.Storable (upEmb : UEmb _ 𝕄) (bigSep Finset.univ fun i : Fin ((K (F := F)).nSub 0) => goL fb fg ft fo fp d (placeOf c i)))
  dn q d c := match q with
    | 0 => (inferInstance : BI.Storable (upEmb : UEmb _ 𝕄) (bigSep Finset.univ fun i : Fin ((K (F := F)).nSub 0) => tdL fb fg ft d (placeOf c i)))
  go q d c i := match q with
    | 0 => (inferInstance : BI.Storable (upEmb : UEmb _ 𝕄) (goL fb fg ft fo fp d (placeOf c i)))
  td q d c i := match q with
    | 0 => (inferInstance : BI.Storable (upEmb : UEmb _ 𝕄) (tdL fb fg ft d (placeOf c i)))

/-! ## The launch theorem's obligations for the call -/

theorem defs₀_vector (c : Fin τ.nSC) (s : Fin τ.nSub) :
    defs₀ (F := F) (.scVector c s) 1 ()
      = SparseCore.onTile hcore1 hsub1 (fun c s => cc1_sc_kernel (coordsV c s)
          bV (Memref.isWhole_whole _) gV (Memref.isWhole_whole _) tV (Memref.isWhole_whole _) oV (Memref.isWhole_whole _) pV (Memref.isWhole_whole _)
          sT (Memref.isWhole_whole _) sI (Memref.isWhole_whole _) sG (Memref.isWhole_whole _) sR (Memref.isWhole_whole _) sA (Memref.isWhole_whole _)
          cc1_scoped0 cc1_scoped1 cc1_scoped2 cc1_scoped3 cc1_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hbody : TileBodyStmt fb fg ft fo fp) (hpre : PreOK fb) :
    (K (F := F)).TileObl (D (F := F)) 𝒱 (P fb fg ft fo fp) v₀ 0 := by
  intro d c i O W hO _ _
  simp only [show (P fb fg ft fo fp).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hbody facts hpre d (coordsV ⟨_, hc.1⟩ ⟨_, hc.2⟩) O W hO).trans (wp_mono frame _ _ fun _ => obl_post)

theorem vecSplit : (K (F := F)).VecSplit' (P fb fg ft fo fp) 0 := by
  intro d c
  show (bigSep Finset.univ fun i : Fin ((K (F := F)).nSub 0) => goL fb fg ft fo fp d (placeOf c i)) ⊢ |={Set.univ}=> iprop(
      (bigSep Finset.univ fun i : Fin ((K (F := F)).nSub 0) => goL fb fg ft fo fp d (placeOf c i))
      ∗ ((bigSep Finset.univ fun i : Fin ((K (F := F)).nSub 0) => tdL fb fg ft d (placeOf c i))
          -∗ (bigSep Finset.univ fun i : Fin ((K (F := F)).nSub 0) => tdL fb fg ft d (placeOf c i))))
  iintro H; imodintro
  isplitl [H]; · iexact H
  iintro H; iexact H

end Cert.Proof.KB

end
-- ==== Proof.LaunchB.lean ====
/-
  @main on the TensorCore inside the SparseCore launch: four host operations (two flattenings, the transpose of the
  projection, the bias as a row), the code-table region, the flattening of the table, the SparseCore call, the loss
  region, and three host operations (the loss as a scalar, the code path unflattened, the constant).
-/
import proofs.«204536_g87462714016206_cont_9to1c4b_719_4_alg».proof.Proof.SegsB
import proofs.«204536_g87462714016206_cont_9to1c4b_719_4_alg».proof.Proof.CallB

set_option maxRecDepth 16384

noncomputable section

namespace Cert.Proof.KB

open Cert.Kernel Cert.Kernel.Gen

open Idealize.ShloMosaic Idealize.ShloMosaic.TcCoe Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Transfers (shareTok shareDrop)
open Idealize.ShloMosaic.Pipeline (Dat Cfg Window BodyObligation cellOf)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The call's payloads, at any statement of what a vector subcore hands back -/

section General

variable (fb : (d : Dev nD) → Buf (Elt F) (bLoc d)) (fg : (d : Dev nD) → Buf (Elt F) (gLoc d)) (ft : (d : Dev nD) → Buf (Elt F) (tLoc d))
  (fo : (d : Dev nD) → Buf (Elt F) (oLoc d)) (fp : (d : Dev nD) → Buf (Elt F) (pLoc d))
  (tdG : Dev nD → grid1.Coords → sProp (MT nD τ sig (HIx 1) (Elt F) ℕ UU ℕ)) [htd : ∀ d L, BI.Storable (upEmb : UEmb _ (MT nD τ sig (HIx 1) (Elt F) ℕ UU ℕ)) (tdG d L)]

/-- The task's triple at every place, ending in `tdG`. -/
def TileBodyStmtG : Prop :=
  ∀ (hF : (K (F := F)).Facts) (hpre : PreOK fb) (d : Dev nD) (L : grid1.Coords)
    (O : CellTallies nD τ sig (HIx 1)) (W : Waits sig (HIx 1)) (hO : ∀ g, O g none = 0),
    iprop(levAts (K (F := F)).L (K (F := F)).lev ∗ emp ∗ goL fb fg ft fo fp d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_sc_kernel L bV (Memref.isWhole_whole _) gV (Memref.isWhole_whole _) tV (Memref.isWhole_whole _)
            oV (Memref.isWhole_whole _) pV (Memref.isWhole_whole _)
            sT (Memref.isWhole_whole _) sI (Memref.isWhole_whole _) sG (Memref.isWhole_whole _) sR (Memref.isWhole_whole _) sA (Memref.isWhole_whole _)
            cc1_scoped0 cc1_scoped1 cc1_scoped2 cc1_scoped3 cc1_scoped4)
          fun _ => iprop(tdG d L ∗ scopedBufs (V d (cV L) (jV L)) ∗ scopedSems0 (V d (cV L) (jV L))
            ∗ ∃ W', ⌜∀ p ∈ W', p ∈ W ∨ p.2 = none⌝ ∗ owes (V d (cV L) (jV L)) O W')

/-- The one call's payloads. -/
def PG : (K (F := F)).Pay (nD := nD) (Val := Elt F) (Name := ℕ) (U := UU) where
  st := fun q d c => match q with
    | 0 => bigSep Finset.univ fun i : Fin ((K (F := F)).nSub 0) => goL fb fg ft fo fp d (placeOf c i)
  dn := fun q d c => match q with
    | 0 => bigSep Finset.univ fun i : Fin ((K (F := F)).nSub 0) => tdG d (placeOf c i)
  go := fun q d c i => match q with
    | 0 => goL fb fg ft fo fp d (placeOf c i)
  td := fun q d c i => match q with
    | 0 => tdG d (placeOf c i)
  x := fun _ _ => iprop(emp)

instance PG_storable : (PG (F := F) fb fg ft fo fp tdG).IsStorable where
  st q d c := match q with
    | 0 => (inferInstance : BI.Storable (upEmb : UEmb _ 𝕄) (bigSep Finset.univ fun i : Fin ((K (F := F)).nSub 0) => goL fb fg ft fo fp d (placeOf c i)))
  dn q d c := match q with
    | 0 => (inferInstance : BI.Storable (upEmb : UEmb _ 𝕄) (bigSep Finset.univ fun i : Fin ((K (F := F)).nSub 0) => tdG d (placeOf c i)))
  go q d c i := match q with
    | 0 => (inferInstance : BI.Storable (upEmb : UEmb _ 𝕄) (goL fb fg ft fo fp d (placeOf c i)))
  td q d c i := match q with
    | 0 => (inferInstance : BI.Storable (upEmb : UEmb _ 𝕄) (tdG d (placeOf c i)))

theorem tileOblG (hbody : TileBodyStmtG fb fg ft fo fp tdG) (hpre : PreOK fb) :
    (K (F := F)).TileObl (D (F := F)) 𝒱 (PG fb fg ft fo fp tdG) v₀ 0 := by
  intro d c i O W hO _ _
  simp only [show (PG fb fg ft fo fp tdG).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (hbody facts hpre d (coordsV ⟨_, hc.1⟩ ⟨_, hc.2⟩) O W hO).trans (wp_mono frame _ _ fun _ => obl_post)

theorem vecSplitG : (K (F := F)).VecSplit' (PG fb fg ft fo fp tdG) 0 := by
  intro d c
  show (bigSep Finset.univ fun i : Fin ((K (F := F)).nSub 0) => goL fb fg ft fo fp d (placeOf c i)) ⊢ |={Set.univ}=> iprop(
      (bigSep Finset.univ fun i : Fin ((K (F := F)).nSub 0) => goL fb fg ft fo fp d (placeOf c i))
      ∗ ((bigSep Finset.univ fun i : Fin ((K (F := F)).nSub 0) => tdG d (placeOf c i))
          -∗ (bigSep Finset.univ fun i : Fin ((K (F := F)).nSub 0) => tdG d (placeOf c i))))
  iintro H; imodintro
  isplitl [H]; · iexact H
  iintro H; iexact H

end General

/-! ## The host operations -/

abbrev opB : HloOp τ sig (Elt F) := StableHlo.reshape main_arg0 main_v0 rfl shapeCasts_S16384x200_S3276800
abbrev opG : HloOp τ sig (Elt F) := StableHlo.reshape main_arg1 main_v1 rfl shapeCasts_S16384x200x4_S13107200
abbrev opW : HloOp τ sig (Elt F) :=
  StableHlo.unary main_arg3 main_v2 ((transpose S4x4 [1, 0] · transposes_S4x4_S4x4_1_0) : (⟨S4x4, .f32⟩ : BufTy).Contents (Elt F) → (⟨S4x4, .f32⟩ : BufTy).Contents (Elt F))
abbrev opBias : HloOp τ sig (Elt F) := StableHlo.reshape main_arg4 main_v3 rfl shapeCasts_S4_S1x4
abbrev opT : HloOp τ sig (Elt F) := StableHlo.reshape main_v4 main_v5 rfl shapeCasts_S256x4_S1024
abbrev opLoss : HloOp τ sig (Elt F) := StableHlo.reshape main_v7 main_v8 rfl shapeCasts_S1x1_S_
abbrev opPath : HloOp τ sig (Elt F) := StableHlo.reshape main_v6_0 main_v9 rfl shapeCasts_S13107200_S16384x200x4
abbrev opC : HloOp τ sig (Elt F) := StableHlo.nullary main_cst (constant S_ .f32 0x3DCCCCCD#32)

/-! ## The buffers at each boundary -/

/-- At launch; -/
abbrev W0 (d : Dev nD) : Valuation τ sig (Elt F) := fun b => m (d, b)
/-- when the code-table region is entered. -/
abbrev W1 (d : Dev nD) : Valuation τ sig (Elt F) := (opBias).result ((opW).result ((opG).result ((opB).result (W0 m d))))

/-- What the TensorCore owes the launch before call `n`, and the bound on its recorded waits. -/
abbrev OwAt (n : ℕ) (d : Dev nD) : CellTallies nD τ sig (HIx 1) := (K (F := F)).Otc d n
abbrev RcAt (n : ℕ) (d : Dev nD) : Set (SemLoc sig × HIx 1) := {p | (K (F := F)).lev (T d, p.1) p.2 ≤ 8 * n}

/-- When the code-table region is left; -/
abbrev W2 (d : Dev nD) : Valuation τ sig (Elt F) := WtOut (W1 m) (OwAt (F := F) 0) (RcAt (F := F) 0) d
/-- when the SparseCore call is made. -/
abbrev W3 (d : Dev nD) : Valuation τ sig (Elt F) := (opT).result (W2 m d)

/-- The call's operands and the results' buffers as the call finds them. -/
abbrev fbOf (d : Dev nD) : Buf (Elt F) (bLoc d) := W3 m d (Proc.devRef .tc main_v0)
abbrev fgOf (d : Dev nD) : Buf (Elt F) (gLoc d) := W3 m d (Proc.devRef .tc main_v1)
abbrev ftOf (d : Dev nD) : Buf (Elt F) (tLoc d) := W3 m d (Proc.devRef .tc main_v5)
abbrev foOf (d : Dev nD) : Buf (Elt F) (oLoc d) := W3 m d (Proc.devRef .tc main_v6_0)
abbrev fpOf (d : Dev nD) : Buf (Elt F) (pLoc d) := W3 m d (Proc.devRef .tc main_v6_1)

/-- The five arrays the call takes. -/
abbrev callRefs : Finset (DevRef τ sig) :=
  {Proc.devRef .tc main_v0, Proc.devRef .tc main_v1, Proc.devRef .tc main_v5, Proc.devRef .tc main_v6_0, Proc.devRef .tc main_v6_1}
theorem callRefs_sub : (callRefs : Finset (DevRef τ sig)) ⊆ Pipeline.ucRefs τ sig := by decide

omit [FloatOps F] in
theorem held_callRefs (d : Dev nD) (W : Valuation τ sig (Elt F)) :
    (held (T d) callRefs W : sProp 𝕄)
      = iprop((bLoc d ↦{fullShare} W (Proc.devRef .tc main_v0)) ∗ (gLoc d ↦{fullShare} W (Proc.devRef .tc main_v1)) ∗ (tLoc d ↦{fullShare} W (Proc.devRef .tc main_v5))
          ∗ (oLoc d ↦{fullShare} W (Proc.devRef .tc main_v6_0)) ∗ (pLoc d ↦{fullShare} W (Proc.devRef .tc main_v6_1))) := by
  unfold held callRefs
  rw [SparseCore.bigSep_insert' (by decide), SparseCore.bigSep_insert' (by decide), SparseCore.bigSep_insert' (by decide),
    SparseCore.bigSep_insert' (by decide), bigSep_singleton]

/-- The buffers when the loss region is entered: the call's results at what the subcores left. -/
abbrev W4 (d : Dev nD) (fo' : Buf (Elt F) (oLoc d)) (fp' : Buf (Elt F) (pLoc d)) : Valuation τ sig (Elt F) :=
  Function.update (Function.update (W3 m d) (Proc.devRef .tc main_v6_0) fo') (Proc.devRef .tc main_v6_1) fp'

omit [FloatOps F] in
theorem held_callRefs_W4 [FloatOps F] (d : Dev nD) (fo' : Buf (Elt F) (oLoc d)) (fp' : Buf (Elt F) (pLoc d)) :
    (held (T d) callRefs (W4 m d fo' fp') : sProp 𝕄)
      = iprop((bLoc d ↦{fullShare} fbOf m d) ∗ (gLoc d ↦{fullShare} fgOf m d) ∗ (tLoc d ↦{fullShare} ftOf m d)
          ∗ (oLoc d ↦{fullShare} fo') ∗ (pLoc d ↦{fullShare} fp')) := by
  rw [held_callRefs]
  have e0 : W4 m d fo' fp' (Proc.devRef .tc main_v0) = fbOf m d :=
    (Function.update_of_ne (by decide) _ _).trans (Function.update_of_ne (by decide) _ _)
  have e1 : W4 m d fo' fp' (Proc.devRef .tc main_v1) = fgOf m d :=
    (Function.update_of_ne (by decide) _ _).trans (Function.update_of_ne (by decide) _ _)
  have e2 : W4 m d fo' fp' (Proc.devRef .tc main_v5) = ftOf m d :=
    (Function.update_of_ne (by decide) _ _).trans (Function.update_of_ne (by decide) _ _)
  have e3 : W4 m d fo' fp' (Proc.devRef .tc main_v6_0) = fo' :=
    (Function.update_of_ne (by decide) _ _).trans (Function.update_self _ _ _)
  have e4 : W4 m d fo' fp' (Proc.devRef .tc main_v6_1) = fp' := Function.update_self _ _ _
  rw [e0, e1, e2, e3, e4]

theorem held_rest_W4 (d : Dev nD) (fo' : Buf (Elt F) (oLoc d)) (fp' : Buf (Elt F) (pLoc d)) :
    (held (T d) (Pipeline.ucRefs τ sig \ callRefs) (W4 m d fo' fp') : sProp 𝕄) = held (T d) (Pipeline.ucRefs τ sig \ callRefs) (W3 m d) :=
  StableHlo.held_congr (T d) fun b hb => by
    have hb' : b ∉ (callRefs : Finset (DevRef τ sig)) := (Finset.mem_sdiff.mp hb).2
    have h1 : b ≠ Proc.devRef .tc main_v6_1 := fun e => hb' (e ▸ by decide)
    have h0 : b ≠ Proc.devRef .tc main_v6_0 := fun e => hb' (e ▸ by decide)
    exact (Function.update_of_ne h1 _ _).trans (Function.update_of_ne h0 _ _)

/-- The loss region's entry contents on every core, from those on core `d` (there is one device). -/
abbrev WlAll (d : Dev nD) (fo' : Buf (Elt F) (oLoc d)) (fp' : Buf (Elt F) (pLoc d)) : Dev nD → Valuation τ sig (Elt F) :=
  fun c => W4 m c ((Subsingleton.elim d c) ▸ fo') ((Subsingleton.elim d c) ▸ fp')
theorem WlAll_self (d : Dev nD) (fo' : Buf (Elt F) (oLoc d)) (fp' : Buf (Elt F) (pLoc d)) : WlAll m d fo' fp' d = W4 m d fo' fp' := rfl

/-- When the loss region is left, and at the return. -/
abbrev W5 (d : Dev nD) (fo' : Buf (Elt F) (oLoc d)) (fp' : Buf (Elt F) (pLoc d)) : Valuation τ sig (Elt F) :=
  WlOut (WlAll m d fo' fp') (OwAt (F := F) 1) (RcAt (F := F) 1) d
abbrev W6 (d : Dev nD) (fo' : Buf (Elt F) (oLoc d)) (fp' : Buf (Elt F) (pLoc d)) : Valuation τ sig (Elt F) :=
  (opC).result ((opPath).result ((opLoss).result (W5 m d fo' fp')))

/-! ## The arguments end as launched -/

abbrev argRefs : Finset (DevRef τ sig) :=
  {Proc.devRef .tc main_arg0, Proc.devRef .tc main_arg1, Proc.devRef .tc main_arg2, Proc.devRef .tc main_arg3, Proc.devRef .tc main_arg4}
theorem argRefs_sub : (argRefs : Finset (DevRef τ sig)) ⊆ Pipeline.ucRefs τ sig := by decide
/-- The arguments and the three computed results. -/
abbrev outRefs : Finset (DevRef τ sig) :=
  {Proc.devRef .tc main_arg0, Proc.devRef .tc main_arg1, Proc.devRef .tc main_arg2, Proc.devRef .tc main_arg3, Proc.devRef .tc main_arg4,
    Proc.devRef .tc main_v8, Proc.devRef .tc main_v9, Proc.devRef .tc main_cst}
theorem outRefs_sub : (outRefs : Finset (DevRef τ sig)) ⊆ Pipeline.ucRefs τ sig := by decide

theorem W6_arg0 (d : Dev nD) (fo' : Buf (Elt F) (oLoc d)) (fp' : Buf (Elt F) (pLoc d)) :
    W6 m d fo' fp' (Proc.devRef .tc main_arg0) = W0 m d (Proc.devRef .tc main_arg0) := by
  have nR : ∀ {S S' : Shape} {e : EltTy} (x : Ref sig .tc) (y : Ref sig .tc), y ≠ main_arg0 → (Proc.devRef .tc main_arg0 : DevRef τ sig) ∉ ({Proc.devRef .tc y} : Finset (DevRef τ sig)) :=
    fun _ y h => by rw [Finset.mem_singleton]; exact StableHlo.devRef_ne_of_ne (Ne.symm h)
  have hC : (Proc.devRef .tc main_arg0 : DevRef τ sig) ∉ (opC (F := F)).writes := by
    simp only [StableHlo.nullary_writes, Finset.mem_singleton]; exact StableHlo.devRef_ne_of_ne (by decide)
  have hP : (Proc.devRef .tc main_arg0 : DevRef τ sig) ∉ (opPath (F := F)).writes := by
    simp only [StableHlo.reshape_writes, Finset.mem_singleton]; exact StableHlo.devRef_ne_of_ne (by decide)
  have hL : (Proc.devRef .tc main_arg0 : DevRef τ sig) ∉ (opLoss (F := F)).writes := by
    simp only [StableHlo.reshape_writes, Finset.mem_singleton]; exact StableHlo.devRef_ne_of_ne (by decide)
  have hT : (Proc.devRef .tc main_arg0 : DevRef τ sig) ∉ (opT (F := F)).writes := by
    simp only [StableHlo.reshape_writes, Finset.mem_singleton]; exact StableHlo.devRef_ne_of_ne (by decide)
  have hBi : (Proc.devRef .tc main_arg0 : DevRef τ sig) ∉ (opBias (F := F)).writes := by
    simp only [StableHlo.reshape_writes, Finset.mem_singleton]; exact StableHlo.devRef_ne_of_ne (by decide)
  have hW : (Proc.devRef .tc main_arg0 : DevRef τ sig) ∉ (opW (F := F)).writes := by
    simp only [StableHlo.unary_writes, Finset.mem_singleton]; exact StableHlo.devRef_ne_of_ne (by decide)
  have hG : (Proc.devRef .tc main_arg0 : DevRef τ sig) ∉ (opG (F := F)).writes := by
    simp only [StableHlo.reshape_writes, Finset.mem_singleton]; exact StableHlo.devRef_ne_of_ne (by decide)
  have hB : (Proc.devRef .tc main_arg0 : DevRef τ sig) ∉ (opB (F := F)).writes := by
    simp only [StableHlo.reshape_writes, Finset.mem_singleton]; exact StableHlo.devRef_ne_of_ne (by decide)
  exact ((opC).result_of_not_mem _ hC).trans (((opPath).result_of_not_mem _ hP).trans (((opLoss).result_of_not_mem _ hL).trans
    ((WlOut_of_ne (WlAll m d fo' fp') (OwAt (F := F) 1) (RcAt (F := F) 1) d main_arg0 (by decide)).trans
    (((Function.update_of_ne (by decide) _ _).trans (Function.update_of_ne (by decide) _ _)).trans
    (((opT).result_of_not_mem _ hT).trans ((WtOut_of_ne (W1 m) (OwAt (F := F) 0) (RcAt (F := F) 0) d main_arg0 (by decide)).trans
    (((opBias).result_of_not_mem _ hBi).trans (((opW).result_of_not_mem _ hW).trans (((opG).result_of_not_mem _ hG).trans ((opB).result_of_not_mem _ hB))))))))))

theorem W6_arg1 (d : Dev nD) (fo' : Buf (Elt F) (oLoc d)) (fp' : Buf (Elt F) (pLoc d)) :
    W6 m d fo' fp' (Proc.devRef .tc main_arg1) = W0 m d (Proc.devRef .tc main_arg1) := by
  have nR : ∀ {S S' : Shape} {e : EltTy} (x : Ref sig .tc) (y : Ref sig .tc), y ≠ main_arg1 → (Proc.devRef .tc main_arg1 : DevRef τ sig) ∉ ({Proc.devRef .tc y} : Finset (DevRef τ sig)) :=
    fun _ y h => by rw [Finset.mem_singleton]; exact StableHlo.devRef_ne_of_ne (Ne.symm h)
  have hC : (Proc.devRef .tc main_arg1 : DevRef τ sig) ∉ (opC (F := F)).writes := by
    simp only [StableHlo.nullary_writes, Finset.mem_singleton]; exact StableHlo.devRef_ne_of_ne (by decide)
  have hP : (Proc.devRef .tc main_arg1 : DevRef τ sig) ∉ (opPath (F := F)).writes := by
    simp only [StableHlo.reshape_writes, Finset.mem_singleton]; exact StableHlo.devRef_ne_of_ne (by decide)
  have hL : (Proc.devRef .tc main_arg1 : DevRef τ sig) ∉ (opLoss (F := F)).writes := by
    simp only [StableHlo.reshape_writes, Finset.mem_singleton]; exact StableHlo.devRef_ne_of_ne (by decide)
  have hT : (Proc.devRef .tc main_arg1 : DevRef τ sig) ∉ (opT (F := F)).writes := by
    simp only [StableHlo.reshape_writes, Finset.mem_singleton]; exact StableHlo.devRef_ne_of_ne (by decide)
  have hBi : (Proc.devRef .tc main_arg1 : DevRef τ sig) ∉ (opBias (F := F)).writes := by
    simp only [StableHlo.reshape_writes, Finset.mem_singleton]; exact StableHlo.devRef_ne_of_ne (by decide)
  have hW : (Proc.devRef .tc main_arg1 : DevRef τ sig) ∉ (opW (F := F)).writes := by
    simp only [StableHlo.unary_writes, Finset.mem_singleton]; exact StableHlo.devRef_ne_of_ne (by decide)
  have hG : (Proc.devRef .tc main_arg1 : DevRef τ sig) ∉ (opG (F := F)).writes := by
    simp only [StableHlo.reshape_writes, Finset.mem_singleton]; exact StableHlo.devRef_ne_of_ne (by decide)
  have hB : (Proc.devRef .tc main_arg1 : DevRef τ sig) ∉ (opB (F := F)).writes := by
    simp only [StableHlo.reshape_writes, Finset.mem_singleton]; exact StableHlo.devRef_ne_of_ne (by decide)
  exact ((opC).result_of_not_mem _ hC).trans (((opPath).result_of_not_mem _ hP).trans (((opLoss).result_of_not_mem _ hL).trans
    ((WlOut_of_ne (WlAll m d fo' fp') (OwAt (F := F) 1) (RcAt (F := F) 1) d main_arg1 (by decide)).trans
    (((Function.update_of_ne (by decide) _ _).trans (Function.update_of_ne (by decide) _ _)).trans
    (((opT).result_of_not_mem _ hT).trans ((WtOut_of_ne (W1 m) (OwAt (F := F) 0) (RcAt (F := F) 0) d main_arg1 (by decide)).trans
    (((opBias).result_of_not_mem _ hBi).trans (((opW).result_of_not_mem _ hW).trans (((opG).result_of_not_mem _ hG).trans ((opB).result_of_not_mem _ hB))))))))))

theorem W6_arg2 (d : Dev nD) (fo' : Buf (Elt F) (oLoc d)) (fp' : Buf (Elt F) (pLoc d)) :
    W6 m d fo' fp' (Proc.devRef .tc main_arg2) = W0 m d (Proc.devRef .tc main_arg2) := by
  have nR : ∀ {S S' : Shape} {e : EltTy} (x : Ref sig .tc) (y : Ref sig .tc), y ≠ main_arg2 → (Proc.devRef .tc main_arg2 : DevRef τ sig) ∉ ({Proc.devRef .tc y} : Finset (DevRef τ sig)) :=
    fun _ y h => by rw [Finset.mem_singleton]; exact StableHlo.devRef_ne_of_ne (Ne.symm h)
  have hC : (Proc.devRef .tc main_arg2 : DevRef τ sig) ∉ (opC (F := F)).writes := by
    simp only [StableHlo.nullary_writes, Finset.mem_singleton]; exact StableHlo.devRef_ne_of_ne (by decide)
  have hP : (Proc.devRef .tc main_arg2 : DevRef τ sig) ∉ (opPath (F := F)).writes := by
    simp only [StableHlo.reshape_writes, Finset.mem_singleton]; exact StableHlo.devRef_ne_of_ne (by decide)
  have hL : (Proc.devRef .tc main_arg2 : DevRef τ sig) ∉ (opLoss (F := F)).writes := by
    simp only [StableHlo.reshape_writes, Finset.mem_singleton]; exact StableHlo.devRef_ne_of_ne (by decide)
  have hT : (Proc.devRef .tc main_arg2 : DevRef τ sig) ∉ (opT (F := F)).writes := by
    simp only [StableHlo.reshape_writes, Finset.mem_singleton]; exact StableHlo.devRef_ne_of_ne (by decide)
  have hBi : (Proc.devRef .tc main_arg2 : DevRef τ sig) ∉ (opBias (F := F)).writes := by
    simp only [StableHlo.reshape_writes, Finset.mem_singleton]; exact StableHlo.devRef_ne_of_ne (by decide)
  have hW : (Proc.devRef .tc main_arg2 : DevRef τ sig) ∉ (opW (F := F)).writes := by
    simp only [StableHlo.unary_writes, Finset.mem_singleton]; exact StableHlo.devRef_ne_of_ne (by decide)
  have hG : (Proc.devRef .tc main_arg2 : DevRef τ sig) ∉ (opG (F := F)).writes := by
    simp only [StableHlo.reshape_writes, Finset.mem_singleton]; exact StableHlo.devRef_ne_of_ne (by decide)
  have hB : (Proc.devRef .tc main_arg2 : DevRef τ sig) ∉ (opB (F := F)).writes := by
    simp only [StableHlo.reshape_writes, Finset.mem_singleton]; exact StableHlo.devRef_ne_of_ne (by decide)
  exact ((opC).result_of_not_mem _ hC).trans (((opPath).result_of_not_mem _ hP).trans (((opLoss).result_of_not_mem _ hL).trans
    ((WlOut_of_ne (WlAll m d fo' fp') (OwAt (F := F) 1) (RcAt (F := F) 1) d main_arg2 (by decide)).trans
    (((Function.update_of_ne (by decide) _ _).trans (Function.update_of_ne (by decide) _ _)).trans
    (((opT).result_of_not_mem _ hT).trans (((WtOut_arr (W1 m) (OwAt (F := F) 0) (RcAt (F := F) 0) d 0).trans (((dat0 (VtOf (W1 m)) (OwAt (F := F) 0) (RcAt (F := F) 0) d).arrAt_in 0 rfl _).trans (A_eq0 (VtOf (W1 m)) (OwAt (F := F) 0) (RcAt (F := F) 0) d 0))).trans
    (((opBias).result_of_not_mem _ hBi).trans (((opW).result_of_not_mem _ hW).trans (((opG).result_of_not_mem _ hG).trans ((opB).result_of_not_mem _ hB))))))))))

theorem W6_arg3 (d : Dev nD) (fo' : Buf (Elt F) (oLoc d)) (fp' : Buf (Elt F) (pLoc d)) :
    W6 m d fo' fp' (Proc.devRef .tc main_arg3) = W0 m d (Proc.devRef .tc main_arg3) := by
  have nR : ∀ {S S' : Shape} {e : EltTy} (x : Ref sig .tc) (y : Ref sig .tc), y ≠ main_arg3 → (Proc.devRef .tc main_arg3 : DevRef τ sig) ∉ ({Proc.devRef .tc y} : Finset (DevRef τ sig)) :=
    fun _ y h => by rw [Finset.mem_singleton]; exact StableHlo.devRef_ne_of_ne (Ne.symm h)
  have hC : (Proc.devRef .tc main_arg3 : DevRef τ sig) ∉ (opC (F := F)).writes := by
    simp only [StableHlo.nullary_writes, Finset.mem_singleton]; exact StableHlo.devRef_ne_of_ne (by decide)
  have hP : (Proc.devRef .tc main_arg3 : DevRef τ sig) ∉ (opPath (F := F)).writes := by
    simp only [StableHlo.reshape_writes, Finset.mem_singleton]; exact StableHlo.devRef_ne_of_ne (by decide)
  have hL : (Proc.devRef .tc main_arg3 : DevRef τ sig) ∉ (opLoss (F := F)).writes := by
    simp only [StableHlo.reshape_writes, Finset.mem_singleton]; exact StableHlo.devRef_ne_of_ne (by decide)
  have hT : (Proc.devRef .tc main_arg3 : DevRef τ sig) ∉ (opT (F := F)).writes := by
    simp only [StableHlo.reshape_writes, Finset.mem_singleton]; exact StableHlo.devRef_ne_of_ne (by decide)
  have hBi : (Proc.devRef .tc main_arg3 : DevRef τ sig) ∉ (opBias (F := F)).writes := by
    simp only [StableHlo.reshape_writes, Finset.mem_singleton]; exact StableHlo.devRef_ne_of_ne (by decide)
  have hW : (Proc.devRef .tc main_arg3 : DevRef τ sig) ∉ (opW (F := F)).writes := by
    simp only [StableHlo.unary_writes, Finset.mem_singleton]; exact StableHlo.devRef_ne_of_ne (by decide)
  have hG : (Proc.devRef .tc main_arg3 : DevRef τ sig) ∉ (opG (F := F)).writes := by
    simp only [StableHlo.reshape_writes, Finset.mem_singleton]; exact StableHlo.devRef_ne_of_ne (by decide)
  have hB : (Proc.devRef .tc main_arg3 : DevRef τ sig) ∉ (opB (F := F)).writes := by
    simp only [StableHlo.reshape_writes, Finset.mem_singleton]; exact StableHlo.devRef_ne_of_ne (by decide)
  exact ((opC).result_of_not_mem _ hC).trans (((opPath).result_of_not_mem _ hP).trans (((opLoss).result_of_not_mem _ hL).trans
    ((WlOut_of_ne (WlAll m d fo' fp') (OwAt (F := F) 1) (RcAt (F := F) 1) d main_arg3 (by decide)).trans
    (((Function.update_of_ne (by decide) _ _).trans (Function.update_of_ne (by decide) _ _)).trans
    (((opT).result_of_not_mem _ hT).trans ((WtOut_of_ne (W1 m) (OwAt (F := F) 0) (RcAt (F := F) 0) d main_arg3 (by decide)).trans
    (((opBias).result_of_not_mem _ hBi).trans (((opW).result_of_not_mem _ hW).trans (((opG).result_of_not_mem _ hG).trans ((opB).result_of_not_mem _ hB))))))))))

theorem W6_arg4 (d : Dev nD) (fo' : Buf (Elt F) (oLoc d)) (fp' : Buf (Elt F) (pLoc d)) :
    W6 m d fo' fp' (Proc.devRef .tc main_arg4) = W0 m d (Proc.devRef .tc main_arg4) := by
  have nR : ∀ {S S' : Shape} {e : EltTy} (x : Ref sig .tc) (y : Ref sig .tc), y ≠ main_arg4 → (Proc.devRef .tc main_arg4 : DevRef τ sig) ∉ ({Proc.devRef .tc y} : Finset (DevRef τ sig)) :=
    fun _ y h => by rw [Finset.mem_singleton]; exact StableHlo.devRef_ne_of_ne (Ne.symm h)
  have hC : (Proc.devRef .tc main_arg4 : DevRef τ sig) ∉ (opC (F := F)).writes := by
    simp only [StableHlo.nullary_writes, Finset.mem_singleton]; exact StableHlo.devRef_ne_of_ne (by decide)
  have hP : (Proc.devRef .tc main_arg4 : DevRef τ sig) ∉ (opPath (F := F)).writes := by
    simp only [StableHlo.reshape_writes, Finset.mem_singleton]; exact StableHlo.devRef_ne_of_ne (by decide)
  have hL : (Proc.devRef .tc main_arg4 : DevRef τ sig) ∉ (opLoss (F := F)).writes := by
    simp only [StableHlo.reshape_writes, Finset.mem_singleton]; exact StableHlo.devRef_ne_of_ne (by decide)
  have hT : (Proc.devRef .tc main_arg4 : DevRef τ sig) ∉ (opT (F := F)).writes := by
    simp only [StableHlo.reshape_writes, Finset.mem_singleton]; exact StableHlo.devRef_ne_of_ne (by decide)
  have hBi : (Proc.devRef .tc main_arg4 : DevRef τ sig) ∉ (opBias (F := F)).writes := by
    simp only [StableHlo.reshape_writes, Finset.mem_singleton]; exact StableHlo.devRef_ne_of_ne (by decide)
  have hW : (Proc.devRef .tc main_arg4 : DevRef τ sig) ∉ (opW (F := F)).writes := by
    simp only [StableHlo.unary_writes, Finset.mem_singleton]; exact StableHlo.devRef_ne_of_ne (by decide)
  have hG : (Proc.devRef .tc main_arg4 : DevRef τ sig) ∉ (opG (F := F)).writes := by
    simp only [StableHlo.reshape_writes, Finset.mem_singleton]; exact StableHlo.devRef_ne_of_ne (by decide)
  have hB : (Proc.devRef .tc main_arg4 : DevRef τ sig) ∉ (opB (F := F)).writes := by
    simp only [StableHlo.reshape_writes, Finset.mem_singleton]; exact StableHlo.devRef_ne_of_ne (by decide)
  exact ((opC).result_of_not_mem _ hC).trans (((opPath).result_of_not_mem _ hP).trans (((opLoss).result_of_not_mem _ hL).trans
    ((WlOut_of_ne (WlAll m d fo' fp') (OwAt (F := F) 1) (RcAt (F := F) 1) d main_arg4 (by decide)).trans
    (((Function.update_of_ne (by decide) _ _).trans (Function.update_of_ne (by decide) _ _)).trans
    (((opT).result_of_not_mem _ hT).trans ((WtOut_of_ne (W1 m) (OwAt (F := F) 0) (RcAt (F := F) 0) d main_arg4 (by decide)).trans
    (((opBias).result_of_not_mem _ hBi).trans (((opW).result_of_not_mem _ hW).trans (((opG).result_of_not_mem _ hG).trans ((opB).result_of_not_mem _ hB))))))))))

theorem W6_args (d : Dev nD) (fo' : Buf (Elt F) (oLoc d)) (fp' : Buf (Elt F) (pLoc d)) :
    ∀ b ∈ (argRefs : Finset (DevRef τ sig)), W6 m d fo' fp' b = W0 m d b := by
  intro b hb
  simp only [argRefs, Finset.mem_insert, Finset.mem_singleton] at hb
  rcases hb with rfl | rfl | rfl | rfl | rfl
  exacts [W6_arg0 m d fo' fp', W6_arg1 m d fo' fp', W6_arg2 m d fo' fp', W6_arg3 m d fo' fp', W6_arg4 m d fo' fp']

-- a relation the call's results satisfy: nothing, for the frames; being the stated functions, for the values
variable (Rr : (d : Dev nD) → Buf (Elt F) (oLoc d) → Buf (Elt F) (pLoc d) → Prop)

/-- What @main leaves the claim: the arguments and the results at the return's contents, for results of the call in the relation. -/
abbrev FIN (d : Dev nD) : sProp 𝕄 :=
  iprop(∃ fo' fp', ⌜Rr d fo' fp'⌝ ∗ held (T d) outRefs (W6 m d fo' fp'))

/-- The pipelines as the launch pins them, and their ghost state on a core. -/
abbrev cfgsP : Fin 2 → Pipeline.Cfg sig Λ₀ := Pipeline.pin (pcfgs (F := F)) adm
abbrev G (d : Dev nD) : sProp 𝕄 :=
  iprop((bigSep Finset.univ fun p : Fin 2 => Pipeline.cellsGhost (cfgsP (F := F)) EP p d)
    ∗ (bigSep Finset.univ fun p : Fin 2 => Pipeline.toksInit (cfgsP (F := F)) EP p d))

theorem Otc_none (d : Dev nD) (n : ℕ) (g : GSem nD τ sig) : (K (F := F)).Otc d n g none = 0 := by
  by_contra h
  have := (K (F := F)).lev_of_Otc_pos (Nat.pos_of_ne_zero h)
  simp at this

/-- A TensorCore region of the certificate's signature, entered from the extended body table. -/
theorem wp_entry_lift (d : Dev nD) (p : Fin 2) (Φ : PUnit → sProp 𝕄) :
    wp frame (wpE (D (F := F)) 𝒱 (T d) none) Set.univ (.op (.customCall (Pipeline.entry p) ()) .ret) Φ
      ⊢ wp frame (wpE ((K (F := F)).defs (D (F := F))) 𝒱 (T d) none) Set.univ (Prog.lift (.customCall (SparseCore.inner (Pipeline.entry p)) ())) Φ :=
  (K (F := F)).wp_liftProg (D (F := F)) 𝒱 (T d) Set.univ none _ Φ

section Main

variable (fb : (d : Dev nD) → Buf (Elt F) (bLoc d)) (fg : (d : Dev nD) → Buf (Elt F) (gLoc d)) (ft : (d : Dev nD) → Buf (Elt F) (tLoc d))
  (fo : (d : Dev nD) → Buf (Elt F) (oLoc d)) (fp : (d : Dev nD) → Buf (Elt F) (pLoc d))
  (tdG : Dev nD → grid1.Coords → sProp (MT nD τ sig (HIx 1) (Elt F) ℕ UU ℕ)) [htd : ∀ d L, BI.Storable (upEmb : UEmb _ (MT nD τ sig (HIx 1) (Elt F) ℕ UU ℕ)) (tdG d L)]

/-- The remainders of the three inputs' shares the TensorCore keeps while the subcores hold their read tokens. -/
abbrev Rem (d : Dev nD) : sProp 𝕄 :=
  iprop((bLoc d ↦{shareDrop fullShare 32} fb d) ∗ (gLoc d ↦{shareDrop fullShare 32} fg d) ∗ (tLoc d ↦{shareDrop fullShare 32} ft d))

/-- The five arrays whole make the remainders and what the call hands the two SparseCores; -/
def StIntro : Prop := ∀ d : Dev nD,
  iprop((bLoc d ↦{fullShare} fb d) ∗ (gLoc d ↦{fullShare} fg d) ∗ (tLoc d ↦{fullShare} ft d) ∗ (oLoc d ↦{fullShare} fo d) ∗ (pLoc d ↦{fullShare} fp d))
    ⊢ (iprop(Rem fb fg ft d ∗ bigSep Finset.univ fun c : Fin ((K (F := F)).nCore 0) => (PG fb fg ft fo fp tdG).st 0 d c) : sProp 𝕄)
/-- and what it hands back with the remainders makes the inputs whole as they were and the results whole at some contents. -/
def DnElim : Prop := ∀ d : Dev nD,
  (iprop(Rem fb fg ft d ∗ bigSep Finset.univ fun c : Fin ((K (F := F)).nCore 0) => (PG fb fg ft fo fp tdG).dn 0 d c) : sProp 𝕄)
    ⊢ iprop((bLoc d ↦{fullShare} fb d) ∗ (gLoc d ↦{fullShare} fg d) ∗ (tLoc d ↦{fullShare} ft d)
        ∗ ∃ fo' fp', ⌜Rr d fo' fp'⌝ ∗ (oLoc d ↦{fullShare} fo') ∗ (pLoc d ↦{fullShare} fp'))

theorem hOpB : (opB (F := F)).bufs ⊆ Pipeline.ucRefs τ sig := Pipeline.sub_ucRefs _ (StableHlo.reshape_bufs_sub ..)
theorem hOpG : (opG (F := F)).bufs ⊆ Pipeline.ucRefs τ sig := Pipeline.sub_ucRefs _ (StableHlo.reshape_bufs_sub ..)
theorem hOpW : (opW (F := F)).bufs ⊆ Pipeline.ucRefs τ sig := Pipeline.sub_ucRefs _ (StableHlo.unary_bufs_sub ..)
theorem hOpBias : (opBias (F := F)).bufs ⊆ Pipeline.ucRefs τ sig := Pipeline.sub_ucRefs _ (StableHlo.reshape_bufs_sub ..)
theorem hOpT : (opT (F := F)).bufs ⊆ Pipeline.ucRefs τ sig := Pipeline.sub_ucRefs _ (StableHlo.reshape_bufs_sub ..)
theorem hOpLoss : (opLoss (F := F)).bufs ⊆ Pipeline.ucRefs τ sig := Pipeline.sub_ucRefs _ (StableHlo.reshape_bufs_sub ..)
theorem hOpPath : (opPath (F := F)).bufs ⊆ Pipeline.ucRefs τ sig := Pipeline.sub_ucRefs _ (StableHlo.reshape_bufs_sub ..)
theorem hOpC : (opC (F := F)).bufs ⊆ Pipeline.ucRefs τ sig := Pipeline.sub_ucRefs _ (StableHlo.nullary_bufs_sub ..)

set_option maxHeartbeats 2000000 in
set_option backward.isDefEq.respectTransparency.types false in
theorem hmain (hst : StIntro (fbOf m) (fgOf m) (ftOf m) (foOf m) (fpOf m) tdG) (hdn : DnElim Rr (fbOf m) (fgOf m) (ftOf m) (foOf m) (fpOf m) tdG)
    (κ : GSem nD τ sig → ℕ) (d : Dev nD) :
    iprop((K (F := F)).ctx EH (PG (fbOf m) (fgOf m) (ftOf m) (foOf m) (fpOf m) tdG) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m Rr d) := by
  unfold SparseCore.Cfg.tcRes SparseCore.Cfg.tcSt
  simp only [main, wp_bind, wp_pure]
  iintro ⟨#Hctx, ⟨⟨%Ws, %hWs, HO⟩, Htail⟩, ⟨Hb, Hub, Hsems, Hprng⟩, ⟨Hcgs, Htks⟩⟩
  ihave Hcg := (Entails.of_eq (bigSep_W2 (fun p : Fin 2 => (Pipeline.cellsGhost (cfgsP (F := F)) EP p d : sProp 𝕄)))) $$ Hcgs
  icases Hcg with ⟨Hcg0, Hcg1⟩
  ihave Htk := (Entails.of_eq (bigSep_W2 (fun p : Fin 2 => (Pipeline.toksInit (cfgsP (F := F)) EP p d : sProp 𝕄)))) $$ Htks
  icases Htk with ⟨Htk0, Htk1⟩
  ihave Hlev := (SparseCore.Cfg.ctx_levAts κ) $$ Hctx
  ihave Hheld := (Entails.of_eq (Pipeline.unscopedBufs_held (Ix := HIx 1) (Name := ℕ) (U := UU) (Lvl := ℕ) d (W0 m d))) $$ Hub
  iapply (wp_hlo_within 𝒱 (T d) none Set.univ (op := opB) (S := Pipeline.ucRefs τ sig) hOpB (V := W0 m d)) $$ [Hb Hheld]
  · isplitl [Hb]; · iexact Hb
    iexact Hheld
  iintro ⟨Hb, Hheld⟩
  rw [wp_ret]; imodintro
  iapply (wp_hlo_within 𝒱 (T d) none Set.univ (op := opG) (S := Pipeline.ucRefs τ sig) hOpG (V := (opB).result (W0 m d))) $$ [Hb Hheld]
  · isplitl [Hb]; · iexact Hb
    iexact Hheld
  iintro ⟨Hb, Hheld⟩
  rw [wp_ret]; imodintro
  iapply (wp_hlo_within 𝒱 (T d) none Set.univ (op := opW) (S := Pipeline.ucRefs τ sig) hOpW (V := (opG).result ((opB).result (W0 m d)))) $$ [Hb Hheld]
  · isplitl [Hb]; · iexact Hb
    iexact Hheld
  iintro ⟨Hb, Hheld⟩
  rw [wp_ret]; imodintro
  iapply (wp_hlo_within 𝒱 (T d) none Set.univ (op := opBias) (S := Pipeline.ucRefs τ sig) hOpBias (V := (opW).result ((opG).result ((opB).result (W0 m d))))) $$ [Hb Hheld]
  · isplitl [Hb]; · iexact Hb
    iexact Hheld
  iintro ⟨Hb, Hheld⟩
  rw [wp_ret]; imodintro
  iapply (wp_entry_lift d 0 _)
  iapply (Pipeline.RegionSeg.wp (pcfgs (F := F)) adm
      (pdats (W1 m) (W1 m) (OwAt (F := F) 0) (OwAt (F := F) 0) (RcAt (F := F) 0) (RcAt (F := F) 0)) (none : HIx 1) cellOf_inj EP defs₀ 𝒱₀
      (K (F := F)).L (K (F := F)).lev
      (regTable (W1 m) (W1 m) (OwAt (F := F) 0) (OwAt (F := F) 0) (RcAt (F := F) 0) (RcAt (F := F) 0) (fun c g => Otc_none c 0 g))
      d none (fun u hu => nomatch hu) Prog.ret _)
  dsimp only [regTable]
  isplitr [Hb Hheld Hprng HO Hcg0 Htk0]
  swap
  · isplitl [Hb]; · iexact Hb
    isplitl [Hheld Hprng HO]
    · isplitl [Hheld]; · iexact Hheld
      isplitl [Hprng]; · iexists _; iexact Hprng
      iexists Ws; isplitr
      · ipureintro; exact fun p hp => hWs p hp
      iexact HO
    isplitr; · iexact Hlev
    isplitl [Hcg0]; · iexact Hcg0
    iexact Htk0
  iintro ⟨Hb, Hheld, Hprng, HO⟩
  rw [wp_ret]; imodintro
  -- the table flattened
  iapply (wp_hlo_within 𝒱 (T d) none Set.univ (op := opT) (S := Pipeline.ucRefs τ sig) hOpT (V := W2 m d)) $$ [Hb Hheld]
  · isplitl [Hb]; · iexact Hb
    iexact Hheld
  iintro ⟨Hb, Hheld⟩
  rw [wp_ret]; imodintro
  -- the call: its five arrays out of the unscoped buffers, split among the subcores
  ihave Hh := (Entails.of_eq (StableHlo.held_sub_split (T d) callRefs_sub (W3 m d))) $$ Hheld
  icases Hh with ⟨Hcall, Hrest⟩
  ihave Hc := (Entails.of_eq (held_callRefs d (W3 m d))) $$ Hcall
  ihave Hc' := (hst d) $$ Hc
  icases Hc' with ⟨Hrem, Hsts⟩
  icases HO with ⟨%W1s, %hW1, HO⟩
  iapply ((K (F := F)).wp_run (D (F := F)) 𝒱 (EH := EH) (P := PG (fbOf m) (fgOf m) (ftOf m) (foOf m) (fpOf m) tdG) κ d 0)
  unfold SparseCore.Cfg.tcSt
  isplitr; · iexact Hctx
  isplitl [HO Htail]
  · isplitl [HO]
    · iexists W1s; isplitr
      · ipureintro; intro p hp
        rcases hW1 hp with h | ⟨w, s, rfl⟩
        · exact h
        · simp
      iexact HO
    iexact Htail
  isplitl [Hsts]; · iexact Hsts
  iintro ⟨⟨⟨%W2s, %hW2, HO⟩, Htail⟩, Hdn⟩
  -- the results back, the inputs whole again
  ihave Hback := (hdn d) $$ [Hrem Hdn]
  · isplitl [Hrem] <;> iassumption
  icases Hback with ⟨Hbb, Hgg, Htt, %fo', %fp', %hRr, Hoo, Hpp⟩
  ihave Hcall := (Entails.of_eq (held_callRefs_W4 m d fo' fp').symm) $$ [Hbb Hgg Htt Hoo Hpp]
  · isplitl [Hbb]; · iexact Hbb
    isplitl [Hgg]; · iexact Hgg
    isplitl [Htt]; · iexact Htt
    isplitl [Hoo]; · iexact Hoo
    iexact Hpp
  ihave Hrest' := (Entails.of_eq (held_rest_W4 m d fo' fp').symm) $$ Hrest
  ihave Hheld := (Entails.of_eq (StableHlo.held_sub_split (T d) callRefs_sub (W4 m d fo' fp')).symm) $$ [Hcall Hrest']
  · isplitl [Hcall] <;> iassumption
  -- the loss region
  iapply (wp_entry_lift d 1 _)
  iapply (Pipeline.RegionSeg.wp (pcfgs (F := F)) adm
      (pdats (W1 m) (WlAll m d fo' fp') (OwAt (F := F) 0) (OwAt (F := F) 1) (RcAt (F := F) 0) (RcAt (F := F) 1)) (none : HIx 1) cellOf_inj EP defs₀ 𝒱₀
      (K (F := F)).L (K (F := F)).lev
      (regLoss (W1 m) (WlAll m d fo' fp') (OwAt (F := F) 0) (OwAt (F := F) 1) (RcAt (F := F) 0) (RcAt (F := F) 1) (fun c g => Otc_none c 1 g))
      d none (fun u hu => nomatch hu) Prog.ret _)
  dsimp only [regLoss]
  isplitr [Hb Hheld Hprng HO Hcg1 Htk1]
  swap
  · isplitl [Hb]; · iexact Hb
    isplitl [Hheld Hprng HO]
    · isplitl [Hheld]; · iexact Hheld
      isplitl [Hprng]; · iexact Hprng
      iexists W2s; isplitr
      · ipureintro; exact fun p hp => hW2 p hp
      iexact HO
    isplitr; · iexact Hlev
    isplitl [Hcg1]; · iexact Hcg1
    iexact Htk1
  iintro ⟨Hb, Hheld, Hprng, HO⟩
  rw [wp_ret]; imodintro
  -- the loss as a scalar, the code path unflattened, the constant
  iapply (wp_hlo_within 𝒱 (T d) none Set.univ (op := opLoss) (S := Pipeline.ucRefs τ sig) hOpLoss (V := W5 m d fo' fp')) $$ [Hb Hheld]
  · isplitl [Hb]; · iexact Hb
    iexact Hheld
  iintro ⟨Hb, Hheld⟩
  rw [wp_ret]; imodintro
  iapply (wp_hlo_within 𝒱 (T d) none Set.univ (op := opPath) (S := Pipeline.ucRefs τ sig) hOpPath (V := (opLoss).result (W5 m d fo' fp'))) $$ [Hb Hheld]
  · isplitl [Hb]; · iexact Hb
    iexact Hheld
  iintro ⟨Hb, Hheld⟩
  rw [wp_ret]; imodintro
  iapply (wp_hlo_within 𝒱 (T d) none Set.univ (op := opC) (S := Pipeline.ucRefs τ sig) hOpC (V := (opPath).result ((opLoss).result (W5 m d fo' fp')))) $$ [Hb Hheld]
  · isplitl [Hb]; · iexact Hb
    iexact Hheld
  iintro ⟨Hb, Hheld⟩
  rw [wp_ret]; imodintro; imodintro
  isplitl [HO Htail]
  · isplitl [HO]
    · icases HO with ⟨%W3s, %hW3, HO⟩
      iexists W3s; isplitr
      · ipureintro; intro p hp
        rcases hW3 hp with h | ⟨w, s, rfl⟩
        · exact h
        · simp
      iexact HO
    iexact Htail
  ihave Hh := (Entails.of_eq (StableHlo.held_sub_split (T d) outRefs_sub (W6 m d fo' fp'))) $$ Hheld
  icases Hh with ⟨Houts, -⟩
  iexists fo'; iexists fp'; isplitr
  · ipureintro; exact hRr
  iexact Houts

/-! ## Reading the claim off the final memory -/

def fq (d : Dev nD) (s' : Phys nD τ sig (Elt F)) : Prop :=
  ∃ fo' fp', Rr d fo' fp' ∧ ∀ b ∈ (outRefs : Finset (DevRef τ sig)), s'.mem.mem (d, b) = W6 m d fo' fp' b

theorem hfin (d : Dev nD) (s' : Phys nD τ sig (Elt F)) : iprop(FIN m Rr d ∗ SI s') ⊢ (⌜fq m Rr d s'⌝ : sProp 𝕄) := by
  show iprop((∃ fo' fp', ⌜Rr d fo' fp'⌝ ∗ bigSep outRefs fun b => (((d, b) : Loc nD τ sig) ↦{fullShare} W6 m d fo' fp' b : sProp 𝕄)) ∗ SI s') ⊢ _
  iintro ⟨⟨%fo', %fp', %hRr, Hh⟩, HSI⟩
  ihave H := ((pointsTo_read_all outRefs (fun b => ((d, b) : Loc nD τ sig)) (W6 m d fo' fp') s').trans sep_elim_left) $$ [Hh HSI]
  · isplitl [Hh]
    · iexact Hh
    iexact HSI
  icases H with %h
  ipureintro; exact ⟨fo', fp', hRr, h⟩

/-! ## The launch element -/

def u₀ : UU :=
  (initOf (K (F := F)).hsCells (K (F := F)).hsToks,
    (initOf (Pipeline.cells (nD := nD) (τ := τ) (cfgsP (F := F)) cellOf_inj) (Pipeline.launchToks (nD := nD) (τ := τ) (cfgsP (F := F)) cellOf_inj), (1 : Counters)))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PG fb fg ft fo fp tdG).x q thr) := by
  unfold u₀
  iintro Hu
  ihave H := (ownU_pair _ _) $$ Hu
  icases H with ⟨HH, HR⟩
  ihave HP := (show (BI.own (embR (A := UH) ((initOf (Pipeline.cells (nD := nD) (τ := τ) (cfgsP (F := F)) cellOf_inj) (Pipeline.launchToks (nD := nD) (τ := τ) (cfgsP (F := F)) cellOf_inj), (1 : Counters)) : UP × Counters)) : sProp 𝕄)
      ⊢ BI.own (EP (initOf (Pipeline.cells (nD := nD) (τ := τ) (cfgsP (F := F)) cellOf_inj) (Pipeline.launchToks (nD := nD) (τ := τ) (cfgsP (F := F)) cellOf_inj))) from .rfl) $$ HR
  imod (Pipeline.fund_ghost (cfgsP (F := F)) EP cellOf_inj) $$ HP with ⟨Hcg, Htk⟩
  imodintro
  isplitl [HH]; · iexact HH
  isplitl [Hcg Htk]
  · rw [bigSep_sep']
    isplitl [Hcg] <;> iassumption
  unfold PG; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Main

/-! ## The program's run -/

variable (Rr : (d : Dev nD) → Buf (Elt F) (oLoc d) → Buf (Elt F) (pLoc d) → Prop)
  (tdG : Dev nD → grid1.Coords → sProp (MT nD τ sig (HIx 1) (Elt F) ℕ UU ℕ)) [htd : ∀ d L, BI.Storable (upEmb : UEmb _ (MT nD τ sig (HIx 1) (Elt F) ℕ UU ℕ)) (tdG d L)]

/-- The final memory: for results of the call in the relation, the arguments and the results at the return's contents. -/
def QC : PUnit × MemSt nD τ sig (Elt F) → Prop := fun r => ∀ c : Dev nD,
  ∃ fo' fp', Rr c fo' fp' ∧ ∀ b ∈ (outRefs : Finset (DevRef τ sig)), r.2.mem (c, b) = W6 m c fo' fp' b

theorem run_main [∀ e, Nonempty (Elt F e)]
    (hbody : TileBodyStmtG (fbOf m) (fgOf m) (ftOf m) (foOf m) (fpOf m) tdG) (hpre : PreOK (fbOf m))
    (hst : StIntro (fbOf m) (fgOf m) (ftOf m) (foOf m) (fpOf m) tdG) (hdn : DnElim Rr (fbOf m) (fgOf m) (ftOf m) (foOf m) (fpOf m) tdG) :
    θ_run (Cert.Kernel.defs (F := F)) (Cert.Kernel.threads (F := F)) ⟨m, fun _ => 0, ρ⟩ (QC m Rr) :=
  SparseCore.Cfg.θ_run_sc (K := K (F := F)) (D := D (F := F)) (𝒱 := 𝒱) (EH := EH) (P := PG (fbOf m) (fgOf m) (ftOf m) (foOf m) (fpOf m) tdG) facts v₀
    (fun q hq => match q with | 0 => nomatch hq)
    (fun q _ => match q with | 0 => tileOblG _ _ _ _ _ tdG hbody hpre)
    (fun q _ => match q with | 0 => SparseCore.Cfg.VecSplit.of_plain (vecSplitG _ _ _ _ _ tdG))
    m ρ main (G (F := F)) (FIN m Rr) (u₀ (F := F)) (sep_elim_left.trans (hu₀ _ _ _ _ _ tdG)) (hmain m ρ Rr tdG hst hdn) (fq m Rr) (hfin m Rr) (QC m Rr)
    (fun s' h c => h c)

end Cert.Proof.KB

end
-- ==== Proof.PreOKB.lean ====
/-
  The flattened byte stream the SparseCore call reads is the byte argument reshaped: no later host operation and no
  TensorCore region writes it. So under the precondition — every byte between 0 and 255 — every word of it is below
  256, which is what makes each table index a vector subcore computes name a word of the code table.
-/
import proofs.«204536_g87462714016206_cont_9to1c4b_719_4_alg».proof.Proof.LaunchB
import proofs.«204536_g87462714016206_cont_9to1c4b_719_4_alg».proof.Proof.PreBytes

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx)
open Idealize.SL Idealize.SL.Sem

variable {F : FTy → Type} [FloatOps F]

variable (m : (ℓ : Loc nD τ sig) → Buf (Elt F) ℓ)

theorem fbOf_eq (d : Dev nD) :
    fbOf m d = shapeCast S3276800 (m ((SparseCore.T d).loc main_arg0) : IVec S16384x200 32) shapeCasts_S16384x200_S3276800 := by
  have hT : (Proc.devRef .tc main_v0 : DevRef τ sig) ∉ (opT (F := F)).writes := by
    simp only [StableHlo.reshape_writes, Finset.mem_singleton]; exact StableHlo.devRef_ne_of_ne (by decide)
  have hBi : (Proc.devRef .tc main_v0 : DevRef τ sig) ∉ (opBias (F := F)).writes := by
    simp only [StableHlo.reshape_writes, Finset.mem_singleton]; exact StableHlo.devRef_ne_of_ne (by decide)
  have hW : (Proc.devRef .tc main_v0 : DevRef τ sig) ∉ (opW (F := F)).writes := by
    simp only [StableHlo.unary_writes, Finset.mem_singleton]; exact StableHlo.devRef_ne_of_ne (by decide)
  have hG : (Proc.devRef .tc main_v0 : DevRef τ sig) ∉ (opG (F := F)).writes := by
    simp only [StableHlo.reshape_writes, Finset.mem_singleton]; exact StableHlo.devRef_ne_of_ne (by decide)
  exact ((opT).result_of_not_mem _ hT).trans ((WtOut_of_ne (W1 m) (OwAt (F := F) 0) (RcAt (F := F) 0) d main_v0 (by decide)).trans
    (((opBias).result_of_not_mem _ hBi).trans (((opW).result_of_not_mem _ hW).trans (((opG).result_of_not_mem _ hG).trans
      (StableHlo.reshape_result main_arg0 main_v0 rfl shapeCasts_S16384x200_S3276800 _ _ (W0 m d))))))

/-- From the precondition's function at the argument arrays being all ones, every word the call reads as a byte is below 256. -/
theorem preOK_of_fn
    (h : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    PreOK (fbOf m) := by
  intro d j
  rw [fbOf_eq]
  unfold shapeCast
  exact Cert.PreBytes.byte_lt _ _ _ _ _ (h d) _

end Cert.Proof.KB

end
-- ==== Proof.SplitB.lean ====
/-
  How the SparseCore call's arrays divide among the 2 × 16 vector subcores and come back together: the code path is
  the disjoint union of the 512 chunks of 25600 words the subcores slice (chunk `g` of the subcore at `(c, s)` starts at
  word `(2 s + c) · 409600 + 25600 g`), the partial sums of the 32 rows (row `2 s + c`), and a full share of an input is
  a remainder and 32 read tokens, one per worker number `2 s + c`.
-/
import proofs.«204536_g87462714016206_cont_9to1c4b_719_4_alg».proof.Proof.CallB

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type} [FloatOps F]

local notation "𝕄" => MT nD τ sig (HIx 1) (Elt F) ℕ UU ℕ

theorem trips_eq : k1_t1_loop.trips = 16 := by decide

/-- Worker numbers: `(c, s) ↦ 2 s + c` is a bijection from `Fin 2 × Fin 16` onto `Fin 32`. -/
def widE : Fin 2 × Fin 16 ≃ Fin 32 where
  toFun p := ⟨2 * p.2.val + p.1.val, by have := p.1.isLt; have := p.2.isLt; omega⟩
  invFun w := (⟨w.val % 2, Nat.mod_lt _ (by omega)⟩, ⟨w.val / 2, by have := w.isLt; omega⟩)
  left_inv p := by
    have h1 := p.1.isLt; have h2 := p.2.isLt
    refine Prod.ext (Fin.ext ?_) (Fin.ext ?_)
    · show (2 * p.2.val + p.1.val) % 2 = p.1.val; omega
    · show (2 * p.2.val + p.1.val) / 2 = p.2.val; omega
  right_inv w := by
    refine Fin.ext ?_
    show 2 * (w.val / 2) + w.val % 2 = w.val; omega

/-- Chunk numbers: `(c, s, g) ↦ 32 s + 16 c + g` is a bijection from `Fin 2 × Fin 16 × Fin 16` onto `Fin 512`. -/
def chunkE : Fin 2 × Fin 16 × Fin 16 ≃ Fin 512 where
  toFun t := ⟨32 * t.2.1.val + 16 * t.1.val + t.2.2.val, by have := t.1.isLt; have := t.2.1.isLt; have := t.2.2.isLt; omega⟩
  invFun n := (⟨n.val / 16 % 2, Nat.mod_lt _ (by omega)⟩, ⟨n.val / 32, by have := n.isLt; omega⟩, ⟨n.val % 16, Nat.mod_lt _ (by omega)⟩)
  left_inv t := by
    have h1 := t.1.isLt; have h2 := t.2.1.isLt; have h3 := t.2.2.isLt
    refine Prod.ext (Fin.ext ?_) (Prod.ext (Fin.ext ?_) (Fin.ext ?_))
    · show (32 * t.2.1.val + 16 * t.1.val + t.2.2.val) / 16 % 2 = t.1.val; omega
    · show (32 * t.2.1.val + 16 * t.1.val + t.2.2.val) / 32 = t.2.1.val; omega
    · show (32 * t.2.1.val + 16 * t.1.val + t.2.2.val) % 16 = t.2.2.val; omega
  right_inv n := by
    refine Fin.ext ?_
    show 32 * (n.val / 32) + 16 * (n.val / 16 % 2) + n.val % 16 = n.val; omega

theorem wid_coordsV (c : Fin 2) (s : Fin 16) : wid (coordsV c s) = widE (c, s) := rfl

theorem hdivO : 512 ∣ S13107200.size 0 := ⟨25600, rfl⟩
theorem hdivP : 32 ∣ S32x16.size 0 := ⟨1, rfl⟩
abbrev oPart (n : Fin 512) : Rect S13107200 := Rect.part (s := S13107200) (a₀ := 0) hdivO n
abbrev pPart (w : Fin 32) : Rect S32x16 := Rect.part (s := S32x16) (a₀ := 0) hdivP w

/-- The chunk a subcore slices, spelt through the program's offset, is one of the 512 parts of the code path. -/
theorem oRect_eq (c : Fin 2) (s : Fin 16) (g : Fin k1_t1_loop.trips) :
    Rect.unit (s := S13107200) (k1_off2 (coordsV c s) g) S25600.size (k1_off2_inb (coordsV c s) g)
      = oPart (chunkE (c, s, Fin.cast trips_eq g)) := by
  unfold oPart Rect.part Rect.block
  congr 1 <;> funext a
  · rw [k1_off2_eq]
    match a with
    | 0 => simp [Shape.partIx, Shape.partSize, chunkE, coordsV]; omega
  · match a with
    | 0 => simp [Shape.partSize]

theorem pRect_eq (c : Fin 2) (s : Fin 16) :
    Rect.unit (s := S32x16) (k1_off7 (coordsV c s)) S1x16.size (k1_off7_inb (coordsV c s)) = pPart (widE (c, s)) := by
  unfold pPart Rect.part Rect.block
  congr 1 <;> funext a
  · rw [k1_off7_eq]
    match a with
    | 0 => simp [Shape.partIx, Shape.partSize, widE, coordsV]
    | 1 => simp [Shape.partIx, Shape.partSize]
  · match a with
    | 0 => simp [Shape.partSize]
    | 1 => simp [Shape.partSize]

theorem set_oChunk (c : Fin 2) (s : Fin 16) (g : Fin k1_t1_loop.trips) :
    (oChunk (coordsV c s) g).view.set = (oPart (chunkE (c, s, Fin.cast trips_eq g))).set := by
  show ((oV : Memref sig .scVector .hbm S13107200 .f32).view.slice
      (Rect.unit (s := S13107200) (k1_off2 (coordsV c s) g) S25600.size (k1_off2_inb (coordsV c s) g))).set = _
  rw [View.set_slice, oRect_eq]; exact Finset.map_refl

theorem set_pRow (c : Fin 2) (s : Fin 16) : (pRow (coordsV c s)).view.set = (pPart (widE (c, s))).set := by
  show (((pV : Memref sig .scVector .hbm S32x16 .f32).view.slice
      (Rect.unit (s := S32x16) (k1_off7 (coordsV c s)) S1x16.size (k1_off7_inb (coordsV c s)))).reshape S16 squeezes_S1x16_S16.numel_eq).set = _
  rw [View.set_reshape, View.set_slice]
  exact Finset.map_refl.trans (congrArg (fun r : Rect S32x16 => r.set) (pRect_eq c s))

/-! ## Families over the subcores, renumbered -/

/-- A family over the 2 × 16 subcores that sees the place through its worker number only is the family over the 32
    worker numbers. -/
theorem bigSep_wids (Φ : Fin 32 → sProp 𝕄) :
    (bigSep Finset.univ fun c : Fin ((K (F := F)).nCore 0) => bigSep Finset.univ fun i : Fin ((K (F := F)).nSub 0) =>
        Φ (widE (Fin.cast nCore_zero c, Fin.cast nSub_zero i))) = bigSep Finset.univ Φ := by
  rw [bigSep_univ_equiv widE Φ, bigSep_univ_prod]
  exact bigSep_congr fun c _ => bigSep_congr fun i _ => rfl

/-- A family over the subcores' chunks that sees the chunk through its number only is the family over the 512 chunk
    numbers. -/
theorem bigSep_chunks (Φ : Fin 512 → sProp 𝕄) :
    (bigSep Finset.univ fun c : Fin ((K (F := F)).nCore 0) => bigSep Finset.univ fun i : Fin ((K (F := F)).nSub 0) =>
        bigSep Finset.univ fun g : Fin k1_t1_loop.trips =>
          Φ (chunkE (Fin.cast nCore_zero c, Fin.cast nSub_zero i, Fin.cast trips_eq g))) = bigSep Finset.univ Φ := by
  rw [bigSep_univ_equiv chunkE Φ, bigSep_univ_prod]
  refine bigSep_congr fun c _ => ?_
  rw [bigSep_univ_prod]
  exact bigSep_congr fun i _ => bigSep_congr fun g _ => rfl

/-! ## An array whole and its parts -/

section Parts

variable {ℓ : Loc nD τ sig} {X : Type} [Fintype X] [DecidableEq X] (J : X → Finset (Idx ℓ))
  (hd : ∀ x ∈ (Finset.univ : Finset X), ∀ y ∈ (Finset.univ : Finset X), x ≠ y → Disjoint (J x) (J y))
  (hc : (Finset.univ : Finset X).biUnion J = Finset.univ)

include hd hc in
/-- An array held whole is held part by part, over a family of pairwise disjoint parts that cover it. -/
theorem whole_parts (f : Buf (Elt F) ℓ) :
    (ℓ ↦{fullShare} f : sProp 𝕄) = bigSep Finset.univ fun x : X => ℓ ↦[J x]{fullShare} f := by
  rw [← pointsTo_biUnion Finset.univ (ℓ := ℓ) J hd, hc]

include hd hc in
/-- The parts, each held at some contents, are the array whole at some contents. -/
theorem parts_whole (x₀ : X) :
    (bigSep Finset.univ fun x : X => iprop(∃ f, ℓ ↦[J x]{fullShare} f)) ⊢ (iprop(∃ f, ℓ ↦{fullShare} f) : sProp 𝕄) := by
  refine (bigSep_exists_pi Finset.univ (fun x (f : Buf (Elt F) ℓ) => ℓ ↦[J x]{fullShare} f)).trans ?_
  iintro ⟨%fs, H⟩
  ihave H' := (pointsTo_biUnion_join Finset.univ J fs (fs x₀) hd) $$ H
  icases H' with ⟨%g, -, Hg⟩
  rw [hc]
  iexists g; iexact Hg

end Parts

theorem oParts_disjoint : ∀ n ∈ (Finset.univ : Finset (Fin 512)), ∀ n' ∈ (Finset.univ : Finset (Fin 512)), n ≠ n' →
    Disjoint (oPart n).set (oPart n').set := fun _ _ _ _ h => Rect.part_disjoint hdivO h
theorem oParts_cover : (Finset.univ : Finset (Fin 512)).biUnion (fun n => (oPart n).set) = Finset.univ := Rect.biUnion_part hdivO
theorem pParts_disjoint : ∀ w ∈ (Finset.univ : Finset (Fin 32)), ∀ w' ∈ (Finset.univ : Finset (Fin 32)), w ≠ w' →
    Disjoint (pPart w).set (pPart w').set := fun _ _ _ _ h => Rect.part_disjoint hdivP h
theorem pParts_cover : (Finset.univ : Finset (Fin 32)).biUnion (fun w => (pPart w).set) = Finset.univ := Rect.biUnion_part hdivP

/-- The code path whole is its 512 chunks. -/
theorem o_split (d : Dev nD) (f : Buf (Elt F) (oLoc d)) :
    (oLoc d ↦{fullShare} f : sProp 𝕄)
      ⊢ bigSep Finset.univ fun c : Fin ((K (F := F)).nCore 0) => bigSep Finset.univ fun i : Fin ((K (F := F)).nSub 0) =>
          bigSep Finset.univ fun g : Fin k1_t1_loop.trips => oLoc d ↦[(oChunk (placeOf (F := F) c i) g).view.set]{fullShare} f := by
  rw [whole_parts (ℓ := oLoc d) (fun n : Fin 512 => (oPart n).set) oParts_disjoint oParts_cover f,
    ← bigSep_chunks (F := F) (fun n => oLoc d ↦[(oPart n).set]{fullShare} f)]
  exact Entails.of_eq (bigSep_congr fun c _ => bigSep_congr fun i _ => bigSep_congr fun g _ =>
    congrArg (fun I => (oLoc d ↦[I]{fullShare} f : sProp 𝕄)) (set_oChunk _ _ g).symm)

/-- The chunks, each at some contents, are the code path whole at some contents. -/
theorem o_join (d : Dev nD) :
    (bigSep Finset.univ fun c : Fin ((K (F := F)).nCore 0) => bigSep Finset.univ fun i : Fin ((K (F := F)).nSub 0) =>
        bigSep Finset.univ fun g : Fin k1_t1_loop.trips => iprop(∃ f, oLoc d ↦[(oChunk (placeOf (F := F) c i) g).view.set]{fullShare} f))
      ⊢ (iprop(∃ f, oLoc d ↦{fullShare} f) : sProp 𝕄) := by
  refine (Entails.of_eq ?_).trans (parts_whole (ℓ := oLoc d) (fun n : Fin 512 => (oPart n).set) oParts_disjoint oParts_cover 0)
  rw [← bigSep_chunks (F := F) (fun n => iprop(∃ f, oLoc d ↦[(oPart n).set]{fullShare} f))]
  exact bigSep_congr fun c _ => bigSep_congr fun i _ => bigSep_congr fun g _ =>
    congrArg (fun I => (iprop(∃ f, oLoc d ↦[I]{fullShare} f) : sProp 𝕄)) (set_oChunk _ _ g)

/-- The partial sums whole are their 32 rows. -/
theorem p_split (d : Dev nD) (f : Buf (Elt F) (pLoc d)) :
    (pLoc d ↦{fullShare} f : sProp 𝕄)
      ⊢ bigSep Finset.univ fun c : Fin ((K (F := F)).nCore 0) => bigSep Finset.univ fun i : Fin ((K (F := F)).nSub 0) =>
          pLoc d ↦[(pRow (placeOf (F := F) c i)).view.set]{fullShare} f := by
  rw [whole_parts (ℓ := pLoc d) (fun w : Fin 32 => (pPart w).set) pParts_disjoint pParts_cover f,
    ← bigSep_wids (F := F) (fun w => pLoc d ↦[(pPart w).set]{fullShare} f)]
  exact Entails.of_eq (bigSep_congr fun c _ => bigSep_congr fun i _ =>
    congrArg (fun I => (pLoc d ↦[I]{fullShare} f : sProp 𝕄)) (set_pRow _ _).symm)

theorem p_join (d : Dev nD) :
    (bigSep Finset.univ fun c : Fin ((K (F := F)).nCore 0) => bigSep Finset.univ fun i : Fin ((K (F := F)).nSub 0) =>
        iprop(∃ f, pLoc d ↦[(pRow (placeOf (F := F) c i)).view.set]{fullShare} f))
      ⊢ (iprop(∃ f, pLoc d ↦{fullShare} f) : sProp 𝕄) := by
  refine (Entails.of_eq ?_).trans (parts_whole (ℓ := pLoc d) (fun w : Fin 32 => (pPart w).set) pParts_disjoint pParts_cover 0)
  rw [← bigSep_wids (F := F) (fun w => iprop(∃ f, pLoc d ↦[(pPart w).set]{fullShare} f))]
  exact bigSep_congr fun c _ => bigSep_congr fun i _ =>
    congrArg (fun I => (iprop(∃ f, pLoc d ↦[I]{fullShare} f) : sProp 𝕄)) (set_pRow _ _)

/-- A full share of an array is a remainder and one read token per vector subcore (the token of its worker number). -/
theorem tok_split (ℓ : Loc nD τ sig) (f : Buf (Elt F) ℓ) :
    (ℓ ↦{fullShare} f : sProp 𝕄)
      ⊢ iprop((ℓ ↦{shareDrop fullShare 32} f)
          ∗ bigSep Finset.univ fun c : Fin ((K (F := F)).nCore 0) => bigSep Finset.univ fun i : Fin ((K (F := F)).nSub 0) =>
              ℓ ↦{shareTok fullShare 32 (wid (placeOf (F := F) c i))} f) := by
  refine (Transfers.pointsTo_toks_split fullShare 32).trans (Entails.of_eq ?_)
  rw [← bigSep_wids (F := F) (fun w => ℓ ↦{shareTok fullShare 32 w} f)]
  rfl

theorem tok_join (ℓ : Loc nD τ sig) (f : Buf (Elt F) ℓ) :
    iprop((ℓ ↦{shareDrop fullShare 32} f)
        ∗ bigSep Finset.univ fun c : Fin ((K (F := F)).nCore 0) => bigSep Finset.univ fun i : Fin ((K (F := F)).nSub 0) =>
            ℓ ↦{shareTok fullShare 32 (wid (placeOf (F := F) c i))} f)
      ⊢ (ℓ ↦{fullShare} f : sProp 𝕄) := by
  refine (Entails.of_eq ?_).trans (Transfers.pointsTo_toks_join fullShare 32)
  rw [← bigSep_wids (F := F) (fun w => ℓ ↦{shareTok fullShare 32 w} f)]
  rfl

end Cert.Proof.KB

end
-- ==== Proof.CallSplitB.lean ====
/-
  The SparseCore call's arrays before and after it, against what the TensorCore hands the two SparseCores: the five
  arrays held whole are, for each input, a remainder and the 32 subcores' read tokens, and, for the two outputs, the
  subcores' chunks and rows; side by side these are what the sixteen subcores of each SparseCore are handed. After the
  call the same regrouping, read backwards, gives the inputs back whole and each output whole at some contents.
-/
import proofs.«204536_g87462714016206_cont_9to1c4b_719_4_alg».proof.Proof.SplitB

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type} [FloatOps F]

local notation "𝕄" => MT nD τ sig (HIx 1) (Elt F) ℕ UU ℕ

variable (fb : (d : Dev nD) → Buf (Elt F) (bLoc d)) (fg : (d : Dev nD) → Buf (Elt F) (gLoc d)) (ft : (d : Dev nD) → Buf (Elt F) (tLoc d))
  (fo : (d : Dev nD) → Buf (Elt F) (oLoc d)) (fp : (d : Dev nD) → Buf (Elt F) (pLoc d))

/-- Before the call: the five arrays held whole are the inputs' remainders beside what the two SparseCores are handed. -/
theorem st_intro (d : Dev nD) :
    iprop((bLoc d ↦{fullShare} fb d) ∗ (gLoc d ↦{fullShare} fg d) ∗ (tLoc d ↦{fullShare} ft d) ∗ (oLoc d ↦{fullShare} fo d) ∗ (pLoc d ↦{fullShare} fp d))
      ⊢ (iprop(((bLoc d ↦{shareDrop fullShare 32} fb d) ∗ (gLoc d ↦{shareDrop fullShare 32} fg d) ∗ (tLoc d ↦{shareDrop fullShare 32} ft d))
          ∗ bigSep Finset.univ fun c : Fin ((K (F := F)).nCore 0) => (P fb fg ft fo fp).st 0 d c) : sProp 𝕄) := by
  show _ ⊢ iprop(_ ∗ bigSep Finset.univ fun c : Fin ((K (F := F)).nCore 0) => bigSep Finset.univ fun i : Fin ((K (F := F)).nSub 0) =>
    goL fb fg ft fo fp d (placeOf c i))
  unfold goL inToks
  simp only [bigSep_sep']
  iintro ⟨Hb, Hg, Ht, Ho, Hp⟩
  ihave Hb' := (tok_split (F := F) (bLoc d) (fb d)) $$ Hb
  ihave Hg' := (tok_split (F := F) (gLoc d) (fg d)) $$ Hg
  ihave Ht' := (tok_split (F := F) (tLoc d) (ft d)) $$ Ht
  ihave Ho' := (o_split (F := F) d (fo d)) $$ Ho
  ihave Hp' := (p_split (F := F) d (fp d)) $$ Hp
  icases Hb' with ⟨Hbd, Hbt⟩
  icases Hg' with ⟨Hgd, Hgt⟩
  icases Ht' with ⟨Htd, Htt⟩
  isplitl [Hbd Hgd Htd]
  · isplitl [Hbd]; · iexact Hbd
    isplitl [Hgd]; · iexact Hgd
    iexact Htd
  isplitl [Hbt Hgt Htt]
  · isplitl [Hbt]; · iexact Hbt
    isplitl [Hgt]; · iexact Hgt
    iexact Htt
  isplitl [Ho']; · iexact Ho'
  iexact Hp'

/-- After the call: the remainders beside what the two SparseCores hand back are the inputs whole and each output whole at some contents. -/
theorem dn_elim (d : Dev nD) :
    (iprop(((bLoc d ↦{shareDrop fullShare 32} fb d) ∗ (gLoc d ↦{shareDrop fullShare 32} fg d) ∗ (tLoc d ↦{shareDrop fullShare 32} ft d))
        ∗ bigSep Finset.univ fun c : Fin ((K (F := F)).nCore 0) => (P fb fg ft fo fp).dn 0 d c) : sProp 𝕄)
      ⊢ iprop((bLoc d ↦{fullShare} fb d) ∗ (gLoc d ↦{fullShare} fg d) ∗ (tLoc d ↦{fullShare} ft d) ∗ (∃ f, oLoc d ↦{fullShare} f) ∗ (∃ f, pLoc d ↦{fullShare} f)) := by
  show iprop(_ ∗ bigSep Finset.univ fun c : Fin ((K (F := F)).nCore 0) => bigSep Finset.univ fun i : Fin ((K (F := F)).nSub 0) =>
    tdL fb fg ft d (placeOf c i)) ⊢ _
  unfold tdL inToks
  simp only [bigSep_sep']
  iintro ⟨⟨Hbd, Hgd, Htd⟩, ⟨Hbt, Hgt, Htt⟩, Ho, Hp⟩
  isplitl [Hbd Hbt]
  · iapply (tok_join (F := F) (bLoc d) (fb d))
    isplitl [Hbd]; · iexact Hbd
    iexact Hbt
  isplitl [Hgd Hgt]
  · iapply (tok_join (F := F) (gLoc d) (fg d))
    isplitl [Hgd]; · iexact Hgd
    iexact Hgt
  isplitl [Htd Htt]
  · iapply (tok_join (F := F) (tLoc d) (ft d))
    isplitl [Htd]; · iexact Htd
    iexact Htt
  isplitl [Ho]
  · iapply (o_join (F := F) d); iexact Ho
  · iapply (p_join (F := F) d); iexact Hp

end Cert.Proof.KB

end
-- ==== Proof.CallJoinB.lean ====
/-
  The converse of handing the SparseCore call its arrays: when every subcore's chunks and row are held at the contents
  of one whole array, the chunks are the code path whole and the rows are the partial sums whole at those contents, and
  the read tokens beside the remainders are the inputs whole.
-/
import proofs.«204536_g87462714016206_cont_9to1c4b_719_4_alg».proof.Proof.CallSplitB

noncomputable section

namespace Cert.Proof.KB

open Cert.Kernel Cert.Kernel.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type} [FloatOps F]

local notation "𝕄" => MT nD τ sig (HIx 1) (Elt F) ℕ UU ℕ

/-- The 512 chunks held at the contents of one array are the code path whole at those contents. -/
theorem o_unsplit (d : Dev nD) (f : Buf (Elt F) (oLoc d)) :
    (bigSep Finset.univ fun c : Fin ((K (F := F)).nCore 0) => bigSep Finset.univ fun i : Fin ((K (F := F)).nSub 0) =>
        bigSep Finset.univ fun g : Fin k1_t1_loop.trips => oLoc d ↦[(oChunk (placeOf (F := F) c i) g).view.set]{fullShare} f)
      ⊢ (oLoc d ↦{fullShare} f : sProp 𝕄) := by
  rw [whole_parts (ℓ := oLoc d) (fun n : Fin 512 => (oPart n).set) oParts_disjoint oParts_cover f,
    ← bigSep_chunks (F := F) (fun n => oLoc d ↦[(oPart n).set]{fullShare} f)]
  exact Entails.of_eq (bigSep_congr fun c _ => bigSep_congr fun i _ => bigSep_congr fun g _ =>
    congrArg (fun I => (oLoc d ↦[I]{fullShare} f : sProp 𝕄)) (set_oChunk _ _ g))

/-- The 32 rows held at the contents of one array are the partial sums whole at those contents. -/
theorem p_unsplit (d : Dev nD) (f : Buf (Elt F) (pLoc d)) :
    (bigSep Finset.univ fun c : Fin ((K (F := F)).nCore 0) => bigSep Finset.univ fun i : Fin ((K (F := F)).nSub 0) =>
        pLoc d ↦[(pRow (placeOf (F := F) c i)).view.set]{fullShare} f)
      ⊢ (pLoc d ↦{fullShare} f : sProp 𝕄) := by
  rw [whole_parts (ℓ := pLoc d) (fun w : Fin 32 => (pPart w).set) pParts_disjoint pParts_cover f,
    ← bigSep_wids (F := F) (fun w => pLoc d ↦[(pPart w).set]{fullShare} f)]
  exact Entails.of_eq (bigSep_congr fun c _ => bigSep_congr fun i _ =>
    congrArg (fun I => (pLoc d ↦[I]{fullShare} f : sProp 𝕄)) (set_pRow _ _))

variable (fb : (d : Dev nD) → Buf (Elt F) (bLoc d)) (fg : (d : Dev nD) → Buf (Elt F) (gLoc d)) (ft : (d : Dev nD) → Buf (Elt F) (tLoc d))
  (fo : (d : Dev nD) → Buf (Elt F) (oLoc d)) (fp : (d : Dev nD) → Buf (Elt F) (pLoc d))

/-- What the two SparseCores are handed, beside the inputs' remainders, is the five arrays held whole at the same contents. -/
theorem st_join (d : Dev nD) :
    (iprop(((bLoc d ↦{shareDrop fullShare 32} fb d) ∗ (gLoc d ↦{shareDrop fullShare 32} fg d) ∗ (tLoc d ↦{shareDrop fullShare 32} ft d))
        ∗ bigSep Finset.univ fun c : Fin ((K (F := F)).nCore 0) => (P fb fg ft fo fp).st 0 d c) : sProp 𝕄)
      ⊢ iprop((bLoc d ↦{fullShare} fb d) ∗ (gLoc d ↦{fullShare} fg d) ∗ (tLoc d ↦{fullShare} ft d) ∗ (oLoc d ↦{fullShare} fo d) ∗ (pLoc d ↦{fullShare} fp d)) := by
  show iprop(_ ∗ bigSep Finset.univ fun c : Fin ((K (F := F)).nCore 0) => bigSep Finset.univ fun i : Fin ((K (F := F)).nSub 0) =>
    goL fb fg ft fo fp d (placeOf c i)) ⊢ _
  unfold goL inToks
  simp only [bigSep_sep']
  iintro ⟨⟨Hbd, Hgd, Htd⟩, ⟨Hbt, Hgt, Htt⟩, Ho, Hp⟩
  isplitl [Hbd Hbt]
  · iapply (tok_join (F := F) (bLoc d) (fb d))
    isplitl [Hbd]; · iexact Hbd
    iexact Hbt
  isplitl [Hgd Hgt]
  · iapply (tok_join (F := F) (gLoc d) (fg d))
    isplitl [Hgd]; · iexact Hgd
    iexact Hgt
  isplitl [Htd Htt]
  · iapply (tok_join (F := F) (tLoc d) (ft d))
    isplitl [Htd]; · iexact Htd
    iexact Htt
  isplitl [Ho]
  · iapply (o_unsplit (F := F) d (fo d)); iexact Ho
  · iapply (p_unsplit (F := F) d (fp d)); iexact Hp

end Cert.Proof.KB

end
-- ==== Proof.FrameRunB.lean ====
/-
  The kernel's frame: under the precondition the program's threads run to the end, nothing faulting, and the
  five argument arrays end as launched — the launch theorem's run with nothing stated of the call's results, read at
  the arguments, which no host operation, neither TensorCore region and no vector subcore writes.
-/
import proofs.«204536_g87462714016206_cont_9to1c4b_719_4_alg».proof.Proof.PreOKB
import proofs.«204536_g87462714016206_cont_9to1c4b_719_4_alg».proof.Proof.CallJoinB

set_option maxRecDepth 16384

noncomputable section

namespace Cert.Proof.KB

open Cert.Kernel Cert.Kernel.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type} [FloatOps F]

local notation "𝕄" => MT nD τ sig (HIx 1) (Elt F) ℕ UU ℕ

variable (m : (ℓ : Loc nD τ sig) → Buf (Elt F) ℓ) (ρ : Dev nD → PrngReg)

/-- Nothing is asked of the call's results. -/
abbrev RTrue : (d : Dev nD) → Buf (Elt F) (oLoc d) → Buf (Elt F) (pLoc d) → Prop := fun _ _ _ => True

theorem stIntro_frame : StIntro (fbOf m) (fgOf m) (ftOf m) (foOf m) (fpOf m) (tdL (fbOf m) (fgOf m) (ftOf m)) :=
  fun d => st_intro (fbOf m) (fgOf m) (ftOf m) (foOf m) (fpOf m) d

theorem dnElim_frame : DnElim (RTrue (F := F)) (fbOf m) (fgOf m) (ftOf m) (foOf m) (fpOf m) (tdL (fbOf m) (fgOf m) (ftOf m)) := by
  intro d
  refine (dn_elim (fbOf m) (fgOf m) (ftOf m) (foOf m) (fpOf m) d).trans ?_
  iintro ⟨Hb, Hg, Ht, ⟨%fo', Ho⟩, ⟨%fp', Hp⟩⟩
  isplitl [Hb]; · iexact Hb
  isplitl [Hg]; · iexact Hg
  isplitl [Ht]; · iexact Ht
  iexists fo'; iexists fp'; isplitr
  · ipureintro; trivial
  isplitl [Ho]; · iexact Ho
  iexact Hp

/-- The run with the arguments read: every weakly fair execution ends, nothing faulting, the five arguments as launched. -/
theorem run_frame [∀ e, Nonempty (Elt F e)]
    (hbody : TileBodyStmt (fbOf m) (fgOf m) (ftOf m) (foOf m) (fpOf m))
    (hfn : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    θ_run (Cert.Kernel.defs (F := F)) (Cert.Kernel.threads (F := F)) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.Kernel.defs (F := F)) _ _).mono (fun r h c => by
      obtain ⟨fo', fp', -, hall⟩ := h c
      exact ⟨(hall (Proc.devRef .tc main_arg0) (by decide)).trans (W6_arg0 m c fo' fp'), (hall (Proc.devRef .tc main_arg1) (by decide)).trans (W6_arg1 m c fo' fp'),
        (hall (Proc.devRef .tc main_arg2) (by decide)).trans (W6_arg2 m c fo' fp'), (hall (Proc.devRef .tc main_arg3) (by decide)).trans (W6_arg3 m c fo' fp'),
        (hall (Proc.devRef .tc main_arg4) (by decide)).trans (W6_arg4 m c fo' fp')⟩)
    (run_main m ρ (RTrue (F := F)) (tdL (fbOf m) (fgOf m) (ftOf m)) hbody (preOK_of_fn m hfn) (stIntro_frame m) (dnElim_frame m))

end Cert.Proof.KB

end
-- ==== Proof.BodyChecksB.lean ====
/-
  The index arithmetic of one vector subcore's task. A table index is a byte times four plus a digit below four, so it
  is below 1024; a row index is four times a lane number plus a digit below four, plus sixty-four times a group number
  below four hundred, so it is below 25600. Neither wraps in 32-bit arithmetic.
-/
import proofs.«204536_g87462714016206_cont_9to1c4b_719_4_alg».proof.Proof.PayB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F]

local notation "𝕄" => MT nD τ sig (HIx 1) (Elt F) ℕ UU ℕ

/-- A vector of bytes: every lane below 256. -/
def Bytes (v : IVec S16 32) : Prop := ∀ x, (v x).toNat < 256

/-- Every lane names a word of the code table. -/
def TblOK (v : IVec S16 32) : Prop := ∀ a x, ((![v] : Fin 1 → IVec S16 32) a x).toNat < S1024.size a

/-- Every lane names a word of a chunk's rows. -/
def RowOK (v : IVec S16 32) : Prop := ∀ a x, ((![v] : Fin 1 → IVec S16 32) a x).toNat < S25600.size a

/-- Four times a byte plus a digit below four names a word of the table. -/
theorem tbl_ok {v : IVec S16 32} (hv : Bytes v) {k : BitVec 32} (hk : k.toNat < 4) :
    TblOK (addi (muli v (broadcast S16 4#32)) (broadcast S16 k)) := by
  intro a x
  obtain rfl : a = 0 := Subsingleton.elim _ _
  show (v x * 4#32 + k).toNat < 1024
  have h := hv x
  rw [BitVec.toNat_add, BitVec.toNat_mul]
  simp only [BitVec.toNat_ofNat]
  omega

/-- The lane numbers times four plus the digit kk, moved by the word offset of group j of trip t. -/
abbrev rowIdx (kk j : BitVec 32) (t : Nat) : IVec S16 32 :=
  addi (addi (muli (iota .scVector S16 32 [0] iota_S16_d0_w32_scVector) (broadcast S16 4#32)) (broadcast S16 kk))
    (broadcast S16 (Scalar.muli (Scalar.muli (Scalar.addi (Scalar.muli (Scf.iv 0#32 1#32 t) 4#32) j) 16#32) 4#32))

theorem iota16_apply (x : S16.Idx) : iota .scVector S16 32 [0] iota_S16_d0_w32_scVector x = BitVec.ofNat 32 (x 0).val := by
  simp [iota]

theorem rowIdx_apply (kk j : BitVec 32) (t : Nat) (x : S16.Idx) :
    rowIdx kk j t x = (BitVec.ofNat 32 (x 0).val * 4#32 + kk) + ((((0#32 + BitVec.ofNat 32 t * 1#32) * 4#32 + j) * 16#32) * 4#32) := by
  show (iota .scVector S16 32 [0] iota_S16_d0_w32_scVector x * 4#32 + kk) + _ = _
  rw [iota16_apply]
  rfl

/-- A row index of a trip below 100, a group below 4 and a digit below 4 names a word of the chunk's rows. -/
theorem row_ok {kk j : BitVec 32} (hkk : kk.toNat < 4) (hj : j.toNat < 4) {t : Nat} (ht : t < 100) : RowOK (rowIdx kk j t) := by
  intro a x
  obtain rfl : a = 0 := Subsingleton.elim _ _
  show (rowIdx kk j t x).toNat < 25600
  have hx : (x 0).val < 16 := (x 0).isLt
  rw [rowIdx_apply]
  simp only [BitVec.toNat_add, BitVec.toNat_mul, BitVec.toNat_ofNat]
  omega

theorem row_ok2 {kk j : BitVec 32} (hkk : kk.toNat < 4) (hj : j.toNat < 4) {t : Nat} (ht : t < 100) :
    RowOK (rowIdx kk j t) ∧ RowOK (rowIdx kk j t) := ⟨row_ok hkk hj ht, row_ok hkk hj ht⟩

theorem trip2_lt (t : Fin k1_t2_loop.trips) : t.val < 100 := Nat.lt_of_lt_of_le t.isLt k1_t2_abs.2.1

end Cert.Proof.KB

end
-- ==== Proof.BodyRulesB.lean ====
/-
  How one vector subcore's task is stepped through: the four scratches as the indexed loads and stores address them, and
  the rules for an indexed load, an indexed store and a load of sixteen bytes, each stated over every value read and
  every contents left, since the frame says nothing about the values.
-/
import proofs.«204536_g87462714016206_cont_9to1c4b_719_4_alg».proof.Proof.BodyChecksB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F]

local notation "𝕄" => MT nD τ sig (HIx 1) (Elt F) ℕ UU ℕ

section Rules

variable (d : Dev nD) (L : grid1.Coords)

local notation "thr" => V d (cV L) (jV L)

/-- The table scratch, the byte scratch, the target scratch and the row scratch of the subcore at L, each whole. -/
abbrev HT (f : Buf (Elt F) ((thr).loc cc1_scratch0)) : sProp 𝕄 :=
  ((sT : Memref sig .scVector .vmem S1024 .f32).access (.whole S1024)).loc thr ↦{fullShare} f
abbrev HI (f : Buf (Elt F) ((thr).loc cc1_scratch1)) : sProp 𝕄 :=
  (sI : Memref sig .scVector .vmem S6400 .i32).view.loc thr ↦{fullShare} f
abbrev HG (f : Buf (Elt F) ((thr).loc cc1_scratch2)) : sProp 𝕄 :=
  ((sG : Memref sig .scVector .vmem S25600 .f32).access (.whole S25600)).loc thr ↦{fullShare} f
abbrev HR (f : Buf (Elt F) ((thr).loc cc1_scratch3)) : sProp 𝕄 :=
  ((sR : Memref sig .scVector .vmem S25600 .f32).access (.whole S25600)).loc thr
    ↦[((sR : Memref sig .scVector .vmem S25600 .f32).access (.whole S25600)).set]{fullShare} f

omit [FloatOps F] in
theorem HT_eq (f : Buf (Elt F) ((thr).loc cc1_scratch0)) : (HT d L f : sProp 𝕄) = (thr).loc cc1_scratch0 ↦{fullShare} f := rfl
omit [FloatOps F] in
theorem HI_eq (f : Buf (Elt F) ((thr).loc cc1_scratch1)) : (HI d L f : sProp 𝕄) = (thr).loc cc1_scratch1 ↦{fullShare} f := rfl
omit [FloatOps F] in
theorem HG_eq (f : Buf (Elt F) ((thr).loc cc1_scratch2)) : (HG d L f : sProp 𝕄) = (thr).loc cc1_scratch2 ↦{fullShare} f := rfl
omit [FloatOps F] in
theorem HR_eq (f : Buf (Elt F) ((thr).loc cc1_scratch3)) : (HR d L f : sProp 𝕄) = (thr).loc cc1_scratch3 ↦{fullShare} f := by
  unfold HR
  have h : ((sR : Memref sig .scVector .vmem S25600 .f32).access (.whole S25600)).set = Finset.univ := Memref.set_access_whole cc1_scratch3
  rw [h]

/-- The byte scratch holds bytes. -/
def BytesBuf (f : Buf (Elt F) ((thr).loc cc1_scratch1)) : Prop := ∀ j, (f j).toNat < 256

end Rules

section Step

variable {α : Type} (c : Thread nD τ) {s t : Shape} {e : EltTy}

/-- An indexed load, whatever it reads. -/
theorem wp_loadIdx_any {Post : α → sProp 𝕄} {base : Memref sig c.2.kind .vmem s e} {idxs : Fin s.rank → IVec t 32}
    {h : ∀ a x, (idxs a x).toNat < s.size a} {hl : base.view.Loads} {k : Vec F t e → Prog (TpuEff nD τ sig (Elt F) Λ₀ c.2) α}
    {f : Buf (Elt F) ((base.access (.whole s)).loc c)} :
    ((base.access (.whole s)).loc c ↦{fullShare} f : sProp 𝕄)
      ⊢ iprop((∀ v, ((base.access (.whole s)).loc c ↦{fullShare} f) -∗ wp frame (wpE (defs₀ (F := F)) 𝒱₀ c none) Set.univ (k v) Post)
        -∗ wp frame (wpE (defs₀ (F := F)) 𝒱₀ c none) Set.univ (SparseCore.vectorLoadIdx base idxs h hl >>= k) Post) := by
  iintro H Hk
  iapply (SparseCore.wp_vectorLoadIdx 𝒱₀ c none Set.univ (base := base) (S := Finset.univ) (q := fullShare) (Finset.subset_univ _)) $$ H
  iintro H
  iapply Hk $$ %(loadIdx ((base.access (.whole s)).read (Elt F) f) idxs h) H

/-- An indexed store, whatever it leaves. -/
theorem wp_storeIdx_any {Post : α → sProp 𝕄} {dd : Fin 1 → Nat} {base : Memref sig c.2.kind .vmem s e} {idxs : Fin s.rank → IVec ⟨1, dd⟩ 32} {v : Vec F ⟨1, dd⟩ e}
    {mask : IVec ⟨1, dd⟩ 1} {add : Bool} {h : ∀ a x, (idxs a x).toNat < s.size a} {hs : (base.access (.whole s)).Stores Finset.univ}
    {k : PUnit → Prog (TpuEff nD τ sig (Elt F) Λ₀ c.2) α} {f : Buf (Elt F) ((base.access (.whole s)).loc c)} :
    ((base.access (.whole s)).loc c ↦[(base.access (.whole s)).set]{fullShare} f : sProp 𝕄)
      ⊢ iprop((∀ f', ((base.access (.whole s)).loc c ↦[(base.access (.whole s)).set]{fullShare} f') -∗ wp frame (wpE (defs₀ (F := F)) 𝒱₀ c none) Set.univ (k ⟨⟩) Post)
        -∗ wp frame (wpE (defs₀ (F := F)) 𝒱₀ c none) Set.univ (SparseCore.vectorStoreIdx base idxs v mask add h hs >>= k) Post) := by
  iintro H Hk
  iapply (SparseCore.wp_vectorStoreIdx 𝒱₀ c none Set.univ (base := base)) $$ H
  iintro H
  iapply Hk $$ %((base.access (.whole s)).write (Elt F) f (storeIdx ((base.access (.whole s)).read (Elt F) f) idxs v mask add h) Finset.univ) H

end Step

end Cert.Proof.KB

end
-- ==== Proof.BodyPartsB.lean ====
/-
  One trip of the inner loop of a vector subcore's task, cut where the printed program cuts it: four parts and a tail. Each
  part loads sixteen bytes of the chunk, and for each of the four digits loads the table words and the target words the
  bytes name and stores the table words into the row scratch; every index is in range because the bytes are bytes and
  the trip is below one hundred. Each part is stated in continuation form: whatever it read and whatever it left in the
  row scratch, the program goes on from the values the next part needs, spelt as the printed payloads spell them.
-/
import proofs.«204536_g87462714016206_cont_9to1c4b_719_4_alg».proof.Proof.BodyRulesB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F]

local notation "𝕄" => MT nD τ sig (HIx 1) (Elt F) ℕ UU ℕ

section Parts

variable (d : Dev nD) (L : grid1.Coords)

local notation "thr" => V d (cV L) (jV L)

omit [FloatOps F] in
/-- Sixteen words loaded from a scratch of bytes are bytes. -/
theorem bytes_load {fI : Buf (Elt F) ((thr).loc cc1_scratch1)} (hfI : BytesBuf d L fI) (off : Fin 1 → Nat)
    (inb : ∀ a, off a + S16.size a ≤ S6400.size a) :
    Bytes ((sI : Memref sig .scVector .vmem S6400 .i32).view.readAt (Elt F) (Rect.unit (s := S6400) off S16.size inb).toLoadRect fI) := by
  intro x
  simp only [View.readAt_apply, Memref.view_whole, View.read_whole]
  exact hfI _

/-- A load of sixteen words of the byte scratch: the program goes on at some vector of bytes. -/
theorem wp_loadBytes {α : Type} {Post : α → sProp 𝕄} {fI : Buf (Elt F) ((thr).loc cc1_scratch1)} (hfI : BytesBuf d L fI)
    {off : Fin 1 → Nat} {inb : ∀ a, off a + S16.size a ≤ S6400.size a}
    {hl : (sI : Memref sig .scVector .vmem S6400 .i32).view.LoadsAt (Rect.unit (s := S6400) off S16.size inb).toLoadRect}
    {k : Vec F S16 .i32 → Prog (TpuEff nD τ sig (Elt F) Λ₀ (thr).2) α} :
    (HI d L fI : sProp 𝕄)
      ⊢ iprop((∀ v : IVec S16 32, ⌜Bytes v⌝ -∗ HI d L fI -∗ wp frame (wpE (defs₀ (F := F)) 𝒱₀ thr none) Set.univ (k v) Post)
        -∗ wp frame (wpE (defs₀ (F := F)) 𝒱₀ thr none) Set.univ (.op (.load sI (Rect.unit (s := S6400) off S16.size inb).toLoadRect hl) k) Post) := by
  iintro H Hk
  iapply (wp_load 𝒱₀ thr none Set.univ (m := (sI : Memref sig .scVector .vmem S6400 .i32)) (S := Finset.univ) (Finset.subset_univ _)) $$ H
  iintro H
  iapply Hk $$ %((sI : Memref sig .scVector .vmem S6400 .i32).view.readAt (Elt F) (Rect.unit (s := S6400) off S16.size inb).toLoadRect fI) %(bytes_load d L hfI off inb) H

/-- An in-range check of the program: it holds, by the arithmetic of the indices. -/
macro "sl_chk" : tactic => `(tactic| (rw [wp_assume_of]; case h => first | exact row_ok2 (by decide) (by decide) (trip2_lt _) | exact tbl_ok (by assumption) (by decide)))

/-- The first part: the bytes of group 0 loaded, digits 0, 1, 2 of group 0 done, the row index of digit 3 checked. -/
theorem part1_run (k : Fin k1_t2_loop.trips) {α : Type} {Post : α → sProp 𝕄}
    {kont : (Σ' (arg14 : BitVec 32) (v36 : IVec S16 32) (v62 : FVec F S16 .f32) (v65 : IVec S16 32) (k1_hw8 : k1_chk8 v65), IVec S16 32) →
      Prog (TpuEff nD τ sig (Elt F) Λ₀ (thr).2) α}
    {fT : Buf (Elt F) ((thr).loc cc1_scratch0)} {fI : Buf (Elt F) ((thr).loc cc1_scratch1)} {fG : Buf (Elt F) ((thr).loc cc1_scratch2)}
    {fR : Buf (Elt F) ((thr).loc cc1_scratch3)} (hfI : BytesBuf d L fI) :
    (HT d L fT : sProp 𝕄) ⊢ iprop(HI d L fI -∗ HG d L fG -∗ HR d L fR
        -∗ (∀ (b : IVec S16 32) (w : FVec F S16 .f32) (fR' : Buf (Elt F) ((thr).loc cc1_scratch3)), ⌜Bytes b⌝ -∗ HT d L fT -∗ HI d L fI -∗ HG d L fG -∗ HR d L fR' -∗
            wp frame (wpE (defs₀ (F := F)) 𝒱₀ thr none) Set.univ (kont ⟨Scf.iv 0#32 1#32 k, k1_pay11 (F := F) b, w, k1_pay19 k1_pay4 0#32 1#32 k, row_ok2 (by decide) (by decide) (trip2_lt k), k1_pay20⟩) Post)
        -∗ wp frame (wpE (defs₀ (F := F)) 𝒱₀ thr none) Set.univ (k1_part1 L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 k1_pay1 k1_pay2 k1_pay3 k1_pay4 0#32 1#32 k >>= kont) Post) := by
  rw [k1_part1_eq_skeleton]; unfold k1_part1_skel
  simp only [Prog.lift, Prog.bind_op, Prog.bind_ret, Prog.pure_eq_ret, Prog.bind_assoc]
  iintro HT HI HG HR Hk
  iapply (wp_loadBytes d L hfI) $$ HI; iintro %v34 %hv34 HI
  sl_chk
  sl_chk
  iapply (wp_loadIdx_any (thr) (base := (sT : Memref sig .scVector .vmem S1024 .f32))) $$ HT; iintro %v42 HT
  iapply (wp_loadIdx_any (thr) (base := (sG : Memref sig .scVector .vmem S25600 .f32))) $$ HG; iintro %v43 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v50 HT
  iapply (wp_loadIdx_any (thr) (base := (sG : Memref sig .scVector .vmem S25600 .f32))) $$ HG; iintro %v51 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v59 HT
  iapply (wp_loadIdx_any (thr) (base := (sG : Memref sig .scVector .vmem S25600 .f32))) $$ HG; iintro %v60 HG
  iapply (wp_storeIdx_any (thr) (base := (sR : Memref sig .scVector .vmem S25600 .f32))) $$ HR; iintro %fR HR
  sl_chk
  iapply Hk $$ %v34 %(k1_pay18 v42 v43 v50 v51 v59 v60) %fR %hv34 HT HI HG HR

/-- The second part: digit 3 of group 0 done, the bytes of group 1 loaded, digits 0, 1, 2 of group 1 done. -/
theorem part2_run (k : Fin k1_t2_loop.trips) {α : Type} {Post : α → sProp 𝕄}
    {kont : (Σ' (v73 : FVec F S16 .f32) (v76 : BitVec 32) (v80 : IVec S16 32) (v97 : FVec F S16 .f32), FVec F S16 .f32) →
      Prog (TpuEff nD τ sig (Elt F) Λ₀ (thr).2) α}
    {fT : Buf (Elt F) ((thr).loc cc1_scratch0)} {fI : Buf (Elt F) ((thr).loc cc1_scratch1)} {fG : Buf (Elt F) ((thr).loc cc1_scratch2)}
    {fR : Buf (Elt F) ((thr).loc cc1_scratch3)} (hfI : BytesBuf d L fI) (arg15 : FVec F S16 .f32) {b : IVec S16 32} (hb : Bytes b) (w : FVec F S16 .f32) :
    (HT d L fT : sProp 𝕄) ⊢ iprop(HI d L fI -∗ HG d L fG -∗ HR d L fR
        -∗ (∀ (b' : IVec S16 32) (w1 w2 w3 : FVec F S16 .f32) (fR' : Buf (Elt F) ((thr).loc cc1_scratch3)), ⌜Bytes b'⌝ -∗ HT d L fT -∗ HI d L fI -∗ HG d L fG -∗ HR d L fR' -∗
            wp frame (wpE (defs₀ (F := F)) 𝒱₀ thr none) Set.univ (kont ⟨w1, (Scalar.muli (Scalar.addi (Scalar.muli (Scf.iv 0#32 1#32 k) 4#32) 1#32) 16#32), k1_pay22 (F := F) b', w2, w3⟩) Post)
        -∗ wp frame (wpE (defs₀ (F := F)) 𝒱₀ thr none) Set.univ (k1_part2 L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 k1_pay1 k1_pay2 k1_pay3 k arg15 (Scf.iv 0#32 1#32 k) (k1_pay11 (F := F) b) w (k1_pay19 k1_pay4 0#32 1#32 k) (row_ok2 (by decide) (by decide) (trip2_lt k)) k1_pay20 >>= kont) Post) := by
  rw [k1_part2_eq_skeleton]; unfold k1_part2_skel
  simp only [Prog.lift, Prog.bind_op, Prog.bind_ret, Prog.pure_eq_ret, Prog.bind_assoc]
  iintro HT HI HG HR Hk
  sl_chk
  iapply (wp_loadIdx_any (thr) (base := (sT : Memref sig .scVector .vmem S1024 .f32))) $$ HT; iintro %v68 HT
  iapply (wp_loadIdx_any (thr) (base := (sG : Memref sig .scVector .vmem S25600 .f32))) $$ HG; iintro %v69 HG
  iapply (wp_storeIdx_any (thr) (base := (sR : Memref sig .scVector .vmem S25600 .f32))) $$ HR; iintro %fR HR
  iapply (wp_loadBytes d L hfI) $$ HI; iintro %v78 %hv78 HI
  sl_chk
  sl_chk
  iapply (wp_loadIdx_any (thr) (base := (sT : Memref sig .scVector .vmem S1024 .f32))) $$ HT; iintro %v86 HT
  iapply (wp_loadIdx_any (thr) (base := (sG : Memref sig .scVector .vmem S25600 .f32))) $$ HG; iintro %v87 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v94 HT
  iapply (wp_loadIdx_any (thr) (base := (sG : Memref sig .scVector .vmem S25600 .f32))) $$ HG; iintro %v95 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v103 HT
  iapply (wp_loadIdx_any (thr) (base := (sG : Memref sig .scVector .vmem S25600 .f32))) $$ HG; iintro %v104 HG
  iapply (wp_storeIdx_any (thr) (base := (sR : Memref sig .scVector .vmem S25600 .f32))) $$ HR; iintro %fR HR
  iapply Hk $$ %v78 %(k1_pay21 arg15 w v68 v69) %(k1_pay27 v86 v87 v94 v95) %(k1_pay30 v103 v104) %fR %hv78 HT HI HG HR

/-- The third part: digit 3 of group 1 done, the bytes of group 2 loaded, digits 0, 1 of group 2 done, the row index of digit 2 checked. -/
theorem part3_run (k : Fin k1_t2_loop.trips) {α : Type} {Post : α → sProp 𝕄}
    {kont : (Σ' (v117 : FVec F S16 .f32) (v120 : BitVec 32) (v124 : IVec S16 32) (v141 : FVec F S16 .f32) (v144 : IVec S16 32), k1_chk22 v144) →
      Prog (TpuEff nD τ sig (Elt F) Λ₀ (thr).2) α}
    {fT : Buf (Elt F) ((thr).loc cc1_scratch0)} {fI : Buf (Elt F) ((thr).loc cc1_scratch1)} {fG : Buf (Elt F) ((thr).loc cc1_scratch2)}
    {fR : Buf (Elt F) ((thr).loc cc1_scratch3)} (hfI : BytesBuf d L fI) {b : IVec S16 32} (hb : Bytes b) (v73 v97 v105 : FVec F S16 .f32) :
    (HT d L fT : sProp 𝕄) ⊢ iprop(HI d L fI -∗ HG d L fG -∗ HR d L fR
        -∗ (∀ (b' : IVec S16 32) (w1 w2 : FVec F S16 .f32) (fR' : Buf (Elt F) ((thr).loc cc1_scratch3)), ⌜Bytes b'⌝ -∗ HT d L fT -∗ HI d L fI -∗ HG d L fG -∗ HR d L fR' -∗
            wp frame (wpE (defs₀ (F := F)) 𝒱₀ thr none) Set.univ (kont ⟨w1, (Scalar.muli (Scalar.addi (Scalar.muli (Scf.iv 0#32 1#32 k) 4#32) 2#32) 16#32), k1_pay34 (F := F) b', w2, k1_pay40 k1_pay3 (Scf.iv 0#32 1#32 k), (row_ok2 (by decide) (by decide) (trip2_lt k))⟩) Post)
        -∗ wp frame (wpE (defs₀ (F := F)) 𝒱₀ thr none) Set.univ (k1_part3 L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 k1_pay1 k1_pay2 k1_pay3 k1_pay4 k (Scf.iv 0#32 1#32 k) v73 (Scalar.muli (Scalar.addi (Scalar.muli (Scf.iv 0#32 1#32 k) 4#32) 1#32) 16#32) (k1_pay22 (F := F) b) v97 v105 >>= kont) Post) := by
  rw [k1_part3_eq_skeleton]; unfold k1_part3_skel
  simp only [Prog.lift, Prog.bind_op, Prog.bind_ret, Prog.pure_eq_ret, Prog.bind_assoc]
  iintro HT HI HG HR Hk
  sl_chk
  sl_chk
  iapply (wp_loadIdx_any (thr) (base := (sT : Memref sig .scVector .vmem S1024 .f32))) $$ HT; iintro %v112 HT
  iapply (wp_loadIdx_any (thr) (base := (sG : Memref sig .scVector .vmem S25600 .f32))) $$ HG; iintro %v113 HG
  iapply (wp_storeIdx_any (thr) (base := (sR : Memref sig .scVector .vmem S25600 .f32))) $$ HR; iintro %fR HR
  iapply (wp_loadBytes d L hfI) $$ HI; iintro %v122 %hv122 HI
  sl_chk
  sl_chk
  iapply (wp_loadIdx_any (thr) (base := (sT : Memref sig .scVector .vmem S1024 .f32))) $$ HT; iintro %v130 HT
  iapply (wp_loadIdx_any (thr) (base := (sG : Memref sig .scVector .vmem S25600 .f32))) $$ HG; iintro %v131 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v138 HT
  iapply (wp_loadIdx_any (thr) (base := (sG : Memref sig .scVector .vmem S25600 .f32))) $$ HG; iintro %v139 HG
  iapply (wp_storeIdx_any (thr) (base := (sR : Memref sig .scVector .vmem S25600 .f32))) $$ HR; iintro %fR HR
  sl_chk
  iapply Hk $$ %v122 %(k1_pay33 v73 v97 v105 v112 v113) %(k1_pay39 v130 v131 v138 v139) %fR %hv122 HT HI HG HR

/-- The fourth part: digits 2, 3 of group 2 done, the bytes of group 3 loaded, digit 0 of group 3 done, the words of digit 1 loaded. -/
theorem part4_run (k : Fin k1_t2_loop.trips) {α : Type} {Post : α → sProp 𝕄}
    {kont : (Σ' (v161 : FVec F S16 .f32) (v164 : BitVec 32) (v168 : IVec S16 32) (v176 : FVec F S16 .f32) (v179 : IVec S16 32) (k1_hw28 : k1_chk28 v179) (v182 : Vec F S16 .f32), Vec F S16 .f32) →
      Prog (TpuEff nD τ sig (Elt F) Λ₀ (thr).2) α}
    {fT : Buf (Elt F) ((thr).loc cc1_scratch0)} {fI : Buf (Elt F) ((thr).loc cc1_scratch1)} {fG : Buf (Elt F) ((thr).loc cc1_scratch2)}
    {fR : Buf (Elt F) ((thr).loc cc1_scratch3)} (hfI : BytesBuf d L fI) {b : IVec S16 32} (hb : Bytes b) (v117 v141 : FVec F S16 .f32) :
    (HT d L fT : sProp 𝕄) ⊢ iprop(HI d L fI -∗ HG d L fG -∗ HR d L fR
        -∗ (∀ (b' : IVec S16 32) (w1 w2 : FVec F S16 .f32) (w3 w4 : Vec F S16 .f32) (fR' : Buf (Elt F) ((thr).loc cc1_scratch3)), ⌜Bytes b'⌝ -∗ HT d L fT -∗ HI d L fI -∗ HG d L fG -∗ HR d L fR' -∗
            wp frame (wpE (defs₀ (F := F)) 𝒱₀ thr none) Set.univ (kont ⟨w1, (Scalar.muli (Scalar.addi (Scalar.muli (Scf.iv 0#32 1#32 k) 4#32) 3#32) 16#32), k1_pay45 (F := F) b', w2, k1_pay49 k1_pay2 (Scf.iv 0#32 1#32 k), (row_ok2 (by decide) (by decide) (trip2_lt k)), w3, w4⟩) Post)
        -∗ wp frame (wpE (defs₀ (F := F)) 𝒱₀ thr none) Set.univ (k1_part4 L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 k1_pay1 k1_pay2 k1_pay4 k (Scf.iv 0#32 1#32 k) v117 (Scalar.muli (Scalar.addi (Scalar.muli (Scf.iv 0#32 1#32 k) 4#32) 2#32) 16#32) (k1_pay34 (F := F) b) v141 (k1_pay40 k1_pay3 (Scf.iv 0#32 1#32 k)) (row_ok2 (by decide) (by decide) (trip2_lt k)) >>= kont) Post) := by
  rw [k1_part4_eq_skeleton]; unfold k1_part4_skel
  simp only [Prog.lift, Prog.bind_op, Prog.bind_ret, Prog.pure_eq_ret, Prog.bind_assoc]
  iintro HT HI HG HR Hk
  sl_chk
  iapply (wp_loadIdx_any (thr) (base := (sT : Memref sig .scVector .vmem S1024 .f32))) $$ HT; iintro %v147 HT
  iapply (wp_loadIdx_any (thr) (base := (sG : Memref sig .scVector .vmem S25600 .f32))) $$ HG; iintro %v148 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v156 HT
  iapply (wp_loadIdx_any (thr) (base := (sG : Memref sig .scVector .vmem S25600 .f32))) $$ HG; iintro %v157 HG
  iapply (wp_storeIdx_any (thr) (base := (sR : Memref sig .scVector .vmem S25600 .f32))) $$ HR; iintro %fR HR
  iapply (wp_loadBytes d L hfI) $$ HI; iintro %v166 %hv166 HI
  sl_chk
  sl_chk
  iapply (wp_loadIdx_any (thr) (base := (sT : Memref sig .scVector .vmem S1024 .f32))) $$ HT; iintro %v174 HT
  iapply (wp_loadIdx_any (thr) (base := (sG : Memref sig .scVector .vmem S25600 .f32))) $$ HG; iintro %v175 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v182 HT
  iapply (wp_loadIdx_any (thr) (base := (sG : Memref sig .scVector .vmem S25600 .f32))) $$ HG; iintro %v183 HG
  iapply Hk $$ %v166 %(k1_pay44 v117 v141 v147 v148 v156 v157) %(k1_pay48 v174 v175) %v182 %v183 %fR %hv166 HT HI HG HR

/-- One trip of the inner loop: the four parts and the tail, from the four scratches back to the four scratches, the row
    scratch at some contents. -/
theorem t2_run (k : Fin k1_t2_loop.trips) (acc : FVec F S16 .f32)
    {fT : Buf (Elt F) ((thr).loc cc1_scratch0)} {fI : Buf (Elt F) ((thr).loc cc1_scratch1)} {fG : Buf (Elt F) ((thr).loc cc1_scratch2)}
    {fR : Buf (Elt F) ((thr).loc cc1_scratch3)} (hfI : BytesBuf d L fI) :
    (HT d L fT : sProp 𝕄) ⊢ iprop(HI d L fI -∗ HG d L fG -∗ HR d L fR
        -∗ wp frame (wpE (defs₀ (F := F)) 𝒱₀ thr none) Set.univ (k1_t2_body L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 k acc) fun _ => iprop(HT d L fT ∗ HI d L fI ∗ HG d L fG ∗ ∃ fR', HR d L fR')) := by
  unfold k1_t2_body
  iintro HT HI HG HR
  iapply (part1_run d L k hfI) $$ HT HI HG HR
  iintro %b0 %w0 %fR %hb0 HT HI HG HR
  iapply (part2_run d L k hfI acc hb0 w0) $$ HT HI HG HR
  iintro %b1 %w1 %w2 %w3 %fR %hb1 HT HI HG HR
  iapply (part3_run d L k hfI hb1 w1 w2 w3) $$ HT HI HG HR
  iintro %b2 %w4 %w5 %fR %hb2 HT HI HG HR
  iapply (part4_run d L k hfI hb2 w4 w5) $$ HT HI HG HR
  iintro %b3 %w6 %w7 %w8 %w9 %fR %hb3 HT HI HG HR
  simp only [Prog.lift, Prog.bind_op, Prog.bind_ret, Prog.pure_eq_ret, Prog.bind_assoc]
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v191 HT
  iapply (wp_loadIdx_any (thr) (base := (sG : Memref sig .scVector .vmem S25600 .f32))) $$ HG; iintro %v192 HG
  iapply (wp_storeIdx_any (thr) (base := (sR : Memref sig .scVector .vmem S25600 .f32))) $$ HR; iintro %fR HR
  sl_chk
  sl_chk
  iapply (wp_loadIdx_any (thr) (base := (sT : Memref sig .scVector .vmem S1024 .f32))) $$ HT; iintro %v200 HT
  iapply (wp_loadIdx_any (thr) (base := (sG : Memref sig .scVector .vmem S25600 .f32))) $$ HG; iintro %v201 HG
  iapply (wp_storeIdx_any (thr) (base := (sR : Memref sig .scVector .vmem S25600 .f32))) $$ HR; iintro %fR HR
  rw [wp_ret]; imodintro
  isplitl [HT]; · iexact HT
  isplitl [HI]; · iexact HI
  isplitl [HG]; · iexact HG
  iexists _; iexact HR

end Parts

end Cert.Proof.KB

end
-- ==== Proof.BodyOpenB.lean ====
/-
  A vector subcore's own scoped storage opened into the five scratches and the five transfer semaphores the task names,
  and the rest.
-/
import proofs.«204536_g87462714016206_cont_9to1c4b_719_4_alg».proof.Proof.BodyRulesB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F]

local notation "𝕄" => MT nD τ sig (HIx 1) (Elt F) ℕ UU ℕ

section Open

variable (d : Dev nD) (L : grid1.Coords)

local notation "thr" => V d (cV L) (jV L)

/-- The cell of one of the subcore's transfer semaphores. -/
abbrev cellOf (x : DmaSem sig) : GSem nD τ sig := (thr, SemLoc.dma x)

theorem cellOf_ne {x y : DmaSem sig} (h : (SemLoc.dma x : SemLoc sig) ≠ SemLoc.dma y) : cellOf d L x ≠ cellOf d L y :=
  fun e => h (congrArg Prod.snd e)

/-- The cells that are not the five named ones. -/
abbrev restCells : Finset (GSem nD τ sig) := (((((ownCells (thr)).erase (cellOf d L cc1_scoped0.sem)).erase (cellOf d L cc1_scoped1.sem)).erase (cellOf d L cc1_scoped2.sem)).erase (cellOf d L cc1_scoped3.sem)).erase (cellOf d L cc1_scoped4.sem)
/-- The buffers that are not the five named scratches. -/
abbrev restRefs : Finset (DevRef τ sig) := (((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)

omit [FloatOps F] in
theorem ownSems0_V5 :
    (ownSems0 (thr) : sProp 𝕄)
      = iprop(semVal (cellOf d L cc1_scoped0.sem) 0 ∗ semVal (cellOf d L cc1_scoped1.sem) 0 ∗ semVal (cellOf d L cc1_scoped2.sem) 0
          ∗ semVal (cellOf d L cc1_scoped3.sem) 0 ∗ semVal (cellOf d L cc1_scoped4.sem) 0 ∗ bigSep (restCells d L) fun g => semVal g 0) := by
  unfold SparseCore.Cfg.ownSems0
  rw [SparseCore.bigSep_erase' ((mem_ownCells (g := cellOf d L cc1_scoped0.sem)).mpr ⟨rfl, by show (SemLoc.dma cc1_scoped0.sem : SemLoc sig).isScoped .scVector = true; decide⟩),
    SparseCore.bigSep_erase' (Finset.mem_erase.mpr ⟨cellOf_ne d L (show (SemLoc.dma cc1_scoped1.sem : SemLoc sig) ≠ SemLoc.dma cc1_scoped0.sem by decide), ((mem_ownCells (g := cellOf d L cc1_scoped1.sem)).mpr ⟨rfl, by show (SemLoc.dma cc1_scoped1.sem : SemLoc sig).isScoped .scVector = true; decide⟩)⟩),
    SparseCore.bigSep_erase' (Finset.mem_erase.mpr ⟨cellOf_ne d L (show (SemLoc.dma cc1_scoped2.sem : SemLoc sig) ≠ SemLoc.dma cc1_scoped1.sem by decide), (Finset.mem_erase.mpr ⟨cellOf_ne d L (show (SemLoc.dma cc1_scoped2.sem : SemLoc sig) ≠ SemLoc.dma cc1_scoped0.sem by decide), ((mem_ownCells (g := cellOf d L cc1_scoped2.sem)).mpr ⟨rfl, by show (SemLoc.dma cc1_scoped2.sem : SemLoc sig).isScoped .scVector = true; decide⟩)⟩)⟩),
    SparseCore.bigSep_erase' (Finset.mem_erase.mpr ⟨cellOf_ne d L (show (SemLoc.dma cc1_scoped3.sem : SemLoc sig) ≠ SemLoc.dma cc1_scoped2.sem by decide), (Finset.mem_erase.mpr ⟨cellOf_ne d L (show (SemLoc.dma cc1_scoped3.sem : SemLoc sig) ≠ SemLoc.dma cc1_scoped1.sem by decide), (Finset.mem_erase.mpr ⟨cellOf_ne d L (show (SemLoc.dma cc1_scoped3.sem : SemLoc sig) ≠ SemLoc.dma cc1_scoped0.sem by decide), ((mem_ownCells (g := cellOf d L cc1_scoped3.sem)).mpr ⟨rfl, by show (SemLoc.dma cc1_scoped3.sem : SemLoc sig).isScoped .scVector = true; decide⟩)⟩)⟩)⟩),
    SparseCore.bigSep_erase' (Finset.mem_erase.mpr ⟨cellOf_ne d L (show (SemLoc.dma cc1_scoped4.sem : SemLoc sig) ≠ SemLoc.dma cc1_scoped3.sem by decide), (Finset.mem_erase.mpr ⟨cellOf_ne d L (show (SemLoc.dma cc1_scoped4.sem : SemLoc sig) ≠ SemLoc.dma cc1_scoped2.sem by decide), (Finset.mem_erase.mpr ⟨cellOf_ne d L (show (SemLoc.dma cc1_scoped4.sem : SemLoc sig) ≠ SemLoc.dma cc1_scoped1.sem by decide), (Finset.mem_erase.mpr ⟨cellOf_ne d L (show (SemLoc.dma cc1_scoped4.sem : SemLoc sig) ≠ SemLoc.dma cc1_scoped0.sem by decide), ((mem_ownCells (g := cellOf d L cc1_scoped4.sem)).mpr ⟨rfl, by show (SemLoc.dma cc1_scoped4.sem : SemLoc sig).isScoped .scVector = true; decide⟩)⟩)⟩)⟩)⟩)]

omit [FloatOps F] in
theorem ownBufs_V5 :
    (ownBufs (thr) : sProp 𝕄)
      = iprop((∃ f, (thr).loc cc1_scratch0 ↦{fullShare} f) ∗ (∃ f, (thr).loc cc1_scratch1 ↦{fullShare} f) ∗ (∃ f, (thr).loc cc1_scratch2 ↦{fullShare} f)
          ∗ (∃ f, (thr).loc cc1_scratch3 ↦{fullShare} f) ∗ (∃ f, (thr).loc cc1_scratch4 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide), (SparseCore.Cfg.mem_ownRefs_of_owner (p := Proc.scVector (cV L) (jV L)) (b := (Proc.scVector (cV L) (jV L)).devRef cc1_scratch1) rfl)⟩),
    SparseCore.bigSep_erase' (Finset.mem_erase.mpr ⟨fun e => absurd (Proc.devRef_injective _ e) (show (cc1_scratch2 : Ref sig .scVector) ≠ cc1_scratch1 by decide), (Finset.mem_erase.mpr ⟨fun e => absurd (Proc.devRef_injective _ e) (show (cc1_scratch2 : Ref sig .scVector) ≠ cc1_scratch0 by decide), (SparseCore.Cfg.mem_ownRefs_of_owner (p := Proc.scVector (cV L) (jV L)) (b := (Proc.scVector (cV L) (jV L)).devRef cc1_scratch2) rfl)⟩)⟩),
    SparseCore.bigSep_erase' (Finset.mem_erase.mpr ⟨fun e => absurd (Proc.devRef_injective _ e) (show (cc1_scratch3 : Ref sig .scVector) ≠ cc1_scratch2 by decide), (Finset.mem_erase.mpr ⟨fun e => absurd (Proc.devRef_injective _ e) (show (cc1_scratch3 : Ref sig .scVector) ≠ cc1_scratch1 by decide), (Finset.mem_erase.mpr ⟨fun e => absurd (Proc.devRef_injective _ e) (show (cc1_scratch3 : Ref sig .scVector) ≠ cc1_scratch0 by decide), (SparseCore.Cfg.mem_ownRefs_of_owner (p := Proc.scVector (cV L) (jV L)) (b := (Proc.scVector (cV L) (jV L)).devRef cc1_scratch3) rfl)⟩)⟩)⟩),
    SparseCore.bigSep_erase' (Finset.mem_erase.mpr ⟨fun e => absurd (Proc.devRef_injective _ e) (show (cc1_scratch4 : Ref sig .scVector) ≠ cc1_scratch3 by decide), (Finset.mem_erase.mpr ⟨fun e => absurd (Proc.devRef_injective _ e) (show (cc1_scratch4 : Ref sig .scVector) ≠ cc1_scratch2 by decide), (Finset.mem_erase.mpr ⟨fun e => absurd (Proc.devRef_injective _ e) (show (cc1_scratch4 : Ref sig .scVector) ≠ cc1_scratch1 by decide), (Finset.mem_erase.mpr ⟨fun e => absurd (Proc.devRef_injective _ e) (show (cc1_scratch4 : Ref sig .scVector) ≠ cc1_scratch0 by decide), (SparseCore.Cfg.mem_ownRefs_of_owner (p := Proc.scVector (cV L) (jV L)) (b := (Proc.scVector (cV L) (jV L)).devRef cc1_scratch4) rfl)⟩)⟩)⟩)⟩)]

end Open

end Cert.Proof.KB

end
-- ==== Proof.BodyLoopsB.lean ====
/-
  The two counted loops of a vector subcore's task. The inner loop's hundred trips keep the table, the chunk's bytes and
  the chunk's targets as they are and leave the row scratch at some contents. A trip of the outer loop fetches chunk g of
  the bytes, which are bytes because the whole byte stream is, and of the targets, runs the inner loop, and writes the row
  scratch out to chunk g of the code path, which it takes out of the sixteen chunks it holds and puts back.
-/
import proofs.«204536_g87462714016206_cont_9to1c4b_719_4_alg».proof.Proof.BodyPartsB
import proofs.«204536_g87462714016206_cont_9to1c4b_719_4_alg».proof.Proof.BodyOpenB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F]

local notation "𝕄" => MT nD τ sig (HIx 1) (Elt F) ℕ UU ℕ

section Loops

variable (fb : (d : Dev nD) → Buf (Elt F) (bLoc d)) (fg : (d : Dev nD) → Buf (Elt F) (gLoc d))
variable (d : Dev nD) (L : grid1.Coords)

local notation "thr" => V d (cV L) (jV L)

/-- The inner loop's invariant: the table, the bytes and the targets as they are, the rows at some contents. -/
def inv2 (fT : Buf (Elt F) ((thr).loc cc1_scratch0)) (fI : Buf (Elt F) ((thr).loc cc1_scratch1)) (fG : Buf (Elt F) ((thr).loc cc1_scratch2))
    (_ : Nat) (_ : FVec F S16 .f32) : sProp 𝕄 :=
  iprop(HT d L fT ∗ HI d L fI ∗ HG d L fG ∗ ∃ fR, HR d L fR)

/-- The outer loop's invariant. -/
def inv1 (O : CellTallies nD τ sig (HIx 1)) (W : Waits sig (HIx 1)) (_ : Nat) (_ : FVec F S16 .f32) : sProp 𝕄 :=
  iprop(Transfers.MayWaits (thr) (none : HIx 1) O
    ∗ ((bV : Memref sig .scVector .hbm S3276800 .i32).view.loc thr ↦{shareTok fullShare 32 (wid L)} fb d)
    ∗ ((gV : Memref sig .scVector .hbm S13107200 .f32).view.loc thr ↦{shareTok fullShare 32 (wid L)} fg d)
    ∗ (∃ f, (sT : Memref sig .scVector .vmem S1024 .f32).view.loc thr ↦{fullShare} f)
    ∗ (∃ f, (sI : Memref sig .scVector .vmem S6400 .i32).view.loc thr ↦{fullShare} f)
    ∗ (∃ f, (sG : Memref sig .scVector .vmem S25600 .f32).view.loc thr ↦{fullShare} f)
    ∗ (∃ f, (sR : Memref sig .scVector .vmem S25600 .f32).view.loc thr ↦{fullShare} f)
    ∗ semVal (cellOf d L cc1_scoped1.sem) 0 ∗ semVal (cellOf d L cc1_scoped2.sem) 0 ∗ semVal (cellOf d L cc1_scoped3.sem) 0
    ∗ (bigSep Finset.univ fun g : Fin k1_t1_loop.trips => iprop(∃ f, oLoc d ↦[(oChunk L g).view.set]{fullShare} f))
    ∗ ∃ W', ⌜∀ p ∈ W', p ∈ W ∨ p.2 = none⌝ ∗ owes (thr) O W')

omit [FloatOps F] in
theorem HT_view (f : Buf (Elt F) ((thr).loc cc1_scratch0)) :
    (HT d L f : sProp 𝕄) = ((sT : Memref sig .scVector .vmem S1024 .f32).view.loc thr ↦{fullShare} f) := rfl
omit [FloatOps F] in
theorem HG_view (f : Buf (Elt F) ((thr).loc cc1_scratch2)) :
    (HG d L f : sProp 𝕄) = ((sG : Memref sig .scVector .vmem S25600 .f32).view.loc thr ↦{fullShare} f) := rfl
omit [FloatOps F] in
theorem HR_view (f : Buf (Elt F) ((thr).loc cc1_scratch3)) :
    (HR d L f : sProp 𝕄) = ((sR : Memref sig .scVector .vmem S25600 .f32).view.loc thr ↦{fullShare} f) := HR_eq d L f
omit [FloatOps F] in
/-- A chunk of the code path as the subcore's slice of it addresses it. -/
theorem pts_oChunk (g : Fin k1_t1_loop.trips) (f : Buf (Elt F) (oLoc d)) :
    ((oChunk L g).view.loc thr ↦[(oChunk L g).view.set]{fullShare} f : sProp 𝕄) = oLoc d ↦[(oChunk L g).view.set]{fullShare} f := rfl

omit [FloatOps F] in
/-- What the fetch of chunk g of the byte stream lands in the byte scratch is bytes. -/
theorem bytes_fetch (hpre : PreOK fb) (g : Fin k1_t1_loop.trips) (fI : Buf (Elt F) ((thr).loc cc1_scratch1)) :
    BytesBuf d L (View.write (Elt F) (sI : Memref sig .scVector .vmem S6400 .i32).view fI
      (((bV : Memref sig .scVector .hbm S3276800 .i32).slice (Rect.unit (s := S3276800) (k1_off1 L g) S6400.size (k1_off1_inb L g)) (fun _ => rfl)).view.read (Elt F) (fb d))
      Finset.univ) := by
  intro j
  show (View.write (Elt F) (View.whole cc1_scratch1) fI _ Finset.univ j).toNat < 256
  rw [View.write_whole_univ, View.read_apply, cast_eq]
  exact hpre d _

omit [FloatOps F] in
/-- The byte scratch after the fetch, at some contents that are bytes. -/
theorem bytes_any (hpre : PreOK fb) (g : Fin k1_t1_loop.trips) (fI : Buf (Elt F) ((thr).loc cc1_scratch1)) :
    ((sI : Memref sig .scVector .vmem S6400 .i32).view.loc thr ↦{fullShare} (View.write (Elt F) (sI : Memref sig .scVector .vmem S6400 .i32).view fI
      (((bV : Memref sig .scVector .hbm S3276800 .i32).slice (Rect.unit (s := S3276800) (k1_off1 L g) S6400.size (k1_off1_inb L g)) (fun _ => rfl)).view.read (Elt F) (fb d))
      Finset.univ) : sProp 𝕄)
      ⊢ iprop(∃ f, ⌜BytesBuf d L f⌝ ∗ HI d L f) := by
  iintro H
  iexists _
  isplitr
  · ipureintro; exact bytes_fetch fb d L hpre g fI
  · iexact H

omit [FloatOps F] in
theorem any_contents {ℓ : Loc nD τ sig} {S : Finset (Idx ℓ)} {q : PosShare TreeShare} (f : Buf (Elt F) ℓ) :
    (ℓ ↦[S]{q} f : sProp 𝕄) ⊢ iprop(∃ f', ℓ ↦[S]{q} f') := by
  iintro H; iexists f; iexact H

/-- The inner loop's hundred trips. -/
theorem t2_region {fT : Buf (Elt F) ((thr).loc cc1_scratch0)} {fI : Buf (Elt F) ((thr).loc cc1_scratch1)} {fG : Buf (Elt F) ((thr).loc cc1_scratch2)}
    (hfI : BytesBuf d L fI) (k : Fin k1_t2_loop.trips) (acc : FVec F S16 .f32) :
    inv2 d L fT fI fG k.val acc ⊢ wp frame (wpE (defs₀ (F := F)) 𝒱₀ thr none) Set.univ (k1_t2_body L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 k acc) (inv2 d L fT fI fG (k.val + 1)) := by
  unfold inv2
  iintro ⟨HT, HI, HG, %fR, HR⟩
  iapply (t2_run d L k acc hfI) $$ HT HI HG HR

/-- One trip of the outer loop. -/
theorem t1_run (hpre : PreOK fb) (O : CellTallies nD τ sig (HIx 1)) (W : Waits sig (HIx 1)) (g : Fin k1_t1_loop.trips) (acc : FVec F S16 .f32) :
    inv1 fb fg d L O W g.val acc
      ⊢ wp frame (wpE (defs₀ (F := F)) 𝒱₀ thr none) Set.univ (k1_t1_body L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 g acc) (inv1 fb fg d L O W (g.val + 1)) := by
  unfold k1_t1_body inv1
  iintro ⟨Hmw, Hb, Hg, ⟨%fT, HT⟩, ⟨%fI, HI⟩, ⟨%fG, HG⟩, ⟨%fR, HR⟩, Hs1, Hs2, Hs3, Hout, %W', %hW', HO⟩
  ihave Hout' := (Entails.of_eq (SparseCore.bigSep_erase' (Finset.mem_univ g))) $$ Hout
  icases Hout' with ⟨⟨%fo', Ho⟩, Hout⟩
  sl_exec
  sl_unfold_run_names
  ihave HI := (bytes_any fb d L hpre g fI) $$ HI
  icases HI with ⟨%fI2, %hfI2, HI⟩
  ihave HG := (any_contents _) $$ HG
  icases HG with ⟨%fG2, HG⟩
  ihave HT := (Entails.of_eq (HT_view d L _).symm) $$ HT
  ihave HG := (Entails.of_eq (HG_view d L _).symm) $$ HG
  ihave HR := (Entails.of_eq (HR_view d L _).symm) $$ HR
  sl_for (inv2 d L fT fI2 fG2) $$ [HT HI HG HR]
  case region =>
    intro k acc'
    exact t2_region d L hfI2 k acc'
  · unfold inv2
    isplitl [HT]; · iexact HT
    isplitl [HI]; · iexact HI
    isplitl [HG]; · iexact HG
    iexists _; iexact HR
  iintro %acc' HI2
  unfold inv2
  icases HI2 with ⟨HT, HI, HG, %fR', HR⟩
  ihave HT := (Entails.of_eq (HT_view d L _)) $$ HT
  ihave HG := (Entails.of_eq (HG_view d L _)) $$ HG
  ihave HR := (Entails.of_eq (HR_view d L _)) $$ HR
  ihave Ho := (Entails.of_eq (pts_oChunk d L g _).symm) $$ Ho
  sl_exec
  sl_step
  ihave Ho := (Entails.of_eq (pts_oChunk d L g _)) $$ Ho
  isplitl [Hmw]; · iexact Hmw
  isplitl [Hb]; · iexact Hb
  isplitl [Hg]; · iexact Hg
  isplitl [HT]; · iexists _; iexact HT
  isplitl [HI]; · iexists _; iexact HI
  isplitl [HG]; · iexists _; iexact HG
  isplitl [HR]; · iexists _; iexact HR
  isplitl [Hs1]; · iexact Hs1
  isplitl [Hs2]; · iexact Hs2
  isplitl [Hs3]; · iexact Hs3
  isplitl [Ho Hout]
  · iapply (Entails.of_eq (SparseCore.bigSep_erase' (Finset.mem_univ g)).symm)
    isplitl [Ho]; · iexists _; iexact Ho
    iexact Hout
  iexists _; isplitr
  swap
  · iexact HO
  · ipureintro; intro p hp
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    exact hW' p hp

end Loops

section Spell

variable (d : Dev nD) (L : grid1.Coords)

local notation "thr" => V d (cV L) (jV L)

omit [FloatOps F] in
theorem pts_b (q : PosShare TreeShare) (f : Buf (Elt F) (bLoc d)) :
    ((bV : Memref sig .scVector .hbm S3276800 .i32).view.loc thr ↦{q} f : sProp 𝕄) = bLoc d ↦{q} f := rfl
omit [FloatOps F] in
theorem pts_g (q : PosShare TreeShare) (f : Buf (Elt F) (gLoc d)) :
    ((gV : Memref sig .scVector .hbm S13107200 .f32).view.loc thr ↦{q} f : sProp 𝕄) = gLoc d ↦{q} f := rfl
omit [FloatOps F] in
theorem pts_t (q : PosShare TreeShare) (f : Buf (Elt F) (tLoc d)) :
    ((tV : Memref sig .scVector .hbm S1024 .f32).view.loc thr ↦{q} f : sProp 𝕄) = tLoc d ↦{q} f := rfl
omit [FloatOps F] in
theorem pts_pRow (f : Buf (Elt F) (pLoc d)) :
    ((pRow L).view.loc thr ↦[(pRow L).view.set]{fullShare} f : sProp 𝕄) = pLoc d ↦[(pRow L).view.set]{fullShare} f := rfl
omit [FloatOps F] in
theorem pts_s0 (f : Buf (Elt F) ((thr).loc cc1_scratch0)) :
    ((sT : Memref sig .scVector .vmem S1024 .f32).view.loc thr ↦{fullShare} f : sProp 𝕄) = (thr).loc cc1_scratch0 ↦{fullShare} f := rfl
omit [FloatOps F] in
theorem pts_s1 (f : Buf (Elt F) ((thr).loc cc1_scratch1)) :
    ((sI : Memref sig .scVector .vmem S6400 .i32).view.loc thr ↦{fullShare} f : sProp 𝕄) = (thr).loc cc1_scratch1 ↦{fullShare} f := rfl
omit [FloatOps F] in
theorem pts_s2 (f : Buf (Elt F) ((thr).loc cc1_scratch2)) :
    ((sG : Memref sig .scVector .vmem S25600 .f32).view.loc thr ↦{fullShare} f : sProp 𝕄) = (thr).loc cc1_scratch2 ↦{fullShare} f := rfl
omit [FloatOps F] in
theorem pts_s3 (f : Buf (Elt F) ((thr).loc cc1_scratch3)) :
    ((sR : Memref sig .scVector .vmem S25600 .f32).view.loc thr ↦{fullShare} f : sProp 𝕄) = (thr).loc cc1_scratch3 ↦{fullShare} f := rfl
omit [FloatOps F] in
theorem pts_s4 (f : Buf (Elt F) ((thr).loc cc1_scratch4)) :
    ((sA : Memref sig .scVector .vmem S16 .f32).view.loc thr ↦{fullShare} f : sProp 𝕄) = (thr).loc cc1_scratch4 ↦{fullShare} f := rfl

omit [FloatOps F] in
/-- The sixteen chunks at the contents the call found are the sixteen chunks at some contents. -/
theorem chunks_any (fo : (d : Dev nD) → Buf (Elt F) (oLoc d)) :
    (bigSep Finset.univ fun g : Fin k1_t1_loop.trips => oLoc d ↦[(oChunk L g).view.set]{fullShare} fo d : sProp 𝕄)
      ⊢ bigSep Finset.univ fun g : Fin k1_t1_loop.trips => iprop(∃ f, oLoc d ↦[(oChunk L g).view.set]{fullShare} f) :=
  BI.bigSep_mono fun g _ => any_contents (fo d)

end Spell

end Cert.Proof.KB

end
-- ==== Proof.BodyB.lean ====
/-
  One vector subcore's task: the code table fetched whole into its scratch; then, sixteen times, a chunk of 6400 bytes
  and its 25600 target words fetched, one hundred trips of four sixteen-lane groups — the table words and the target words
  each byte names loaded by index, the table words stored by index into the row scratch, the squared dot products added
  lane by lane — and the row scratch written out to the chunk of the code path; at the end the lane sums stored and written
  out to the subcore's row of the partial sums.
-/
import proofs.«204536_g87462714016206_cont_9to1c4b_719_4_alg».proof.Proof.BodyLoopsB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F]

local notation "𝕄" => MT nD τ sig (HIx 1) (Elt F) ℕ UU ℕ

variable (fb : (d : Dev nD) → Buf (Elt F) (bLoc d)) (fg : (d : Dev nD) → Buf (Elt F) (gLoc d)) (ft : (d : Dev nD) → Buf (Elt F) (tLoc d))
  (fo : (d : Dev nD) → Buf (Elt F) (oLoc d)) (fp : (d : Dev nD) → Buf (Elt F) (pLoc d))

/-- The task of the vector subcore at `L` on device `d`: from what it is handed and its own scoped storage to what it
    hands back, every wait of its own at the index below everything it owes. -/
theorem tile_body (hF : (K (F := F)).Facts) (hpre : PreOK fb) (d : Dev nD) (L : grid1.Coords)
    (O : CellTallies nD τ sig (HIx 1)) (W : Waits sig (HIx 1)) (hO : ∀ g, O g none = 0) :
    iprop(levAts (K (F := F)).L (K (F := F)).lev ∗ emp ∗ goL fb fg ft fo fp d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_sc_kernel L bV (Memref.isWhole_whole _) gV (Memref.isWhole_whole _) tV (Memref.isWhole_whole _)
            oV (Memref.isWhole_whole _) pV (Memref.isWhole_whole _)
            sT (Memref.isWhole_whole _) sI (Memref.isWhole_whole _) sG (Memref.isWhole_whole _) sR (Memref.isWhole_whole _) sA (Memref.isWhole_whole _)
            cc1_scoped0 cc1_scoped1 cc1_scoped2 cc1_scoped3 cc1_scoped4)
          fun _ => iprop(tdL fb fg ft d L ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc1_sc_kernel_eq_skeleton]; unfold cc1_sc_kernel_skel
  rw [(K (F := F)).scopedBufs_V hF d (cV L) (jV L), SparseCore.Cfg.scopedSems0_V (Val := Elt F) d (cV L) (jV L), ownSems0_V5, ownBufs_V5]
  unfold goL tdL inToks
  iintro ⟨#Hlv, -, ⟨⟨Hb, Hg, Ht⟩, Hout, Hp⟩, ⟨⟨%f0, HT⟩, ⟨%f1, HI⟩, ⟨%f2, HG⟩, ⟨%f3, HR⟩, ⟨%f4, HA⟩, Hbufs⟩, ⟨Hs0, Hs1, Hs2, Hs3, Hs4, Hsems⟩, HO⟩
  ihave Hmw := ((K (F := F)).mayWaits_none (thr := V d (cV L) (jV L)) hO) $$ Hlv
  ihave Hb := (Entails.of_eq (pts_b d L _ _).symm) $$ Hb
  ihave Hg := (Entails.of_eq (pts_g d L _ _).symm) $$ Hg
  ihave Ht := (Entails.of_eq (pts_t d L _ _).symm) $$ Ht
  ihave Hp := (Entails.of_eq (pts_pRow d L _).symm) $$ Hp
  ihave HT := (Entails.of_eq (pts_s0 d L _).symm) $$ HT
  ihave HI := (Entails.of_eq (pts_s1 d L _).symm) $$ HI
  ihave HG := (Entails.of_eq (pts_s2 d L _).symm) $$ HG
  ihave HR := (Entails.of_eq (pts_s3 d L _).symm) $$ HR
  ihave HA := (Entails.of_eq (pts_s4 d L _).symm) $$ HA
  ihave Hout := (chunks_any d L fo) $$ Hout
  sl_exec
  sl_for (inv1 fb fg d L O W) $$ [Hmw Hb Hg HT HI HG HR Hs1 Hs2 Hs3 Hout HO]
  case region =>
    intro g acc
    exact t1_run fb fg d L hpre O W g acc
  · unfold inv1
    isplitl [Hmw]; · iexact Hmw
    isplitl [Hb]; · iexact Hb
    isplitl [Hg]; · iexact Hg
    isplitl [HT]; · iexists _; iexact HT
    isplitl [HI]; · iexists _; iexact HI
    isplitl [HG]; · iexists _; iexact HG
    isplitl [HR]; · iexists _; iexact HR
    isplitl [Hs1]; · iexact Hs1
    isplitl [Hs2]; · iexact Hs2
    isplitl [Hs3]; · iexact Hs3
    isplitl [Hout]; · iexact Hout
    iexists _; isplitr
    swap
    · iexact HO
    · ipureintro; intro p hp
      rcases Finset.mem_insert.mp hp with hp | hp
      · exact .inr (by subst hp; rfl)
      · exact .inl hp
  iintro %acc HI1
  unfold inv1
  icases HI1 with ⟨-, Hb, Hg, ⟨%f0', HT⟩, ⟨%f1', HI⟩, ⟨%f2', HG⟩, ⟨%f3', HR⟩, Hs1, Hs2, Hs3, Hout, %W', %hW', HO⟩
  sl_exec
  sl_step
  ihave Hb := (Entails.of_eq (pts_b d L _ _)) $$ Hb
  ihave Hg := (Entails.of_eq (pts_g d L _ _)) $$ Hg
  ihave Ht := (Entails.of_eq (pts_t d L _ _)) $$ Ht
  ihave Hp := (Entails.of_eq (pts_pRow d L _)) $$ Hp
  ihave HT := (Entails.of_eq (pts_s0 d L _)) $$ HT
  ihave HI := (Entails.of_eq (pts_s1 d L _)) $$ HI
  ihave HG := (Entails.of_eq (pts_s2 d L _)) $$ HG
  ihave HR := (Entails.of_eq (pts_s3 d L _)) $$ HR
  ihave HA := (Entails.of_eq (pts_s4 d L _)) $$ HA
  isplitl [Hb Hg Ht Hout Hp]
  · isplitl [Hb Hg Ht]
    · isplitl [Hb]; · iexact Hb
      isplitl [Hg]; · iexact Hg
      iexact Ht
    isplitl [Hout]; · iexact Hout
    iexists _; iexact Hp
  isplitl [HT HI HG HR HA Hbufs]
  · isplitl [HT]; · iexists _; iexact HT
    isplitl [HI]; · iexists _; iexact HI
    isplitl [HG]; · iexists _; iexact HG
    isplitl [HR]; · iexists _; iexact HR
    isplitl [HA]; · iexists _; iexact HA
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  swap
  · iexact HO
  · ipureintro; intro p hp
    rcases Finset.mem_insert.mp hp with hp | hp
    · exact .inr (by subst hp; rfl)
    exact hW' p hp

end Cert.Proof.KB

end
-- ==== Proof.FramePIB.lean ====
/-
  The kernel's frame conjunct: the launch's run read at the arguments, with each vector subcore's task proved.
-/
import proofs.«204536_g87462714016206_cont_9to1c4b_719_4_alg».proof.Proof.FrameRunB
import proofs.«204536_g87462714016206_cont_9to1c4b_719_4_alg».proof.Proof.BodyB

noncomputable section

namespace Cert.Proof.KB

open Cert.Kernel Cert.Kernel.Gen
open Idealize.ShloMosaic Idealize.SL.Sem

/-- `Cert.frame_Kernel` (Defs.lean). -/
theorem frame_p : Cert.frame_Kernel := fun m ρ hpre =>
  run_frame (F := Bits) m ρ (tile_body (fbOf m) (fgOf m) (ftOf m) (foOf m) (fpOf m)) hpre

end Cert.Proof.KB

end
-- ==== Proof.RefOps.lean ====
/- The reference program's @main as one straight line of host operations: the three outlined
   functions (the table lookup's index normalisation with its nested select, and the Euclidean norm)
   written out at their call sites over the buffers each call names. Every weakly fair execution
   terminates, and each buffer ends at the fold of the operations over the launch contents. The results
   the program returns are then named as functions of the argument arrays. -/
import proofs.«204536_g87462714016206_cont_9to1c4b_719_4_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The lookup's index table: the comparison with zero, the shift by the table's height, the select between them, the trailing unit axis. -/
abbrev opsIdx : List (HloOp τ sig (Elt F)) :=
  [ StableHlo.TRef.nullary main_call0.c (constantI S_ 32 0#32),
    StableHlo.TRef.unary main_call0.c main_call0.v0 (broadcastInDim S16384x200 ![] bcast_S_S16384x200),
    StableHlo.TRef.binary (.of main_arg0 : StableHlo.TRef sig ⟨S16384x200, .i32⟩) main_call0.v0 main_call0.v1 (cmpi .slt),
    StableHlo.TRef.nullary main_call0.c_0 (constantI S_ 32 256#32),
    StableHlo.TRef.unary main_call0.c_0 main_call0.v2 (broadcastInDim S16384x200 ![] bcast_S_S16384x200),
    StableHlo.TRef.binary (.of main_arg0 : StableHlo.TRef sig ⟨S16384x200, .i32⟩) main_call0.v2 main_call0.v3 addi,
    StableHlo.TRef.ternary main_call0.v1 main_call0.v3 (.of main_arg0 : StableHlo.TRef sig ⟨S16384x200, .i32⟩) main_call0.call0.v0 select,
    StableHlo.TRef.unary main_call0.call0.v0 main_call0.v5 (broadcastInDim S16384x200x1 ![0, 1] bcast_S16384x200_S16384x200x1_0_1) ]

/-- The lookup proper: the range test of the index table, the row gather, and the select against the fill. -/
abbrev opsTake : List (HloOp τ sig (Elt F)) :=
  [ StableHlo.TRef.nullary main_call0.c_1 (constantI S1 32 255#32),
    StableHlo.TRef.nullary main_call0.c_2 (constantI S_ 32 0#32),
    StableHlo.TRef.unary main_call0.c_2 main_call0.v6 (broadcastInDim S16384x200x1 ![] bcast_S_S16384x200x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S16384x200x1 ![0, 1, 2] bcast_S1x1x1_S16384x200x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x200x1_S16384x200_d2 h_S_),
    StableHlo.TRef.binary (.of main_arg2 : StableHlo.TRef sig ⟨S256x4, .f32⟩) main_call0.v5 main_call0.v13 (fun x i => Host.gather gather_S256x4_S16384x200x1_S16384x200x4_2_0_n_n_0_2_14 x i),
    StableHlo.TRef.unary main_call0.v12 main_call0.v14 (broadcastInDim S16384x200x4 ![0, 1] bcast_S16384x200_S16384x200x4_0_1),
    StableHlo.TRef.nullary main_call0.cst (constant S_ .f32 0x7FC00000#32),
    StableHlo.TRef.unary main_call0.cst main_call0.v15 (broadcastInDim S16384x200x4 ![] bcast_S_S16384x200x4),
    StableHlo.TRef.ternary main_call0.v14 main_call0.v13 main_call0.v15 main_call0.v16 select ]

/-- The projection: the transposed weight, the contraction, the bias broadcast and added. -/
abbrev opsProj : List (HloOp τ sig (Elt F)) :=
  [ StableHlo.unary main_arg3 main_v1 ((transpose S4x4 [1, 0] · transposes_S4x4_S4x4_1_0) : (⟨S4x4, .f32⟩ : BufTy).Contents (Elt F) → (⟨S4x4, .f32⟩ : BufTy).Contents (Elt F)),
    StableHlo.binary main_v0 main_v1 main_v2 ((fun l r => Host.dotGeneral dot_S16384x200x4_S4x4_S16384x200x4_2_0_01_1_n_n none l r) : (⟨S16384x200x4, .f32⟩ : BufTy).Contents (Elt F) → (⟨S4x4, .f32⟩ : BufTy).Contents (Elt F) → (⟨S16384x200x4, .f32⟩ : BufTy).Contents (Elt F)),
    StableHlo.unary main_arg4 main_v3 (broadcastInDim S1x1x4 ![2] bcast_S4_S1x1x4_2 : (⟨S4, .f32⟩ : BufTy).Contents (Elt F) → (⟨S1x1x4, .f32⟩ : BufTy).Contents (Elt F)),
    StableHlo.unary main_v3 main_v4 (broadcastInDim S16384x200x4 ![0, 1, 2] bcast_S1x1x4_S16384x200x4_0_1_2 : (⟨S1x1x4, .f32⟩ : BufTy).Contents (Elt F) → (⟨S16384x200x4, .f32⟩ : BufTy).Contents (Elt F)),
    StableHlo.binary main_v2 main_v4 main_v5 (addf : (⟨S16384x200x4, .f32⟩ : BufTy).Contents (Elt F) → (⟨S16384x200x4, .f32⟩ : BufTy).Contents (Elt F) → (⟨S16384x200x4, .f32⟩ : BufTy).Contents (Elt F)) ]

/-- The norm: the squares, their sum along the last axis, that axis restored, the square root. -/
abbrev opsNorm : List (HloOp τ sig (Elt F)) :=
  [ StableHlo.TRef.binary (.of main_v5 : StableHlo.TRef sig ⟨S16384x200x4, .f32⟩) (.of main_v5 : StableHlo.TRef sig ⟨S16384x200x4, .f32⟩) main_call1.v0 mulf,
    StableHlo.TRef.nullary main_call1.cst (constant S_ .f32 0x00000000#32),
    StableHlo.TRef.binary main_call1.v0 main_call1.cst main_call1.v1 (fun x v => Host.reduceAdd x v reducesTo_S16384x200x4_S16384x200_d2 h_S_),
    StableHlo.TRef.unary main_call1.v1 main_call1.v2 (broadcastInDim S16384x200x1 ![0, 1] bcast_S16384x200_S16384x200x1_0_1),
    StableHlo.TRef.unary main_call1.v2 main_call1.v3 Host.sqrt ]

/-- The normalisation: the small constant added to the norm, broadcast along the last axis, the quotient. -/
abbrev opsDiv : List (HloOp τ sig (Elt F)) :=
  [ StableHlo.nullary main_cst (constant S_ .f32 0x2B8CBCCC#32),
    StableHlo.unary main_cst main_v7 (broadcastInDim S16384x200x1 ![] bcast_S_S16384x200x1 : (⟨S_, .f32⟩ : BufTy).Contents (Elt F) → (⟨S16384x200x1, .f32⟩ : BufTy).Contents (Elt F)),
    StableHlo.binary main_v6 main_v7 main_v8 (addf : (⟨S16384x200x1, .f32⟩ : BufTy).Contents (Elt F) → (⟨S16384x200x1, .f32⟩ : BufTy).Contents (Elt F) → (⟨S16384x200x1, .f32⟩ : BufTy).Contents (Elt F)),
    StableHlo.unary main_v8 main_v9 (broadcastInDim S16384x200x4 ![0, 1, 2] bcast_S16384x200x1_S16384x200x4_0_1_2 : (⟨S16384x200x1, .f32⟩ : BufTy).Contents (Elt F) → (⟨S16384x200x4, .f32⟩ : BufTy).Contents (Elt F)),
    StableHlo.binary main_v5 main_v9 main_v10 (Host.divf : (⟨S16384x200x4, .f32⟩ : BufTy).Contents (Elt F) → (⟨S16384x200x4, .f32⟩ : BufTy).Contents (Elt F) → (⟨S16384x200x4, .f32⟩ : BufTy).Contents (Elt F)) ]

/-- The loss: the products with the target summed along the last axis, squared, summed over everything, divided by the count, taken from one, times one; and the fourth result's constant. -/
abbrev opsLoss : List (HloOp τ sig (Elt F)) :=
  [ StableHlo.binary main_v10 main_arg1 main_v11 (mulf : (⟨S16384x200x4, .f32⟩ : BufTy).Contents (Elt F) → (⟨S16384x200x4, .f32⟩ : BufTy).Contents (Elt F) → (⟨S16384x200x4, .f32⟩ : BufTy).Contents (Elt F)),
    StableHlo.nullary main_cst_0 (constant S_ .f32 0x00000000#32),
    StableHlo.binary main_v11 main_cst_0 main_v12 ((fun x v => Host.reduceAdd x v reducesTo_S16384x200x4_S16384x200_d2 h_S_) : (⟨S16384x200x4, .f32⟩ : BufTy).Contents (Elt F) → (⟨S_, .f32⟩ : BufTy).Contents (Elt F) → (⟨S16384x200, .f32⟩ : BufTy).Contents (Elt F)),
    StableHlo.binary main_v12 main_v12 main_v13 (mulf : (⟨S16384x200, .f32⟩ : BufTy).Contents (Elt F) → (⟨S16384x200, .f32⟩ : BufTy).Contents (Elt F) → (⟨S16384x200, .f32⟩ : BufTy).Contents (Elt F)),
    StableHlo.nullary main_cst_1 (constant S_ .f32 0x00000000#32),
    StableHlo.binary main_v13 main_cst_1 main_v14 ((fun x v => Host.reduceAdd x v reducesTo_S16384x200_S_d0_1 h_S_) : (⟨S16384x200, .f32⟩ : BufTy).Contents (Elt F) → (⟨S_, .f32⟩ : BufTy).Contents (Elt F) → (⟨S_, .f32⟩ : BufTy).Contents (Elt F)),
    StableHlo.nullary main_cst_2 (constant S_ .f32 0x4A480000#32),
    StableHlo.binary main_v14 main_cst_2 main_v15 (Host.divf : (⟨S_, .f32⟩ : BufTy).Contents (Elt F) → (⟨S_, .f32⟩ : BufTy).Contents (Elt F) → (⟨S_, .f32⟩ : BufTy).Contents (Elt F)),
    StableHlo.nullary main_cst_3 (constant S_ .f32 0x3F800000#32),
    StableHlo.binary main_cst_3 main_v15 main_v16 (subf : (⟨S_, .f32⟩ : BufTy).Contents (Elt F) → (⟨S_, .f32⟩ : BufTy).Contents (Elt F) → (⟨S_, .f32⟩ : BufTy).Contents (Elt F)),
    StableHlo.nullary main_cst_4 (constant S_ .f32 0x3F800000#32),
    StableHlo.binary main_v16 main_cst_4 main_v17 (mulf : (⟨S_, .f32⟩ : BufTy).Contents (Elt F) → (⟨S_, .f32⟩ : BufTy).Contents (Elt F) → (⟨S_, .f32⟩ : BufTy).Contents (Elt F)),
    StableHlo.nullary main_cst_5 (constant S_ .f32 0x3DCCCCCD#32) ]

/-- @main's fifty-one operations in order: the six stretches below, one after the other. -/
abbrev ops : List (HloOp τ sig (Elt F)) :=
  [ StableHlo.TRef.nullary main_call0.c (constantI S_ 32 0#32),
    StableHlo.TRef.unary main_call0.c main_call0.v0 (broadcastInDim S16384x200 ![] bcast_S_S16384x200),
    StableHlo.TRef.binary (.of main_arg0 : StableHlo.TRef sig ⟨S16384x200, .i32⟩) main_call0.v0 main_call0.v1 (cmpi .slt),
    StableHlo.TRef.nullary main_call0.c_0 (constantI S_ 32 256#32),
    StableHlo.TRef.unary main_call0.c_0 main_call0.v2 (broadcastInDim S16384x200 ![] bcast_S_S16384x200),
    StableHlo.TRef.binary (.of main_arg0 : StableHlo.TRef sig ⟨S16384x200, .i32⟩) main_call0.v2 main_call0.v3 addi,
    StableHlo.TRef.ternary main_call0.v1 main_call0.v3 (.of main_arg0 : StableHlo.TRef sig ⟨S16384x200, .i32⟩) main_call0.call0.v0 select,
    StableHlo.TRef.unary main_call0.call0.v0 main_call0.v5 (broadcastInDim S16384x200x1 ![0, 1] bcast_S16384x200_S16384x200x1_0_1),
    StableHlo.TRef.nullary main_call0.c_1 (constantI S1 32 255#32),
    StableHlo.TRef.nullary main_call0.c_2 (constantI S_ 32 0#32),
    StableHlo.TRef.unary main_call0.c_2 main_call0.v6 (broadcastInDim S16384x200x1 ![] bcast_S_S16384x200x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S16384x200x1 ![0, 1, 2] bcast_S1x1x1_S16384x200x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S16384x200x1_S16384x200_d2 h_S_),
    StableHlo.TRef.binary (.of main_arg2 : StableHlo.TRef sig ⟨S256x4, .f32⟩) main_call0.v5 main_call0.v13 (fun x i => Host.gather gather_S256x4_S16384x200x1_S16384x200x4_2_0_n_n_0_2_14 x i),
    StableHlo.TRef.unary main_call0.v12 main_call0.v14 (broadcastInDim S16384x200x4 ![0, 1] bcast_S16384x200_S16384x200x4_0_1),
    StableHlo.TRef.nullary main_call0.cst (constant S_ .f32 0x7FC00000#32),
    StableHlo.TRef.unary main_call0.cst main_call0.v15 (broadcastInDim S16384x200x4 ![] bcast_S_S16384x200x4),
    StableHlo.TRef.ternary main_call0.v14 main_call0.v13 main_call0.v15 main_call0.v16 select,
    StableHlo.unary main_arg3 main_v1 ((transpose S4x4 [1, 0] · transposes_S4x4_S4x4_1_0) : (⟨S4x4, .f32⟩ : BufTy).Contents (Elt F) → (⟨S4x4, .f32⟩ : BufTy).Contents (Elt F)),
    StableHlo.binary main_v0 main_v1 main_v2 ((fun l r => Host.dotGeneral dot_S16384x200x4_S4x4_S16384x200x4_2_0_01_1_n_n none l r) : (⟨S16384x200x4, .f32⟩ : BufTy).Contents (Elt F) → (⟨S4x4, .f32⟩ : BufTy).Contents (Elt F) → (⟨S16384x200x4, .f32⟩ : BufTy).Contents (Elt F)),
    StableHlo.unary main_arg4 main_v3 (broadcastInDim S1x1x4 ![2] bcast_S4_S1x1x4_2 : (⟨S4, .f32⟩ : BufTy).Contents (Elt F) → (⟨S1x1x4, .f32⟩ : BufTy).Contents (Elt F)),
    StableHlo.unary main_v3 main_v4 (broadcastInDim S16384x200x4 ![0, 1, 2] bcast_S1x1x4_S16384x200x4_0_1_2 : (⟨S1x1x4, .f32⟩ : BufTy).Contents (Elt F) → (⟨S16384x200x4, .f32⟩ : BufTy).Contents (Elt F)),
    StableHlo.binary main_v2 main_v4 main_v5 (addf : (⟨S16384x200x4, .f32⟩ : BufTy).Contents (Elt F) → (⟨S16384x200x4, .f32⟩ : BufTy).Contents (Elt F) → (⟨S16384x200x4, .f32⟩ : BufTy).Contents (Elt F)),
    StableHlo.TRef.binary (.of main_v5 : StableHlo.TRef sig ⟨S16384x200x4, .f32⟩) (.of main_v5 : StableHlo.TRef sig ⟨S16384x200x4, .f32⟩) main_call1.v0 mulf,
    StableHlo.TRef.nullary main_call1.cst (constant S_ .f32 0x00000000#32),
    StableHlo.TRef.binary main_call1.v0 main_call1.cst main_call1.v1 (fun x v => Host.reduceAdd x v reducesTo_S16384x200x4_S16384x200_d2 h_S_),
    StableHlo.TRef.unary main_call1.v1 main_call1.v2 (broadcastInDim S16384x200x1 ![0, 1] bcast_S16384x200_S16384x200x1_0_1),
    StableHlo.TRef.unary main_call1.v2 main_call1.v3 Host.sqrt,
    StableHlo.nullary main_cst (constant S_ .f32 0x2B8CBCCC#32),
    StableHlo.unary main_cst main_v7 (broadcastInDim S16384x200x1 ![] bcast_S_S16384x200x1 : (⟨S_, .f32⟩ : BufTy).Contents (Elt F) → (⟨S16384x200x1, .f32⟩ : BufTy).Contents (Elt F)),
    StableHlo.binary main_v6 main_v7 main_v8 (addf : (⟨S16384x200x1, .f32⟩ : BufTy).Contents (Elt F) → (⟨S16384x200x1, .f32⟩ : BufTy).Contents (Elt F) → (⟨S16384x200x1, .f32⟩ : BufTy).Contents (Elt F)),
    StableHlo.unary main_v8 main_v9 (broadcastInDim S16384x200x4 ![0, 1, 2] bcast_S16384x200x1_S16384x200x4_0_1_2 : (⟨S16384x200x1, .f32⟩ : BufTy).Contents (Elt F) → (⟨S16384x200x4, .f32⟩ : BufTy).Contents (Elt F)),
    StableHlo.binary main_v5 main_v9 main_v10 (Host.divf : (⟨S16384x200x4, .f32⟩ : BufTy).Contents (Elt F) → (⟨S16384x200x4, .f32⟩ : BufTy).Contents (Elt F) → (⟨S16384x200x4, .f32⟩ : BufTy).Contents (Elt F)),
    StableHlo.binary main_v10 main_arg1 main_v11 (mulf : (⟨S16384x200x4, .f32⟩ : BufTy).Contents (Elt F) → (⟨S16384x200x4, .f32⟩ : BufTy).Contents (Elt F) → (⟨S16384x200x4, .f32⟩ : BufTy).Contents (Elt F)),
    StableHlo.nullary main_cst_0 (constant S_ .f32 0x00000000#32),
    StableHlo.binary main_v11 main_cst_0 main_v12 ((fun x v => Host.reduceAdd x v reducesTo_S16384x200x4_S16384x200_d2 h_S_) : (⟨S16384x200x4, .f32⟩ : BufTy).Contents (Elt F) → (⟨S_, .f32⟩ : BufTy).Contents (Elt F) → (⟨S16384x200, .f32⟩ : BufTy).Contents (Elt F)),
    StableHlo.binary main_v12 main_v12 main_v13 (mulf : (⟨S16384x200, .f32⟩ : BufTy).Contents (Elt F) → (⟨S16384x200, .f32⟩ : BufTy).Contents (Elt F) → (⟨S16384x200, .f32⟩ : BufTy).Contents (Elt F)),
    StableHlo.nullary main_cst_1 (constant S_ .f32 0x00000000#32),
    StableHlo.binary main_v13 main_cst_1 main_v14 ((fun x v => Host.reduceAdd x v reducesTo_S16384x200_S_d0_1 h_S_) : (⟨S16384x200, .f32⟩ : BufTy).Contents (Elt F) → (⟨S_, .f32⟩ : BufTy).Contents (Elt F) → (⟨S_, .f32⟩ : BufTy).Contents (Elt F)),
    StableHlo.nullary main_cst_2 (constant S_ .f32 0x4A480000#32),
    StableHlo.binary main_v14 main_cst_2 main_v15 (Host.divf : (⟨S_, .f32⟩ : BufTy).Contents (Elt F) → (⟨S_, .f32⟩ : BufTy).Contents (Elt F) → (⟨S_, .f32⟩ : BufTy).Contents (Elt F)),
    StableHlo.nullary main_cst_3 (constant S_ .f32 0x3F800000#32),
    StableHlo.binary main_cst_3 main_v15 main_v16 (subf : (⟨S_, .f32⟩ : BufTy).Contents (Elt F) → (⟨S_, .f32⟩ : BufTy).Contents (Elt F) → (⟨S_, .f32⟩ : BufTy).Contents (Elt F)),
    StableHlo.nullary main_cst_4 (constant S_ .f32 0x3F800000#32),
    StableHlo.binary main_v16 main_cst_4 main_v17 (mulf : (⟨S_, .f32⟩ : BufTy).Contents (Elt F) → (⟨S_, .f32⟩ : BufTy).Contents (Elt F) → (⟨S_, .f32⟩ : BufTy).Contents (Elt F)),
    StableHlo.nullary main_cst_5 (constant S_ .f32 0x3DCCCCCD#32) ]

theorem ops_eq : (ops : List (HloOp τ sig (Elt F))) = opsIdx ++ (opsTake ++ (opsProj ++ (opsNorm ++ (opsDiv ++ opsLoss)))) := rfl

/-- The fold over a concatenation is the fold over the second list from the fold over the first. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

set_option maxRecDepth 4096 in
/-- @main is that straight line: the three functions unfolded at their calls, sequencing reassociated. -/
theorem main_eq (c : Dev nD) : main (F := F) c = seq ops := by
  simp only [main, fn_take.body, fn_where.body, fn_norm.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., binary_bufs_sub .., nullary_bufs_sub .., binary_bufs_sub .., nullary_bufs_sub .., binary_bufs_sub .., nullary_bufs_sub .., binary_bufs_sub .., nullary_bufs_sub .., binary_bufs_sub .., nullary_bufs_sub ..⟩

/-- From any memory with zero counters every weakly fair execution of @main terminates, and every buffer
    ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The results as functions of the argument arrays -/

/-- Contents of a buffer of shape `S` and element type `e`. -/
abbrev Ct (F : FTy → Type) (S : Shape) (e : EltTy) : Type := (⟨S, e⟩ : BufTy).Contents (Elt F)

/-- The lookup's index table: a negative index shifted up by the table's height, then a trailing unit axis. -/
def idxV (byte : Ct F S16384x200 .i32) : Ct F S16384x200x1 .i32 :=
  broadcastInDim S16384x200x1 ![0, 1] bcast_S16384x200_S16384x200x1_0_1
    (select (cmpi .slt byte (broadcastInDim S16384x200 ![] bcast_S_S16384x200 (constantI S_ 32 0#32)))
      (addi byte (broadcastInDim S16384x200 ![] bcast_S_S16384x200 (constantI S_ 32 256#32))) byte)

/-- Where the index table's entry lies in `[0, 255]`, per output element. -/
def maskV (idx : Ct F S16384x200x1 .i32) : Ct F S16384x200x4 .i1 :=
  broadcastInDim S16384x200x4 ![0, 1] bcast_S16384x200_S16384x200x4_0_1
    (Host.reduce IntOp.andi
      (andi (cmpi .sge idx (broadcastInDim S16384x200x1 ![] bcast_S_S16384x200x1 (constantI S_ 32 0#32)))
        (cmpi .sle idx
          (broadcastInDim S16384x200x1 ![0, 1, 2] bcast_S1x1x1_S16384x200x1_0_1_2
            (broadcastInDim S1x1x1 ![2] bcast_S1_S1x1x1_2 (constantI S1 32 255#32)))))
      (constantI S_ 1 1#1) reducesTo_S16384x200x1_S16384x200_d2 h_S_)

/-- The table's rows at the index table's entries, the fill word where an entry is out of range. -/
def takeV (emb : Ct F S256x4 .f32) (idx : Ct F S16384x200x1 .i32) : Ct F S16384x200x4 .f32 :=
  select (maskV idx)
    (Host.gather gather_S256x4_S16384x200x1_S16384x200x4_2_0_n_n_0_2_14 emb idx)
    (broadcastInDim S16384x200x4 ![] bcast_S_S16384x200x4 (constant S_ .f32 0x7FC00000#32))

/-- The projection: the looked-up rows times the transposed weight, plus the bias. -/
def projV (tk : Ct F S16384x200x4 .f32) (W : Ct F S4x4 .f32) (b : Ct F S4 .f32) : Ct F S16384x200x4 .f32 :=
  addf (Host.dotGeneral dot_S16384x200x4_S4x4_S16384x200x4_2_0_01_1_n_n none tk
      (transpose S4x4 [1, 0] W transposes_S4x4_S4x4_1_0))
    (broadcastInDim S16384x200x4 ![0, 1, 2] bcast_S1x1x4_S16384x200x4_0_1_2
      (broadcastInDim S1x1x4 ![2] bcast_S4_S1x1x4_2 b))

/-- The Euclidean norm along the last axis, that axis kept with extent one. -/
def normV (q : Ct F S16384x200x4 .f32) : Ct F S16384x200x1 .f32 :=
  Host.sqrt (broadcastInDim S16384x200x1 ![0, 1] bcast_S16384x200_S16384x200x1_0_1
    (Host.reduceAdd (mulf q q) (constant S_ .f32 0x00000000#32) reducesTo_S16384x200x4_S16384x200_d2 h_S_))

/-- An array divided by its norm (given) plus the small constant. -/
def quotV (q : Ct F S16384x200x4 .f32) (n : Ct F S16384x200x1 .f32) : Ct F S16384x200x4 .f32 :=
  Host.divf q
    (broadcastInDim S16384x200x4 ![0, 1, 2] bcast_S16384x200x1_S16384x200x4_0_1_2
      (addf n (broadcastInDim S16384x200x1 ![] bcast_S_S16384x200x1 (constant S_ .f32 0x2B8CBCCC#32))))

/-- The inner product with the target along the last axis. -/
def dotV (cp tgt : Ct F S16384x200x4 .f32) : Ct F S16384x200 .f32 :=
  Host.reduceAdd (mulf cp tgt) (constant S_ .f32 0x00000000#32) reducesTo_S16384x200x4_S16384x200_d2 h_S_

/-- The first result from the second and the target: one minus the mean square of the inner products, times one. -/
def lossV (cp tgt : Ct F S16384x200x4 .f32) : Ct F S_ .f32 :=
  mulf
    (subf (constant S_ .f32 0x3F800000#32)
      (Host.divf
        (Host.reduceAdd (mulf (dotV cp tgt) (dotV cp tgt)) (constant S_ .f32 0x00000000#32) reducesTo_S16384x200_S_d0_1 h_S_)
        (constant S_ .f32 0x4A480000#32)))
    (constant S_ .f32 0x3F800000#32)

/-- The projection of the looked-up rows, from the argument arrays. -/
def qV (emb : Ct F S256x4 .f32) (W : Ct F S4x4 .f32) (b : Ct F S4 .f32) (byte : Ct F S16384x200 .i32) : Ct F S16384x200x4 .f32 :=
  projV (takeV emb (idxV byte)) W b

/-- The second result, from the argument arrays. -/
def codePathV (emb : Ct F S256x4 .f32) (W : Ct F S4x4 .f32) (b : Ct F S4 .f32) (byte : Ct F S16384x200 .i32) : Ct F S16384x200x4 .f32 :=
  quotV (qV emb W b byte) (normV (qV emb W b byte))

end Cert.ReferenceIdeal.RefRun

end
-- ==== Proof.RefRun.lean ====
/- The reference program's run read back: the operation list is read stretch by stretch, each stretch's
   result buffer at its named function of what the earlier stretches left, and the results @main returns
   are thereby the named functions of the argument arrays, the arguments themselves unchanged. -/
import proofs.«204536_g87462714016206_cont_9to1c4b_719_4_alg».proof.Proof.RefOps

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-! ## The typed references' conversions are the identity at these literal buffers -/

theorem ofBuf_toBuf {Val : EltTy → Type} {T : BufTy} (x : TRef sig T) (v : T.Contents Val) : x.ofBuf (x.toBuf v) = v := by
  obtain ⟨r, h, _, _⟩ := x
  subst h
  rfl

theorem toBuf_main_call0_v5 (p1 p2 p3) (v : Ct F S16384x200x1 .i32) :
    ((TRef.of main_call0_v5 p1 p2 p3 : TRef sig ⟨S16384x200x1, .i32⟩).toBuf v : Ct F S16384x200x1 .i32) = v := rfl
theorem toBuf_main_v0 (p1 p2 p3) (v : Ct F S16384x200x4 .f32) :
    ((TRef.of main_v0 p1 p2 p3 : TRef sig ⟨S16384x200x4, .f32⟩).toBuf v : Ct F S16384x200x4 .f32) = v := rfl
theorem toBuf_main_v6 (p1 p2 p3) (v : Ct F S16384x200x1 .f32) :
    ((TRef.of main_v6 p1 p2 p3 : TRef sig ⟨S16384x200x1, .f32⟩).toBuf v : Ct F S16384x200x1 .f32) = v := rfl

theorem ofBuf_main_arg0 (p1 p2 p3) (v : (Proc.devRef .tc main_arg0 : DevRef τ sig).ty.Contents (Elt F)) :
    (TRef.of main_arg0 p1 p2 p3 : TRef sig ⟨S16384x200, .i32⟩).ofBuf v = v := rfl
theorem ofBuf_main_call0_v5 (p1 p2 p3) (v : (Proc.devRef .tc main_call0_v5 : DevRef τ sig).ty.Contents (Elt F)) :
    (TRef.of main_call0_v5 p1 p2 p3 : TRef sig ⟨S16384x200x1, .i32⟩).ofBuf v = v := rfl
theorem ofBuf_main_arg2 (p1 p2 p3) (v : (Proc.devRef .tc main_arg2 : DevRef τ sig).ty.Contents (Elt F)) :
    (TRef.of main_arg2 p1 p2 p3 : TRef sig ⟨S256x4, .f32⟩).ofBuf v = v := rfl
theorem ofBuf_main_v5 (p1 p2 p3) (v : (Proc.devRef .tc main_v5 : DevRef τ sig).ty.Contents (Elt F)) :
    (TRef.of main_v5 p1 p2 p3 : TRef sig ⟨S16384x200x4, .f32⟩).ofBuf v = v := rfl

/-- The buffers' contents after the first 1 stretch. -/
def val1 (V0 : Valuation τ sig (Elt F)) : Valuation τ sig (Elt F) := after opsIdx V0
theorem val1_main_call0_v5 (V0 : Valuation τ sig (Elt F)) :
    val1 V0 (no_index (Proc.devRef .tc main_call0_v5)) = idxV (V0 (Proc.devRef .tc main_arg0)) := by
  unfold val1
  simp only [opsIdx]
  after_results_simp
  simp only [ofBuf_toBuf, toBuf_main_call0_v5, toBuf_main_v0, toBuf_main_v6, ofBuf_main_arg0, ofBuf_main_call0_v5, ofBuf_main_arg2, ofBuf_main_v5]
  unfold idxV
  rfl
theorem val1_main_arg0 (V0 : Valuation τ sig (Elt F)) : val1 V0 (no_index (Proc.devRef .tc main_arg0)) = V0 (Proc.devRef .tc main_arg0) := by
  unfold val1
  simp only [opsIdx]
  after_results_simp
theorem val1_main_arg1 (V0 : Valuation τ sig (Elt F)) : val1 V0 (no_index (Proc.devRef .tc main_arg1)) = V0 (Proc.devRef .tc main_arg1) := by
  unfold val1
  simp only [opsIdx]
  after_results_simp
theorem val1_main_arg2 (V0 : Valuation τ sig (Elt F)) : val1 V0 (no_index (Proc.devRef .tc main_arg2)) = V0 (Proc.devRef .tc main_arg2) := by
  unfold val1
  simp only [opsIdx]
  after_results_simp
theorem val1_main_arg3 (V0 : Valuation τ sig (Elt F)) : val1 V0 (no_index (Proc.devRef .tc main_arg3)) = V0 (Proc.devRef .tc main_arg3) := by
  unfold val1
  simp only [opsIdx]
  after_results_simp
theorem val1_main_arg4 (V0 : Valuation τ sig (Elt F)) : val1 V0 (no_index (Proc.devRef .tc main_arg4)) = V0 (Proc.devRef .tc main_arg4) := by
  unfold val1
  simp only [opsIdx]
  after_results_simp

/-- The buffers' contents after the first 2 stretches. -/
def val2 (V0 : Valuation τ sig (Elt F)) : Valuation τ sig (Elt F) := after opsTake (val1 V0)
theorem val2_main_v0 (V0 : Valuation τ sig (Elt F)) :
    val2 V0 (no_index (Proc.devRef .tc main_v0)) = takeV (V0 (Proc.devRef .tc main_arg2)) (idxV (V0 (Proc.devRef .tc main_arg0))) := by
  unfold val2
  simp only [opsTake]
  after_results_simp
  simp only [ofBuf_toBuf, toBuf_main_call0_v5, toBuf_main_v0, toBuf_main_v6, ofBuf_main_arg0, ofBuf_main_call0_v5, ofBuf_main_arg2, ofBuf_main_v5]
  simp only [val1_main_call0_v5, val1_main_arg2]
  unfold takeV maskV
  rfl
theorem val2_main_arg0 (V0 : Valuation τ sig (Elt F)) : val2 V0 (no_index (Proc.devRef .tc main_arg0)) = V0 (Proc.devRef .tc main_arg0) := by
  unfold val2
  simp only [opsTake]
  after_results_simp
  exact val1_main_arg0 V0
theorem val2_main_arg1 (V0 : Valuation τ sig (Elt F)) : val2 V0 (no_index (Proc.devRef .tc main_arg1)) = V0 (Proc.devRef .tc main_arg1) := by
  unfold val2
  simp only [opsTake]
  after_results_simp
  exact val1_main_arg1 V0
theorem val2_main_arg2 (V0 : Valuation τ sig (Elt F)) : val2 V0 (no_index (Proc.devRef .tc main_arg2)) = V0 (Proc.devRef .tc main_arg2) := by
  unfold val2
  simp only [opsTake]
  after_results_simp
  exact val1_main_arg2 V0
theorem val2_main_arg3 (V0 : Valuation τ sig (Elt F)) : val2 V0 (no_index (Proc.devRef .tc main_arg3)) = V0 (Proc.devRef .tc main_arg3) := by
  unfold val2
  simp only [opsTake]
  after_results_simp
  exact val1_main_arg3 V0
theorem val2_main_arg4 (V0 : Valuation τ sig (Elt F)) : val2 V0 (no_index (Proc.devRef .tc main_arg4)) = V0 (Proc.devRef .tc main_arg4) := by
  unfold val2
  simp only [opsTake]
  after_results_simp
  exact val1_main_arg4 V0

/-- The buffers' contents after the first 3 stretches. -/
def val3 (V0 : Valuation τ sig (Elt F)) : Valuation τ sig (Elt F) := after opsProj (val2 V0)
theorem val3_main_v5 (V0 : Valuation τ sig (Elt F)) :
    val3 V0 (no_index (Proc.devRef .tc main_v5)) = qV (V0 (Proc.devRef .tc main_arg2)) (V0 (Proc.devRef .tc main_arg3)) (V0 (Proc.devRef .tc main_arg4)) (V0 (Proc.devRef .tc main_arg0)) := by
  unfold val3
  simp only [opsProj]
  after_results_simp
  simp only [val2_main_v0, val2_main_arg3, val2_main_arg4]
  unfold qV projV
  rfl
theorem val3_main_arg0 (V0 : Valuation τ sig (Elt F)) : val3 V0 (no_index (Proc.devRef .tc main_arg0)) = V0 (Proc.devRef .tc main_arg0) := by
  unfold val3
  simp only [opsProj]
  after_results_simp
  exact val2_main_arg0 V0
theorem val3_main_arg1 (V0 : Valuation τ sig (Elt F)) : val3 V0 (no_index (Proc.devRef .tc main_arg1)) = V0 (Proc.devRef .tc main_arg1) := by
  unfold val3
  simp only [opsProj]
  after_results_simp
  exact val2_main_arg1 V0
theorem val3_main_arg2 (V0 : Valuation τ sig (Elt F)) : val3 V0 (no_index (Proc.devRef .tc main_arg2)) = V0 (Proc.devRef .tc main_arg2) := by
  unfold val3
  simp only [opsProj]
  after_results_simp
  exact val2_main_arg2 V0
theorem val3_main_arg3 (V0 : Valuation τ sig (Elt F)) : val3 V0 (no_index (Proc.devRef .tc main_arg3)) = V0 (Proc.devRef .tc main_arg3) := by
  unfold val3
  simp only [opsProj]
  after_results_simp
  exact val2_main_arg3 V0
theorem val3_main_arg4 (V0 : Valuation τ sig (Elt F)) : val3 V0 (no_index (Proc.devRef .tc main_arg4)) = V0 (Proc.devRef .tc main_arg4) := by
  unfold val3
  simp only [opsProj]
  after_results_simp
  exact val2_main_arg4 V0

/-- The buffers' contents after the first 4 stretches. -/
def val4 (V0 : Valuation τ sig (Elt F)) : Valuation τ sig (Elt F) := after opsNorm (val3 V0)
theorem val4_main_v6 (V0 : Valuation τ sig (Elt F)) :
    val4 V0 (no_index (Proc.devRef .tc main_v6)) = normV (qV (V0 (Proc.devRef .tc main_arg2)) (V0 (Proc.devRef .tc main_arg3)) (V0 (Proc.devRef .tc main_arg4)) (V0 (Proc.devRef .tc main_arg0))) := by
  unfold val4
  simp only [opsNorm]
  after_results_simp
  simp only [ofBuf_toBuf, toBuf_main_call0_v5, toBuf_main_v0, toBuf_main_v6, ofBuf_main_arg0, ofBuf_main_call0_v5, ofBuf_main_arg2, ofBuf_main_v5]
  simp only [val3_main_v5]
  unfold normV
  rfl
theorem val4_main_v5 (V0 : Valuation τ sig (Elt F)) : val4 V0 (no_index (Proc.devRef .tc main_v5)) = qV (V0 (Proc.devRef .tc main_arg2)) (V0 (Proc.devRef .tc main_arg3)) (V0 (Proc.devRef .tc main_arg4)) (V0 (Proc.devRef .tc main_arg0)) := by
  unfold val4
  simp only [opsNorm]
  after_results_simp
  exact val3_main_v5 V0
theorem val4_main_arg0 (V0 : Valuation τ sig (Elt F)) : val4 V0 (no_index (Proc.devRef .tc main_arg0)) = V0 (Proc.devRef .tc main_arg0) := by
  unfold val4
  simp only [opsNorm]
  after_results_simp
  exact val3_main_arg0 V0
theorem val4_main_arg1 (V0 : Valuation τ sig (Elt F)) : val4 V0 (no_index (Proc.devRef .tc main_arg1)) = V0 (Proc.devRef .tc main_arg1) := by
  unfold val4
  simp only [opsNorm]
  after_results_simp
  exact val3_main_arg1 V0
theorem val4_main_arg2 (V0 : Valuation τ sig (Elt F)) : val4 V0 (no_index (Proc.devRef .tc main_arg2)) = V0 (Proc.devRef .tc main_arg2) := by
  unfold val4
  simp only [opsNorm]
  after_results_simp
  exact val3_main_arg2 V0
theorem val4_main_arg3 (V0 : Valuation τ sig (Elt F)) : val4 V0 (no_index (Proc.devRef .tc main_arg3)) = V0 (Proc.devRef .tc main_arg3) := by
  unfold val4
  simp only [opsNorm]
  after_results_simp
  exact val3_main_arg3 V0
theorem val4_main_arg4 (V0 : Valuation τ sig (Elt F)) : val4 V0 (no_index (Proc.devRef .tc main_arg4)) = V0 (Proc.devRef .tc main_arg4) := by
  unfold val4
  simp only [opsNorm]
  after_results_simp
  exact val3_main_arg4 V0

/-- The buffers' contents after the first 5 stretches. -/
def val5 (V0 : Valuation τ sig (Elt F)) : Valuation τ sig (Elt F) := after opsDiv (val4 V0)
theorem val5_main_v10 (V0 : Valuation τ sig (Elt F)) :
    val5 V0 (no_index (Proc.devRef .tc main_v10)) = codePathV (V0 (Proc.devRef .tc main_arg2)) (V0 (Proc.devRef .tc main_arg3)) (V0 (Proc.devRef .tc main_arg4)) (V0 (Proc.devRef .tc main_arg0)) := by
  unfold val5
  simp only [opsDiv]
  after_results_simp
  simp only [val4_main_v5, val4_main_v6]
  unfold codePathV quotV
  rfl
theorem val5_main_arg0 (V0 : Valuation τ sig (Elt F)) : val5 V0 (no_index (Proc.devRef .tc main_arg0)) = V0 (Proc.devRef .tc main_arg0) := by
  unfold val5
  simp only [opsDiv]
  after_results_simp
  exact val4_main_arg0 V0
theorem val5_main_arg1 (V0 : Valuation τ sig (Elt F)) : val5 V0 (no_index (Proc.devRef .tc main_arg1)) = V0 (Proc.devRef .tc main_arg1) := by
  unfold val5
  simp only [opsDiv]
  after_results_simp
  exact val4_main_arg1 V0
theorem val5_main_arg2 (V0 : Valuation τ sig (Elt F)) : val5 V0 (no_index (Proc.devRef .tc main_arg2)) = V0 (Proc.devRef .tc main_arg2) := by
  unfold val5
  simp only [opsDiv]
  after_results_simp
  exact val4_main_arg2 V0
theorem val5_main_arg3 (V0 : Valuation τ sig (Elt F)) : val5 V0 (no_index (Proc.devRef .tc main_arg3)) = V0 (Proc.devRef .tc main_arg3) := by
  unfold val5
  simp only [opsDiv]
  after_results_simp
  exact val4_main_arg3 V0
theorem val5_main_arg4 (V0 : Valuation τ sig (Elt F)) : val5 V0 (no_index (Proc.devRef .tc main_arg4)) = V0 (Proc.devRef .tc main_arg4) := by
  unfold val5
  simp only [opsDiv]
  after_results_simp
  exact val4_main_arg4 V0

/-- The buffers' contents after the first 6 stretches. -/
def val6 (V0 : Valuation τ sig (Elt F)) : Valuation τ sig (Elt F) := after opsLoss (val5 V0)
theorem val6_main_v17 (V0 : Valuation τ sig (Elt F)) :
    val6 V0 (no_index (Proc.devRef .tc main_v17)) = lossV (codePathV (V0 (Proc.devRef .tc main_arg2)) (V0 (Proc.devRef .tc main_arg3)) (V0 (Proc.devRef .tc main_arg4)) (V0 (Proc.devRef .tc main_arg0))) (V0 (Proc.devRef .tc main_arg1)) := by
  unfold val6
  simp only [opsLoss]
  after_results_simp
  simp only [val5_main_v10, val5_main_arg1]
  unfold lossV dotV
  rfl
theorem val6_main_v10 (V0 : Valuation τ sig (Elt F)) : val6 V0 (no_index (Proc.devRef .tc main_v10)) = codePathV (V0 (Proc.devRef .tc main_arg2)) (V0 (Proc.devRef .tc main_arg3)) (V0 (Proc.devRef .tc main_arg4)) (V0 (Proc.devRef .tc main_arg0)) := by
  unfold val6
  simp only [opsLoss]
  after_results_simp
  exact val5_main_v10 V0
theorem val6_main_cst_5 (V0 : Valuation τ sig (Elt F)) :
    val6 V0 (no_index (Proc.devRef .tc main_cst_5)) = constant S_ .f32 0x3DCCCCCD#32 := by
  unfold val6
  simp only [opsLoss]
  after_results_simp
theorem val6_main_arg0 (V0 : Valuation τ sig (Elt F)) : val6 V0 (no_index (Proc.devRef .tc main_arg0)) = V0 (Proc.devRef .tc main_arg0) := by
  unfold val6
  simp only [opsLoss]
  after_results_simp
  exact val5_main_arg0 V0
theorem val6_main_arg1 (V0 : Valuation τ sig (Elt F)) : val6 V0 (no_index (Proc.devRef .tc main_arg1)) = V0 (Proc.devRef .tc main_arg1) := by
  unfold val6
  simp only [opsLoss]
  after_results_simp
  exact val5_main_arg1 V0
theorem val6_main_arg2 (V0 : Valuation τ sig (Elt F)) : val6 V0 (no_index (Proc.devRef .tc main_arg2)) = V0 (Proc.devRef .tc main_arg2) := by
  unfold val6
  simp only [opsLoss]
  after_results_simp
  exact val5_main_arg2 V0
theorem val6_main_arg3 (V0 : Valuation τ sig (Elt F)) : val6 V0 (no_index (Proc.devRef .tc main_arg3)) = V0 (Proc.devRef .tc main_arg3) := by
  unfold val6
  simp only [opsLoss]
  after_results_simp
  exact val5_main_arg3 V0
theorem val6_main_arg4 (V0 : Valuation τ sig (Elt F)) : val6 V0 (no_index (Proc.devRef .tc main_arg4)) = V0 (Proc.devRef .tc main_arg4) := by
  unfold val6
  simp only [opsLoss]
  after_results_simp
  exact val5_main_arg4 V0

/-- The whole line is the six stretches in turn. -/
theorem after_ops (V0 : Valuation τ sig (Elt F)) : after ops V0 = val6 V0 := by
  rw [ops_eq]
  simp only [after_append]
  rfl

/-- On every device, for any float values, from any memory with zero counters: every weakly fair execution of
    @main terminates with the first result at the loss of the argument arrays, the second at the normalised
    projection, the fourth at its constant, and the five argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v17) = lossV (codePathV (m ((c.tc : Thread nD τ).loc main_arg2)) (m ((c.tc : Thread nD τ).loc main_arg3)) (m ((c.tc : Thread nD τ).loc main_arg4)) (m ((c.tc : Thread nD τ).loc main_arg0))) (m ((c.tc : Thread nD τ).loc main_arg1))
      ∧ r.2.mem ((c.tc : Thread nD τ).loc main_v10) = codePathV (m ((c.tc : Thread nD τ).loc main_arg2)) (m ((c.tc : Thread nD τ).loc main_arg3)) (m ((c.tc : Thread nD τ).loc main_arg4)) (m ((c.tc : Thread nD τ).loc main_arg0))
      ∧ r.2.mem ((c.tc : Thread nD τ).loc main_cst_5) = constant S_ .f32 0x3DCCCCCD#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v17).trans ((congrFun (after_ops _) _).trans (val6_main_v17 _)),
      (h c main_v10).trans ((congrFun (after_ops _) _).trans (val6_main_v10 _)),
      (h c main_cst_5).trans ((congrFun (after_ops _) _).trans (val6_main_cst_5 _)),
      (h c main_arg0).trans ((congrFun (after_ops _) _).trans (val6_main_arg0 _)),
      (h c main_arg1).trans ((congrFun (after_ops _) _).trans (val6_main_arg1 _)),
      (h c main_arg2).trans ((congrFun (after_ops _) _).trans (val6_main_arg2 _)),
      (h c main_arg3).trans ((congrFun (after_ops _) _).trans (val6_main_arg3 _)),
      (h c main_arg4).trans ((congrFun (after_ops _) _).trans (val6_main_arg4 _))⟩)
    (run_main m ρ)

end Cert.ReferenceIdeal.RefRun

end
-- ==== Proof.RefFrame.lean ====
/- The reference's frame conjunct: it runs from any memory, and its argument arrays end unchanged (the
   precondition is not needed). -/
import proofs.«204536_g87462714016206_cont_9to1c4b_719_4_alg».proof.Defs
import proofs.«204536_g87462714016206_cont_9to1c4b_719_4_alg».proof.Proof.Gen.Pre_input_domain
import proofs.«204536_g87462714016206_cont_9to1c4b_719_4_alg».proof.Proof.RefRun

noncomputable section

namespace Cert.ReferenceIdeal.RefRun

open Idealize.ShloMosaic Idealize.SL.Sem

theorem frame_ri : Cert.frame_ReferenceIdeal := fun m ρ _ =>
  (θ_run Cert.ReferenceIdeal.defs _ _).mono (fun _ h c => (h c).2.2.2) (run m ρ)

end Cert.ReferenceIdeal.RefRun

end
-- ==== Proof.RegionVals.lean ====
/-
  What each TensorCore region leaves in its output array, as one function of the arrays it is entered with: the code
  table is the table body's payload of the embedding table, the transposed weight and the bias row; the loss is the loss
  body's payload of the partial sums. Each region has one point and whole-array windows, so the one write-back is the
  whole array.
-/
import proofs.«204536_g87462714016206_cont_9to1c4b_719_4_alg».proof.Proof.Segs
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Proof.KI

open Cert.KernelIdeal Cert.KernelIdeal.Gen

open Idealize.ShloMosaic Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

theorem hz00 : (![0, 0] : Fin 2 → Nat) = fun _ => 0 := funext fun a => by fin_cases a <;> rfl

section LossVal

variable (Vl : (c : Dev nD) → (b : Ref sig .tc) → Buf (Elt F) ((c : Thread nD τ).loc b))
  (Ow : Dev nD → CellTallies nD τ sig (HIx 1)) (Rc : Dev nD → Set (SemLoc sig × HIx 1))

/-- Both windows of the loss region sit at block 0 at its one point. -/
theorem idxLoss : ∀ t : Fin cfg2.N, ∀ a : Fin 2, win2_0.index t a = 0 ∧ win2_1.index t a = 0 :=
  (by decide +kernel : ∀ t : Fin grid2.N, ∀ a : Fin 2, win2_0.index t a = 0 ∧ win2_1.index t a = 0)

/-- The partial sums' block at the point is the whole array as the region finds it. -/
theorem iblk2_0_eq (c : Dev nD) (t : Fin cfg2.N) : iblk2 Vl c 0 t = Vl c main_v6_1 := by
  have hidx := idxLoss t
  funext y
  refine ((View.read_apply _ _).trans (cast_eq _ _)).trans (congrArg (Vl c main_v6_1) ?_)
  funext a; apply Fin.ext
  match a with
  | ⟨0, _⟩ => show win2_0.index t (0 : Fin 2) * 32 + 1 * (y 0).val = (y 0).val; have := (hidx 0).1; omega
  | ⟨1, _⟩ => show win2_0.index t (1 : Fin 2) * 16 + 1 * (y 1).val = (y 1).val; have := (hidx 1).1; omega

theorem lossFinal (c : Dev nD) : (dat2 Vl Ow Rc c).arrAt 1 cfg2.N = k2_pay1 (Vl c main_v6_1) := by
  refine (dat2 Vl Ow Rc c).arrAt_eq_of_cover 1 _ (fun t _ => ?_) (fun i => ?_)
  · show (cfg2.win 1).cut (grid2.coords t) ((dat2 Vl Ow Rc c).after 1 t) = _
    rw [after2_1]
    unfold lossOut
    rw [View.canon_unit_zero hz00]
    simp only [View.ld_unit_zero (S := S32x16) hz00]
    rw [iblk2_0_eq]
    have hidx := idxLoss t
    funext j
    refine Eq.trans ?_ ((View.read_apply _ _).trans (cast_eq _ _)).symm
    refine congrArg (k2_pay1 (Vl c main_v6_1)) ?_
    funext a; apply Fin.ext
    match a with
    | ⟨0, _⟩ => show (j 0).val = win2_1.index t (0 : Fin 2) * 1 + 1 * (j 0).val; have := (hidx 0).2; omega
    | ⟨1, _⟩ => show (j 1).val = win2_1.index t (1 : Fin 2) * 1 + 1 * (j 1).val; have := (hidx 1).2; omega
  · refine ⟨t2_0, flush2_1 t2_0, ?_⟩
    have hidx := idxLoss t2_0
    show i ∈ ((View.whole main_v7).slice (win2_1.rect t2_0)).set
    rw [View.set_slice_whole, Rect.mem_set_unit]
    intro a
    match a with
    | ⟨0, _⟩ => show win2_1.index t2_0 (0 : Fin 2) * 1 ≤ (i 0).val ∧ (i 0).val < win2_1.index t2_0 (0 : Fin 2) * 1 + 1; have := (hidx 0).2; have hi : (i 0).val < 1 := (i 0).isLt; omega
    | ⟨1, _⟩ => show win2_1.index t2_0 (1 : Fin 2) * 1 ≤ (i 1).val ∧ (i 1).val < win2_1.index t2_0 (1 : Fin 2) * 1 + 1; have := (hidx 1).2; have hi : (i 1).val < 1 := (i 1).isLt; omega

end LossVal

section TableVal

variable (Vt : (c : Dev nD) → (b : Ref sig .tc) → Buf (Elt F) ((c : Thread nD τ).loc b))
  (Ow : Dev nD → CellTallies nD τ sig (HIx 1)) (Rc : Dev nD → Set (SemLoc sig × HIx 1))

/-- All four windows of the code-table region sit at block 0 at its one point. -/
theorem idxTable : ∀ t : Fin cfg0.N, ∀ a : Fin 2, win0_0.index t a = 0 ∧ win0_1.index t a = 0 ∧ win0_2.index t a = 0 ∧ win0_3.index t a = 0 :=
  (by decide +kernel : ∀ t : Fin grid0.N, ∀ a : Fin 2, win0_0.index t a = 0 ∧ win0_1.index t a = 0 ∧ win0_2.index t a = 0 ∧ win0_3.index t a = 0)

theorem iblk0_0_eq (c : Dev nD) (t : Fin cfg0.N) : iblk0 Vt c 0 t = Vt c main_arg2 := by
  have hidx := idxTable t
  funext y
  refine ((View.read_apply _ _).trans (cast_eq _ _)).trans (congrArg (Vt c main_arg2) ?_)
  funext a; apply Fin.ext
  match a with
  | ⟨0, _⟩ => show win0_0.index t (0 : Fin 2) * 256 + 1 * (y 0).val = (y 0).val; have := (hidx 0).1; omega
  | ⟨1, _⟩ => show win0_0.index t (1 : Fin 2) * 4 + 1 * (y 1).val = (y 1).val; have := (hidx 1).1; omega
theorem iblk0_1_eq (c : Dev nD) (t : Fin cfg0.N) : iblk0 Vt c 1 t = Vt c main_v2 := by
  have hidx := idxTable t
  funext y
  refine ((View.read_apply _ _).trans (cast_eq _ _)).trans (congrArg (Vt c main_v2) ?_)
  funext a; apply Fin.ext
  match a with
  | ⟨0, _⟩ => show win0_1.index t (0 : Fin 2) * 4 + 1 * (y 0).val = (y 0).val; have := (hidx 0).2.1; omega
  | ⟨1, _⟩ => show win0_1.index t (1 : Fin 2) * 4 + 1 * (y 1).val = (y 1).val; have := (hidx 1).2.1; omega
theorem iblk0_2_eq (c : Dev nD) (t : Fin cfg0.N) : iblk0 Vt c 2 t = Vt c main_v3 := by
  have hidx := idxTable t
  funext y
  refine ((View.read_apply _ _).trans (cast_eq _ _)).trans (congrArg (Vt c main_v3) ?_)
  funext a; apply Fin.ext
  match a with
  | ⟨0, _⟩ => show win0_2.index t (0 : Fin 2) * 1 + 1 * (y 0).val = (y 0).val; have := (hidx 0).2.2.1; omega
  | ⟨1, _⟩ => show win0_2.index t (1 : Fin 2) * 4 + 1 * (y 1).val = (y 1).val; have := (hidx 1).2.2.1; omega

theorem tableFinal (c : Dev nD) : (dat0 Vt Ow Rc c).arrAt 3 cfg0.N = k0_pay1 (Vt c main_arg2) (Vt c main_v2) (Vt c main_v3) := by
  refine (dat0 Vt Ow Rc c).arrAt_eq_of_cover 3 _ (fun t _ => ?_) (fun i => ?_)
  · show (cfg0.win 3).cut (grid0.coords t) ((dat0 Vt Ow Rc c).after 3 t) = _
    rw [after0_3]
    unfold tableOut
    rw [View.canon_unit_zero hz00]
    simp only [View.ld_unit_zero (S := S256x4) hz00, View.ld_unit_zero (S := S4x4) hz00, View.ld_unit_zero (S := S1x4) hz00]
    rw [iblk0_0_eq, iblk0_1_eq, iblk0_2_eq]
    have hidx := idxTable t
    funext j
    refine Eq.trans ?_ ((View.read_apply _ _).trans (cast_eq _ _)).symm
    refine congrArg (k0_pay1 (Vt c main_arg2) (Vt c main_v2) (Vt c main_v3)) ?_
    funext a; apply Fin.ext
    match a with
    | ⟨0, _⟩ => show (j 0).val = win0_3.index t (0 : Fin 2) * 256 + 1 * (j 0).val; have := (hidx 0).2.2.2; omega
    | ⟨1, _⟩ => show (j 1).val = win0_3.index t (1 : Fin 2) * 4 + 1 * (j 1).val; have := (hidx 1).2.2.2; omega
  · refine ⟨t0_0, flush0_3 t0_0, ?_⟩
    have hidx := idxTable t0_0
    show i ∈ ((View.whole main_v4).slice (win0_3.rect t0_0)).set
    rw [View.set_slice_whole, Rect.mem_set_unit]
    intro a
    match a with
    | ⟨0, _⟩ => show win0_3.index t0_0 (0 : Fin 2) * 256 ≤ (i 0).val ∧ (i 0).val < win0_3.index t0_0 (0 : Fin 2) * 256 + 256; have := (hidx 0).2.2.2; have hi : (i 0).val < 256 := (i 0).isLt; omega
    | ⟨1, _⟩ => show win0_3.index t0_0 (1 : Fin 2) * 4 ≤ (i 1).val ∧ (i 1).val < win0_3.index t0_0 (1 : Fin 2) * 4 + 4; have := (hidx 1).2.2.2; have hi : (i 1).val < 4 := (i 1).isLt; omega

end TableVal

end Cert.Proof.KI

end
-- ==== Proof.ValueRun.lean ====
/-
  The run with the results named. If every vector subcore leaves the stated contents in its chunks of the code path and
  its row of the partial sums, the call's two result arrays are those contents whole; the loss region then writes the
  loss body's payload of the partial sums, and the three last host operations leave the loss as a scalar, the code path
  unflattened, and the constant. The operands the call reads are the byte argument flattened, the target flattened, and
  the code table flattened — the table body's payload of the embedding table, the transposed weight and the bias row.
-/
import proofs.«204536_g87462714016206_cont_9to1c4b_719_4_alg».proof.Proof.FrameRun
import proofs.«204536_g87462714016206_cont_9to1c4b_719_4_alg».proof.Proof.RegionVals

set_option maxRecDepth 16384

noncomputable section

namespace Cert.Proof.KI

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers (shareTok shareDrop)

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The three results at the return, from the call's results -/

theorem W6_cst (d : Dev nD) (fo' : Buf (Elt F) (oLoc d)) (fp' : Buf (Elt F) (pLoc d)) :
    W6 m d fo' fp' (Proc.devRef .tc main_cst) = constant (F := F) S_ .f32 0x3DCCCCCD#32 :=
  show (opC (F := F)).result ((opPath).result ((opLoss).result (W5 m d fo' fp'))) (Proc.devRef .tc main_cst) = _ from
    StableHlo.nullary_result main_cst (constant (F := F) S_ .f32 0x3DCCCCCD#32) _ ((opPath (F := F)).result ((opLoss).result (W5 m d fo' fp')))

theorem W6_v9 (d : Dev nD) (fo' : Buf (Elt F) (oLoc d)) (fp' : Buf (Elt F) (pLoc d)) :
    W6 m d fo' fp' (Proc.devRef .tc main_v9) = shapeCast S16384x200x4 (fo' : FVec F S13107200 .f32) shapeCasts_S13107200_S16384x200x4 := by
  have h1 : W6 m d fo' fp' (Proc.devRef .tc main_v9) = (opPath (F := F)).result ((opLoss).result (W5 m d fo' fp')) (Proc.devRef .tc main_v9) :=
    (opC).result_of_not_mem _ (by simp only [StableHlo.nullary_writes, Finset.mem_singleton]; exact StableHlo.devRef_ne_of_ne (by decide) : (Proc.devRef .tc main_v9 : DevRef τ sig) ∉ (opC (F := F)).writes)
  have h2 := StableHlo.reshape_result main_v6_0 main_v9 rfl shapeCasts_S13107200_S16384x200x4 (by decide) (by decide) ((opLoss (F := F)).result (W5 m d fo' fp'))
  have h3 : (opLoss (F := F)).result (W5 m d fo' fp') (Proc.devRef .tc main_v6_0) = fo' :=
    ((opLoss).result_of_not_mem _ (by simp only [StableHlo.reshape_writes, Finset.mem_singleton]; exact StableHlo.devRef_ne_of_ne (by decide) : (Proc.devRef .tc main_v6_0 : DevRef τ sig) ∉ (opLoss (F := F)).writes)).trans
      ((WlOut_of_ne (WlAll m d fo' fp') (OwAt (F := F) 1) (RcAt (F := F) 1) d main_v6_0 (by decide)).trans
        ((Function.update_of_ne (by decide) _ _).trans (Function.update_self _ _ _)))
  rw [h1]
  refine h2.trans ?_
  funext i
  show shapeCast S16384x200x4 ((opLoss (F := F)).result (W5 m d fo' fp') (Proc.devRef .tc main_v6_0)) shapeCasts_S13107200_S16384x200x4 i = _
  rw [h3]

theorem W6_v8 (d : Dev nD) (fo' : Buf (Elt F) (oLoc d)) (fp' : Buf (Elt F) (pLoc d)) :
    W6 m d fo' fp' (Proc.devRef .tc main_v8) = shapeCast S_ (k2_pay1 (fp' : FVec F S32x16 .f32)) shapeCasts_S1x1_S_ := by
  have h1 : W6 m d fo' fp' (Proc.devRef .tc main_v8) = (opLoss (F := F)).result (W5 m d fo' fp') (Proc.devRef .tc main_v8) :=
    ((opC).result_of_not_mem _ (by simp only [StableHlo.nullary_writes, Finset.mem_singleton]; exact StableHlo.devRef_ne_of_ne (by decide) : (Proc.devRef .tc main_v8 : DevRef τ sig) ∉ (opC (F := F)).writes)).trans
      ((opPath).result_of_not_mem _ (by simp only [StableHlo.reshape_writes, Finset.mem_singleton]; exact StableHlo.devRef_ne_of_ne (by decide) : (Proc.devRef .tc main_v8 : DevRef τ sig) ∉ (opPath (F := F)).writes))
  have h2 := StableHlo.reshape_result main_v7 main_v8 rfl shapeCasts_S1x1_S_ (by decide) (by decide) (W5 m d fo' fp')
  have h3 : W5 m d fo' fp' (Proc.devRef .tc main_v7) = k2_pay1 (fp' : FVec F S32x16 .f32) :=
    (WlOut_arr (WlAll m d fo' fp') (OwAt (F := F) 1) (RcAt (F := F) 1) d 1).trans
      ((lossFinal (VlOf (WlAll m d fo' fp')) (OwAt (F := F) 1) (RcAt (F := F) 1) d).trans
        (congrArg (fun x => k2_pay1 (F := F) x) (Function.update_self _ _ _)))
  rw [h1]
  refine h2.trans ?_
  funext i
  show shapeCast S_ (W5 m d fo' fp' (Proc.devRef .tc main_v7)) shapeCasts_S1x1_S_ i = _
  rw [h3]

/-! ## The call's operands, from the arguments -/

theorem fgOf_eq (d : Dev nD) :
    fgOf m d = shapeCast S13107200 (m ((SparseCore.T d).loc main_arg1) : FVec F S16384x200x4 .f32) shapeCasts_S16384x200x4_S13107200 := by
  exact ((opT).result_of_not_mem _ (by simp only [StableHlo.reshape_writes, Finset.mem_singleton]; exact StableHlo.devRef_ne_of_ne (by decide) : (Proc.devRef .tc main_v1 : DevRef τ sig) ∉ (opT (F := F)).writes)).trans
    ((WtOut_of_ne (W1 m) (OwAt (F := F) 0) (RcAt (F := F) 0) d main_v1 (by decide)).trans
    (((opBias).result_of_not_mem _ (by simp only [StableHlo.reshape_writes, Finset.mem_singleton]; exact StableHlo.devRef_ne_of_ne (by decide) : (Proc.devRef .tc main_v1 : DevRef τ sig) ∉ (opBias (F := F)).writes)).trans
    (((opW).result_of_not_mem _ (by simp only [StableHlo.unary_writes, Finset.mem_singleton]; exact StableHlo.devRef_ne_of_ne (by decide) : (Proc.devRef .tc main_v1 : DevRef τ sig) ∉ (opW (F := F)).writes)).trans
      (StableHlo.reshape_result main_arg1 main_v1 rfl shapeCasts_S16384x200x4_S13107200 _ _ ((opB (F := F)).result (W0 m d))))))

/-- The code table as the first region leaves it. -/
abbrev tableOf (d : Dev nD) : FVec F S256x4 .f32 :=
  k0_pay1 (m ((SparseCore.T d).loc main_arg2) : FVec F S256x4 .f32)
    (transpose S4x4 [1, 0] (m ((SparseCore.T d).loc main_arg3) : FVec F S4x4 .f32) transposes_S4x4_S4x4_1_0)
    (shapeCast S1x4 (m ((SparseCore.T d).loc main_arg4) : FVec F S4 .f32) shapeCasts_S4_S1x4)

theorem ftOf_eq (d : Dev nD) : ftOf m d = shapeCast S1024 (tableOf m d) shapeCasts_S256x4_S1024 := by
  have h2 := StableHlo.reshape_result main_v4 main_v5 rfl shapeCasts_S256x4_S1024 (by decide) (by decide) (W2 (F := F) m d)
  have hA2 : W1 m d (Proc.devRef .tc main_arg2) = m ((SparseCore.T d).loc main_arg2) :=
    ((opBias).result_of_not_mem _ (by simp only [StableHlo.reshape_writes, Finset.mem_singleton]; exact StableHlo.devRef_ne_of_ne (by decide) : (Proc.devRef .tc main_arg2 : DevRef τ sig) ∉ (opBias (F := F)).writes)).trans
    (((opW).result_of_not_mem _ (by simp only [StableHlo.unary_writes, Finset.mem_singleton]; exact StableHlo.devRef_ne_of_ne (by decide) : (Proc.devRef .tc main_arg2 : DevRef τ sig) ∉ (opW (F := F)).writes)).trans
    (((opG).result_of_not_mem _ (by simp only [StableHlo.reshape_writes, Finset.mem_singleton]; exact StableHlo.devRef_ne_of_ne (by decide) : (Proc.devRef .tc main_arg2 : DevRef τ sig) ∉ (opG (F := F)).writes)).trans
      ((opB).result_of_not_mem _ (by simp only [StableHlo.reshape_writes, Finset.mem_singleton]; exact StableHlo.devRef_ne_of_ne (by decide) : (Proc.devRef .tc main_arg2 : DevRef τ sig) ∉ (opB (F := F)).writes))))
  have hV2 : W1 m d (Proc.devRef .tc main_v2)
      = transpose S4x4 [1, 0] (m ((SparseCore.T d).loc main_arg3) : FVec F S4x4 .f32) transposes_S4x4_S4x4_1_0 := by
    refine ((opBias).result_of_not_mem _ (by simp only [StableHlo.reshape_writes, Finset.mem_singleton]; exact StableHlo.devRef_ne_of_ne (by decide) : (Proc.devRef .tc main_v2 : DevRef τ sig) ∉ (opBias (F := F)).writes)).trans ?_
    refine (StableHlo.unary_result main_arg3 main_v2 _ (by decide) (by decide) ((opG (F := F)).result ((opB).result (W0 m d)))).trans ?_
    have : (opG (F := F)).result ((opB).result (W0 m d)) (Proc.devRef .tc main_arg3) = m ((SparseCore.T d).loc main_arg3) :=
      ((opG).result_of_not_mem _ (by simp only [StableHlo.reshape_writes, Finset.mem_singleton]; exact StableHlo.devRef_ne_of_ne (by decide) : (Proc.devRef .tc main_arg3 : DevRef τ sig) ∉ (opG (F := F)).writes)).trans
        ((opB).result_of_not_mem _ (by simp only [StableHlo.reshape_writes, Finset.mem_singleton]; exact StableHlo.devRef_ne_of_ne (by decide) : (Proc.devRef .tc main_arg3 : DevRef τ sig) ∉ (opB (F := F)).writes))
    show transpose S4x4 [1, 0] ((opG (F := F)).result ((opB).result (W0 m d)) (Proc.devRef .tc main_arg3)) transposes_S4x4_S4x4_1_0 = _
    rw [this]
  have hV3 : W1 m d (Proc.devRef .tc main_v3)
      = shapeCast S1x4 (m ((SparseCore.T d).loc main_arg4) : FVec F S4 .f32) shapeCasts_S4_S1x4 := by
    refine (StableHlo.reshape_result main_arg4 main_v3 rfl shapeCasts_S4_S1x4 (by decide) (by decide) ((opW (F := F)).result ((opG).result ((opB).result (W0 m d))))).trans ?_
    have : (opW (F := F)).result ((opG).result ((opB).result (W0 m d))) (Proc.devRef .tc main_arg4) = m ((SparseCore.T d).loc main_arg4) :=
      ((opW).result_of_not_mem _ (by simp only [StableHlo.unary_writes, Finset.mem_singleton]; exact StableHlo.devRef_ne_of_ne (by decide) : (Proc.devRef .tc main_arg4 : DevRef τ sig) ∉ (opW (F := F)).writes)).trans
      (((opG).result_of_not_mem _ (by simp only [StableHlo.reshape_writes, Finset.mem_singleton]; exact StableHlo.devRef_ne_of_ne (by decide) : (Proc.devRef .tc main_arg4 : DevRef τ sig) ∉ (opG (F := F)).writes)).trans
        ((opB).result_of_not_mem _ (by simp only [StableHlo.reshape_writes, Finset.mem_singleton]; exact StableHlo.devRef_ne_of_ne (by decide) : (Proc.devRef .tc main_arg4 : DevRef τ sig) ∉ (opB (F := F)).writes)))
    funext i
    show shapeCast S1x4 ((opW (F := F)).result ((opG).result ((opB).result (W0 m d))) (Proc.devRef .tc main_arg4)) shapeCasts_S4_S1x4 i = _
    rw [this]
  have hT : W2 (F := F) m d (Proc.devRef .tc main_v4) = tableOf m d :=
    (WtOut_arr (W1 m) (OwAt (F := F) 0) (RcAt (F := F) 0) d 3).trans
      ((tableFinal (VtOf (W1 m)) (OwAt (F := F) 0) (RcAt (F := F) 0) d).trans (by
        show k0_pay1 (W1 m d (Proc.devRef .tc main_arg2)) (W1 m d (Proc.devRef .tc main_v2)) (W1 m d (Proc.devRef .tc main_v3)) = _
        rw [hA2, hV2, hV3]))
  refine h2.trans ?_
  funext i
  show shapeCast S1024 (W2 (F := F) m d (Proc.devRef .tc main_v4)) shapeCasts_S256x4_S1024 i = _
  rw [hT]

/-! ## The run -/

section ValueRun

variable (cfA : (d : Dev nD) → Buf (Elt F) (oLoc d)) (pmA : (d : Dev nD) → Buf (Elt F) (pLoc d))

/-- The call's results are the stated arrays. -/
abbrev REq : (d : Dev nD) → Buf (Elt F) (oLoc d) → Buf (Elt F) (pLoc d) → Prop := fun d fo' fp' => fo' = cfA d ∧ fp' = pmA d

theorem stIntro_value : StIntro (fbOf m) (fgOf m) (ftOf m) (foOf m) (fpOf m) (goL (fbOf m) (fgOf m) (ftOf m) cfA pmA) :=
  fun d => st_intro (fbOf m) (fgOf m) (ftOf m) (foOf m) (fpOf m) d

theorem dnElim_value : DnElim (REq cfA pmA) (fbOf m) (fgOf m) (ftOf m) (foOf m) (fpOf m) (goL (fbOf m) (fgOf m) (ftOf m) cfA pmA) := by
  intro d
  refine (st_join (fbOf m) (fgOf m) (ftOf m) cfA pmA d).trans ?_
  iintro ⟨Hb, Hg, Ht, Ho, Hp⟩
  isplitl [Hb]; · iexact Hb
  isplitl [Hg]; · iexact Hg
  isplitl [Ht]; · iexact Ht
  iexists cfA d; iexists pmA d; isplitr
  · ipureintro; exact ⟨rfl, rfl⟩
  isplitl [Ho]; · iexact Ho
  iexact Hp

/-- The run with the results named: the loss, the code path, the target and the constant, then the five arguments. -/
theorem run_value [∀ e, Nonempty (Elt F e)]
    (hbody : TileBodyStmtG (fbOf m) (fgOf m) (ftOf m) (foOf m) (fpOf m) (goL (fbOf m) (fgOf m) (ftOf m) cfA pmA))
    (hfn : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    θ_run (Cert.KernelIdeal.defs (F := F)) (Cert.KernelIdeal.threads (F := F)) ⟨m, fun _ => 0, ρ⟩ (fun r => ∀ c : Dev nD,
      r.2.mem ((c.tc : Thread nD τ).loc main_v8) = shapeCast S_ (k2_pay1 (pmA c : FVec F S32x16 .f32)) shapeCasts_S1x1_S_
      ∧ r.2.mem ((c.tc : Thread nD τ).loc main_v9) = shapeCast S16384x200x4 (cfA c : FVec F S13107200 .f32) shapeCasts_S13107200_S16384x200x4
      ∧ r.2.mem ((c.tc : Thread nD τ).loc main_arg1) = m ((c.tc : Thread nD τ).loc main_arg1)
      ∧ r.2.mem ((c.tc : Thread nD τ).loc main_cst) = constant (F := F) S_ .f32 0x3DCCCCCD#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (Cert.KernelIdeal.defs (F := F)) _ _).mono (fun r h c => by
      obtain ⟨fo', fp', ⟨rfl, rfl⟩, hall⟩ := h c
      exact ⟨(hall (Proc.devRef .tc main_v8) (by decide)).trans (W6_v8 m c _ _), (hall (Proc.devRef .tc main_v9) (by decide)).trans (W6_v9 m c _ _),
        (hall (Proc.devRef .tc main_arg1) (by decide)).trans (W6_arg1 m c _ _), (hall (Proc.devRef .tc main_cst) (by decide)).trans (W6_cst m c _ _),
        (hall (Proc.devRef .tc main_arg0) (by decide)).trans (W6_arg0 m c _ _), (hall (Proc.devRef .tc main_arg1) (by decide)).trans (W6_arg1 m c _ _),
        (hall (Proc.devRef .tc main_arg2) (by decide)).trans (W6_arg2 m c _ _), (hall (Proc.devRef .tc main_arg3) (by decide)).trans (W6_arg3 m c _ _),
        (hall (Proc.devRef .tc main_arg4) (by decide)).trans (W6_arg4 m c _ _)⟩)
    (run_main m ρ (REq cfA pmA) (goL (fbOf m) (fgOf m) (ftOf m) cfA pmA) hbody (preOK_of_fn m hfn) (stIntro_value m cfA pmA) (dnElim_value m cfA pmA))

end ValueRun

end Cert.Proof.KI

end
-- ==== Proof.BodyVal.lean ====
/-
  What the vector subcores leave behind, as functions of the call's operands. The code path holds, at word 4 n + k, the
  table word the byte n names for digit k. The partial sums hold, at worker w and lane l, the sum over the 6400 groups of
  sixteen bytes the worker meets, in the order it meets them, of the squared four-term dot product of table words and target
  words at byte 102400 w + 16 t + l. On the extended reals the order does not matter and the sum is a finite sum.
-/
import proofs.«204536_g87462714016206_cont_9to1c4b_719_4_alg».proof.Proof.Pay
import Idealize.ShloMosaic.Lib.ValueIdx
import Idealize.ShloMosaic.PureOps.Ideal.Laws

noncomputable section

open scoped BigOperators

namespace Cert.Proof.KI

open Cert.KernelIdeal Cert.KernelIdeal.Gen

open Idealize.ShloMosaic
open Idealize.ShloMosaic.ValueIdx

variable {F : FTy → Type} [FloatOps F]

/-- The table word a byte and a digit name: word 4 byte + digit, read modulo the table's length so that it is total. -/
def tblIx (fb : S3276800.Idx → BitVec 32) (n : Fin 3276800) (k : Fin 4) : S1024.Idx :=
  ix1 ⟨(4 * (fb (ix1 n)).toNat + k.val) % 1024, Nat.mod_lt _ (by decide)⟩

/-- The flattened code path the subcores leave: word 4 n + k is the table word of byte n and digit k. -/
def codeFlat (fb : S3276800.Idx → BitVec 32) (ft : S1024.Idx → F .f32) : S13107200.Idx → F .f32 := fun x =>
  ft (tblIx fb ⟨(x 0).val / 4, by have h : (x 0).val < 13107200 := (x 0).isLt; omega⟩ ⟨(x 0).val % 4, Nat.mod_lt _ (by decide)⟩)

theorem codeFlat_apply (fb : S3276800.Idx → BitVec 32) (ft : S1024.Idx → F .f32) (hpre : ∀ j, (fb j).toNat < 256)
    (n : Fin 3276800) (k : Fin 4) (hlt : 4 * (fb (ix1 n)).toNat + k.val < 1024) :
    codeFlat fb ft (ix1 ⟨4 * n.val + k.val, by omega⟩) = ft (ix1 ⟨4 * (fb (ix1 n)).toNat + k.val, hlt⟩) := by
  have h1 : (4 * n.val + k.val) / 4 = n.val := by omega
  have h2 : (4 * n.val + k.val) % 4 = k.val := by omega
  have e : (⟨(4 * n.val + k.val) / 4, by omega⟩ : Fin 3276800) = n := Fin.ext h1
  show ft (ix1 ⟨(4 * (fb (ix1 (⟨(4 * n.val + k.val) / 4, _⟩ : Fin 3276800))).toNat + (4 * n.val + k.val) % 4) % 1024, _⟩) = _
  refine congrArg ft (congrArg ix1 (Fin.ext ?_))
  show (4 * (fb (ix1 (⟨(4 * n.val + k.val) / 4, _⟩ : Fin 3276800))).toNat + (4 * n.val + k.val) % 4) % 1024 = 4 * (fb (ix1 n)).toNat + k.val
  rw [e, h2, Nat.mod_eq_of_lt hlt]

/-- The squared dot product at byte n: the four table words of the byte times the four target words, added digit by digit. -/
def dsq (fb : S3276800.Idx → BitVec 32) (fg : S13107200.Idx → F .f32) (ft : S1024.Idx → F .f32) (n : Fin 3276800) : F .f32 :=
  let c : Fin 4 → F .f32 := fun k => ft (tblIx fb n k)
  let t : Fin 4 → F .f32 := fun k => fg (ix1 ⟨4 * n.val + k.val, by omega⟩)
  let dd : F .f32 := FloatOps.addf (FloatOps.addf (FloatOps.addf (FloatOps.mulf (c 0) (t 0)) (FloatOps.mulf (c 1) (t 1))) (FloatOps.mulf (c 2) (t 2))) (FloatOps.mulf (c 3) (t 3))
  FloatOps.mulf dd dd

/-- The partial sums the subcores leave: worker w, lane l adds the squared dot products of its 6400 groups in order. -/
def partials (fb : S3276800.Idx → BitVec 32) (fg : S13107200.Idx → F .f32) (ft : S1024.Idx → F .f32) : S32x16.Idx → F .f32 := fun x =>
  (List.finRange 6400).foldl (fun acc t => FloatOps.addf acc (dsq fb fg ft ⟨102400 * (x 0).val + 16 * t.val + (x 1).val, by
    have h0 : (x 0).val < 32 := (x 0).isLt
    have h1 : (x 1).val < 16 := (x 1).isLt
    omega⟩)) (Scalar.ofBits .f32 0x00000000#32)

/-- On the extended reals: the squared dot product as a product of two four-term sums. -/
def dsqK (fb : S3276800.Idx → BitVec 32) (fg : S13107200.Idx → EReal) (ft : S1024.Idx → EReal) (n : Fin 3276800) : EReal :=
  (∑ k : Fin 4, ft (tblIx fb n k) * fg (ix1 ⟨4 * n.val + k.val, by omega⟩)) * (∑ k : Fin 4, ft (tblIx fb n k) * fg (ix1 ⟨4 * n.val + k.val, by omega⟩))

theorem dsq_ideal (fb : S3276800.Idx → BitVec 32) (fg : S13107200.Idx → EReal) (ft : S1024.Idx → EReal) (n : Fin 3276800) :
    dsq (F := Ideal) fb fg ft n = dsqK fb fg ft n := by
  unfold dsq dsqK
  rw [Fin.sum_univ_four]
  rfl

/-- Where the bytes are bytes the table index needs no reduction. -/
theorem dsqK_eq (fb : S3276800.Idx → BitVec 32) (fg : S13107200.Idx → EReal) (ft : S1024.Idx → EReal) (hpre : ∀ j, (fb j).toNat < 256) (n : Fin 3276800) :
    dsqK fb fg ft n
      = (∑ k : Fin 4, ft (ix1 ⟨4 * (fb (ix1 n)).toNat + k.val, by have := hpre (ix1 n); omega⟩) * fg (ix1 ⟨4 * n.val + k.val, by omega⟩))
        * (∑ k : Fin 4, ft (ix1 ⟨4 * (fb (ix1 n)).toNat + k.val, by have := hpre (ix1 n); omega⟩) * fg (ix1 ⟨4 * n.val + k.val, by omega⟩)) := by
  have e : ∀ k : Fin 4, tblIx fb n k = ix1 ⟨4 * (fb (ix1 n)).toNat + k.val, by have := hpre (ix1 n); omega⟩ := fun k =>
    congrArg ix1 (Fin.ext (Nat.mod_eq_of_lt (by have := hpre (ix1 n); omega)))
  unfold dsqK
  simp only [e]

theorem foldl_add_finRange {n : Nat} (f : Fin n → EReal) :
    (List.finRange n).foldl (fun acc t => acc + f t) 0 = ∑ t, f t := by
  rw [Fin.sum_univ_def, List.sum_eq_foldl, List.foldl_map]

theorem partials_apply (fb : S3276800.Idx → BitVec 32) (fg : S13107200.Idx → EReal) (ft : S1024.Idx → EReal) (w : Fin 32) (l : Fin 16) :
    partials (F := Ideal) fb fg ft (ix2 w l) = ∑ t : Fin 6400, dsqK fb fg ft ⟨102400 * w.val + 16 * t.val + l.val, by omega⟩ := by
  unfold partials
  rw [← foldl_add_finRange]
  show List.foldl _ (Ideal.ofBits .f32 0x00000000#32) _ = _
  rw [Ideal.ofBits_zero_f32]
  simp only [dsq_ideal]
  rfl

end Cert.Proof.KI

end
-- ==== Proof.Spec.lean ====
/- The result both programs are compared with, as plain functions on the extended reals over literal
   index types. A byte selects a row of the 256-row embedding table; the row is projected by the 4×4
   weight (row `j` of the weight against the embedding row) plus the bias, and divided by its Euclidean
   norm plus a small constant: a code per byte value. The path is the code of each position's byte; the
   loss is one minus the mean, over the 16384 × 200 positions, of the squared inner product of the
   path with the target. The three float constants stay the f32 words the programs print. -/
import Idealize.ShloMosaic.PureOps.Ideal
import Idealize.ShloMosaic.Lib.ValueIdx

noncomputable section

open scoped BigOperators

namespace Cert.Spec

open Idealize.ShloMosaic

/-- The projection of embedding row `r`, component `j`: the row against row `j` of the weight, plus the bias. -/
def q (emb : Fin 256 → Fin 4 → EReal) (W : Fin 4 → Fin 4 → EReal) (b : Fin 4 → EReal) (r : Fin 256) (j : Fin 4) : EReal :=
  (∑ k : Fin 4, emb r k * W j k) + b j

/-- The code of byte value `r`: its projection divided by the projection's norm plus the small constant. -/
def code (emb : Fin 256 → Fin 4 → EReal) (W : Fin 4 → Fin 4 → EReal) (b : Fin 4 → EReal) (r : Fin 256) (j : Fin 4) : EReal :=
  Ideal.div (q emb W b r j)
    (Ideal.sqrt (∑ j' : Fin 4, q emb W b r j' * q emb W b r j') + Ideal.ofBits .f32 0x2B8CBCCC#32)

/-- The code path: at each position the code of that position's byte. -/
def codePath (byte : Fin 16384 → Fin 200 → Fin 256) (emb : Fin 256 → Fin 4 → EReal) (W : Fin 4 → Fin 4 → EReal)
    (b : Fin 4 → EReal) (i : Fin 16384) (s : Fin 200) (j : Fin 4) : EReal :=
  code emb W b (byte i s) j

/-- The inner product of the path with the target at a position. -/
def dot (byte : Fin 16384 → Fin 200 → Fin 256) (emb : Fin 256 → Fin 4 → EReal) (W : Fin 4 → Fin 4 → EReal)
    (b : Fin 4 → EReal) (tgt : Fin 16384 → Fin 200 → Fin 4 → EReal) (i : Fin 16384) (s : Fin 200) : EReal :=
  ∑ j : Fin 4, codePath byte emb W b i s j * tgt i s j

/-- The loss: one minus the sum over all positions of the squared inner products, divided by their number. -/
def loss (byte : Fin 16384 → Fin 200 → Fin 256) (emb : Fin 256 → Fin 4 → EReal) (W : Fin 4 → Fin 4 → EReal)
    (b : Fin 4 → EReal) (tgt : Fin 16384 → Fin 200 → Fin 4 → EReal) : EReal :=
  Ideal.ofBits .f32 0x3F800000#32
    - Ideal.div (∑ i : Fin 16384, ∑ s : Fin 200, dot byte emb W b tgt i s * dot byte emb W b tgt i s)
        (Ideal.ofBits .f32 0x4A480000#32)

end Cert.Spec

end
-- ==== Proof.KernelValue.lean ====
/- The kernel's two computed results as mathematics. The code path: a flat array that holds, at four times a
   position plus a column, the flat code table at four times that position's byte plus the column, is, reshaped to
   positions and columns, the table's row of each position's byte. The loss: the last kernel's value of partial sums
   that split the sum of a function over all 3276800 positions into 32 × 16 interleaved parts of 6400 is one minus
   that sum divided by the number of positions; with the function the squared inner product of the specification's
   code path and the target, it is the specification's loss. -/
import proofs.«204536_g87462714016206_cont_9to1c4b_719_4_alg».proof.KernelIdeal
import proofs.«204536_g87462714016206_cont_9to1c4b_719_4_alg».proof.Proof.Gen.KernelIdeal.Skeleton
import proofs.«204536_g87462714016206_cont_9to1c4b_719_4_alg».proof.Proof.Spec
import Idealize.ShloMosaic.Lib.IdealHost
import Idealize.ShloMosaic.Lib.ValueLayout
import Idealize.ShloMosaic.Lib.Pipeline.Value
import Idealize.ShloMosaic.PureOps.IdealRules

noncomputable section

open scoped BigOperators

namespace Cert.KernelValue

open Cert.KernelIdeal Idealize.ShloMosaic Idealize.ShloMosaic.ValueIdx

/-! ## The reshapes read at a position -/

section Flat
variable {α : Type}

/-- The flattened positions: position `(i, s)` is at `200 i + s`. -/
theorem flat2_apply (x : S16384x200.Idx → α) (h : S16384x200.ShapeCasts S3276800) (i : Fin 16384) (s : Fin 200) :
    shapeCast S3276800 x h (ix1 ⟨200 * i.val + s.val, by omega⟩) = x (ix2 i s) :=
  shapeCast_apply x h _ _ (by
    rw [Shape.rowMajor_val_two, Shape.rowMajor_val_one]
    show i.val * 200 + s.val = 200 * i.val + s.val
    omega)

/-- The flattened table: row `r`, column `k` is at `4 r + k`. -/
theorem flatT_apply (x : S256x4.Idx → α) (h : S256x4.ShapeCasts S1024) (r : Fin 256) (k : Fin 4) :
    shapeCast S1024 x h (ix1 ⟨4 * r.val + k.val, by omega⟩) = x (ix2 r k) :=
  shapeCast_apply x h _ _ (by
    rw [Shape.rowMajor_val_two, Shape.rowMajor_val_one]
    show r.val * 4 + k.val = 4 * r.val + k.val
    omega)

/-- The flattened positions and columns: `(i, s, k)` is at `4 (200 i + s) + k`. -/
theorem flat3_apply (x : S16384x200x4.Idx → α) (h : S16384x200x4.ShapeCasts S13107200) (i : Fin 16384) (s : Fin 200)
    (k : Fin 4) :
    shapeCast S13107200 x h (ix1 ⟨4 * (200 * i.val + s.val) + k.val, by omega⟩) = x (ix3 i s k) :=
  shapeCast_apply x h _ _ (by
    rw [Shape.rowMajor_val_three, Shape.rowMajor_val_one]
    show (i.val * 200 + s.val) * 4 + k.val = 4 * (200 * i.val + s.val) + k.val
    omega)

/-- A flat array reshaped to positions and columns reads, at `(i, s, k)`, the flat array at `4 (200 i + s) + k`. -/
theorem unflat3_apply (x : S13107200.Idx → α) (h : S13107200.ShapeCasts S16384x200x4) (i : Fin 16384) (s : Fin 200)
    (k : Fin 4) :
    shapeCast S16384x200x4 x h (ix3 i s k) = x (ix1 ⟨4 * (200 * i.val + s.val) + k.val, by omega⟩) :=
  shapeCast_apply x h _ _ (by
    rw [Shape.rowMajor_val_three, Shape.rowMajor_val_one]
    show 4 * (200 * i.val + s.val) + k.val = (i.val * 200 + s.val) * 4 + k.val
    omega)

end Flat

/-- (M1) THE PATH. -/
theorem path_apply (byte : S16384x200.Idx → BitVec 32) (T : S256x4.Idx → EReal) (cf : S13107200.Idx → EReal)
    (hc0 : S16384x200.ShapeCasts S3276800) (hc1 : S256x4.ShapeCasts S1024) (hc2 : S13107200.ShapeCasts S16384x200x4)
    (hb : ∀ (i : Fin 16384) (s : Fin 200), (byte (ix2 i s)).toNat < 256)
    (H1 : ∀ (n : Fin 3276800) (k : Fin 4) (hlt : 4 * (shapeCast S3276800 byte hc0 (ix1 n)).toNat + k.val < 1024),
      cf (ix1 ⟨4 * n.val + k.val, by omega⟩)
        = shapeCast S1024 T hc1 (ix1 ⟨4 * (shapeCast S3276800 byte hc0 (ix1 n)).toNat + k.val, hlt⟩))
    (i : Fin 16384) (s : Fin 200) (j : Fin 4) :
    shapeCast S16384x200x4 cf hc2 (ix3 i s j) = T (ix2 ⟨(byte (ix2 i s)).toNat, hb i s⟩ j) := by
  have eb : shapeCast S3276800 byte hc0 (ix1 ⟨200 * i.val + s.val, by omega⟩) = byte (ix2 i s) := flat2_apply byte hc0 i s
  have hlt : 4 * (shapeCast S3276800 byte hc0 (ix1 ⟨200 * i.val + s.val, by omega⟩)).toNat + j.val < 1024 := by
    rw [eb]; have := hb i s; omega
  rw [unflat3_apply cf hc2 i s j]
  refine (H1 ⟨200 * i.val + s.val, by omega⟩ j hlt).trans ?_
  refine Eq.trans ?_ (flatT_apply T hc1 ⟨(byte (ix2 i s)).toNat, hb i s⟩ j)
  exact congrArg (shapeCast S1024 T hc1) (congrArg ix1 (Fin.ext (by show 4 * _ + j.val = 4 * (byte (ix2 i s)).toNat + j.val; rw [eb])))

/-! ## The last kernel's value -/

/-- The named reciprocal denotes the rational 1/3276800 at the ideal values, by the certificate's table. -/
theorem inv_n : Named.named (F := Ideal) Cert.KernelIdeal.κ "inv_3276800" (φ := .f32) 0x34A3D70A#32
    = ((1 / 3276800 : ℝ) : EReal) :=
  IdealRules.named_const.ideal_named_scalar _ _ _ _ rfl

/-- The word `0x4A480000` denotes the real 3276800. -/
theorem ofBits_count : Ideal.ofBits .f32 0x4A480000#32 = ((3276800 : ℝ) : EReal) := by
  simp [Ideal.ofBits, Ideal.ieee, -EReal.coe_mul]; norm_num

/-- A reshape keeps the sum of the elements. -/
theorem sum_shapeCast {s t : Shape} (x : s.Idx → EReal) (h : s.ShapeCasts t) :
    ∑ j : t.Idx, shapeCast t x h j = ∑ i : s.Idx, x i :=
  Equiv.sum_comp (Shape.reshapeEquiv h) x

/-- The last kernel's value at its one index: the one word minus the sum of all partial sums times the named
    reciprocal. -/
theorem k2_pay1_apply (Pm : S32x16.Idx → EReal) (j : S1x1.Idx) :
    Cert.KernelIdeal.Gen.k2_pay1 (F := Ideal) Pm j
      = Ideal.ofBits .f32 0x3F800000#32 - (∑ x : S32x16.Idx, Pm x) * ((1 / 3276800 : ℝ) : EReal) := by
  unfold Cert.KernelIdeal.Gen.k2_pay1
  simp only [broadcast_apply, Ideal.scalar_subf_def, Ideal.scalar_mulf_def, inv_n]
  unfold extractAt shapeCast
  refine congrArg (fun z => Ideal.ofBits .f32 0x3F800000#32 - z * ((1 / 3276800 : ℝ) : EReal)) ?_
  refine (Ideal.multiReduction_add_total _ 0x00000000#32 Facts₀.reduces_S1x32x16_S1
    (fun b => match b with | ⟨0, _⟩ => rfl) (.inl rfl) rfl _).trans ?_
  exact (Equiv.sum_comp ((Shape.reshapeEquiv Facts₀.shapeCasts_S32x16_S1x32x16).trans
    (Shape.reshapeEquiv Facts₀.shapeCasts_S32x16_S32x16)) Pm)

/-! ## The positions as parts, and as rows -/

/-- Part `w`, lane `l`, step `t` is position `102400 w + 16 t + l`: a bijection onto the 3276800 positions. -/
def partEquiv : Fin 32 × Fin 16 × Fin 6400 ≃ Fin 3276800 where
  toFun p := ⟨102400 * p.1.val + 16 * p.2.2.val + p.2.1.val, by omega⟩
  invFun n := (⟨n.val / 102400, by omega⟩, ⟨n.val % 16, by omega⟩, ⟨n.val % 102400 / 16, by omega⟩)
  left_inv p := by
    obtain ⟨w, l, t⟩ := p
    refine Prod.ext (Fin.ext ?_) (Prod.ext (Fin.ext ?_) (Fin.ext ?_))
    · show (102400 * w.val + 16 * t.val + l.val) / 102400 = w.val
      omega
    · show (102400 * w.val + 16 * t.val + l.val) % 16 = l.val
      omega
    · show (102400 * w.val + 16 * t.val + l.val) % 102400 / 16 = t.val
      omega
  right_inv n := Fin.ext (by
    show 102400 * (n.val / 102400) + 16 * (n.val % 102400 / 16) + n.val % 16 = n.val
    omega)

/-- A sum over the positions is the sum over the parts, lanes and steps. -/
theorem sum_parts (f : Fin 3276800 → EReal) :
    ∑ n : Fin 3276800, f n
      = ∑ w : Fin 32, ∑ l : Fin 16, ∑ t : Fin 6400, f ⟨102400 * w.val + 16 * t.val + l.val, by omega⟩ := by
  rw [← Equiv.sum_comp partEquiv f, Fintype.sum_prod_type]
  refine Finset.sum_congr rfl fun w _ => ?_
  rw [Fintype.sum_prod_type]
  rfl

/-- Row `i`, column `s` is position `200 i + s`. -/
def rowEquiv : Fin 16384 × Fin 200 ≃ Fin 3276800 where
  toFun p := ⟨200 * p.1.val + p.2.val, by omega⟩
  invFun n := (⟨n.val / 200, by omega⟩, ⟨n.val % 200, by omega⟩)
  left_inv p := by
    obtain ⟨i, s⟩ := p
    refine Prod.ext (Fin.ext ?_) (Fin.ext ?_)
    · show (200 * i.val + s.val) / 200 = i.val
      omega
    · show (200 * i.val + s.val) % 200 = s.val
      omega
  right_inv n := Fin.ext (by
    show 200 * (n.val / 200) + n.val % 200 = n.val
    omega)

/-- A sum over the positions is the sum over the rows and columns. -/
theorem sum_rows (f : Fin 3276800 → EReal) :
    ∑ n : Fin 3276800, f n = ∑ i : Fin 16384, ∑ s : Fin 200, f ⟨200 * i.val + s.val, by omega⟩ := by
  rw [← Equiv.sum_comp rowEquiv f, Fintype.sum_prod_type]
  rfl

/-- (M2) THE LOSS: the last kernel's value, reshaped to rank 0, of partial sums that split the sum of `dsq` over the
    positions, is one minus that sum divided by the number of positions. -/
theorem loss_apply (Pm : S32x16.Idx → EReal) (dsq : Fin 3276800 → EReal) (hc : S1x1.ShapeCasts S_)
    (H2 : ∀ (w : Fin 32) (l : Fin 16),
      Pm (ix2 w l) = ∑ t : Fin 6400, dsq ⟨102400 * w.val + 16 * t.val + l.val, by omega⟩) :
    shapeCast S_ (Cert.KernelIdeal.Gen.k2_pay1 (F := Ideal) Pm) hc ix0
      = Ideal.ofBits .f32 0x3F800000#32 - Ideal.div (∑ n : Fin 3276800, dsq n) (Ideal.ofBits .f32 0x4A480000#32) := by
  have hcast : shapeCast S_ (Cert.KernelIdeal.Gen.k2_pay1 (F := Ideal) Pm) hc ix0
      = Cert.KernelIdeal.Gen.k2_pay1 (F := Ideal) Pm (Shape.reshapeEquiv hc ix0) := rfl
  rw [hcast, k2_pay1_apply, sum_idx2, ofBits_count, Ideal.div_coe (by norm_num : (3276800 : ℝ) ≠ 0), sum_parts dsq]
  simp only [H2]

/-- (M3) THE TWO TOGETHER: when `dsq` at position `200 i + s` is the squared inner product of the specification's
    code path with the target at `(i, s)`, the last kernel's value is the specification's loss. -/
theorem loss_spec (byte : Fin 16384 → Fin 200 → Fin 256) (emb : Fin 256 → Fin 4 → EReal) (W : Fin 4 → Fin 4 → EReal)
    (b : Fin 4 → EReal) (tgt : Fin 16384 → Fin 200 → Fin 4 → EReal)
    (Pm : S32x16.Idx → EReal) (dsq : Fin 3276800 → EReal) (hc : S1x1.ShapeCasts S_)
    (H2 : ∀ (w : Fin 32) (l : Fin 16),
      Pm (ix2 w l) = ∑ t : Fin 6400, dsq ⟨102400 * w.val + 16 * t.val + l.val, by omega⟩)
    (H3 : ∀ (i : Fin 16384) (s : Fin 200), dsq ⟨200 * i.val + s.val, by omega⟩
      = Cert.Spec.dot byte emb W b tgt i s * Cert.Spec.dot byte emb W b tgt i s) :
    shapeCast S_ (Cert.KernelIdeal.Gen.k2_pay1 (F := Ideal) Pm) hc ix0 = Cert.Spec.loss byte emb W b tgt := by
  rw [loss_apply Pm dsq hc H2, sum_rows dsq]
  simp only [H3]
  rfl

end Cert.KernelValue

end
-- ==== Proof.RefRead.lean ====
/- The reference's host operations read at an index, at the ideal values: what each named piece of the
   results is at one position, under the hypothesis that every byte word is below 256. -/
import proofs.«204536_g87462714016206_cont_9to1c4b_719_4_alg».proof.Proof.RefOps
import Idealize.ShloMosaic.Lib.IdealHost
import Idealize.ShloMosaic.Lib.ValueLayout
import Idealize.ShloMosaic.Lib.Pipeline.Value
import Idealize.ShloMosaic.Lib.ReduceAll

noncomputable section

open scoped BigOperators

namespace Cert.ReferenceIdeal.RefRun

open Cert.ReferenceIdeal Idealize.ShloMosaic Idealize.ShloMosaic.ValueIdx
open Cert.ReferenceIdeal.Facts₀

/-! ## Words below 256 -/

/-- A word below 256 reads the same signed and unsigned. -/
theorem toInt_of_lt (w : BitVec 32) (h : w.toNat < 256) : w.toInt = (w.toNat : Int) := by
  unfold BitVec.toInt
  rw [if_pos (by omega)]

theorem slt_zero_of_lt (w : BitVec 32) (h : w.toNat < 256) : IntOp.cmpi .slt w 0#32 = 0#1 := by
  have e : w.slt 0#32 = false := by
    have z : (0#32 : BitVec 32).toInt = 0 := by decide
    simp only [BitVec.slt, z, toInt_of_lt w h, decide_eq_false_iff_not, not_lt]
    omega
  show BitVec.ofBool (w.slt 0#32) = 0#1
  rw [e]; rfl

theorem sge_zero_of_lt (w : BitVec 32) (h : w.toNat < 256) : IntOp.cmpi .sge w 0#32 = 1#1 := by
  have e : (0#32 : BitVec 32).sle w = true := by
    have z : (0#32 : BitVec 32).toInt = 0 := by decide
    simp only [BitVec.sle, z, toInt_of_lt w h, decide_eq_true_eq]
    omega
  show BitVec.ofBool ((0#32 : BitVec 32).sle w) = 1#1
  rw [e]; rfl

theorem sle_255_of_lt (w : BitVec 32) (h : w.toNat < 256) : IntOp.cmpi .sle w 255#32 = 1#1 := by
  have e : w.sle 255#32 = true := by
    have z : (255#32 : BitVec 32).toInt = 255 := by decide
    simp only [BitVec.sle, z, toInt_of_lt w h, decide_eq_true_eq]
    omega
  show BitVec.ofBool (w.sle 255#32) = 1#1
  rw [e]; rfl

/-- The gather's clamp of a word below 256 into the table's 256 rows is the word. -/
theorem clamp_of_lt (w : BitVec 32) (h : w.toNat < 256) : min w.toInt.toNat 255 = w.toNat := by
  rw [toInt_of_lt w h, Int.toNat_natCast]
  omega

/-! ## The lookup's index table, its range mask and the row gather, read at a position -/

/-- The index table at a position is the byte word there, when that word is below 256. -/
theorem idxV_apply (byte : Ct Ideal S16384x200 .i32) (i : Fin 16384) (s : Fin 200) (k : Fin 1)
    (h : (byte (ix2 i s)).toNat < 256) : idxV (F := Ideal) byte (ix3 i s k) = byte (ix2 i s) := by
  unfold idxV
  rw [broadcastInDim_apply _ _ _ (ix3 i s k) (ix2 i s) (fun a => match a with | ⟨0, _⟩ => rfl | ⟨1, _⟩ => rfl)]
  show Scalar.select (IntOp.cmpi .slt (byte (ix2 i s)) 0#32) _ (byte (ix2 i s)) = _
  rw [slt_zero_of_lt _ h, select_zero]

/-- A left fold by `and` from 1 over words that are all 1 is 1. -/
theorem foldl_andi_ones {ι : Type} (f : ι → BitVec 1) : ∀ (l : List ι) (init : BitVec 1), init = 1#1 →
    (∀ n ∈ l, f n = 1#1) → l.foldl (fun r n => IntOp.andi r (f n)) init = 1#1
  | [], _, hi, _ => hi
  | a :: l, init, hi, h => by
    rw [List.foldl_cons]
    exact foldl_andi_ones f l _ (by rw [hi, h a List.mem_cons_self]; decide) (fun n hn => h n (List.mem_cons_of_mem _ hn))

/-- The range mask is all ones when every entry of the index table is below 256. -/
theorem maskV_apply (idx : Ct Ideal S16384x200x1 .i32)
    (h : ∀ (i : Fin 16384) (s : Fin 200) (k : Fin 1), (idx (ix3 i s k)).toNat < 256) (j : S16384x200x4.Idx) :
    maskV (F := Ideal) idx j = 1#1 := by
  unfold maskV
  unfold broadcastInDim
  rw [Host.reduce_eq_foldl]
  refine foldl_andi_ones _ _ _ rfl fun n _ => ?_
  obtain ⟨a, b, c, rfl⟩ : ∃ (a : Fin 16384) (b : Fin 200) (c : Fin 1), n = ix3 a b c := ⟨n 0, n 1, n 2, eq_ix3 n⟩
  show IntOp.andi (IntOp.cmpi .sge (idx (ix3 a b c)) 0#32) (IntOp.cmpi .sle (idx (ix3 a b c)) 255#32) = 1#1
  rw [sge_zero_of_lt _ (h a b c), sle_255_of_lt _ (h a b c)]
  decide

/-- The row gather at a position: the table's row at the index table's entry read signed and clamped into the
    256 rows, at the position's column. -/
theorem gather_row_apply {α : Type} (emb : S256x4.Idx → α) (idx : IVec S16384x200x1 32) (i : Fin 16384) (s : Fin 200)
    (j : Fin 4) :
    Host.gather gather_S256x4_S16384x200x1_S16384x200x4_2_0_n_n_0_2_14 emb idx (ix3 i s j)
      = emb (ix2 ⟨min (idx (ix3 i s (0 : Fin 1))).toInt.toNat 255, by omega⟩ j) := by
  unfold Host.gather
  congr 1
  funext a
  refine Fin.ext ?_
  match a with
  | ⟨0, _⟩ =>
    show gather_S256x4_S16384x200x1_S16384x200x4_2_0_n_n_0_2_14.start (ix3 i s j) idx 0
        + gather_S256x4_S16384x200x1_S16384x200x4_2_0_n_n_0_2_14.batchCoord (ix3 i s j) 0
        + gather_S256x4_S16384x200x1_S16384x200x4_2_0_n_n_0_2_14.offCoord (ix3 i s j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x4_S16384x200x1_S16384x200x4_2_0_n_n_0_2_14.startIndexMap from List.mem_singleton.mpr rfl)]
    have hsi : gather_S256x4_S16384x200x1_S16384x200x4_2_0_n_n_0_2_14.siIdx (ix3 i s j)
        ⟨List.idxOf (0 : Fin 2) gather_S256x4_S16384x200x1_S16384x200x4_2_0_n_n_0_2_14.startIndexMap,
          List.idxOf_lt_length_iff.2 (List.mem_singleton.mpr rfl)⟩ = ix3 i s (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S256x4_S16384x200x1_S16384x200x4_2_0_n_n_0_2_14.start (ix3 i s j) idx 1
        + gather_S256x4_S16384x200x1_S16384x200x4_2_0_n_n_0_2_14.batchCoord (ix3 i s j) 1
        + gather_S256x4_S16384x200x1_S16384x200x4_2_0_n_n_0_2_14.offCoord (ix3 i s j) 1 = j.val
    rw [GatherDims.batchCoord_eq_zero _ _ _ List.not_mem_nil]
    have hst : gather_S256x4_S16384x200x1_S16384x200x4_2_0_n_n_0_2_14.start (ix3 i s j) idx 1 = 0 := by
      unfold GatherDims.start
      rw [dif_neg (by decide)]
    rw [hst]
    simp only [Nat.add_zero, Nat.zero_add]
    rfl

/-! ## The float operations read at a position -/

/-- The looked-up rows at a position: the table's row of the byte there. -/
theorem takeV_apply (emb : Ct Ideal S256x4 .f32) (byte : Ct Ideal S16384x200 .i32)
    (h : ∀ (i : Fin 16384) (s : Fin 200), (byte (ix2 i s)).toNat < 256) (i : Fin 16384) (s : Fin 200) (j : Fin 4) :
    takeV (F := Ideal) emb (idxV byte) (ix3 i s j) = emb (ix2 ⟨(byte (ix2 i s)).toNat, h i s⟩ j) := by
  unfold takeV
  rw [select_apply, maskV_apply _ (fun a b c => by rw [idxV_apply byte a b c (h a b)]; exact h a b), select_one,
    gather_row_apply]
  exact congrArg (fun r => emb (ix2 r j)) (Fin.ext (by
    show min (idxV (F := Ideal) byte (ix3 i s (0 : Fin 1))).toInt.toNat 255 = _
    rw [idxV_apply byte i s 0 (h i s), clamp_of_lt _ (h i s)]))

/-- The contraction of a [16384, 200, 4] array's last axis with a [4, 4] array's first, at a position: the sum over
    the contracted coordinate of the products. -/
theorem dot_apply (A : FVec Ideal S16384x200x4 .f32) (B : FVec Ideal S4x4 .f32) (i : Fin 16384) (s : Fin 200) (j : Fin 4) :
    Host.dotGeneral dot_S16384x200x4_S4x4_S16384x200x4_2_0_01_1_n_n none A B (ix3 i s j) = ∑ c : Fin 4, A (ix3 i s c) * B (ix2 c j) := by
  show FloatOps.dotGeneral _ none _ A B (ix3 i s j) = _
  rw [Ideal.dotGeneral_apply, ← Equiv.sum_comp (contrEquiv1 dot_S16384x200x4_S4x4_S16384x200x4_2_0_01_1_n_n 4 rfl rfl).symm]
  refine Finset.sum_congr rfl fun c _ => ?_
  have c3 := contrEquiv1_symm_val dot_S16384x200x4_S4x4_S16384x200x4_2_0_01_1_n_n 4 rfl rfl c
  have l3 : (dot_S16384x200x4_S4x4_S16384x200x4_2_0_01_1_n_n).lhsIdx (ix3 i s j) ((contrEquiv1 dot_S16384x200x4_S4x4_S16384x200x4_2_0_01_1_n_n 4 rfl rfl).symm c) = ix3 i s c := by
    funext ax; apply Fin.ext
    match ax with
    | ⟨0, _⟩ => simp [DotDims.lhsIdx, dot_S16384x200x4_S4x4_S16384x200x4_2_0_01_1_n_n]; rfl
    | ⟨1, _⟩ => simp [DotDims.lhsIdx, dot_S16384x200x4_S4x4_S16384x200x4_2_0_01_1_n_n]; rfl
    | ⟨2, _⟩ => simp [DotDims.lhsIdx, dot_S16384x200x4_S4x4_S16384x200x4_2_0_01_1_n_n]; exact c3
  have r3 : (dot_S16384x200x4_S4x4_S16384x200x4_2_0_01_1_n_n).rhsIdx (ix3 i s j) ((contrEquiv1 dot_S16384x200x4_S4x4_S16384x200x4_2_0_01_1_n_n 4 rfl rfl).symm c) = ix2 c j := by
    funext ax; apply Fin.ext
    match ax with
    | ⟨0, _⟩ => simp [DotDims.rhsIdx, dot_S16384x200x4_S4x4_S16384x200x4_2_0_01_1_n_n]; exact c3
    | ⟨1, _⟩ => simp [DotDims.rhsIdx, dot_S16384x200x4_S4x4_S16384x200x4_2_0_01_1_n_n]; rfl
  rw [l3, r3]

/-- The projection at a position: the looked-up row against row `j` of the weight, plus the bias. -/
theorem projV_apply (tk : Ct Ideal S16384x200x4 .f32) (W : Ct Ideal S4x4 .f32) (b : Ct Ideal S4 .f32)
    (i : Fin 16384) (s : Fin 200) (j : Fin 4) :
    projV (F := Ideal) tk W b (ix3 i s j) = (∑ c : Fin 4, tk (ix3 i s c) * W (ix2 j c)) + b (ix1 j) := by
  unfold projV
  rw [addf_apply, dot_apply]
  rw [broadcastInDim_apply _ _ _ (ix3 i s j) (ix3 (0 : Fin 1) (0 : Fin 1) j)
      (fun a => match a with | ⟨0, _⟩ => rfl | ⟨1, _⟩ => rfl | ⟨2, _⟩ => rfl),
    broadcastInDim_apply _ _ _ (ix3 (0 : Fin 1) (0 : Fin 1) j) (ix1 j) (fun a => match a with | ⟨0, _⟩ => rfl)]
  refine congrArg (· + b (ix1 j)) (Finset.sum_congr rfl fun c _ => ?_)
  rw [transpose_ix2_apply]

/-- A `Reduces` witness at the shapes of the two sums along the last axis. -/
theorem reduces_last : Shape.Reduces S16384x200x4 [2] S16384x200 := by decide

/-- A sum along the last axis from the zero word, at a position: the sum over the last coordinate. -/
theorem sumLast_apply (x : FVec Ideal S16384x200x4 .f32) (i : Fin 16384) (s : Fin 200) :
    Host.reduceAdd x (constant S_ .f32 0x00000000#32) reducesTo_S16384x200x4_S16384x200_d2 h_S_ (ix2 i s)
      = ∑ c : Fin 4, x (ix3 i s c) := by
  rw [hostReduceAdd_apply, Ideal.hostReduceAdd_single _ reduces_last, constant_apply, Ideal.ofBits_zero_f32, zero_add]
  refine Finset.sum_congr rfl fun c _ => congrArg x ?_
  funext a; apply Fin.ext
  match a with
  | ⟨0, _⟩ => rfl
  | ⟨1, _⟩ => rfl
  | ⟨2, _⟩ => rfl

/-- The host's square root at an index is the ideal instance's. -/
theorem hostSqrt_apply {s : Shape} (x : FVec Ideal s .f32) (i : s.Idx) : Host.sqrt x i = Ideal.sqrt (x i) := rfl

/-- The norm at a position. -/
theorem normV_apply (q : Ct Ideal S16384x200x4 .f32) (i : Fin 16384) (s : Fin 200) (k : Fin 1) :
    normV (F := Ideal) q (ix3 i s k) = Ideal.sqrt (∑ c : Fin 4, q (ix3 i s c) * q (ix3 i s c)) := by
  unfold normV
  rw [hostSqrt_apply,
    broadcastInDim_apply _ _ _ (ix3 i s k) (ix2 i s) (fun a => match a with | ⟨0, _⟩ => rfl | ⟨1, _⟩ => rfl),
    sumLast_apply]
  rfl

/-- The quotient at a position: the element over the norm there plus the small constant. -/
theorem quotV_apply (q : Ct Ideal S16384x200x4 .f32) (n : Ct Ideal S16384x200x1 .f32) (i : Fin 16384) (s : Fin 200)
    (j : Fin 4) :
    quotV (F := Ideal) q n (ix3 i s j)
      = Ideal.div (q (ix3 i s j)) (n (ix3 i s (0 : Fin 1)) + Ideal.ofBits .f32 0x2B8CBCCC#32) := by
  unfold quotV
  rw [hostDivf_apply,
    broadcastInDim_apply _ _ _ (ix3 i s j) (ix3 i s (0 : Fin 1)) (fun a => match a with | ⟨0, _⟩ => rfl | ⟨1, _⟩ => rfl | ⟨2, _⟩ => rfl)]
  rfl

end Cert.ReferenceIdeal.RefRun

end
-- ==== Proof.RefValue.lean ====
/- The reference's two computed results equal the specification's functions: the code path index by index and
   the loss, under the hypothesis that every byte word is below 256 (which the precondition gives). -/
import proofs.«204536_g87462714016206_cont_9to1c4b_719_4_alg».proof.Proof.RefRead
import proofs.«204536_g87462714016206_cont_9to1c4b_719_4_alg».proof.Proof.RefRun
import proofs.«204536_g87462714016206_cont_9to1c4b_719_4_alg».proof.Proof.Gen.Pre_input_domain
import proofs.«204536_g87462714016206_cont_9to1c4b_719_4_alg».proof.Proof.Spec
import proofs.«204536_g87462714016206_cont_9to1c4b_719_4_alg».proof.Proof.PreBytes
import proofs.«204536_g87462714016206_cont_9to1c4b_719_4_alg».proof.Defs

noncomputable section

open scoped BigOperators

namespace Cert.ReferenceIdeal.RefRun

open Cert.ReferenceIdeal Idealize.ShloMosaic Idealize.ShloMosaic.ValueIdx
open Cert.ReferenceIdeal.Facts₀

/-- The byte at a position as a row of the 256-row table, given that every byte word is below 256. -/
def byteFin (byte : Ct Ideal S16384x200 .i32) (h : ∀ (i : Fin 16384) (s : Fin 200), (byte (ix2 i s)).toNat < 256)
    (i : Fin 16384) (s : Fin 200) : Fin 256 := ⟨(byte (ix2 i s)).toNat, h i s⟩

/-- The argument arrays as functions of their coordinates. -/
abbrev embF (emb : Ct Ideal S256x4 .f32) : Fin 256 → Fin 4 → EReal := fun r k => emb (ix2 r k)
abbrev wF (W : Ct Ideal S4x4 .f32) : Fin 4 → Fin 4 → EReal := fun j k => W (ix2 j k)
abbrev bF (b : Ct Ideal S4 .f32) : Fin 4 → EReal := fun j => b (ix1 j)
abbrev tgtF (tgt : Ct Ideal S16384x200x4 .f32) : Fin 16384 → Fin 200 → Fin 4 → EReal := fun i s j => tgt (ix3 i s j)

variable (emb : Ct Ideal S256x4 .f32) (W : Ct Ideal S4x4 .f32) (b : Ct Ideal S4 .f32) (byte : Ct Ideal S16384x200 .i32)
  (tgt : Ct Ideal S16384x200x4 .f32) (h : ∀ (i : Fin 16384) (s : Fin 200), (byte (ix2 i s)).toNat < 256)

/-- The projection at a position is the specification's projection of the byte there. -/
theorem qV_apply (i : Fin 16384) (s : Fin 200) (j : Fin 4) :
    qV (F := Ideal) emb W b byte (ix3 i s j) = Cert.Spec.q (embF emb) (wF W) (bF b) (byteFin byte h i s) j := by
  unfold qV
  rw [projV_apply]
  unfold Cert.Spec.q
  refine congrArg (· + b (ix1 j)) (Finset.sum_congr rfl fun c _ => ?_)
  rw [takeV_apply emb byte h]
  rfl

/-- THE CODE PATH, index by index: the reference's second result is the specification's. -/
theorem codePathV_apply (i : Fin 16384) (s : Fin 200) (j : Fin 4) :
    codePathV (F := Ideal) emb W b byte (ix3 i s j)
      = Cert.Spec.codePath (byteFin byte h) (embF emb) (wF W) (bF b) i s j := by
  unfold codePathV
  rw [quotV_apply, normV_apply]
  simp only [qV_apply emb W b byte h]
  unfold Cert.Spec.codePath Cert.Spec.code
  rfl

/-- The inner product with the target at a position. -/
theorem dotV_apply (i : Fin 16384) (s : Fin 200) :
    dotV (F := Ideal) (codePathV emb W b byte) tgt (ix2 i s)
      = Cert.Spec.dot (byteFin byte h) (embF emb) (wF W) (bF b) (tgtF tgt) i s := by
  unfold dotV
  rw [sumLast_apply]
  unfold Cert.Spec.dot
  refine Finset.sum_congr rfl fun c _ => ?_
  rw [mulf_apply, codePathV_apply emb W b byte h]

/-- THE LOSS: the reference's first result is the specification's. -/
theorem lossV_apply :
    lossV (F := Ideal) (codePathV emb W b byte) tgt ix0
      = Cert.Spec.loss (byteFin byte h) (embF emb) (wF W) (bF b) (tgtF tgt) := by
  unfold lossV
  rw [mulf_apply, subf_apply, hostDivf_apply, constant_apply, constant_apply, hostReduceAdd_apply,
    Ideal.hostReduceAdd_total _ (fun a => a.elim0), constant_apply, Ideal.ofBits_zero_f32, zero_add, sum_idx2]
  have one : ∀ x : EReal, x * Ideal.ofBits .f32 0x3F800000#32 = x := fun x => by rw [Ideal.ofBits_one_f32, mul_one]
  rw [one]
  simp only [mulf_apply, dotV_apply emb W b byte tgt h]
  unfold Cert.Spec.loss
  rfl

/-- The code path as a whole array. -/
theorem codePathV_eq :
    codePathV (F := Ideal) emb W b byte
      = fun x => Cert.Spec.codePath (byteFin byte h) (embF emb) (wF W) (bF b) (x 0) (x 1) (x 2) := by
  funext x
  obtain ⟨i, s, j, rfl⟩ : ∃ (i : Fin 16384) (s : Fin 200) (j : Fin 4), x = ix3 i s j := ⟨x 0, x 1, x 2, eq_ix3 x⟩
  exact codePathV_apply emb W b byte h i s j

/-- The loss as a whole (rank-0) array. -/
theorem lossV_eq :
    lossV (F := Ideal) (codePathV emb W b byte) tgt
      = fun _ => Cert.Spec.loss (byteFin byte h) (embF emb) (wF W) (bF b) (tgtF tgt) := by
  funext x
  rw [eq_ix0 x]
  exact lossV_apply emb W b byte tgt h

end Cert.ReferenceIdeal.RefRun

namespace Cert.ReferenceIdeal.RefRun

open Cert.ReferenceIdeal Idealize.ShloMosaic Idealize.ShloMosaic.ValueIdx Idealize.ShloMosaic.TcCoe Idealize.SL.Sem

/-- Under the reference's precondition every byte word of the first argument is below 256. -/
theorem bytes_of_pre (m : (ℓ : Loc nD τ sig) → Buf (Elt Ideal) ℓ) (hpre : Cert.Pre_ReferenceIdeal m) (c : Dev nD)
    (i : Fin 16384) (s : Fin 200) :
    ((m ((c.tc : Thread nD τ).loc main_arg0) : Ct Ideal S16384x200 .i32) (ix2 i s)).toNat < 256 :=
  Cert.PreBytes.byte_lt (F := Ideal) _ _ _ _ _ (hpre c) (ix2 i s)

/-- THE REFERENCE'S RUN AGAINST THE SPECIFICATION: under the precondition every weakly fair execution terminates with
    the four results, in the order @main returns them, at the specification's loss, the specification's code path, the
    target argument and the constant, and the five arguments unchanged. -/
theorem run_spec (m : (ℓ : Loc nD τ sig) → Buf (Elt Ideal) ℓ) (ρ : Dev nD → PrngReg) (hpre : Cert.Pre_ReferenceIdeal m) :
    θ_run (defs (F := Ideal)) (onTc (τ := τ) (main (F := Ideal))) ⟨m, fun _ => 0, ρ⟩ fun r => ∀ c : Dev nD,
      r.2.mem ((c.tc : Thread nD τ).loc main_v17)
          = (fun _ => Cert.Spec.loss (byteFin (m ((c.tc : Thread nD τ).loc main_arg0)) (bytes_of_pre m hpre c)) (embF (m ((c.tc : Thread nD τ).loc main_arg2))) (wF (m ((c.tc : Thread nD τ).loc main_arg3))) (bF (m ((c.tc : Thread nD τ).loc main_arg4))) (tgtF (m ((c.tc : Thread nD τ).loc main_arg1))) : Ct Ideal S_ .f32)
      ∧ r.2.mem ((c.tc : Thread nD τ).loc main_v10)
          = (fun x => Cert.Spec.codePath (byteFin (m ((c.tc : Thread nD τ).loc main_arg0)) (bytes_of_pre m hpre c)) (embF (m ((c.tc : Thread nD τ).loc main_arg2))) (wF (m ((c.tc : Thread nD τ).loc main_arg3))) (bF (m ((c.tc : Thread nD τ).loc main_arg4))) (x 0) (x 1) (x 2) : Ct Ideal S16384x200x4 .f32)
      ∧ r.2.mem ((c.tc : Thread nD τ).loc main_arg1) = m ((c.tc : Thread nD τ).loc main_arg1)
      ∧ r.2.mem ((c.tc : Thread nD τ).loc main_cst_5) = constant (F := Ideal) S_ .f32 0x3DCCCCCD#32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ hr c =>
      ⟨(hr c).1.trans (lossV_eq _ _ _ _ _ (bytes_of_pre m hpre c)),
        (hr c).2.1.trans (codePathV_eq _ _ _ _ (bytes_of_pre m hpre c)),
        (hr c).2.2.2.2.1, (hr c).2.2.1, (hr c).2.2.2⟩)
    (run m ρ)

end Cert.ReferenceIdeal.RefRun

end
-- ==== Proof.KernelSpec.lean ====
/- The kernel's two computed results against the specification: what the launch leaves — the flat code path known
   through the table lookup it performs, the partial sums known through the squared inner products they add up, the
   code table known to be the specification's code of each byte value — is the specification's code path and loss
   of the five argument arrays. -/
import proofs.«204536_g87462714016206_cont_9to1c4b_719_4_alg».proof.Proof.KernelValue
import proofs.«204536_g87462714016206_cont_9to1c4b_719_4_alg».proof.Proof.RefValue

noncomputable section

open scoped BigOperators

namespace Cert.KernelSpec

open Cert.KernelIdeal Idealize.ShloMosaic Idealize.ShloMosaic.ValueIdx
open Cert.ReferenceIdeal.RefRun (byteFin embF wF bF tgtF)
open Cert.KernelValue

variable (byte : S16384x200.Idx → BitVec 32) (emb : S256x4.Idx → EReal) (W : S4x4.Idx → EReal) (b : S4.Idx → EReal)
  (tgt : S16384x200x4.Idx → EReal) (T : S256x4.Idx → EReal)
  (hc0 : S16384x200.ShapeCasts S3276800) (hc1 : S256x4.ShapeCasts S1024) (hc2 : S13107200.ShapeCasts S16384x200x4)
  (hc3 : S16384x200x4.ShapeCasts S13107200) (hc4 : S1x1.ShapeCasts S_)
  (hb : ∀ (i : Fin 16384) (s : Fin 200), (byte (ix2 i s)).toNat < 256)
  (HT : ∀ (r : Fin 256) (j : Fin 4), T (ix2 r j) = Cert.Spec.code (embF emb) (wF W) (bF b) r j)

include HT

/-- The flat table at four times a position's flat byte plus a column is the specification's code of that position's
    byte at the column. -/
theorem table_at (i : Fin 16384) (s : Fin 200) (k : Fin 4)
    (hlt : 4 * (shapeCast S3276800 byte hc0 (ix1 ⟨200 * i.val + s.val, by omega⟩)).toNat + k.val < 1024) :
    shapeCast S1024 T hc1 (ix1 ⟨4 * (shapeCast S3276800 byte hc0 (ix1 ⟨200 * i.val + s.val, by omega⟩)).toNat + k.val, hlt⟩)
      = Cert.Spec.code (embF emb) (wF W) (bF b) (byteFin byte hb i s) k := by
  have eb : shapeCast S3276800 byte hc0 (ix1 ⟨200 * i.val + s.val, by omega⟩) = byte (ix2 i s) := flat2_apply byte hc0 i s
  refine Eq.trans (congrArg (shapeCast S1024 T hc1) (congrArg ix1 (Fin.ext ?_)))
    ((flatT_apply T hc1 ⟨(byte (ix2 i s)).toNat, hb i s⟩ k).trans (HT _ _))
  show 4 * _ + k.val = 4 * (byte (ix2 i s)).toNat + k.val
  rw [eb]

/-- THE KERNEL'S CODE PATH, index by index, is the specification's. -/
theorem kernel_path (cf : S13107200.Idx → EReal)
    (H1 : ∀ (n : Fin 3276800) (k : Fin 4) (hlt : 4 * (shapeCast S3276800 byte hc0 (ix1 n)).toNat + k.val < 1024),
      cf (ix1 ⟨4 * n.val + k.val, by omega⟩)
        = shapeCast S1024 T hc1 (ix1 ⟨4 * (shapeCast S3276800 byte hc0 (ix1 n)).toNat + k.val, hlt⟩))
    (i : Fin 16384) (s : Fin 200) (j : Fin 4) :
    shapeCast S16384x200x4 cf hc2 (ix3 i s j)
      = Cert.Spec.codePath (byteFin byte hb) (embF emb) (wF W) (bF b) i s j :=
  (path_apply byte T cf hc0 hc1 hc2 hb H1 i s j).trans (HT _ _)

/-- The same as a whole array. -/
theorem kernel_path_eq (cf : S13107200.Idx → EReal)
    (H1 : ∀ (n : Fin 3276800) (k : Fin 4) (hlt : 4 * (shapeCast S3276800 byte hc0 (ix1 n)).toNat + k.val < 1024),
      cf (ix1 ⟨4 * n.val + k.val, by omega⟩)
        = shapeCast S1024 T hc1 (ix1 ⟨4 * (shapeCast S3276800 byte hc0 (ix1 n)).toNat + k.val, hlt⟩)) :
    shapeCast S16384x200x4 cf hc2
      = fun x => Cert.Spec.codePath (byteFin byte hb) (embF emb) (wF W) (bF b) (x 0) (x 1) (x 2) := by
  funext x
  obtain ⟨i, s, j, rfl⟩ : ∃ (i : Fin 16384) (s : Fin 200) (j : Fin 4), x = ix3 i s j := ⟨x 0, x 1, x 2, eq_ix3 x⟩
  exact kernel_path byte emb W b T hc0 hc1 hc2 hb HT cf H1 i s j

/-- The squared inner product the partial sums add up, at position `200 i + s`, is the specification's. -/
theorem kernel_dsq (dsqK : Fin 3276800 → EReal)
    (HK : ∀ (n : Fin 3276800) (hlt : ∀ k : Fin 4, 4 * (shapeCast S3276800 byte hc0 (ix1 n)).toNat + k.val < 1024),
      dsqK n
        = (∑ k : Fin 4, shapeCast S1024 T hc1 (ix1 ⟨4 * (shapeCast S3276800 byte hc0 (ix1 n)).toNat + k.val, hlt k⟩)
              * shapeCast S13107200 tgt hc3 (ix1 ⟨4 * n.val + k.val, by omega⟩))
          * (∑ k : Fin 4, shapeCast S1024 T hc1 (ix1 ⟨4 * (shapeCast S3276800 byte hc0 (ix1 n)).toNat + k.val, hlt k⟩)
              * shapeCast S13107200 tgt hc3 (ix1 ⟨4 * n.val + k.val, by omega⟩)))
    (i : Fin 16384) (s : Fin 200) :
    dsqK ⟨200 * i.val + s.val, by omega⟩
      = Cert.Spec.dot (byteFin byte hb) (embF emb) (wF W) (bF b) (tgtF tgt) i s
        * Cert.Spec.dot (byteFin byte hb) (embF emb) (wF W) (bF b) (tgtF tgt) i s := by
  have eb : shapeCast S3276800 byte hc0 (ix1 ⟨200 * i.val + s.val, by omega⟩) = byte (ix2 i s) := flat2_apply byte hc0 i s
  have hlt : ∀ k : Fin 4, 4 * (shapeCast S3276800 byte hc0 (ix1 ⟨200 * i.val + s.val, by omega⟩)).toNat + k.val < 1024 :=
    fun k => by rw [eb]; have := hb i s; omega
  have hs : (∑ k : Fin 4, shapeCast S1024 T hc1 (ix1 ⟨4 * (shapeCast S3276800 byte hc0 (ix1 ⟨200 * i.val + s.val, by omega⟩)).toNat + k.val, hlt k⟩)
        * shapeCast S13107200 tgt hc3 (ix1 ⟨4 * (200 * i.val + s.val) + k.val, by omega⟩))
      = Cert.Spec.dot (byteFin byte hb) (embF emb) (wF W) (bF b) (tgtF tgt) i s := by
    unfold Cert.Spec.dot
    refine Finset.sum_congr rfl fun k _ => ?_
    rw [table_at byte emb W b T hc0 hc1 hb HT i s k (hlt k), flat3_apply tgt hc3 i s k]
    rfl
  exact (HK ⟨200 * i.val + s.val, by omega⟩ hlt).trans (congrArg₂ (· * ·) hs hs)

/-- THE KERNEL'S LOSS is the specification's. -/
theorem kernel_loss (Pm : S32x16.Idx → EReal) (dsqK : Fin 3276800 → EReal)
    (H2 : ∀ (w : Fin 32) (l : Fin 16),
      Pm (ix2 w l) = ∑ t : Fin 6400, dsqK ⟨102400 * w.val + 16 * t.val + l.val, by omega⟩)
    (HK : ∀ (n : Fin 3276800) (hlt : ∀ k : Fin 4, 4 * (shapeCast S3276800 byte hc0 (ix1 n)).toNat + k.val < 1024),
      dsqK n
        = (∑ k : Fin 4, shapeCast S1024 T hc1 (ix1 ⟨4 * (shapeCast S3276800 byte hc0 (ix1 n)).toNat + k.val, hlt k⟩)
              * shapeCast S13107200 tgt hc3 (ix1 ⟨4 * n.val + k.val, by omega⟩))
          * (∑ k : Fin 4, shapeCast S1024 T hc1 (ix1 ⟨4 * (shapeCast S3276800 byte hc0 (ix1 n)).toNat + k.val, hlt k⟩)
              * shapeCast S13107200 tgt hc3 (ix1 ⟨4 * n.val + k.val, by omega⟩))) :
    shapeCast S_ (Cert.KernelIdeal.Gen.k2_pay1 (F := Ideal) Pm) hc4
      = fun _ => Cert.Spec.loss (byteFin byte hb) (embF emb) (wF W) (bF b) (tgtF tgt) := by
  funext x
  rw [eq_ix0 x]
  exact loss_spec (byteFin byte hb) (embF emb) (wF W) (bF b) (tgtF tgt) Pm dsqK hc4 H2
    (kernel_dsq byte emb W b tgt T hc0 hc1 hc3 hb HT dsqK HK)

end Cert.KernelSpec

end
-- ==== Proof.LibMatmul.lean ====
/-
  Matrix products read entry by entry.

  On the extended reals the matrix unit's product into a zero accumulator, contracting the second axis
  of a rank-2 left operand with the first axis of a rank-2 right operand, is the plain finite sum
  `∑ k, a (p, k) * b (k, q)`; and a rank-2 transposition swaps the two coordinates.  Both are stated over
  explicit coordinates (`ix2 p q`), which is how every block computation below reads its operands.
-/
import Idealize.ShloMosaic.Lib.Pipeline.Value
import Idealize.ShloMosaic.Lib.ValueIdx
import Idealize.ShloMosaic.PureOps.Ideal.Laws

noncomputable section

namespace Cert.Proof.LibMatmul

open Idealize.ShloMosaic Idealize.ShloMosaic.ValueIdx

/-- Entry `(i, j)` of the transpose of a rank-2 array is entry `(j, i)` of the array. -/
theorem transpose2_apply {A B : Nat} {α : Type} (x : (⟨2, ![A, B]⟩ : Shape).Idx → α)
    (h : (⟨2, ![A, B]⟩ : Shape).Transposes [1, 0] (⟨2, ![B, A]⟩ : Shape)) (i : Fin B) (j : Fin A) :
    transpose (⟨2, ![B, A]⟩ : Shape) [1, 0] x h (ix2 i j) = x (ix2 j i) :=
  transpose_apply [1, 0] x h (ix2 i j) (ix2 j i) (fun b => by
    match b with
    | ⟨0, _⟩ => rfl
    | ⟨1, _⟩ => rfl)

/-- A product of an `M × K` by a `K × N` array into a zero accumulator, contracting the one shared axis:
    entry `(p, q)` is `∑ k, a (p, k) * b (k, q)`.  The four hypotheses say which coordinate of each operand
    index comes from the result index and which from the contraction index; for a printed record each is
    one line. -/
theorem matmul_zero_apply_of {M K N : Nat} {φ₁ φ₂ : FTy}
    (d : DotDims (⟨2, ![M, K]⟩ : Shape) (⟨2, ![K, N]⟩ : Shape) (⟨2, ![M, N]⟩ : Shape))
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (prec : Option ContractPrecision)
    (a : FVec Ideal (⟨2, ![M, K]⟩ : Shape) φ₁) (b : FVec Ideal (⟨2, ![K, N]⟩ : Shape) φ₂) (p : Fin M) (q : Fin N) :
    FloatOps.matmul d prec a b (constant (⟨2, ![M, N]⟩ : Shape) .f32 0x00000000#32) (ix2 p q)
      = ∑ k : Fin K, a (ix2 p k) * b (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun x => Fin.ext (by
    match x with
    | ⟨0, _⟩ => exact hl0 _ _
    | ⟨1, _⟩ => exact (hl1 _ _).trans hk)
  have er : d.rhsIdx (ix2 p q) ((contrEquiv1 d K hr hs).symm k) = ix2 k q := funext fun x => Fin.ext (by
    match x with
    | ⟨0, _⟩ => exact (hr0 _ _).trans hk
    | ⟨1, _⟩ => exact hr1 _ _)
  rw [el, er]

end Cert.Proof.LibMatmul

end
-- ==== Proof.TableValue.lean ====
/-
  The code table, entry by entry. The TensorCore body stores, for each of the 256 byte values, the projection of that
  byte's embedding row by the 4×4 weight plus the bias, divided by the projection's Euclidean norm plus a small
  constant. Read at an index, the stored array is the plain function `Cert.Spec.code` of the three operands: the matrix
  product into a zero accumulator is a four-term sum, the lane sum along a row is the sum of the four squares, and the
  shape casts and broadcasts only move an index. The weight reaches the body transposed and the bias as a one-row
  array; the two readings that undo this are stated beside it, and with them the stored array is the code of the
  embedding table, the weight and the bias themselves.
-/
import Idealize.ShloMosaic.Lib.ValueLayout
import Idealize.ShloMosaic.PureOps.Ideal.Laws
import proofs.«204536_g87462714016206_cont_9to1c4b_719_4_alg».proof.Proof.Gen.KernelIdeal.Skeleton
import proofs.«204536_g87462714016206_cont_9to1c4b_719_4_alg».proof.Proof.Spec
import proofs.«204536_g87462714016206_cont_9to1c4b_719_4_alg».proof.Proof.LibMatmul

noncomputable section

open scoped BigOperators

namespace Cert.Proof.TableValue

open Cert.KernelIdeal Cert.KernelIdeal.Gen Cert.KernelIdeal.Facts₀
open Idealize.ShloMosaic Idealize.ShloMosaic.ValueIdx

/-! ## Two layout operations read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two readings the table's operands go through on the host -/

/-- The transposed weight at `(k, j)` is the weight at `(j, k)`. -/
theorem transpose_S4x4_apply {α : Type} (W : S4x4.Idx → α) (h : S4x4.Transposes [1, 0] S4x4) (k j : Fin 4) :
    transpose S4x4 [1, 0] W h (ix2 k j) = W (ix2 j k) :=
  transpose_ix2_apply W h k j

/-- The bias as a one-row array at `(0, j)` is the bias at `j`. -/
theorem shapeCast_S4_S1x4_apply {α : Type} (b : S4.Idx → α) (h : S4.ShapeCasts S1x4) (j : Fin 4) :
    shapeCast S1x4 b h (ix2 (0 : Fin 1) j) = b (ix1 j) :=
  shapeCast_a_1a_apply b h 0 j

/-! ## The code table's payload at an index -/

/-- The matrix product into the zero accumulator plus the broadcast bias row, at `(r, j)`, is the projection of
    embedding row `r`, component `j`. The weight operand is the transposed weight: the projection's row `j` of the
    weight is the operand's column `j`. -/
theorem proj_apply (emb : FVec Ideal S256x4 .f32) (wt : FVec Ideal S4x4 .f32) (brow : FVec Ideal S1x4 .f32) (r : Fin 256) (j : Fin 4) :
    addf (matmul dot_S256x4_S4x4_S256x4_1_0_0_1_n_n none emb (shapeCast S4x4 wt Gen.shapeCasts_S4x4_S4x4)
          (constant (F := Ideal) S256x4 .f32 0x00000000#32))
        (broadcastTo S256x4 (shapeCast S1x4 brow Gen.shapeCasts_S1x4_S1x4) Gen.broadcasts_S1x4_S256x4) (ix2 r j)
      = Cert.Spec.q (fun r k => emb (ix2 r k)) (fun j k => wt (ix2 k j)) (fun j => brow (ix2 (0 : Fin 1) j)) r j := by
  rw [addf_apply, shapeCast_self, shapeCast_self, broadcastTo_1b_ab_apply]
  simp only [matmul]
  rw [LibMatmul.matmul_zero_apply_of _ rfl rfl (fun _ _ => rfl) (fun _ _ => rfl) (fun _ _ => rfl) (fun _ _ => rfl)]
  rfl

/-- The code table's payload at `(r, j)` is the code of byte value `r`, component `j`: the projection, divided by the
    square root of the lane sum of the projection's squares along row `r` plus the small constant. -/
theorem table_apply (emb : S256x4.Idx → EReal) (wt : S4x4.Idx → EReal) (brow : S1x4.Idx → EReal) (r : Fin 256) (j : Fin 4) :
    k0_pay1 (F := Ideal) emb wt brow (ix2 r j)
      = Cert.Spec.code (fun r k => emb (ix2 r k)) (fun j k => wt (ix2 k j)) (fun j => brow (ix2 (0 : Fin 1) j)) r j := by
  unfold k0_pay1 Cert.Spec.code
  rw [divf_apply, proj_apply, broadcastTo_a1_ab_apply]
  refine congrArg (Ideal.div _) ?_
  show Ideal.sqrt (shapeCast S256x1 _ Gen.shapeCasts_S256_S256x1 (ix2 r (0 : Fin 1))) + Ideal.ofBits .f32 0x2B8CBCCC#32 = _
  refine congrArg (fun x => Ideal.sqrt x + Ideal.ofBits .f32 0x2B8CBCCC#32) ?_
  rw [shapeCast_a_a1_apply]
  refine (Ideal.multiReduction_add_single _ 0x00000000#32 Gen.reduces_S256x4_S256 _ _ (ix1 r)).trans ?_
  refine Finset.sum_congr rfl fun (k : Fin 4) _ => ?_
  have hk : Gen.reduces_S256x4_S256.lift (ix1 r) k = ix2 r k :=
    funext fun a => Fin.ext (by match a with | ⟨0, _⟩ => rfl | ⟨1, _⟩ => rfl)
  rw [hk, mulf_apply, proj_apply]

/-- With the weight operand the transpose of `W` and the bias operand the one-row cast of `b`, the payload at `(r, j)` is
    the code of the embedding table, `W` and `b` themselves. -/
theorem table_apply_operands (emb : S256x4.Idx → EReal) (W : S4x4.Idx → EReal) (b : S4.Idx → EReal)
    (hW : S4x4.Transposes [1, 0] S4x4) (hb : S4.ShapeCasts S1x4) (r : Fin 256) (j : Fin 4) :
    k0_pay1 (F := Ideal) emb (transpose S4x4 [1, 0] W hW) (shapeCast S1x4 b hb) (ix2 r j)
      = Cert.Spec.code (fun r k => emb (ix2 r k)) (fun j k => W (ix2 j k)) (fun j => b (ix1 j)) r j := by
  have eW : (fun (j k : Fin 4) => transpose S4x4 [1, 0] W hW (ix2 k j)) = fun j k => W (ix2 j k) :=
    funext fun j => funext fun k => transpose_S4x4_apply W hW k j
  have eb : (fun j : Fin 4 => shapeCast S1x4 b hb (ix2 (0 : Fin 1) j)) = fun j => b (ix1 j) :=
    funext fun j => shapeCast_S4_S1x4_apply b hb j
  rw [table_apply, eW, eb]

end Cert.Proof.TableValue

end
-- ==== Proof.Algebraic.lean ====
/-
  The two idealized programs compute the same results. The kernel's run leaves the loss body's payload of the partial
  sums, reshaped to a scalar, and the flattened code path unflattened; by the readings of the partial sums as sums of
  squared dot products over each worker's lanes and groups, of the flattened path as table words named by the bytes, and
  of the code table as each byte value's normalised projection, these are one minus the mean squared inner product and
  the code of each position's byte — the functions the reference's run computes from the same arguments.
-/
import proofs.«204536_g87462714016206_cont_9to1c4b_719_4_alg».proof.Proof.ValueRun
import proofs.«204536_g87462714016206_cont_9to1c4b_719_4_alg».proof.Proof.BodyVal
import proofs.«204536_g87462714016206_cont_9to1c4b_719_4_alg».proof.Proof.KernelSpec
import proofs.«204536_g87462714016206_cont_9to1c4b_719_4_alg».proof.Proof.TableValue

set_option maxRecDepth 16384

noncomputable section

namespace Cert.Proof.KI

open Cert.KernelIdeal Cert.KernelIdeal.Gen

open Idealize.ShloMosaic Idealize.ShloMosaic.TcCoe Idealize.ShloMosaic.ValueIdx
open Idealize.ShloMosaic.SparseCore.Cfg (HIx)
open Idealize.SL Idealize.SL.Sem
open Cert.ReferenceIdeal.RefRun (byteFin embF wF bF tgtF)

variable (m : (ℓ : Loc nD τ sig) → Buf (Elt Ideal) ℓ)

/-- What the vector subcores leave, as functions of the call's operands. -/
abbrev cfOf (d : Dev nD) : Buf (Elt Ideal) (oLoc d) := codeFlat (F := Ideal) (fbOf m d) (ftOf m d)
abbrev pmOf (d : Dev nD) : Buf (Elt Ideal) (pLoc d) := partials (F := Ideal) (fbOf m d) (fgOf m d) (ftOf m d)

section Bridge

variable (hfn : ∀ c : Dev nD, Cert.Pre_input_domain.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1)

include hfn in
theorem bytesOK (c : Dev nD) (i : Fin 16384) (s : Fin 200) :
    ((m ((c.tc : Thread nD τ).loc main_arg0) : S16384x200.Idx → BitVec 32) (ix2 i s)).toNat < 256 :=
  Cert.PreBytes.byte_lt _ _ _ _ _ (hfn c) _

include hfn in
theorem flatOK (c : Dev nD) (j : S3276800.Idx) :
    (shapeCast S3276800 (m ((c.tc : Thread nD τ).loc main_arg0) : S16384x200.Idx → BitVec 32) shapeCasts_S16384x200_S3276800 j).toNat < 256 := by
  unfold shapeCast
  exact Cert.PreBytes.byte_lt _ _ _ _ _ (hfn c) _

/-- The code table is each byte value's code. -/
theorem tableSpec (c : Dev nD) (r : Fin 256) (j : Fin 4) :
    tableOf m c (ix2 r j) = Cert.Spec.code (embF (m ((c.tc : Thread nD τ).loc main_arg2))) (wF (m ((c.tc : Thread nD τ).loc main_arg3)))
      (bF (m ((c.tc : Thread nD τ).loc main_arg4))) r j :=
  Cert.Proof.TableValue.table_apply_operands _ _ _ _ _ r j

/-- The kernel's code path is the code of each position's byte. -/
theorem pathSpec (c : Dev nD) :
    shapeCast S16384x200x4 (cfOf m c : S13107200.Idx → EReal) shapeCasts_S13107200_S16384x200x4
      = fun x => Cert.Spec.codePath (byteFin (m ((c.tc : Thread nD τ).loc main_arg0)) (bytesOK m hfn c)) (embF (m ((c.tc : Thread nD τ).loc main_arg2)))
          (wF (m ((c.tc : Thread nD τ).loc main_arg3))) (bF (m ((c.tc : Thread nD τ).loc main_arg4))) (x 0) (x 1) (x 2) := by
  refine Cert.KernelSpec.kernel_path_eq _ _ _ _ (tableOf m c) shapeCasts_S16384x200_S3276800 shapeCasts_S256x4_S1024
    shapeCasts_S13107200_S16384x200x4 (bytesOK m hfn c) (tableSpec m c) _ ?_
  intro n k hlt
  show codeFlat (F := Ideal) (fbOf m c) (ftOf m c) _ = _
  rw [fbOf_eq, ftOf_eq]
  exact codeFlat_apply _ _ (flatOK m hfn c) n k hlt

/-- The kernel's loss is one minus the mean squared inner product. -/
theorem lossSpec (c : Dev nD) :
    shapeCast S_ (k2_pay1 (F := Ideal) (pmOf m c : S32x16.Idx → EReal)) shapeCasts_S1x1_S_
      = fun _ => Cert.Spec.loss (byteFin (m ((c.tc : Thread nD τ).loc main_arg0)) (bytesOK m hfn c)) (embF (m ((c.tc : Thread nD τ).loc main_arg2)))
          (wF (m ((c.tc : Thread nD τ).loc main_arg3))) (bF (m ((c.tc : Thread nD τ).loc main_arg4))) (tgtF (m ((c.tc : Thread nD τ).loc main_arg1))) := by
  show shapeCast S_ (k2_pay1 (F := Ideal) (partials (F := Ideal) (fbOf m c) (fgOf m c) (ftOf m c))) shapeCasts_S1x1_S_ = _
  rw [fbOf_eq, fgOf_eq, ftOf_eq]
  exact Cert.KernelSpec.kernel_loss _ _ _ _ _ (tableOf m c) shapeCasts_S16384x200_S3276800 shapeCasts_S256x4_S1024
    shapeCasts_S16384x200x4_S13107200 shapeCasts_S1x1_S_ (bytesOK m hfn c) (tableSpec m c) _ (dsqK _ _ _)
    (fun w l => partials_apply _ _ _ w l) (fun n hlt => dsqK_eq _ _ _ (flatOK m hfn c) n)

end Bridge

/-- The same spec at arguments that agree. -/
theorem loss_congr {byte byte' : Cert.ReferenceIdeal.RefRun.Ct Ideal Cert.ReferenceIdeal.S16384x200 .i32} {h h'}
    {emb emb' : Cert.ReferenceIdeal.RefRun.Ct Ideal Cert.ReferenceIdeal.S256x4 .f32} {W W' : Cert.ReferenceIdeal.RefRun.Ct Ideal Cert.ReferenceIdeal.S4x4 .f32}
    {b b' : Cert.ReferenceIdeal.RefRun.Ct Ideal Cert.ReferenceIdeal.S4 .f32} {tgt tgt' : Cert.ReferenceIdeal.RefRun.Ct Ideal Cert.ReferenceIdeal.S16384x200x4 .f32}
    (e0 : byte' = byte) (e2 : emb' = emb) (e3 : W' = W) (e4 : b' = b) (e1 : tgt' = tgt) :
    (fun (_ : Cert.ReferenceIdeal.S_.Idx) => Cert.Spec.loss (byteFin byte' h') (embF emb') (wF W') (bF b') (tgtF tgt'))
      = fun _ => Cert.Spec.loss (byteFin byte h) (embF emb) (wF W) (bF b) (tgtF tgt) := by
  subst e0 e2 e3 e4 e1; rfl
theorem path_congr {byte byte' : Cert.ReferenceIdeal.RefRun.Ct Ideal Cert.ReferenceIdeal.S16384x200 .i32} {h h'}
    {emb emb' : Cert.ReferenceIdeal.RefRun.Ct Ideal Cert.ReferenceIdeal.S256x4 .f32} {W W' : Cert.ReferenceIdeal.RefRun.Ct Ideal Cert.ReferenceIdeal.S4x4 .f32}
    {b b' : Cert.ReferenceIdeal.RefRun.Ct Ideal Cert.ReferenceIdeal.S4 .f32}
    (e0 : byte' = byte) (e2 : emb' = emb) (e3 : W' = W) (e4 : b' = b) :
    (fun (x : Cert.ReferenceIdeal.S16384x200x4.Idx) => Cert.Spec.codePath (byteFin byte' h') (embF emb') (wF W') (bF b') (x 0) (x 1) (x 2))
      = fun x => Cert.Spec.codePath (byteFin byte h) (embF emb) (wF W) (bF b) (x 0) (x 1) (x 2) := by
  subst e0 e2 e3 e4; rfl

/-- `Cert.algebraic_KernelIdeal_ReferenceIdeal` (Defs.lean), from each vector subcore's task leaving the stated contents. -/
theorem algebraic_of
    (hbodyV : ∀ m : (ℓ : Loc nD τ sig) → Buf (Elt Ideal) ℓ,
      TileBodyStmtG (F := Ideal) (fbOf m) (fgOf m) (ftOf m) (foOf m) (fpOf m) (goL (fbOf m) (fgOf m) (ftOf m) (cfOf m) (pmOf m))) :
    Cert.algebraic_KernelIdeal_ReferenceIdeal := by
  intro m ρ m' ρ' hpre hagree
  have hpre' : Cert.Pre_ReferenceIdeal m' := by
    intro c
    have h := hpre c
    rw [(hagree c).1, (hagree c).2.1, (hagree c).2.2.1, (hagree c).2.2.2.1, (hagree c).2.2.2.2]
    exact h
  refine ⟨fun c => fun _ => Cert.Spec.loss (byteFin (m ((c.tc : Thread nD τ).loc main_arg0)) (bytesOK m hpre c)) (embF (m ((c.tc : Thread nD τ).loc main_arg2)))
        (wF (m ((c.tc : Thread nD τ).loc main_arg3))) (bF (m ((c.tc : Thread nD τ).loc main_arg4))) (tgtF (m ((c.tc : Thread nD τ).loc main_arg1))),
      fun c => fun x => Cert.Spec.codePath (byteFin (m ((c.tc : Thread nD τ).loc main_arg0)) (bytesOK m hpre c)) (embF (m ((c.tc : Thread nD τ).loc main_arg2)))
        (wF (m ((c.tc : Thread nD τ).loc main_arg3))) (bF (m ((c.tc : Thread nD τ).loc main_arg4))) (x 0) (x 1) (x 2),
      fun c => m ((c.tc : Thread nD τ).loc main_arg1), fun c => constant (F := Ideal) S_ .f32 0x3DCCCCCD#32, ?_, ?_⟩
  · exact (θ_run (Cert.KernelIdeal.defs (F := Ideal)) _ _).mono (fun r h c =>
        ⟨(h c).1.trans (lossSpec m hpre c), (h c).2.1.trans (pathSpec m hpre c), (h c).2.2.1, (h c).2.2.2.1, (h c).2.2.2.2⟩)
      (run_value m ρ (cfOf m) (pmOf m) (hbodyV m) hpre)
  · exact (θ_run (Cert.ReferenceIdeal.defs (F := Ideal)) _ _).mono (fun r h c =>
        ⟨(h c).1.trans (loss_congr (hagree c).1 (hagree c).2.2.1 (hagree c).2.2.2.1 (hagree c).2.2.2.2 (hagree c).2.1),
          (h c).2.1.trans (path_congr (hagree c).1 (hagree c).2.2.1 (hagree c).2.2.2.1 (hagree c).2.2.2.2),
          (h c).2.2.1.trans (hagree c).2.1, (h c).2.2.2.1, (h c).2.2.2.2⟩)
      (Cert.ReferenceIdeal.RefRun.run_spec m' ρ' hpre')

end Cert.Proof.KI

end
-- ==== Proof.BodyValDefs.lean ====
/-
  One vector subcore's task as pure functions of what its scratches hold. An indexed load reads the lanes an index vector
  names; an indexed store overwrites them. One digit of one group of sixteen bytes stores the table words the bytes name
  at the row words of that digit and multiplies them with the target words there; a group is its four digits, a trip its
  four groups, a chunk its hundred trips, a worker its sixteen chunks. Each is written as the operations leave it, so
  that it is the term the program's run produces.
-/
import proofs.«204536_g87462714016206_cont_9to1c4b_719_4_alg».proof.Proof.BodyChecks
import proofs.«204536_g87462714016206_cont_9to1c4b_719_4_alg».proof.Proof.BodyVal

noncomputable section

namespace Cert.Proof.KI

open Cert.KernelIdeal Cert.KernelIdeal.Gen

open Idealize.ShloMosaic
open Idealize.ShloMosaic.ValueIdx

variable {F : FTy → Type} [FloatOps F]

/-- What an indexed load of the table scratch at contents fT returns. -/
def gathT (fT : S1024.Idx → F .f32) (idx : IVec S16 32) (h : TblOK idx) : Vec F S16 .f32 :=
  loadIdx (((sT : Memref sig .scVector .vmem S1024 .f32).access (.whole S1024)).read (Elt F) fT) ![idx] h

/-- What an indexed load of the target scratch at contents fG returns. -/
def gathG (fG : S25600.Idx → F .f32) (idx : IVec S16 32) (h : RowOK idx) : Vec F S16 .f32 :=
  loadIdx (((sG : Memref sig .scVector .vmem S25600 .f32).access (.whole S25600)).read (Elt F) fG) ![idx] h

/-- What an indexed store of v into the row scratch at contents old leaves there. -/
def scat (idx : IVec S16 32) (v : Vec F S16 .f32) (h : RowOK idx) (old : S25600.Idx → F .f32) : S25600.Idx → F .f32 :=
  ((sR : Memref sig .scVector .vmem S25600 .f32).access (.whole S25600)).write (Elt F) old
    (storeIdx (((sR : Memref sig .scVector .vmem S25600 .f32).access (.whole S25600)).read (Elt F) old) ![idx] v (fun _ => 1#1) false h) Finset.univ

/-- The table index of digit kk of the bytes b. -/
abbrev tIdx (b : IVec S16 32) (kk : BitVec 32) : IVec S16 32 := addi (muli b (broadcast S16 4#32)) (broadcast S16 kk)

/-- The sixteen bytes of group 0, 1, 2, 3 of trip k, as the task loads them from the byte scratch at contents fI. -/
def bytes0 (F : FTy → Type) (fI : S6400.Idx → BitVec 32) (k : Fin k1_t2_loop.trips) : IVec S16 32 :=
  (sI : Memref sig .scVector .vmem S6400 .i32).view.readAt (Elt F) (Rect.unit (s := S6400) (k1_off3 k) S16.size (k1_off3_inb k)).toLoadRect fI
def bytes1 (F : FTy → Type) (fI : S6400.Idx → BitVec 32) (k : Fin k1_t2_loop.trips) : IVec S16 32 :=
  (sI : Memref sig .scVector .vmem S6400 .i32).view.readAt (Elt F) (Rect.unit (s := S6400) (k1_off4 k) S16.size (k1_off4_inb k)).toLoadRect fI
def bytes2 (F : FTy → Type) (fI : S6400.Idx → BitVec 32) (k : Fin k1_t2_loop.trips) : IVec S16 32 :=
  (sI : Memref sig .scVector .vmem S6400 .i32).view.readAt (Elt F) (Rect.unit (s := S6400) (k1_off5 k) S16.size (k1_off5_inb k)).toLoadRect fI
def bytes3 (F : FTy → Type) (fI : S6400.Idx → BitVec 32) (k : Fin k1_t2_loop.trips) : IVec S16 32 :=
  (sI : Memref sig .scVector .vmem S6400 .i32).view.readAt (Elt F) (Rect.unit (s := S6400) (k1_off6 k) S16.size (k1_off6_inb k)).toLoadRect fI

/-- Sixteen words read from a scratch of bytes are bytes. -/
theorem bytes_readAt (F : FTy → Type) {fI : S6400.Idx → BitVec 32} (hfI : ∀ j, (fI j).toNat < 256) (off : Fin 1 → Nat)
    (inb : ∀ a, off a + S16.size a ≤ S6400.size a) :
    Bytes ((sI : Memref sig .scVector .vmem S6400 .i32).view.readAt (Elt F) (Rect.unit (s := S6400) off S16.size inb).toLoadRect fI) := by
  intro x
  simp only [View.readAt_apply, Memref.view_whole, View.read_whole]
  exact hfI _

section Trip

variable (fT : S1024.Idx → F .f32) (fG : S25600.Idx → F .f32)

/-- One digit's store: the table words of digit kk of the bytes b, at the row words of digit kk of group j of trip k. -/
def digitRows {b : IVec S16 32} (hb : Bytes b) {kk j : BitVec 32} (hkk : kk.toNat < 4) (hj : j.toNat < 4) (k : Fin k1_t2_loop.trips)
    (old : S25600.Idx → F .f32) : S25600.Idx → F .f32 :=
  scat (rowIdx kk j k) (gathT fT (tIdx b kk) (tbl_ok hb hkk)) (row_ok hkk hj (trip2_lt k)) old

/-- One digit's products, lane by lane: table word times target word. -/
def digitProd {b : IVec S16 32} (hb : Bytes b) {kk j : BitVec 32} (hkk : kk.toNat < 4) (hj : j.toNat < 4) (k : Fin k1_t2_loop.trips) : FVec F S16 .f32 :=
  mulf (gathT fT (tIdx b kk) (tbl_ok hb hkk)) (gathG fG (rowIdx kk j k) (row_ok hkk hj (trip2_lt k)))

/-- A group's four stores, digit 0 first. -/
def groupRows {b : IVec S16 32} (hb : Bytes b) {j : BitVec 32} (hj : j.toNat < 4) (k : Fin k1_t2_loop.trips) (old : S25600.Idx → F .f32) : S25600.Idx → F .f32 :=
  digitRows fT hb (kk := 3#32) (by decide) hj k (digitRows fT hb (kk := 2#32) (by decide) hj k (digitRows fT hb (kk := 1#32) (by decide) hj k
    (digitRows fT hb (kk := 0#32) (by decide) hj k old)))

/-- A group's addition to the lane sums: the square of its four products added digit 0 first. -/
def groupAcc {b : IVec S16 32} (hb : Bytes b) {j : BitVec 32} (hj : j.toNat < 4) (k : Fin k1_t2_loop.trips) (acc : FVec F S16 .f32) : FVec F S16 .f32 :=
  addf acc (mulf
    (addf (addf (addf (digitProd fT fG hb (kk := 0#32) (by decide) hj k) (digitProd fT fG hb (kk := 1#32) (by decide) hj k))
      (digitProd fT fG hb (kk := 2#32) (by decide) hj k)) (digitProd fT fG hb (kk := 3#32) (by decide) hj k))
    (addf (addf (addf (digitProd fT fG hb (kk := 0#32) (by decide) hj k) (digitProd fT fG hb (kk := 1#32) (by decide) hj k))
      (digitProd fT fG hb (kk := 2#32) (by decide) hj k)) (digitProd fT fG hb (kk := 3#32) (by decide) hj k)))

variable {fI : S6400.Idx → BitVec 32} (hfI : ∀ j, (fI j).toNat < 256)

/-- A trip's sixteen stores, group 0 first. -/
def tripRows (k : Fin k1_t2_loop.trips) (old : S25600.Idx → F .f32) : S25600.Idx → F .f32 :=
  groupRows fT (bytes_readAt F hfI (k1_off6 k) (k1_off6_inb k)) (j := 3#32) (by decide) k
    (groupRows fT (bytes_readAt F hfI (k1_off5 k) (k1_off5_inb k)) (j := 2#32) (by decide) k
      (groupRows fT (bytes_readAt F hfI (k1_off4 k) (k1_off4_inb k)) (j := 1#32) (by decide) k
        (groupRows fT (bytes_readAt F hfI (k1_off3 k) (k1_off3_inb k)) (j := 0#32) (by decide) k old)))

/-- A trip's four additions to the lane sums, group 0 first. -/
def tripAcc (k : Fin k1_t2_loop.trips) (acc : FVec F S16 .f32) : FVec F S16 .f32 :=
  groupAcc fT fG (bytes_readAt F hfI (k1_off6 k) (k1_off6_inb k)) (j := 3#32) (by decide) k
    (groupAcc fT fG (bytes_readAt F hfI (k1_off5 k) (k1_off5_inb k)) (j := 2#32) (by decide) k
      (groupAcc fT fG (bytes_readAt F hfI (k1_off4 k) (k1_off4_inb k)) (j := 1#32) (by decide) k
        (groupAcc fT fG (bytes_readAt F hfI (k1_off3 k) (k1_off3_inb k)) (j := 0#32) (by decide) k acc)))

/-- The row scratch before trip n of a chunk, from its contents at the chunk's start. -/
def rowsAt (n : Nat) (f0 : S25600.Idx → F .f32) : S25600.Idx → F .f32 :=
  Nat.rec f0 (fun m r => if h : m < k1_t2_loop.trips then tripRows fT hfI ⟨m, h⟩ r else r) n

/-- The lane sums before trip n of a chunk, from their value at the chunk's start. -/
def accAt (n : Nat) (a0 : FVec F S16 .f32) : FVec F S16 .f32 :=
  Nat.rec a0 (fun m r => if h : m < k1_t2_loop.trips then tripAcc fT fG hfI ⟨m, h⟩ r else r) n

theorem rowsAt_succ (k : Fin k1_t2_loop.trips) (f0 : S25600.Idx → F .f32) :
    rowsAt fT hfI (k.val + 1) f0 = tripRows fT hfI k (rowsAt fT hfI k.val f0) := by
  show (if h : k.val < k1_t2_loop.trips then tripRows fT hfI ⟨k.val, h⟩ (rowsAt fT hfI k.val f0) else rowsAt fT hfI k.val f0) = _
  rw [dif_pos k.isLt]

theorem accAt_succ (k : Fin k1_t2_loop.trips) (a0 : FVec F S16 .f32) :
    accAt fT fG hfI (k.val + 1) a0 = tripAcc fT fG hfI k (accAt fT fG hfI k.val a0) := by
  show (if h : k.val < k1_t2_loop.trips then tripAcc fT fG hfI ⟨k.val, h⟩ (accAt fT fG hfI k.val a0) else accAt fT fG hfI k.val a0) = _
  rw [dif_pos k.isLt]

end Trip

/-! ## A worker's chunks -/

/-- Chunk g of the byte stream and of the target as the subcore at L fetches them, and the table as it fetches it. -/
def chunkBytes (F : FTy → Type) (fb : S3276800.Idx → BitVec 32) (L : grid1.Coords) (g : Fin k1_t1_loop.trips) : S6400.Idx → BitVec 32 :=
  ((bV : Memref sig .scVector .hbm S3276800 .i32).slice (Rect.unit (s := S3276800) (k1_off1 L g) S6400.size (k1_off1_inb L g)) (fun _ => rfl)).view.read (Elt F) fb
def chunkTgts (fg : S13107200.Idx → F .f32) (L : grid1.Coords) (g : Fin k1_t1_loop.trips) : S25600.Idx → F .f32 :=
  ((gV : Memref sig .scVector .hbm S13107200 .f32).slice (Rect.unit (s := S13107200) (k1_off2 L g) S25600.size (k1_off2_inb L g)) (fun _ => rfl)).view.read (Elt F) fg
def tblOf (ft : S1024.Idx → F .f32) : S1024.Idx → F .f32 := (tV : Memref sig .scVector .hbm S1024 .f32).view.read (Elt F) ft

theorem chunkBytes_bytes (F : FTy → Type) {fb : S3276800.Idx → BitVec 32} (hpre : ∀ j, (fb j).toNat < 256) (L : grid1.Coords) (g : Fin k1_t1_loop.trips) :
    ∀ j, (chunkBytes F fb L g j).toNat < 256 := by
  intro j
  unfold chunkBytes
  rw [View.read_apply, cast_eq]
  exact hpre _

section Worker

variable (fb : S3276800.Idx → BitVec 32) (fg : S13107200.Idx → F .f32) (ft : S1024.Idx → F .f32) (hpre : ∀ j, (fb j).toNat < 256) (L : grid1.Coords)

/-- The row scratch and the lane sums of the subcore at L before its chunk g. -/
def rowsChain (g : Nat) (f0 : S25600.Idx → F .f32) : S25600.Idx → F .f32 :=
  Nat.rec f0 (fun m r => if h : m < k1_t1_loop.trips then rowsAt (tblOf ft) (chunkBytes_bytes F hpre L ⟨m, h⟩) k1_t2_loop.trips r else r) g
def accChain (g : Nat) : FVec F S16 .f32 :=
  Nat.rec (k1_pay5 (F := F)) (fun m a => if h : m < k1_t1_loop.trips then accAt (tblOf ft) (chunkTgts fg L ⟨m, h⟩) (chunkBytes_bytes F hpre L ⟨m, h⟩) k1_t2_loop.trips a else a) g

end Worker

end Cert.Proof.KI

end
-- ==== Proof.BodyValParts.lean ====
/-
  One trip of the inner loop with the values it computes: the row scratch after the trip is the trip's sixteen stores
  applied to what it held, and the lane sums after the trip are the trip's four additions, each as the operations leave it.
-/
import proofs.«204536_g87462714016206_cont_9to1c4b_719_4_alg».proof.Proof.BodyParts
import proofs.«204536_g87462714016206_cont_9to1c4b_719_4_alg».proof.Proof.BodyValDefs

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F] [Named F]

local notation "𝕄" => MT nD τ sig (HIx 1) (Elt F) ℕ UU ℕ

section ValParts

variable (d : Dev nD) (L : grid1.Coords)

local notation "thr" => V d (cV L) (jV L)

/-- An indexed load of the table scratch, at the words it reads. -/
theorem wp_loadT {α : Type} {Post : α → sProp 𝕄} {idx : IVec S16 32} {h : ∀ a x, ((![idx] : Fin 1 → IVec S16 32) a x).toNat < S1024.size a}
    {hl : (sT : Memref sig .scVector .vmem S1024 .f32).view.Loads} {k : Vec F S16 .f32 → Prog (TpuEff nD τ sig (Elt F) Λ₀ (thr).2) α}
    {fT : Buf (Elt F) ((thr).loc cc1_scratch0)} :
    (HT d L fT : sProp 𝕄) ⊢ iprop((HT d L fT -∗ wp frame (wpE (defs₀ (F := F)) 𝒱₀ thr none) Set.univ (k (gathT fT idx h)) (Post))
      -∗ wp frame (wpE (defs₀ (F := F)) 𝒱₀ thr none) Set.univ (SparseCore.vectorLoadIdx (sT : Memref sig .scVector .vmem S1024 .f32) ![idx] h hl >>= k) (Post)) :=
  SparseCore.wp_vectorLoadIdx 𝒱₀ thr none Set.univ (base := (sT : Memref sig .scVector .vmem S1024 .f32)) (S := Finset.univ) (q := fullShare) (Finset.subset_univ _)

/-- An indexed load of the target scratch, at the words it reads. -/
theorem wp_loadG {α : Type} {Post : α → sProp 𝕄} {idx : IVec S16 32} {h : ∀ a x, ((![idx] : Fin 1 → IVec S16 32) a x).toNat < S25600.size a}
    {hl : (sG : Memref sig .scVector .vmem S25600 .f32).view.Loads} {k : Vec F S16 .f32 → Prog (TpuEff nD τ sig (Elt F) Λ₀ (thr).2) α}
    {fG : Buf (Elt F) ((thr).loc cc1_scratch2)} :
    (HG d L fG : sProp 𝕄) ⊢ iprop((HG d L fG -∗ wp frame (wpE (defs₀ (F := F)) 𝒱₀ thr none) Set.univ (k (gathG fG idx h)) (Post))
      -∗ wp frame (wpE (defs₀ (F := F)) 𝒱₀ thr none) Set.univ (SparseCore.vectorLoadIdx (sG : Memref sig .scVector .vmem S25600 .f32) ![idx] h hl >>= k) (Post)) :=
  SparseCore.wp_vectorLoadIdx 𝒱₀ thr none Set.univ (base := (sG : Memref sig .scVector .vmem S25600 .f32)) (S := Finset.univ) (q := fullShare) (Finset.subset_univ _)

/-- An indexed store into the row scratch, at what it leaves. -/
theorem wp_storeR {α : Type} {Post : α → sProp 𝕄} {idx : IVec S16 32} {v : Vec F S16 .f32} {h : ∀ a x, ((![idx] : Fin 1 → IVec S16 32) a x).toNat < S25600.size a}
    {hs : ((sR : Memref sig .scVector .vmem S25600 .f32).access (.whole S25600)).Stores Finset.univ}
    {k : PUnit → Prog (TpuEff nD τ sig (Elt F) Λ₀ (thr).2) α} {fR : Buf (Elt F) ((thr).loc cc1_scratch3)} :
    (HR d L fR : sProp 𝕄) ⊢ iprop((HR d L (scat idx v h fR) -∗ wp frame (wpE (defs₀ (F := F)) 𝒱₀ thr none) Set.univ (k ⟨⟩) (Post))
      -∗ wp frame (wpE (defs₀ (F := F)) 𝒱₀ thr none) Set.univ (SparseCore.vectorStoreIdx (sR : Memref sig .scVector .vmem S25600 .f32) ![idx] v (fun _ => 1#1) false h hs >>= k) (Post)) :=
  SparseCore.wp_vectorStoreIdx 𝒱₀ thr none Set.univ (base := (sR : Memref sig .scVector .vmem S25600 .f32))

set_option maxHeartbeats 8000000 in
/-- One trip of the inner loop, with its values. -/
theorem t2_run_val (k : Fin k1_t2_loop.trips) (acc : FVec F S16 .f32)
    {fT : Buf (Elt F) ((thr).loc cc1_scratch0)} {fI : Buf (Elt F) ((thr).loc cc1_scratch1)} {fG : Buf (Elt F) ((thr).loc cc1_scratch2)}
    {fR : Buf (Elt F) ((thr).loc cc1_scratch3)} (hfI : ∀ j, (fI j).toNat < 256) :
    (HT d L fT : sProp 𝕄) ⊢ iprop(HI d L fI -∗ HG d L fG -∗ HR d L fR
        -∗ wp frame (wpE (defs₀ (F := F)) 𝒱₀ thr none) Set.univ (k1_t2_body L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 k acc) (fun r => iprop(⌜r = tripAcc fT fG hfI k acc⌝ ∗ HT d L fT ∗ HI d L fI ∗ HG d L fG ∗ HR d L (tripRows fT hfI k fR)))) := by
  have hb0 := bytes_readAt F hfI (k1_off3 k) (k1_off3_inb k)
  have hb1 := bytes_readAt F hfI (k1_off4 k) (k1_off4_inb k)
  have hb2 := bytes_readAt F hfI (k1_off5 k) (k1_off5_inb k)
  have hb3 := bytes_readAt F hfI (k1_off6 k) (k1_off6_inb k)
  unfold k1_t2_body
  rw [k1_part1_eq_skeleton, k1_part2_eq_skeleton, k1_part3_eq_skeleton, k1_part4_eq_skeleton]
  unfold k1_part1_skel k1_part2_skel k1_part3_skel k1_part4_skel
  simp only [Prog.lift, Prog.bind_op, Prog.bind_ret, Prog.pure_eq_ret, Prog.bind_assoc]
  iintro HT HI HG HR
  iapply (wp_load 𝒱₀ thr none Set.univ (m := (sI : Memref sig .scVector .vmem S6400 .i32)) (S := Finset.univ) (Finset.subset_univ _)) $$ HI; iintro HI
  rw [wp_assume_of]; case h => exact row_ok2 (by decide) (by decide) (trip2_lt _)
  rw [wp_assume_of]; case h => exact tbl_ok hb0 (by decide)
  iapply (wp_loadT d L) $$ HT; iintro HT
  iapply (wp_loadG d L) $$ HG; iintro HG
  iapply (wp_storeR d L) $$ HR; iintro HR
  rw [wp_assume_of]; case h => exact row_ok2 (by decide) (by decide) (trip2_lt _)
  rw [wp_assume_of]; case h => exact tbl_ok hb0 (by decide)
  iapply (wp_loadT d L) $$ HT; iintro HT
  iapply (wp_loadG d L) $$ HG; iintro HG
  iapply (wp_storeR d L) $$ HR; iintro HR
  rw [wp_assume_of]; case h => exact row_ok2 (by decide) (by decide) (trip2_lt _)
  rw [wp_assume_of]; case h => exact tbl_ok hb0 (by decide)
  iapply (wp_loadT d L) $$ HT; iintro HT
  iapply (wp_loadG d L) $$ HG; iintro HG
  iapply (wp_storeR d L) $$ HR; iintro HR
  rw [wp_assume_of]; case h => exact row_ok2 (by decide) (by decide) (trip2_lt _)
  rw [wp_assume_of]; case h => exact tbl_ok hb0 (by decide)
  iapply (wp_loadT d L) $$ HT; iintro HT
  iapply (wp_loadG d L) $$ HG; iintro HG
  iapply (wp_storeR d L) $$ HR; iintro HR
  iapply (wp_load 𝒱₀ thr none Set.univ (m := (sI : Memref sig .scVector .vmem S6400 .i32)) (S := Finset.univ) (Finset.subset_univ _)) $$ HI; iintro HI
  rw [wp_assume_of]; case h => exact row_ok2 (by decide) (by decide) (trip2_lt _)
  rw [wp_assume_of]; case h => exact tbl_ok hb1 (by decide)
  iapply (wp_loadT d L) $$ HT; iintro HT
  iapply (wp_loadG d L) $$ HG; iintro HG
  iapply (wp_storeR d L) $$ HR; iintro HR
  rw [wp_assume_of]; case h => exact row_ok2 (by decide) (by decide) (trip2_lt _)
  rw [wp_assume_of]; case h => exact tbl_ok hb1 (by decide)
  iapply (wp_loadT d L) $$ HT; iintro HT
  iapply (wp_loadG d L) $$ HG; iintro HG
  iapply (wp_storeR d L) $$ HR; iintro HR
  rw [wp_assume_of]; case h => exact row_ok2 (by decide) (by decide) (trip2_lt _)
  rw [wp_assume_of]; case h => exact tbl_ok hb1 (by decide)
  iapply (wp_loadT d L) $$ HT; iintro HT
  iapply (wp_loadG d L) $$ HG; iintro HG
  iapply (wp_storeR d L) $$ HR; iintro HR
  rw [wp_assume_of]; case h => exact row_ok2 (by decide) (by decide) (trip2_lt _)
  rw [wp_assume_of]; case h => exact tbl_ok hb1 (by decide)
  iapply (wp_loadT d L) $$ HT; iintro HT
  iapply (wp_loadG d L) $$ HG; iintro HG
  iapply (wp_storeR d L) $$ HR; iintro HR
  iapply (wp_load 𝒱₀ thr none Set.univ (m := (sI : Memref sig .scVector .vmem S6400 .i32)) (S := Finset.univ) (Finset.subset_univ _)) $$ HI; iintro HI
  rw [wp_assume_of]; case h => exact row_ok2 (by decide) (by decide) (trip2_lt _)
  rw [wp_assume_of]; case h => exact tbl_ok hb2 (by decide)
  iapply (wp_loadT d L) $$ HT; iintro HT
  iapply (wp_loadG d L) $$ HG; iintro HG
  iapply (wp_storeR d L) $$ HR; iintro HR
  rw [wp_assume_of]; case h => exact row_ok2 (by decide) (by decide) (trip2_lt _)
  rw [wp_assume_of]; case h => exact tbl_ok hb2 (by decide)
  iapply (wp_loadT d L) $$ HT; iintro HT
  iapply (wp_loadG d L) $$ HG; iintro HG
  iapply (wp_storeR d L) $$ HR; iintro HR
  rw [wp_assume_of]; case h => exact row_ok2 (by decide) (by decide) (trip2_lt _)
  rw [wp_assume_of]; case h => exact tbl_ok hb2 (by decide)
  iapply (wp_loadT d L) $$ HT; iintro HT
  iapply (wp_loadG d L) $$ HG; iintro HG
  iapply (wp_storeR d L) $$ HR; iintro HR
  rw [wp_assume_of]; case h => exact row_ok2 (by decide) (by decide) (trip2_lt _)
  rw [wp_assume_of]; case h => exact tbl_ok hb2 (by decide)
  iapply (wp_loadT d L) $$ HT; iintro HT
  iapply (wp_loadG d L) $$ HG; iintro HG
  iapply (wp_storeR d L) $$ HR; iintro HR
  iapply (wp_load 𝒱₀ thr none Set.univ (m := (sI : Memref sig .scVector .vmem S6400 .i32)) (S := Finset.univ) (Finset.subset_univ _)) $$ HI; iintro HI
  rw [wp_assume_of]; case h => exact row_ok2 (by decide) (by decide) (trip2_lt _)
  rw [wp_assume_of]; case h => exact tbl_ok hb3 (by decide)
  iapply (wp_loadT d L) $$ HT; iintro HT
  iapply (wp_loadG d L) $$ HG; iintro HG
  iapply (wp_storeR d L) $$ HR; iintro HR
  rw [wp_assume_of]; case h => exact row_ok2 (by decide) (by decide) (trip2_lt _)
  rw [wp_assume_of]; case h => exact tbl_ok hb3 (by decide)
  iapply (wp_loadT d L) $$ HT; iintro HT
  iapply (wp_loadG d L) $$ HG; iintro HG
  iapply (wp_storeR d L) $$ HR; iintro HR
  rw [wp_assume_of]; case h => exact row_ok2 (by decide) (by decide) (trip2_lt _)
  rw [wp_assume_of]; case h => exact tbl_ok hb3 (by decide)
  iapply (wp_loadT d L) $$ HT; iintro HT
  iapply (wp_loadG d L) $$ HG; iintro HG
  iapply (wp_storeR d L) $$ HR; iintro HR
  rw [wp_assume_of]; case h => exact row_ok2 (by decide) (by decide) (trip2_lt _)
  rw [wp_assume_of]; case h => exact tbl_ok hb3 (by decide)
  iapply (wp_loadT d L) $$ HT; iintro HT
  iapply (wp_loadG d L) $$ HG; iintro HG
  iapply (wp_storeR d L) $$ HR; iintro HR
  rw [wp_ret]; imodintro
  isplitr; · ipureintro; rfl
  isplitl [HT]; · iexact HT
  isplitl [HI]; · iexact HI
  isplitl [HG]; · iexact HG
  iexact HR

end ValParts

end Cert.Proof.KI

end
-- ==== Proof.BodyValLoops.lean ====
/-
  The two counted loops with their values. Before trip n of a chunk the row scratch holds the first n trips' stores and
  the lane sums the first n trips' additions; before chunk g of a worker the row scratch holds what chunk g - 1 left, the
  lane sums the additions of the chunks before g, and the chunks of the code path before g hold the code path.
-/
import proofs.«204536_g87462714016206_cont_9to1c4b_719_4_alg».proof.Proof.BodyValParts
import proofs.«204536_g87462714016206_cont_9to1c4b_719_4_alg».proof.Proof.BodyLoops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F] [Named F]

local notation "𝕄" => MT nD τ sig (HIx 1) (Elt F) ℕ UU ℕ

section ValLoops

variable (fb : (d : Dev nD) → Buf (Elt F) (bLoc d)) (fg : (d : Dev nD) → Buf (Elt F) (gLoc d)) (ft : (d : Dev nD) → Buf (Elt F) (tLoc d))
variable (hpre : PreOK fb)
variable (d : Dev nD) (L : grid1.Coords)

local notation "thr" => V d (cV L) (jV L)

/-- The inner loop's invariant with values. -/
def inv2V (fT : Buf (Elt F) ((thr).loc cc1_scratch0)) (fI : Buf (Elt F) ((thr).loc cc1_scratch1)) (fG : Buf (Elt F) ((thr).loc cc1_scratch2))
    (hfI : ∀ j, (fI j).toNat < 256) (f0 : Buf (Elt F) ((thr).loc cc1_scratch3)) (a0 : FVec F S16 .f32) (n : Nat) (acc : FVec F S16 .f32) : sProp 𝕄 :=
  iprop(⌜acc = accAt fT fG hfI n a0⌝ ∗ HT d L fT ∗ HI d L fI ∗ HG d L fG ∗ HR d L (rowsAt fT hfI n f0))

/-- A trip of the inner loop keeps it. -/
theorem t2_region_val (fT : Buf (Elt F) ((thr).loc cc1_scratch0)) (fI : Buf (Elt F) ((thr).loc cc1_scratch1)) (fG : Buf (Elt F) ((thr).loc cc1_scratch2))
    (hfI : ∀ j, (fI j).toNat < 256) (f0 : Buf (Elt F) ((thr).loc cc1_scratch3)) (a0 : FVec F S16 .f32) (k : Fin k1_t2_loop.trips) (acc : FVec F S16 .f32) :
    inv2V d L fT fI fG hfI f0 a0 k.val acc ⊢ wp frame (wpE (defs₀ (F := F)) 𝒱₀ thr none) Set.univ (k1_t2_body L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 k acc) (inv2V d L fT fI fG hfI f0 a0 (k.val + 1)) := by
  unfold inv2V
  rw [rowsAt_succ, accAt_succ]
  iintro ⟨%hacc, HT, HI, HG, HR⟩
  subst hacc
  iapply (t2_run_val d L k _ hfI) $$ HT HI HG HR

omit [Named F] in
theorem rowsChain_succ (g : Fin k1_t1_loop.trips) (f0 : S25600.Idx → F .f32) :
    rowsChain (fb d) (ft d) (hpre d) L (g.val + 1) f0
      = rowsAt (tblOf (ft d)) (chunkBytes_bytes F (hpre d) L g) k1_t2_loop.trips (rowsChain (fb d) (ft d) (hpre d) L g.val f0) := by
  show (if h : g.val < k1_t1_loop.trips then rowsAt (tblOf (ft d)) (chunkBytes_bytes F (hpre d) L ⟨g.val, h⟩) k1_t2_loop.trips
      (rowsChain (fb d) (ft d) (hpre d) L g.val f0) else rowsChain (fb d) (ft d) (hpre d) L g.val f0) = _
  rw [dif_pos g.isLt]

omit [Named F] in
theorem accChain_succ (g : Fin k1_t1_loop.trips) :
    accChain (fb d) (fg d) (ft d) (hpre d) L (g.val + 1)
      = accAt (tblOf (ft d)) (chunkTgts (fg d) L g) (chunkBytes_bytes F (hpre d) L g) k1_t2_loop.trips (accChain (fb d) (fg d) (ft d) (hpre d) L g.val) := by
  show (if h : g.val < k1_t1_loop.trips then accAt (tblOf (ft d)) (chunkTgts (fg d) L ⟨g.val, h⟩) (chunkBytes_bytes F (hpre d) L ⟨g.val, h⟩) k1_t2_loop.trips
      (accChain (fb d) (fg d) (ft d) (hpre d) L g.val) else accChain (fb d) (fg d) (ft d) (hpre d) L g.val) = _
  rw [dif_pos g.isLt]

/-- Chunk g of the code path before chunk n of the worker: written if g is before n, else at some contents. -/
def outPiece (n : Nat) (g : Fin k1_t1_loop.trips) : sProp 𝕄 :=
  if g.val < n then (oLoc d ↦[(oChunk L g).view.set]{fullShare} (codeFlat (fb d) (ft d) : Buf (Elt F) (oLoc d)))
  else iprop(∃ f, oLoc d ↦[(oChunk L g).view.set]{fullShare} f)

omit [Named F] in
theorem outPiece_self (g : Fin k1_t1_loop.trips) :
    (outPiece fb ft d L g.val g : sProp 𝕄) = iprop(∃ f, oLoc d ↦[(oChunk L g).view.set]{fullShare} f) := if_neg (Nat.lt_irrefl _)
omit [Named F] in
theorem outPiece_done (g : Fin k1_t1_loop.trips) :
    (outPiece fb ft d L (g.val + 1) g : sProp 𝕄) = (oLoc d ↦[(oChunk L g).view.set]{fullShare} (codeFlat (fb d) (ft d) : Buf (Elt F) (oLoc d))) :=
  if_pos (Nat.lt_succ_self _)
omit [Named F] in
theorem outPiece_other (g g' : Fin k1_t1_loop.trips) (h : g' ≠ g) :
    (outPiece fb ft d L (g.val + 1) g' : sProp 𝕄) = outPiece fb ft d L g.val g' := by
  unfold outPiece
  have hne : g'.val ≠ g.val := fun e => h (Fin.ext e)
  by_cases hlt : g'.val < g.val
  · rw [if_pos hlt, if_pos (by omega)]
  · rw [if_neg hlt, if_neg (by omega)]

/-- The outer loop's invariant with values. -/
def inv1V (O : CellTallies nD τ sig (HIx 1)) (W : Waits sig (HIx 1)) (f3 : Buf (Elt F) ((thr).loc cc1_scratch3)) (n : Nat) (acc : FVec F S16 .f32) : sProp 𝕄 :=
  iprop(⌜acc = accChain (fb d) (fg d) (ft d) (hpre d) L n⌝
    ∗ Transfers.MayWaits (thr) (none : HIx 1) O
    ∗ ((bV : Memref sig .scVector .hbm S3276800 .i32).view.loc thr ↦{shareTok fullShare 32 (wid L)} fb d)
    ∗ ((gV : Memref sig .scVector .hbm S13107200 .f32).view.loc thr ↦{shareTok fullShare 32 (wid L)} fg d)
    ∗ ((sT : Memref sig .scVector .vmem S1024 .f32).view.loc thr ↦{fullShare} (tblOf (ft d) : Buf (Elt F) ((thr).loc cc1_scratch0)))
    ∗ (∃ f, (sI : Memref sig .scVector .vmem S6400 .i32).view.loc thr ↦{fullShare} f)
    ∗ (∃ f, (sG : Memref sig .scVector .vmem S25600 .f32).view.loc thr ↦{fullShare} f)
    ∗ ((sR : Memref sig .scVector .vmem S25600 .f32).view.loc thr ↦{fullShare} (rowsChain (fb d) (ft d) (hpre d) L n f3 : Buf (Elt F) ((thr).loc cc1_scratch3)))
    ∗ semVal (cellOf d L cc1_scoped1.sem) 0 ∗ semVal (cellOf d L cc1_scoped2.sem) 0 ∗ semVal (cellOf d L cc1_scoped3.sem) 0
    ∗ (bigSep Finset.univ fun g : Fin k1_t1_loop.trips => outPiece fb ft d L n g)
    ∗ ∃ W', ⌜∀ p ∈ W', p ∈ W ∨ p.2 = none⌝ ∗ owes (thr) O W')

omit [Named F] in
/-- What a fetch lands in a scratch it covers is what it read. -/
theorem land_I (fI X : Buf (Elt F) ((thr).loc cc1_scratch1)) :
    View.write (Elt F) (sI : Memref sig .scVector .vmem S6400 .i32).view fI X Finset.univ = X := View.write_whole_univ _ _ _
omit [Named F] in
theorem land_G (fG X : Buf (Elt F) ((thr).loc cc1_scratch2)) :
    View.write (Elt F) (sG : Memref sig .scVector .vmem S25600 .f32).view fG X Finset.univ = X := View.write_whole_univ _ _ _
omit [Named F] in
theorem land_T (fT X : Buf (Elt F) ((thr).loc cc1_scratch0)) :
    View.write (Elt F) (sT : Memref sig .scVector .vmem S1024 .f32).view fT X Finset.univ = X := View.write_whole_univ _ _ _

omit [Named F] in
/-- The other chunks are as they were. -/
theorem others_keep (g : Fin k1_t1_loop.trips) :
    (bigSep (Finset.univ.erase g) (outPiece fb ft d L g.val) : sProp 𝕄) ⊢ bigSep (Finset.univ.erase g) (outPiece fb ft d L (g.val + 1)) :=
  BI.bigSep_mono fun g' hg' => Entails.of_eq (outPiece_other fb ft d L g g' (Finset.ne_of_mem_erase hg')).symm

/-- One trip of the outer loop, with its values. -/
theorem t1_run_val (hA : ∀ (g : Fin k1_t1_loop.trips) (fo' : Buf (Elt F) (oLoc d)) (f0 : Buf (Elt F) ((thr).loc cc1_scratch3)),
      ((oChunk L g).view.loc thr ↦[(oChunk L g).view.set]{fullShare}
          ((oChunk L g).view.writes (Elt F) fo' [⟨Rect.whole S25600, ReadAs.same.apply (View.read (Elt F) (sR : Memref sig .scVector .vmem S25600 .f32).view
            (rowsAt (tblOf (ft d)) (chunkBytes_bytes F (hpre d) L g) k1_t2_loop.trips f0))⟩]) : sProp 𝕄)
        ⊢ oLoc d ↦[(oChunk L g).view.set]{fullShare} (codeFlat (fb d) (ft d) : Buf (Elt F) (oLoc d)))
    (O : CellTallies nD τ sig (HIx 1)) (W : Waits sig (HIx 1)) (f3 : Buf (Elt F) ((thr).loc cc1_scratch3))
    (g : Fin k1_t1_loop.trips) (acc : FVec F S16 .f32) :
    inv1V fb fg ft hpre d L O W f3 g.val acc
      ⊢ wp frame (wpE (defs₀ (F := F)) 𝒱₀ thr none) Set.univ (k1_t1_body L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4 g acc) (inv1V fb fg ft hpre d L O W f3 (g.val + 1)) := by
  unfold k1_t1_body inv1V
  iintro ⟨%hacc, Hmw, Hb, Hg, HT, ⟨%fI, HI⟩, ⟨%fG, HG⟩, HR, Hs1, Hs2, Hs3, Hout, %W', %hW', HO⟩
  subst hacc
  ihave Hout' := (Entails.of_eq (SparseCore.bigSep_erase' (Finset.mem_univ g))) $$ Hout
  icases Hout' with ⟨Ho, Hout⟩
  ihave Ho := (Entails.of_eq (outPiece_self fb ft d L g)) $$ Ho
  icases Ho with ⟨%fo', Ho⟩
  sl_exec
  sl_unfold_run_names
  ihave HI := (Entails.of_eq (congrArg (fun f => ((sI : Memref sig .scVector .vmem S6400 .i32).view.loc thr ↦{fullShare} f : sProp 𝕄)) (land_I d L _ _))) $$ HI
  ihave HG := (Entails.of_eq (congrArg (fun f => ((sG : Memref sig .scVector .vmem S25600 .f32).view.loc thr ↦{fullShare} f : sProp 𝕄)) (land_G d L _ _))) $$ HG
  ihave HT := (Entails.of_eq (HT_view d L _).symm) $$ HT
  ihave HG := (Entails.of_eq (HG_view d L _).symm) $$ HG
  ihave HR := (Entails.of_eq (HR_view d L _).symm) $$ HR
  sl_for (inv2V d L (tblOf (ft d)) (chunkBytes F (fb d) L g) (chunkTgts (fg d) L g) (chunkBytes_bytes F (hpre d) L g)
    (rowsChain (fb d) (ft d) (hpre d) L g.val f3) (accChain (fb d) (fg d) (ft d) (hpre d) L g.val)) $$ [HT HI HG HR]
  case region =>
    intro k acc'
    exact t2_region_val d L _ _ _ _ _ _ k acc'
  · unfold inv2V
    isplitr; · ipureintro; rfl
    isplitl [HT]; · iexact HT
    isplitl [HI]; · iexact HI
    isplitl [HG]; · iexact HG
    iexact HR
  iintro %acc' HI2
  unfold inv2V
  icases HI2 with ⟨%hacc', HT, HI, HG, HR⟩
  ihave HT := (Entails.of_eq (HT_view d L _)) $$ HT
  ihave HG := (Entails.of_eq (HG_view d L _)) $$ HG
  ihave HR := (Entails.of_eq (HR_view d L _)) $$ HR
  ihave Ho := (Entails.of_eq (pts_oChunk d L g _).symm) $$ Ho
  sl_exec
  sl_step
  sl_unfold_run_names
  ihave Ho := (hA g fo' _) $$ Ho
  isplitr; · ipureintro; rw [accChain_succ fb fg ft hpre d L g]; exact hacc'
  isplitl [Hmw]; · iexact Hmw
  isplitl [Hb]; · iexact Hb
  isplitl [Hg]; · iexact Hg
  isplitl [HT]; · iexact HT
  isplitl [HI]; · iexists _; iexact HI
  isplitl [HG]; · iexists _; iexact HG
  isplitl [HR]; · rw [rowsChain_succ fb ft hpre d L g]; iexact HR
  isplitl [Hs1]; · iexact Hs1
  isplitl [Hs2]; · iexact Hs2
  isplitl [Hs3]; · iexact Hs3
  isplitl [Ho Hout]
  · iapply (Entails.of_eq (SparseCore.bigSep_erase' (Finset.mem_univ g)).symm)
    isplitl [Ho]
    · rw [outPiece_done]; iexact Ho
    · iapply (others_keep fb ft d L g) $$ Hout
  iexists _; isplitr
  swap
  · iexact HO
  · ipureintro; intro p hp
    rcases Finset.mem_insert.mp hp with hp | hp
    · exact .inr (by subst hp; rfl)
    rcases Finset.mem_insert.mp hp with hp | hp
    · exact .inr (by subst hp; rfl)
    rcases Finset.mem_insert.mp hp with hp | hp
    · exact .inr (by subst hp; rfl)
    exact hW' p hp

omit [Named F] in
/-- The sixteen chunks at the contents the call found, before any is written. -/
theorem chunks_start (fo : (d : Dev nD) → Buf (Elt F) (oLoc d)) :
    (bigSep Finset.univ fun g : Fin k1_t1_loop.trips => oLoc d ↦[(oChunk L g).view.set]{fullShare} fo d : sProp 𝕄)
      ⊢ bigSep Finset.univ fun g : Fin k1_t1_loop.trips => outPiece fb ft d L 0 g :=
  BI.bigSep_mono fun g _ => (any_contents (fo d)).trans (Entails.of_eq (if_neg (Nat.not_lt_zero _)).symm)

omit [Named F] in
theorem outPiece_all (g : Fin k1_t1_loop.trips) :
    (outPiece fb ft d L k1_t1_loop.trips g : sProp 𝕄) = (oLoc d ↦[(oChunk L g).view.set]{fullShare} (codeFlat (fb d) (ft d) : Buf (Elt F) (oLoc d))) :=
  if_pos g.isLt

omit [Named F] in
/-- The sixteen chunks after the sixteenth is written. -/
theorem chunks_done :
    (bigSep Finset.univ fun g : Fin k1_t1_loop.trips => outPiece fb ft d L k1_t1_loop.trips g : sProp 𝕄)
      ⊢ bigSep Finset.univ fun g : Fin k1_t1_loop.trips => oLoc d ↦[(oChunk L g).view.set]{fullShare} (codeFlat (fb d) (ft d) : Buf (Elt F) (oLoc d)) :=
  BI.bigSep_mono fun g _ => Entails.of_eq (outPiece_all fb ft d L g)

end ValLoops

end Cert.Proof.KI

end
-- ==== Proof.BodyValOf.lean ====
/-
  The task of one vector subcore with the values it leaves, from the two loops with their values: the table fetched is the
  table, each chunk's write-out leaves the code path on that chunk, and the lane sums stored and written out are the
  worker's row of the partial sums.
-/
import proofs.«204536_g87462714016206_cont_9to1c4b_719_4_alg».proof.Proof.BodyValLoops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

variable {F : FTy → Type} [FloatOps F] [Named F]

local notation "𝕄" => MT nD τ sig (HIx 1) (Elt F) ℕ UU ℕ

section ValFinal

variable (fb : (d : Dev nD) → Buf (Elt F) (bLoc d)) (fg : (d : Dev nD) → Buf (Elt F) (gLoc d)) (ft : (d : Dev nD) → Buf (Elt F) (tLoc d))
variable (hpre : PreOK fb)
variable (d : Dev nD) (L : grid1.Coords)

local notation "thrd" => V d (cV L) (jV L)

/-- The task of the vector subcore at L on device d with the values it leaves: the chunks at the code path, its row at the
    partial sums. -/
theorem tile_body_val_of
    (hA : ∀ (g : Fin k1_t1_loop.trips) (fo' : Buf (Elt F) (oLoc d)) (f0 : Buf (Elt F) ((thrd).loc cc1_scratch3)),
      ((oChunk L g).view.loc thrd ↦[(oChunk L g).view.set]{fullShare}
          ((oChunk L g).view.writes (Elt F) fo' [⟨Rect.whole S25600, ReadAs.same.apply (View.read (Elt F) (sR : Memref sig .scVector .vmem S25600 .f32).view
            (rowsAt (tblOf (ft d)) (chunkBytes_bytes F (hpre d) L g) k1_t2_loop.trips f0))⟩]) : sProp 𝕄)
        ⊢ oLoc d ↦[(oChunk L g).view.set]{fullShare} (codeFlat (fb d) (ft d) : Buf (Elt F) (oLoc d)))
    (hB : ∀ (fp0 : Buf (Elt F) (pLoc d)) (f4 : Buf (Elt F) ((thrd).loc cc1_scratch4)),
      ((pRow L).view.loc thrd ↦[(pRow L).view.set]{fullShare}
          ((pRow L).view.writes (Elt F) fp0 [⟨Rect.whole S16, ReadAs.same.apply (View.read (Elt F) (sA : Memref sig .scVector .vmem S16 .f32).view
            ((sA : Memref sig .scVector .vmem S16 .f32).view.writes (Elt F) f4
              [⟨Rect.unit (s := S16) ![0] S16.size inb_S16_S16_0, accChain (fb d) (fg d) (ft d) (hpre d) L k1_t1_loop.trips⟩]))⟩]) : sProp 𝕄)
        ⊢ pLoc d ↦[(pRow L).view.set]{fullShare} (partials (fb d) (fg d) (ft d) : Buf (Elt F) (pLoc d)))

    (fo : (d : Dev nD) → Buf (Elt F) (oLoc d)) (fp : (d : Dev nD) → Buf (Elt F) (pLoc d))
    (hF : (K (F := F)).Facts) (O : CellTallies nD τ sig (HIx 1)) (W : Waits sig (HIx 1)) (hO : ∀ g, O g none = 0) :
    iprop(levAts (K (F := F)).L (K (F := F)).lev ∗ emp ∗ goL fb fg ft fo fp d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_sc_kernel L bV (Memref.isWhole_whole _) gV (Memref.isWhole_whole _) tV (Memref.isWhole_whole _) oV (Memref.isWhole_whole _) pV (Memref.isWhole_whole _) sT (Memref.isWhole_whole _) sI (Memref.isWhole_whole _) sG (Memref.isWhole_whole _) sR (Memref.isWhole_whole _) sA (Memref.isWhole_whole _) cc1_scoped0 cc1_scoped1 cc1_scoped2 cc1_scoped3 cc1_scoped4)
          fun _ => iprop(goL fb fg ft (fun d => codeFlat (fb d) (ft d)) (fun d => partials (fb d) (fg d) (ft d)) d L
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc1_sc_kernel_eq_skeleton]; unfold cc1_sc_kernel_skel
  rw [(K (F := F)).scopedBufs_V hF d (cV L) (jV L), SparseCore.Cfg.scopedSems0_V (Val := Elt F) d (cV L) (jV L), ownSems0_V5, ownBufs_V5]
  unfold goL inToks
  iintro ⟨#Hlv, -, ⟨⟨Hb, Hg, Ht⟩, Hout, Hp⟩, ⟨⟨%f0, HT⟩, ⟨%f1, HI⟩, ⟨%f2, HG⟩, ⟨%f3, HR⟩, ⟨%f4, HA⟩, Hbufs⟩, ⟨Hs0, Hs1, Hs2, Hs3, Hs4, Hsems⟩, HO⟩
  ihave Hmw := ((K (F := F)).mayWaits_none (thr := V d (cV L) (jV L)) hO) $$ Hlv
  ihave Hb := (Entails.of_eq (pts_b d L _ _).symm) $$ Hb
  ihave Hg := (Entails.of_eq (pts_g d L _ _).symm) $$ Hg
  ihave Ht := (Entails.of_eq (pts_t d L _ _).symm) $$ Ht
  ihave Hp := (Entails.of_eq (pts_pRow d L _).symm) $$ Hp
  ihave HT := (Entails.of_eq (pts_s0 d L _).symm) $$ HT
  ihave HI := (Entails.of_eq (pts_s1 d L _).symm) $$ HI
  ihave HG := (Entails.of_eq (pts_s2 d L _).symm) $$ HG
  ihave HR := (Entails.of_eq (pts_s3 d L _).symm) $$ HR
  ihave HA := (Entails.of_eq (pts_s4 d L _).symm) $$ HA
  ihave Hout := (chunks_start fb ft d L fo) $$ Hout
  sl_exec
  sl_unfold_run_names
  ihave HT := (Entails.of_eq (congrArg (fun f => ((sT : Memref sig .scVector .vmem S1024 .f32).view.loc (V d (cV L) (jV L)) ↦{fullShare} f : sProp 𝕄)) (land_T d L _ _))) $$ HT
  sl_for (inv1V fb fg ft hpre d L O W f3) $$ [Hmw Hb Hg HT HI HG HR Hs1 Hs2 Hs3 Hout HO]
  case region =>
    intro g acc
    exact t1_run_val fb fg ft hpre d L hA O W f3 g acc
  · unfold inv1V
    isplitr; · ipureintro; rfl
    isplitl [Hmw]; · iexact Hmw
    isplitl [Hb]; · iexact Hb
    isplitl [Hg]; · iexact Hg
    isplitl [HT]; · iexact HT
    isplitl [HI]; · iexists _; iexact HI
    isplitl [HG]; · iexists _; iexact HG
    isplitl [HR]; · iexact HR
    isplitl [Hs1]; · iexact Hs1
    isplitl [Hs2]; · iexact Hs2
    isplitl [Hs3]; · iexact Hs3
    isplitl [Hout]; · iexact Hout
    iexists _; isplitr
    swap
    · iexact HO
    · ipureintro; intro p hp
      rcases Finset.mem_insert.mp hp with hp | hp
      · exact .inr (by subst hp; rfl)
      · exact .inl hp
  iintro %acc HI1
  unfold inv1V
  icases HI1 with ⟨%hacc, -, Hb, Hg, HT, ⟨%f1', HI⟩, ⟨%f2', HG⟩, HR, Hs1, Hs2, Hs3, Hout, %W', %hW', HO⟩
  sl_exec
  sl_step
  sl_unfold_run_names
  subst hacc
  ihave Hp := (hB (fp d) f4) $$ Hp
  ihave Hout := (chunks_done fb ft d L) $$ Hout
  ihave Hb := (Entails.of_eq (pts_b d L _ _)) $$ Hb
  ihave Hg := (Entails.of_eq (pts_g d L _ _)) $$ Hg
  ihave Ht := (Entails.of_eq (pts_t d L _ _)) $$ Ht
  ihave HT := (Entails.of_eq (pts_s0 d L _)) $$ HT
  ihave HI := (Entails.of_eq (pts_s1 d L _)) $$ HI
  ihave HG := (Entails.of_eq (pts_s2 d L _)) $$ HG
  ihave HR := (Entails.of_eq (pts_s3 d L _)) $$ HR
  ihave HA := (Entails.of_eq (pts_s4 d L _)) $$ HA
  isplitl [Hb Hg Ht Hout Hp]
  · isplitl [Hb Hg Ht]
    · isplitl [Hb]; · iexact Hb
      isplitl [Hg]; · iexact Hg
      iexact Ht
    isplitl [Hout]; · iexact Hout
    iexact Hp
  isplitl [HT HI HG HR HA Hbufs]
  · isplitl [HT]; · iexists _; iexact HT
    isplitl [HI]; · iexists _; iexact HI
    isplitl [HG]; · iexists _; iexact HG
    isplitl [HR]; · iexists _; iexact HR
    isplitl [HA]; · iexists _; iexact HA
    iexact Hbufs
  isplitl [Hs0 Hs1 Hs2 Hs3 Hs4 Hsems]
  · isplitl [Hs0]; · iexact Hs0
    isplitl [Hs1]; · iexact Hs1
    isplitl [Hs2]; · iexact Hs2
    isplitl [Hs3]; · iexact Hs3
    isplitl [Hs4]; · iexact Hs4
    iexact Hsems
  iexists _; isplitr
  swap
  · iexact HO
  · ipureintro; intro p hp
    rcases Finset.mem_insert.mp hp with hp | hp
    · exact .inr (by subst hp; rfl)
    exact hW' p hp

end ValFinal

end Cert.Proof.KI

end
-- ==== Proof.BodyValRows.lean ====
/-
  A chunk's rows in closed form. An indexed store into the row scratch overwrites the sixteen words its lanes name and
  leaves every other word alone; the lanes of one digit's store name sixteen different words, `4 lane + digit` past the
  start of the group's 64 words. So a digit's store fills a quarter of its group's words, a group's four stores fill its
  64 words, a trip's four groups fill the trip's 256 words — each word exactly once, with the table word the byte of its
  lane names for its digit — and no later trip touches them. After the hundred trips word `4 n + k` holds the table word
  of the chunk's byte `n` and digit `k`, whatever the scratch held before; read at the chunk's place in the byte stream
  this is the code path at the chunk's words.
-/
import proofs.«204536_g87462714016206_cont_9to1c4b_719_4_alg».proof.Proof.BodyValDefs

noncomputable section

namespace Cert.Proof.KI

open Cert.KernelIdeal Cert.KernelIdeal.Gen
open Idealize.ShloMosaic
open Idealize.ShloMosaic.ValueIdx

variable {F : FTy → Type} [FloatOps F]

/-! The lemmas on the way live in a namespace of their own, so that their short names meet no other module's; the two
    results at the end are stated in the enclosing namespace. -/

namespace Rows

/-! ## Words named by a number -/

/-- The table word numbered `m`, read modulo the table's length so that it is total. -/
def twd (fT : S1024.Idx → F .f32) (m : Nat) : F .f32 := fT (ix1 ⟨m % 1024, Nat.mod_lt _ (by decide)⟩)

/-- The byte numbered `m` of a chunk's byte scratch, read modulo its length so that it is total. -/
def byt (fI : S6400.Idx → BitVec 32) (m : Nat) : BitVec 32 := fI (ix1 ⟨m % 6400, Nat.mod_lt _ (by decide)⟩)

theorem twd_of_lt (fT : S1024.Idx → F .f32) {m : Nat} (h : m < 1024) : twd fT m = fT (ix1 ⟨m, h⟩) :=
  congrArg fT (congrArg ix1 (Fin.ext (Nat.mod_eq_of_lt h)))

theorem byt_of_lt (fI : S6400.Idx → BitVec 32) {m : Nat} (h : m < 6400) : byt fI m = fI (ix1 ⟨m, h⟩) :=
  congrArg fI (congrArg ix1 (Fin.ext (Nat.mod_eq_of_lt h)))

theorem trips2_eq : k1_t2_loop.trips = 100 := by decide

/-! ## An indexed load and an indexed store read at a word -/

/-- An indexed load of the table scratch reads, at lane `x`, the table word the lane's index names. -/
theorem gathT_apply (fT : S1024.Idx → F .f32) (idx : IVec S16 32) (h : TblOK idx) (x : S16.Idx) :
    gathT fT idx h x = twd fT (idx x).toNat := by
  unfold gathT
  have e : ((sT : Memref sig .scVector .vmem S1024 .f32).access (.whole S1024)).read (Elt F) fT = fT :=
    Memref.read_access_whole (Elt F) cc1_scratch0 fT
  refine (congrFun e (idxAt ![idx] h x)).trans ?_
  refine congrArg fT (funext fun a => ?_)
  match a with
  | ⟨0, _⟩ => exact Fin.ext (Nat.mod_eq_of_lt (h 0 x)).symm

/-- The sixteen bytes a load of the byte scratch at offset `off` reads: lane `x` is byte `off + x`. -/
theorem bytes_at (fI : S6400.Idx → BitVec 32) (off : Fin 1 → Nat) (inb : ∀ a, off a + S16.size a ≤ S6400.size a) (x : S16.Idx) :
    (sI : Memref sig .scVector .vmem S6400 .i32).view.readAt (Elt F) (Rect.unit (s := S6400) off S16.size inb).toLoadRect fI x
      = byt fI (off 0 + (x 0).val) := by
  simp only [View.readAt_apply, Memref.view_whole, View.read_whole]
  refine congrArg fI (funext fun a => ?_)
  match a with
  | ⟨0, _⟩ =>
    refine Fin.ext ?_
    have hx : (x 0).val < 16 := (x 0).isLt
    have hb : off 0 + 16 ≤ 6400 := inb 0
    show off 0 + 1 * (x 0).val = (off 0 + (x 0).val) % 6400
    rw [Nat.one_mul, Nat.mod_eq_of_lt (by omega)]

section Store

variable (idx : IVec S16 32) (v : Vec F S16 .f32) (h : RowOK idx)

/-- A lane of the sixteen is the lane its coordinate numbers. -/
theorem ofLane_coord (x : S16.Idx) : Shape.ofLane (d := ![16]) (x 0) = x := by
  funext a
  obtain rfl : a = 0 := Subsingleton.elim _ _
  rfl

/-- One lane's step of an unmasked indexed store: the word the lane's index names takes the lane's value. -/
def stp (g : S25600.Idx → F .f32) (k : Fin 16) : S25600.Idx → F .f32 :=
  fun y => if (y 0).val = (idx (Shape.ofLane (d := ![16]) k)).toNat then v (Shape.ofLane (d := ![16]) k) else g y

/-- An unmasked indexed store into the row scratch is its sixteen steps, lane 0 first. -/
theorem scat_eq (old : S25600.Idx → F .f32) : scat idx v h old = (List.finRange 16).foldl (stp idx v) old := by
  unfold scat
  have er : ((sR : Memref sig .scVector .vmem S25600 .f32).access (.whole S25600)).read (Elt F) old = old :=
    Memref.read_access_whole (Elt F) cc1_scratch3 old
  refine (Memref.write_access_whole_univ (Elt F) cc1_scratch3 old _).trans ?_
  refine (congrArg (fun f : S25600.Idx → F .f32 => storeIdx (s := S25600) (e := .f32) (d := ![16]) f ![idx] v (fun _ => 1#1) false h) er).trans ?_
  unfold storeIdx
  refine congrArg (fun st => List.foldl st old (List.finRange 16)) ?_
  funext g k
  simp only [if_true, Bool.false_eq_true, if_false]
  funext y
  exact if_congr (by
    constructor
    · intro hy; exact hy 0
    · intro hy a; obtain rfl : a = 0 := Subsingleton.elim _ _; exact hy) rfl rfl

theorem foldl_stp_miss (l : List (Fin 16)) (g : S25600.Idx → F .f32) (y : S25600.Idx)
    (hm : ∀ k ∈ l, (y 0).val ≠ (idx (Shape.ofLane (d := ![16]) k)).toNat) : l.foldl (stp idx v) g y = g y := by
  induction l generalizing g with
  | nil => rfl
  | cons k l ih =>
    rw [List.foldl_cons, ih _ (fun k' hk' => hm k' (List.mem_cons_of_mem _ hk'))]
    exact if_neg (hm k (List.mem_cons_self ..))

theorem foldl_stp_hit (l : List (Fin 16)) (hl : l.Nodup) (g : S25600.Idx → F .f32) (y : S25600.Idx) (k0 : Fin 16) (hk0 : k0 ∈ l)
    (hy : (y 0).val = (idx (Shape.ofLane (d := ![16]) k0)).toNat)
    (hinj : ∀ k : Fin 16, k ≠ k0 → (idx (Shape.ofLane (d := ![16]) k)).toNat ≠ (idx (Shape.ofLane (d := ![16]) k0)).toNat) :
    l.foldl (stp idx v) g y = v (Shape.ofLane (d := ![16]) k0) := by
  induction l generalizing g with
  | nil => cases hk0
  | cons k l ih =>
    rw [List.foldl_cons]
    rcases List.mem_cons.mp hk0 with rfl | hk0'
    · rw [foldl_stp_miss idx v l _ y (fun k' hk' => by
        have hne : k' ≠ k0 := fun e => (List.nodup_cons.mp hl).1 (e ▸ hk')
        rw [hy]; exact (hinj k' hne).symm)]
      exact if_pos hy
    · exact ih (List.nodup_cons.mp hl).2 _ hk0'

/-- A word no lane names keeps what it held. -/
theorem scat_miss (old : S25600.Idx → F .f32) (y : S25600.Idx) (hm : ∀ x : S16.Idx, (idx x).toNat ≠ (y 0).val) :
    scat idx v h old y = old y := by
  rw [scat_eq]
  exact foldl_stp_miss idx v _ old y fun k _ => (hm _).symm

/-- A word one lane names, the lanes' indices being distinct, takes that lane's value. -/
theorem scat_hit (old : S25600.Idx → F .f32) (y : S25600.Idx) (x : S16.Idx) (hx : (idx x).toNat = (y 0).val)
    (hinj : ∀ x' : S16.Idx, (idx x').toNat = (idx x).toNat → x' = x) : scat idx v h old y = v x := by
  rw [scat_eq, ← ofLane_coord x]
  refine foldl_stp_hit idx v _ (List.nodup_finRange 16) old y (x 0) (List.mem_finRange _) ?_ ?_
  · rw [ofLane_coord]; exact hx.symm
  · intro k hk e
    rw [ofLane_coord] at e
    have := hinj _ e
    exact hk (by rw [← this]; rfl)

end Store

/-! ## The indices of one digit's store and load -/

theorem rowIdx_toNat {kk j : BitVec 32} (hkk : kk.toNat < 4) (hj : j.toNat < 4) {t : Nat} (ht : t < 100) (x : S16.Idx) :
    (rowIdx kk j t x).toNat = 4 * (x 0).val + kk.toNat + 256 * t + 64 * j.toNat := by
  have hx : (x 0).val < 16 := (x 0).isLt
  rw [rowIdx_apply]
  simp only [BitVec.toNat_add, BitVec.toNat_mul, BitVec.toNat_ofNat]
  omega

theorem tIdx_toNat {b : IVec S16 32} (hb : Bytes b) {kk : BitVec 32} (hkk : kk.toNat < 4) (x : S16.Idx) :
    (tIdx b kk x).toNat = 4 * (b x).toNat + kk.toNat := by
  show (b x * 4#32 + kk).toNat = _
  have h := hb x
  rw [BitVec.toNat_add, BitVec.toNat_mul]
  simp only [BitVec.toNat_ofNat]
  omega

theorem rowIdx_toNat_lane {kk j : BitVec 32} (hkk : kk.toNat < 4) (hj : j.toNat < 4) {t : Nat} (ht : t < 100) (lane : Fin 16) :
    (rowIdx kk j t (ix1 lane)).toNat = 4 * lane.val + kk.toNat + 256 * t + 64 * j.toNat :=
  rowIdx_toNat hkk hj ht (ix1 lane)

theorem bytes_at_lane (fI : S6400.Idx → BitVec 32) (off : Fin 1 → Nat) (inb : ∀ a, off a + S16.size a ≤ S6400.size a) (lane : Fin 16) :
    (sI : Memref sig .scVector .vmem S6400 .i32).view.readAt (Elt F) (Rect.unit (s := S6400) off S16.size inb).toLoadRect fI (ix1 lane)
      = byt fI (off 0 + lane.val) :=
  bytes_at (F := F) fI off inb (ix1 lane)

/-! ## One digit, one group, one trip, read at a word -/

section Trip

variable (fT : S1024.Idx → F .f32)

/-- One digit's store: of the 64 words of group `j` of trip `k`, those whose number is `kk` modulo 4 take the table word
    of digit `kk` of the byte their lane holds; every other word keeps what it held. -/
theorem digitRows_apply {b : IVec S16 32} (hb : Bytes b) {kk j : BitVec 32} (hkk : kk.toNat < 4) (hj : j.toNat < 4)
    (k : Fin k1_t2_loop.trips) (old : S25600.Idx → F .f32) (y : S25600.Idx) :
    digitRows fT hb hkk hj k old y
      = if (y 0).val / 64 = 4 * k.val + j.toNat ∧ (y 0).val % 4 = kk.toNat
        then twd fT (4 * (b (ix1 ⟨(y 0).val % 64 / 4, by omega⟩)).toNat + kk.toNat) else old y := by
  unfold digitRows
  have hk := trip2_lt k
  have hy : (y 0).val < 25600 := (y 0).isLt
  by_cases hc : (y 0).val / 64 = 4 * k.val + j.toNat ∧ (y 0).val % 4 = kk.toNat
  · rw [if_pos hc]
    rw [scat_hit _ _ _ old y (ix1 ⟨(y 0).val % 64 / 4, by omega⟩) ?_ ?_, gathT_apply, tIdx_toNat hb hkk]
    · rw [rowIdx_toNat_lane hkk hj hk]
      show 4 * ((y 0).val % 64 / 4) + kk.toNat + 256 * k.val + 64 * j.toNat = (y 0).val
      omega
    · intro x' e
      rw [rowIdx_toNat hkk hj hk, rowIdx_toNat_lane hkk hj hk] at e
      have hx' : (x' 0).val = (y 0).val % 64 / 4 := by
        have e' : 4 * (x' 0).val + kk.toNat + 256 * k.val + 64 * j.toNat
            = 4 * ((y 0).val % 64 / 4) + kk.toNat + 256 * k.val + 64 * j.toNat := e
        omega
      funext a
      obtain rfl : a = 0 := Subsingleton.elim _ _
      exact Fin.ext hx'
  · rw [if_neg hc]
    refine scat_miss _ _ _ old y fun x => ?_
    rw [rowIdx_toNat hkk hj hk]
    have hx : (x 0).val < 16 := (x 0).isLt
    omega

theorem toNat_0 : (0#32 : BitVec 32).toNat = 0 := rfl
theorem toNat_1 : (1#32 : BitVec 32).toNat = 1 := rfl
theorem toNat_2 : (2#32 : BitVec 32).toNat = 2 := rfl
theorem toNat_3 : (3#32 : BitVec 32).toNat = 3 := rfl

/-- One group's four stores: each of the 64 words of group `j` of trip `k` takes the table word its number names — digit
    its number modulo 4 of the byte of its lane; every other word keeps what it held. -/
theorem groupRows_apply {b : IVec S16 32} (hb : Bytes b) {j : BitVec 32} (hj : j.toNat < 4)
    (k : Fin k1_t2_loop.trips) (old : S25600.Idx → F .f32) (y : S25600.Idx) :
    groupRows fT hb hj k old y
      = if (y 0).val / 64 = 4 * k.val + j.toNat
        then twd fT (4 * (b (ix1 ⟨(y 0).val % 64 / 4, by omega⟩)).toNat + (y 0).val % 4) else old y := by
  unfold groupRows
  simp only [digitRows_apply, toNat_0, toNat_1, toNat_2, toNat_3]
  by_cases hq : (y 0).val / 64 = 4 * k.val + j.toNat
  · rw [if_pos hq]
    have h4 : (y 0).val % 4 = 0 ∨ (y 0).val % 4 = 1 ∨ (y 0).val % 4 = 2 ∨ (y 0).val % 4 = 3 := by omega
    rcases h4 with h4 | h4 | h4 | h4 <;> simp [hq, h4]
  · rw [if_neg hq]
    simp [hq]

variable {fI : S6400.Idx → BitVec 32}

/-- Four groups' stores, the groups' bytes being bytes `64 k + 16 j + lane` of the byte scratch: each of the 256 words of
    trip `k` takes the table word its number names; every other word keeps what it held. -/
theorem trip_core {b0 b1 b2 b3 : IVec S16 32} (hb0 : Bytes b0) (hb1 : Bytes b1) (hb2 : Bytes b2) (hb3 : Bytes b3)
    (h0 : (0#32 : BitVec 32).toNat < 4) (h1 : (1#32 : BitVec 32).toNat < 4) (h2 : (2#32 : BitVec 32).toNat < 4)
    (h3 : (3#32 : BitVec 32).toNat < 4) (k : Fin k1_t2_loop.trips)
    (e0 : ∀ lane : Fin 16, b0 (ix1 lane) = byt fI (64 * k.val + lane.val))
    (e1 : ∀ lane : Fin 16, b1 (ix1 lane) = byt fI (64 * k.val + 16 + lane.val))
    (e2 : ∀ lane : Fin 16, b2 (ix1 lane) = byt fI (64 * k.val + 32 + lane.val))
    (e3 : ∀ lane : Fin 16, b3 (ix1 lane) = byt fI (64 * k.val + 48 + lane.val))
    (old : S25600.Idx → F .f32) (y : S25600.Idx) :
    groupRows fT hb3 h3 k (groupRows fT hb2 h2 k (groupRows fT hb1 h1 k (groupRows fT hb0 h0 k old))) y
      = if (y 0).val / 256 = k.val then twd fT (4 * (byt fI ((y 0).val / 4)).toNat + (y 0).val % 4) else old y := by
  simp only [groupRows_apply, e0, e1, e2, e3, toNat_0, toNat_1, toNat_2, toNat_3]
  have hy : (y 0).val < 25600 := (y 0).isLt
  by_cases ht : (y 0).val / 256 = k.val
  · rw [if_pos ht]
    split_ifs with c3 c2 c1 c0
    · exact congrArg (fun m => twd fT (4 * (byt fI m).toNat + (y 0).val % 4))
        (show 64 * k.val + 48 + (y 0).val % 64 / 4 = (y 0).val / 4 by omega)
    · exact congrArg (fun m => twd fT (4 * (byt fI m).toNat + (y 0).val % 4))
        (show 64 * k.val + 32 + (y 0).val % 64 / 4 = (y 0).val / 4 by omega)
    · exact congrArg (fun m => twd fT (4 * (byt fI m).toNat + (y 0).val % 4))
        (show 64 * k.val + 16 + (y 0).val % 64 / 4 = (y 0).val / 4 by omega)
    · exact congrArg (fun m => twd fT (4 * (byt fI m).toNat + (y 0).val % 4))
        (show 64 * k.val + (y 0).val % 64 / 4 = (y 0).val / 4 by omega)
    · exfalso; omega
  · rw [if_neg ht]
    split_ifs with c3 c2 c1 c0
    · exfalso; omega
    · exfalso; omega
    · exfalso; omega
    · exfalso; omega
    · rfl

variable (hfI : ∀ j, (fI j).toNat < 256)

/-- One trip's sixteen stores: each of the 256 words of trip `k` takes the table word its number names — digit its number
    modulo 4 of byte its number divided by 4; every other word keeps what it held. -/
theorem tripRows_apply (k : Fin k1_t2_loop.trips) (old : S25600.Idx → F .f32) (y : S25600.Idx) :
    tripRows fT hfI k old y
      = if (y 0).val / 256 = k.val then twd fT (4 * (byt fI ((y 0).val / 4)).toNat + (y 0).val % 4) else old y := by
  unfold tripRows
  exact trip_core fT _ _ _ _ _ _ _ _ k
    (fun lane => (bytes_at_lane (F := F) fI (k1_off3 k) (k1_off3_inb k) lane).trans (by rw [k1_off3_eq]; rfl))
    (fun lane => (bytes_at_lane (F := F) fI (k1_off4 k) (k1_off4_inb k) lane).trans (by rw [k1_off4_eq]; rfl))
    (fun lane => (bytes_at_lane (F := F) fI (k1_off5 k) (k1_off5_inb k) lane).trans (by rw [k1_off5_eq]; rfl))
    (fun lane => (bytes_at_lane (F := F) fI (k1_off6 k) (k1_off6_inb k) lane).trans (by rw [k1_off6_eq]; rfl))
    old y

/-- Before trip `i` of a chunk the words of the trips before it are done: word `p` below `256 i` holds the table word it
    names, whatever the row scratch held at the chunk's start. -/
theorem rowsAt_done (i : Nat) (hi : i ≤ k1_t2_loop.trips) (f0 : S25600.Idx → F .f32) (y : S25600.Idx) (hy : (y 0).val < 256 * i) :
    rowsAt fT hfI i f0 y = twd fT (4 * (byt fI ((y 0).val / 4)).toNat + (y 0).val % 4) := by
  induction i with
  | zero => omega
  | succ i ih =>
    have hlt : i < k1_t2_loop.trips := hi
    rw [show i + 1 = (⟨i, hlt⟩ : Fin k1_t2_loop.trips).val + 1 from rfl, rowsAt_succ, tripRows_apply]
    by_cases ht : (y 0).val / 256 = i
    · rw [if_pos ht]
    · rw [if_neg ht]
      exact ih (Nat.le_of_lt hlt) (by omega)

end Trip

/-- Byte `n` of chunk `g` of the subcore at `L` is byte `k1_off1 L g 0 + n` of the byte stream. -/
theorem chunkBytes_at (fb : S3276800.Idx → BitVec 32) (L : grid1.Coords) (g : Fin k1_t1_loop.trips) (n : Fin 6400) :
    chunkBytes F fb L g (ix1 n) = fb (ix1 ⟨k1_off1 L g 0 + n.val, by
      have h : k1_off1 L g 0 + 6400 ≤ 3276800 := k1_off1_inb L g 0
      omega⟩) := by
  unfold chunkBytes
  rw [View.read_apply, cast_eq]
  refine congrArg fb (funext fun a => ?_)
  match a with
  | ⟨0, _⟩ =>
    refine Fin.ext ?_
    show k1_off1 L g 0 + 1 * n.val = k1_off1 L g 0 + n.val
    rw [Nat.one_mul]

end Rows

open Rows

/-! ## The two bridges -/

/-- After the hundred trips of a chunk, word `4 n + k` of the row scratch is the table word the chunk's byte `n` names for
    digit `k` — whatever the scratch held at the chunk's start. -/
theorem rows_closed (fT : S1024.Idx → F .f32) {fI : S6400.Idx → BitVec 32} (hfI : ∀ j, (fI j).toNat < 256) (f0 : S25600.Idx → F .f32)
    (n : Fin 6400) (k : Fin 4) :
    rowsAt fT hfI k1_t2_loop.trips f0 (ix1 ⟨4 * n.val + k.val, by omega⟩)
      = fT (ix1 ⟨4 * (fI (ix1 n)).toNat + k.val, by have := hfI (ix1 n); omega⟩) := by
  have hb := hfI (ix1 n)
  rw [rowsAt_done fT hfI _ (Nat.le_refl _) f0 _ (by rw [trips2_eq]; show 4 * n.val + k.val < 256 * 100; omega)]
  show twd fT (4 * (byt fI ((4 * n.val + k.val) / 4)).toNat + (4 * n.val + k.val) % 4) = _
  have h1 : (4 * n.val + k.val) / 4 = n.val := by omega
  have h2 : (4 * n.val + k.val) % 4 = k.val := by omega
  have h3 : byt fI n.val = fI (ix1 n) := byt_of_lt fI n.isLt
  rw [h1, h2, h3]
  exact twd_of_lt fT (by omega)

/-- The row scratch after chunk `g` of the subcore at `L`, at word `y`, is the code path at word `k1_off2 L g 0 + y`: the
    chunk's byte `y / 4` is byte `k1_off1 L g 0 + y / 4` of the stream, and the chunk's word offset is four times its
    byte offset. -/
theorem chunk_closed (fb : S3276800.Idx → BitVec 32) (ft : S1024.Idx → F .f32) (hpre : ∀ j, (fb j).toNat < 256) (L : grid1.Coords)
    (g : Fin k1_t1_loop.trips) (f0 : S25600.Idx → F .f32) (y : S25600.Idx) :
    rowsAt (tblOf ft) (chunkBytes_bytes F hpre L g) k1_t2_loop.trips f0 y
      = codeFlat fb ft (ix1 ⟨k1_off2 L g 0 + (y 0).val, by
          have h := k1_off2_inb L g 0
          have hy : (y 0).val < 25600 := (y 0).isLt
          have hs : S25600.size 0 = 25600 := rfl
          have ht : S13107200.size 0 = 13107200 := rfl
          omega⟩) := by
  obtain ⟨p, rfl⟩ : ∃ p : Fin 25600, y = ix1 p := ⟨y 0, eq_ix1 y⟩
  have hp : p.val < 25600 := p.isLt
  have h1 : k1_off1 L g 0 = 204800 * (L 1).val + 102400 * (L 0).val + 6400 * g.val := by rw [k1_off1_eq]; rfl
  have h2 : k1_off2 L g 0 = 819200 * (L 1).val + 409600 * (L 0).val + 25600 * g.val := by rw [k1_off2_eq]; rfl
  have hb1 : k1_off1 L g 0 + 6400 ≤ 3276800 := k1_off1_inb L g 0
  have e : (ix1 p : S25600.Idx) = ix1 (⟨4 * (⟨p.val / 4, by omega⟩ : Fin 6400).val + (⟨p.val % 4, Nat.mod_lt _ (by decide)⟩ : Fin 4).val, by
      show 4 * (p.val / 4) + p.val % 4 < 25600; omega⟩ : Fin 25600) :=
    congrArg ix1 (Fin.ext (by show p.val = 4 * (p.val / 4) + p.val % 4; omega))
  have hcb := chunkBytes_at (F := F) fb L g ⟨p.val / 4, by omega⟩
  have hbyte := hpre (ix1 ⟨k1_off1 L g 0 + p.val / 4, by omega⟩)
  have hlt : 4 * (fb (ix1 (⟨k1_off1 L g 0 + p.val / 4, by omega⟩ : Fin 3276800))).toNat + p.val % 4 < 1024 := by omega
  have hc := codeFlat_apply fb ft hpre ⟨k1_off1 L g 0 + p.val / 4, by omega⟩ ⟨p.val % 4, Nat.mod_lt _ (by decide)⟩ hlt
  refine ((congrArg (rowsAt (tblOf ft) (chunkBytes_bytes F hpre L g) k1_t2_loop.trips f0) e).trans
    (rows_closed (tblOf ft) (chunkBytes_bytes F hpre L g) f0 ⟨p.val / 4, by omega⟩ ⟨p.val % 4, Nat.mod_lt _ (by decide)⟩)).trans ?_
  refine Eq.trans ?_ ((congrArg (codeFlat fb ft) (congrArg ix1 (Fin.ext ?_))).trans hc).symm
  · show ft (ix1 ⟨4 * (chunkBytes F fb L g (ix1 ⟨p.val / 4, _⟩)).toNat + p.val % 4, _⟩) = _
    refine congrArg ft (congrArg ix1 (Fin.ext ?_))
    show 4 * (chunkBytes F fb L g (ix1 ⟨p.val / 4, _⟩)).toNat + p.val % 4 = 4 * (fb (ix1 ⟨k1_off1 L g 0 + p.val / 4, _⟩)).toNat + p.val % 4
    rw [hcb]
  · show k1_off2 L g 0 + p.val = 4 * (k1_off1 L g 0 + p.val / 4) + p.val % 4
    omega

end Cert.Proof.KI

end
-- ==== Proof.BodyValOut.lean ====
/- What a chunk's write-out leaves on its chunk of the code path: on the elements of the chunk's slice the contents
   after the row scratch has been written through the slice are the code path, because the row scratch after the
   chunk's hundred trips holds, at each word, the code path's word at the chunk's offset plus that word. -/
import proofs.«204536_g87462714016206_cont_9to1c4b_719_4_alg».proof.Proof.BodyValLoops
import proofs.«204536_g87462714016206_cont_9to1c4b_719_4_alg».proof.Proof.BodyValRows

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F] [Named F]

local notation "𝕄" => MT nD τ sig (HIx 1) (Elt F) ℕ UU ℕ

/-- Two indices of a rank-one shape with the same coordinate are one index. -/
theorem idx1_ext' {dd : Fin 1 → Nat} (x y : (⟨1, dd⟩ : Shape).Idx) (h : (x 0).val = (y 0).val) : x = y := by
  funext a
  obtain rfl : a = 0 := Subsingleton.elim _ _
  exact Fin.ext h

attribute [local irreducible] rowsAt in
/-- On the chunk's slice, the contents after the write-out of the row scratch are the code path. -/
theorem out_piece (fb : (d : Dev nD) → Buf (Elt F) (bLoc d)) (ft : (d : Dev nD) → Buf (Elt F) (tLoc d)) (hpre : PreOK fb)
    (d : Dev nD) (L : grid1.Coords) (g : Fin k1_t1_loop.trips) (fo' : Buf (Elt F) (oLoc d))
    (f0 : Buf (Elt F) ((V d (cV L) (jV L)).loc cc1_scratch3)) :
    ((oChunk L g).view.loc (V d (cV L) (jV L)) ↦[(oChunk L g).view.set]{fullShare}
        ((oChunk L g).view.writes (Elt F) fo' [⟨Rect.whole S25600, ReadAs.same.apply (View.read (Elt F) (sR : Memref sig .scVector .vmem S25600 .f32).view
          (rowsAt (tblOf (ft d)) (chunkBytes_bytes F (hpre d) L g) k1_t2_loop.trips f0))⟩]) : sProp 𝕄)
      ⊢ oLoc d ↦[(oChunk L g).view.set]{fullShare} (codeFlat (fb d) (ft d) : Buf (Elt F) (oLoc d)) := by
  refine Entails.of_eq ((pts_oChunk d L g _).trans (pointsTo_congr fun i hi => ?_))
  obtain ⟨y, -, rfl⟩ := Finset.mem_map.mp hi
  have hw := View.read_writes_cons_emb (oChunk L g).view fo' (Rect.whole S25600)
    (ReadAs.same.apply (View.read (Elt F) (sR : Memref sig .scVector .vmem S25600 .f32).view
      (rowsAt (tblOf (ft d)) (chunkBytes_bytes F (hpre d) L g) k1_t2_loop.trips f0))) [] y
  rw [Rect.emb_whole_apply, View.read_apply, cast_eq] at hw
  refine hw.trans ?_
  simp only [ReadAs.apply_same, Memref.view_whole, View.read_whole]
  refine (chunk_closed (fb d) (ft d) (hpre d) L g f0 y).trans (congrArg (codeFlat (fb d) (ft d)) (idx1_ext' _ _ ?_))
  show k1_off2 L g 0 + (y 0).val = k1_off2 L g 0 + 1 * (y 0).val
  omega

end Cert.Proof.KI

end
-- ==== Proof.BodyValAcc.lean ====
/- The lane sums a vector subcore carries through its sixteen chunks of a hundred trips of four groups are, lane by
   lane, the left fold over its 6400 groups, in the order it meets them, of adding the squared four-term inner product
   of table words and target words at the group's byte of that lane: its row of the partial sums. Each indexed load
   reads the word its index names; a chunk's bytes, targets and the table are the operands' words at the chunk's
   offset; so each group adds, at lane l, the squared inner product at byte 102400 w + 16 t + l, where t counts the
   groups from the first chunk on. -/
import proofs.«204536_g87462714016206_cont_9to1c4b_719_4_alg».proof.Proof.BodyValDefs

noncomputable section

namespace Cert.Proof.KI

open Cert.KernelIdeal Cert.KernelIdeal.Gen
open Idealize.ShloMosaic
open Idealize.ShloMosaic.ValueIdx

variable {F : FTy → Type} [FloatOps F]

/-! ## What the loads read -/

/-- Two indices of a rank-one shape with the same coordinate are one index. -/
theorem idx1_ext {d : Fin 1 → Nat} (x y : (⟨1, d⟩ : Shape).Idx) (h : (x 0).val = (y 0).val) : x = y := by
  funext a
  obtain rfl : a = 0 := Subsingleton.elim _ _
  exact Fin.ext h

/-- An indexed load of the table scratch reads, at lane x, the word its index names. -/
theorem gathT_apply (fT : S1024.Idx → F .f32) (idx : IVec S16 32) (h : TblOK idx) (x : S16.Idx) :
    gathT fT idx h x = fT (ix1 ⟨(idx x).toNat, h 0 x⟩) := by
  exact (congrFun (Memref.read_access_whole (Elt F) cc1_scratch0 fT) _).trans (congrArg fT (idx1_ext _ _ rfl))

/-- An indexed load of the target scratch reads, at lane x, the word its index names. -/
theorem gathG_apply (fG : S25600.Idx → F .f32) (idx : IVec S16 32) (h : RowOK idx) (x : S16.Idx) :
    gathG fG idx h x = fG (ix1 ⟨(idx x).toNat, h 0 x⟩) := by
  exact (congrFun (Memref.read_access_whole (Elt F) cc1_scratch2 fG) _).trans (congrArg fG (idx1_ext _ _ rfl))

/-- Sixteen words loaded from the byte scratch at an offset are its words from that offset on. -/
theorem readAt16_apply (fI : S6400.Idx → BitVec 32) (off : Fin 1 → Nat) (inb : ∀ a, off a + S16.size a ≤ S6400.size a)
    (x : S16.Idx) (y : S6400.Idx) (hy : (y 0).val = off 0 + (x 0).val) :
    (sI : Memref sig .scVector .vmem S6400 .i32).view.readAt (Elt F) (Rect.unit (s := S6400) off S16.size inb).toLoadRect fI x
      = fI y := by
  simp only [View.readAt_apply, Memref.view_whole, View.read_whole]
  refine congrArg fI (idx1_ext _ _ ?_)
  rw [hy]
  show off 0 + 1 * (x 0).val = off 0 + (x 0).val
  omega

/-- A chunk of the byte stream is the stream's words from the chunk's offset on. -/
theorem chunkBytes_apply (fb : S3276800.Idx → BitVec 32) (L : grid1.Coords) (g : Fin k1_t1_loop.trips) (y : S6400.Idx)
    (n : S3276800.Idx) (hn : (n 0).val = k1_off1 L g 0 + (y 0).val) : chunkBytes F fb L g y = fb n := by
  unfold chunkBytes
  rw [View.read_apply, cast_eq]
  refine congrArg fb (idx1_ext _ _ ?_)
  rw [hn]
  show k1_off1 L g 0 + 1 * (y 0).val = k1_off1 L g 0 + (y 0).val
  omega

/-- A chunk of the target is the target's words from the chunk's offset on. -/
theorem chunkTgts_apply (fg : S13107200.Idx → F .f32) (L : grid1.Coords) (g : Fin k1_t1_loop.trips) (y : S25600.Idx)
    (n : S13107200.Idx) (hn : (n 0).val = k1_off2 L g 0 + (y 0).val) : chunkTgts fg L g y = fg n := by
  unfold chunkTgts
  rw [View.read_apply, cast_eq]
  refine congrArg fg (idx1_ext _ _ ?_)
  rw [hn]
  show k1_off2 L g 0 + 1 * (y 0).val = k1_off2 L g 0 + (y 0).val
  omega

/-- The table as a subcore fetches it is the table. -/
theorem tblOf_eq (ft : S1024.Idx → F .f32) : tblOf ft = ft := rfl

theorem trips1 : k1_t1_loop.trips = 16 := by decide
theorem trips2 : k1_t2_loop.trips = 100 := by decide

/-! ## The running sum of a lane -/

section Lane

variable (fb : S3276800.Idx → BitVec 32) (fg : S13107200.Idx → F .f32) (ft : S1024.Idx → F .f32)

/-- Lane l of worker w after its first m groups: the left fold of the squared inner products from the zero word. -/
def laneSum (w l : Nat) (hw : w < 32) (hl : l < 16) (m : Nat) : F .f32 :=
  ((List.finRange 6400).take m).foldl (fun acc t => FloatOps.addf acc (dsq fb fg ft ⟨102400 * w + 16 * t.val + l, by
    have := t.isLt
    omega⟩)) (Scalar.ofBits .f32 0x00000000#32)

theorem laneSum_zero (w l : Nat) (hw : w < 32) (hl : l < 16) :
    laneSum fb fg ft w l hw hl 0 = Scalar.ofBits .f32 0x00000000#32 := rfl

theorem laneSum_succ (w l : Nat) (hw : w < 32) (hl : l < 16) (t : Nat) (ht : t < 6400) :
    laneSum fb fg ft w l hw hl (t + 1)
      = FloatOps.addf (laneSum fb fg ft w l hw hl t) (dsq fb fg ft ⟨102400 * w + 16 * t + l, by omega⟩) := by
  unfold laneSum
  rw [List.take_succ_eq_append_getElem (by rw [List.length_finRange]; exact ht), List.foldl_append]
  simp only [List.foldl_cons, List.foldl_nil, List.getElem_finRange]
  rfl

theorem laneSum_all (w : Fin 32) (l : Fin 16) :
    laneSum fb fg ft w.val l.val w.isLt l.isLt 6400 = partials fb fg ft (ix2 w l) := by
  unfold laneSum partials
  rw [List.take_of_length_le (by rw [List.length_finRange])]

end Lane

/-! ## One group's addition, at a lane -/

section Group

variable (fb : S3276800.Idx → BitVec 32) (fg : S13107200.Idx → F .f32) (ft : S1024.Idx → F .f32)
  (hpre : ∀ j, (fb j).toNat < 256) (L : grid1.Coords)

/-- Group jj of trip k of chunk g adds, at lane x, the squared inner product at the byte the lane meets there. -/
theorem groupAcc_apply (g : Fin k1_t1_loop.trips) (k : Fin k1_t2_loop.trips) (off : Fin 1 → Nat)
    (inb : ∀ a, off a + S16.size a ≤ S6400.size a) (jj : BitVec 32) (hj : jj.toNat < 4)
    (hoff : off 0 = 64 * k.val + 16 * jj.toNat) (acc : FVec F S16 .f32) (x : S16.Idx)
    (hn : 102400 * (wid L).val + 16 * (400 * g.val + 4 * k.val + jj.toNat) + (x 0).val < 3276800) :
    groupAcc (tblOf ft) (chunkTgts fg L g) (bytes_readAt F (chunkBytes_bytes F hpre L g) off inb) hj k acc x
      = FloatOps.addf (acc x)
          (dsq fb fg ft ⟨102400 * (wid L).val + 16 * (400 * g.val + 4 * k.val + jj.toNat) + (x 0).val, hn⟩) := by
  have hg : g.val < 16 := Nat.lt_of_lt_of_le g.isLt k1_t1_abs.2.1
  have hk : k.val < 100 := trip2_lt k
  have hx : (x 0).val < 16 := (x 0).isLt
  have hL0 : (L 0).val < 2 := (L 0).isLt
  have hL1 : (L 1).val < 16 := (L 1).isLt
  have hw : (wid L).val = 2 * (L 1).val + (L 0).val := rfl
  -- the byte the lane meets
  have hbx : (sI : Memref sig .scVector .vmem S6400 .i32).view.readAt (Elt F) (Rect.unit (s := S6400) off S16.size inb).toLoadRect
        (chunkBytes F fb L g) x
      = fb (ix1 ⟨102400 * (wid L).val + 16 * (400 * g.val + 4 * k.val + jj.toNat) + (x 0).val, hn⟩) := by
    have hy : off 0 + (x 0).val < 6400 := by omega
    rw [readAt16_apply (F := F) (chunkBytes F fb L g) off inb x (ix1 ⟨off 0 + (x 0).val, hy⟩) rfl]
    refine chunkBytes_apply fb L g _ _ ?_
    show 102400 * (wid L).val + 16 * (400 * g.val + 4 * k.val + jj.toNat) + (x 0).val = k1_off1 L g 0 + (off 0 + (x 0).val)
    rw [k1_off1_eq]
    show _ = 204800 * (L 1).val + 102400 * (L 0).val + 6400 * g.val + (off 0 + (x 0).val)
    omega
  -- one digit's product
  have hd : ∀ (kk : BitVec 32) (hkk : kk.toNat < 4) (kf : Fin 4), kf.val = kk.toNat →
      digitProd (tblOf ft) (chunkTgts fg L g) (bytes_readAt F (chunkBytes_bytes F hpre L g) off inb) hkk hj k x
        = FloatOps.mulf
            (ft (tblIx fb ⟨102400 * (wid L).val + 16 * (400 * g.val + 4 * k.val + jj.toNat) + (x 0).val, hn⟩ kf))
            (fg (ix1 ⟨4 * (102400 * (wid L).val + 16 * (400 * g.val + 4 * k.val + jj.toNat) + (x 0).val) + kf.val, by omega⟩)) := by
    intro kk hkk kf hkf
    show FloatOps.mulf (gathT (tblOf ft) _ _ x) (gathG (chunkTgts fg L g) _ _ x) = _
    rw [gathT_apply, gathG_apply]
    have hp := hpre (ix1 ⟨102400 * (wid L).val + 16 * (400 * g.val + 4 * k.val + jj.toNat) + (x 0).val, hn⟩)
    refine congrArg₂ FloatOps.mulf (congrArg ft (idx1_ext _ _ ?_)) (chunkTgts_apply fg L g _ _ ?_)
    · show ((sI : Memref sig .scVector .vmem S6400 .i32).view.readAt (Elt F) (Rect.unit (s := S6400) off S16.size inb).toLoadRect
          (chunkBytes F fb L g) x * 4#32 + kk).toNat = _
      rw [hbx]
      show _ = (4 * (fb (ix1 ⟨102400 * (wid L).val + 16 * (400 * g.val + 4 * k.val + jj.toNat) + (x 0).val, hn⟩)).toNat + kf.val) % 1024
      rw [BitVec.toNat_add, BitVec.toNat_mul]
      simp only [BitVec.toNat_ofNat]
      omega
    · show 4 * (102400 * (wid L).val + 16 * (400 * g.val + 4 * k.val + jj.toNat) + (x 0).val) + kf.val
          = k1_off2 L g 0 + (rowIdx kk jj k.val x).toNat
      rw [k1_off2_eq, rowIdx_apply]
      show _ = 819200 * (L 1).val + 409600 * (L 0).val + 25600 * g.val + _
      simp only [BitVec.toNat_add, BitVec.toNat_mul, BitVec.toNat_ofNat]
      omega
  show FloatOps.addf (acc x) (FloatOps.mulf
      (FloatOps.addf (FloatOps.addf (FloatOps.addf (digitProd _ _ _ _ hj k x) (digitProd _ _ _ _ hj k x)) (digitProd _ _ _ _ hj k x)) (digitProd _ _ _ _ hj k x))
      (FloatOps.addf (FloatOps.addf (FloatOps.addf (digitProd _ _ _ _ hj k x) (digitProd _ _ _ _ hj k x)) (digitProd _ _ _ _ hj k x)) (digitProd _ _ _ _ hj k x))) = _
  rw [hd 0#32 (by decide) 0 rfl, hd 1#32 (by decide) 1 rfl, hd 2#32 (by decide) 2 rfl, hd 3#32 (by decide) 3 rfl]
  rfl

end Group

/-! ## A trip, a chunk, the sixteen chunks -/

section Worker

variable (fb : S3276800.Idx → BitVec 32) (fg : S13107200.Idx → F .f32) (ft : S1024.Idx → F .f32)
  (hpre : ∀ j, (fb j).toNat < 256) (L : grid1.Coords)

/-- A trip's four groups carry a lane's sum four groups on. -/
theorem tripAcc_apply (g : Fin k1_t1_loop.trips) (k : Fin k1_t2_loop.trips) (acc : FVec F S16 .f32) (x : S16.Idx)
    (hacc : acc x = laneSum fb fg ft (wid L).val (x 0).val (wid L).isLt (x 0).isLt (400 * g.val + 4 * k.val)) :
    tripAcc (tblOf ft) (chunkTgts fg L g) (chunkBytes_bytes F hpre L g) k acc x
      = laneSum fb fg ft (wid L).val (x 0).val (wid L).isLt (x 0).isLt (400 * g.val + 4 * (k.val + 1)) := by
  have hg : g.val < 16 := Nat.lt_of_lt_of_le g.isLt k1_t1_abs.2.1
  have hk : k.val < 100 := trip2_lt k
  have hx : (x 0).val < 16 := (x 0).isLt
  have hwl : (wid L).val < 32 := (wid L).isLt
  have e3 : k1_off3 k 0 = 64 * k.val + 16 * (0#32 : BitVec 32).toNat := by rw [k1_off3_eq]; rfl
  have e4 : k1_off4 k 0 = 64 * k.val + 16 * (1#32 : BitVec 32).toNat := by rw [k1_off4_eq]; rfl
  have e5 : k1_off5 k 0 = 64 * k.val + 16 * (2#32 : BitVec 32).toNat := by rw [k1_off5_eq]; rfl
  have e6 : k1_off6 k 0 = 64 * k.val + 16 * (3#32 : BitVec 32).toNat := by rw [k1_off6_eq]; rfl
  unfold tripAcc
  rw [groupAcc_apply fb fg ft hpre L g k (k1_off6 k) (k1_off6_inb k) 3#32 (by decide) e6 _ x (by show _ + 16 * (_ + 3) + _ < _; omega),
    groupAcc_apply fb fg ft hpre L g k (k1_off5 k) (k1_off5_inb k) 2#32 (by decide) e5 _ x (by show _ + 16 * (_ + 2) + _ < _; omega),
    groupAcc_apply fb fg ft hpre L g k (k1_off4 k) (k1_off4_inb k) 1#32 (by decide) e4 _ x (by show _ + 16 * (_ + 1) + _ < _; omega),
    groupAcc_apply fb fg ft hpre L g k (k1_off3 k) (k1_off3_inb k) 0#32 (by decide) e3 _ x (by show _ + 16 * (_ + 0) + _ < _; omega),
    hacc]
  have s0 := laneSum_succ fb fg ft (wid L).val (x 0).val hwl hx (400 * g.val + 4 * k.val) (by omega)
  have s1 := laneSum_succ fb fg ft (wid L).val (x 0).val hwl hx (400 * g.val + 4 * k.val + 1) (by omega)
  have s2 := laneSum_succ fb fg ft (wid L).val (x 0).val hwl hx (400 * g.val + 4 * k.val + 2) (by omega)
  have s3 := laneSum_succ fb fg ft (wid L).val (x 0).val hwl hx (400 * g.val + 4 * k.val + 3) (by omega)
  have e : 400 * g.val + 4 * (k.val + 1) = 400 * g.val + 4 * k.val + 3 + 1 := by omega
  rw [e, s3, s2, s1, s0]
  rfl

/-- After m trips of chunk g a lane's sum is 4 m groups on. -/
theorem accAt_apply (g : Fin k1_t1_loop.trips) (a0 : FVec F S16 .f32) (x : S16.Idx)
    (h0 : a0 x = laneSum fb fg ft (wid L).val (x 0).val (wid L).isLt (x 0).isLt (400 * g.val)) :
    ∀ m : Nat, m ≤ k1_t2_loop.trips →
      accAt (tblOf ft) (chunkTgts fg L g) (chunkBytes_bytes F hpre L g) m a0 x
        = laneSum fb fg ft (wid L).val (x 0).val (wid L).isLt (x 0).isLt (400 * g.val + 4 * m)
  | 0, _ => h0
  | m + 1, hm => by
    have ih := accAt_apply g a0 x h0 m (Nat.le_of_succ_le hm)
    exact (congrFun (accAt_succ (tblOf ft) (chunkTgts fg L g) (chunkBytes_bytes F hpre L g) ⟨m, hm⟩ a0) x).trans
      (tripAcc_apply fb fg ft hpre L g ⟨m, hm⟩ _ x ih)

/-- Before chunk g a lane's sum is 400 g groups on. -/
theorem accChain_apply (x : S16.Idx) : ∀ g : Nat, g ≤ k1_t1_loop.trips →
    accChain fb fg ft hpre L g x = laneSum fb fg ft (wid L).val (x 0).val (wid L).isLt (x 0).isLt (400 * g)
  | 0, _ => rfl
  | g + 1, hg => by
    have ih := accChain_apply x g (Nat.le_of_succ_le hg)
    have hlt : g < k1_t1_loop.trips := hg
    show (if h : g < k1_t1_loop.trips then
        accAt (tblOf ft) (chunkTgts fg L ⟨g, h⟩) (chunkBytes_bytes F hpre L ⟨g, h⟩) k1_t2_loop.trips (accChain fb fg ft hpre L g)
      else accChain fb fg ft hpre L g) x = _
    rw [dif_pos hlt, accAt_apply fb fg ft hpre L ⟨g, hlt⟩ _ x ih k1_t2_loop.trips (Nat.le_refl _), trips2]
    exact congrArg (laneSum fb fg ft (wid L).val (x 0).val (wid L).isLt (x 0).isLt) (by show 400 * g + 4 * 100 = 400 * (g + 1); omega)

/-- BRIDGE B: the lane sums of the subcore at L after its sixteen chunks are its row of the partial sums. -/
theorem accChain_closed (l : S16.Idx) :
    accChain fb fg ft hpre L k1_t1_loop.trips l = partials fb fg ft (ix2 (wid L) (l 0)) := by
  rw [accChain_apply fb fg ft hpre L l k1_t1_loop.trips (Nat.le_refl _), trips1]
  exact laneSum_all fb fg ft (wid L) (l 0)

end Worker

end Cert.Proof.KI

end
-- ==== Proof.BodyValRowPiece.lean ====
/-
  What the store of the lane sums and its write-out leave on a worker's row of the partial sums. The lane-sum scratch,
  stored over its whole sixteen words, reads back the stored lane sums; written out through the worker's squeezed row of
  the partial sums, lane `l` lands at entry `(2 s + c, l)`; and the lane sums after the sixteen chunks are that row of the
  partial sums. So on the row's elements the contents after the write-out are the partial sums.
-/
import proofs.«204536_g87462714016206_cont_9to1c4b_719_4_alg».proof.Proof.BodyValOf
import proofs.«204536_g87462714016206_cont_9to1c4b_719_4_alg».proof.Proof.BodyValAcc

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Tactic

open Idealize.ShloMosaic.ValueIdx

variable {F : FTy → Type} [FloatOps F] [Named F]

local notation "𝕄" => MT nD τ sig (HIx 1) (Elt F) ℕ UU ℕ

attribute [local irreducible] accChain in
/-- On the worker's row of the partial sums, the contents after the write-out of the lane-sum scratch — which holds the
    lane sums, stored over its whole sixteen words — are the partial sums: the row's lane `l` is entry `(wid L, l)`, and
    the lane sums after the sixteen chunks are the worker's row of the partial sums. -/
theorem prow_piece (fb : (d : Dev nD) → Buf (Elt F) (bLoc d)) (fg : (d : Dev nD) → Buf (Elt F) (gLoc d)) (ft : (d : Dev nD) → Buf (Elt F) (tLoc d))
    (hpre : PreOK fb) (d : Dev nD) (L : grid1.Coords) (fp0 : Buf (Elt F) (pLoc d)) (f4 : Buf (Elt F) ((V d (cV L) (jV L)).loc cc1_scratch4)) :
    ((pRow L).view.loc (V d (cV L) (jV L)) ↦[(pRow L).view.set]{fullShare}
        ((pRow L).view.writes (Elt F) fp0 [⟨Rect.whole S16, ReadAs.same.apply (View.read (Elt F) (sA : Memref sig .scVector .vmem S16 .f32).view
          ((sA : Memref sig .scVector .vmem S16 .f32).view.writes (Elt F) f4
            [⟨Rect.unit (s := S16) ![0] S16.size inb_S16_S16_0, accChain (fb d) (fg d) (ft d) (hpre d) L k1_t1_loop.trips⟩]))⟩]) : sProp 𝕄)
      ⊢ pLoc d ↦[(pRow L).view.set]{fullShare} (partials (fb d) (fg d) (ft d) : Buf (Elt F) (pLoc d)) := by
  refine Entails.of_eq ((pts_pRow d L _).trans (pointsTo_congr fun i hi => ?_))
  obtain ⟨y, -, rfl⟩ := Finset.mem_map.mp hi
  have hw := View.read_writes_cons_emb (pRow L).view fp0 (Rect.whole S16)
    (ReadAs.same.apply (View.read (Elt F) (sA : Memref sig .scVector .vmem S16 .f32).view
      ((sA : Memref sig .scVector .vmem S16 .f32).view.writes (Elt F) f4
        [⟨Rect.unit (s := S16) ![0] S16.size inb_S16_S16_0, accChain (fb d) (fg d) (ft d) (hpre d) L k1_t1_loop.trips⟩]))) [] y
  rw [Rect.emb_whole_apply, View.read_apply, cast_eq] at hw
  refine hw.trans ?_
  simp only [ReadAs.apply_same]
  have hs := View.read_writes_cons_emb (sA : Memref sig .scVector .vmem S16 .f32).view f4
    (Rect.unit (s := S16) ![0] S16.size inb_S16_S16_0) (accChain (fb d) (fg d) (ft d) (hpre d) L k1_t1_loop.trips) [] y
  have ey : (Rect.unit (s := S16) ![0] S16.size inb_S16_S16_0).emb y = y := by
    funext a
    obtain rfl : a = 0 := Subsingleton.elim _ _
    refine Fin.ext ?_
    show 0 + 1 * (y 0).val = (y 0).val
    omega
  rw [ey] at hs
  refine hs.trans ?_
  refine (accChain_closed (fb d) (fg d) (ft d) (hpre d) L y).trans (congrArg (partials (fb d) (fg d) (ft d)) ?_)
  symm
  show (Rect.unit (s := S32x16) (k1_off7 L) S1x16.size (k1_off7_inb L)).emb (Shape.reshapeEquiv squeezes_S1x16_S16.numel_eq y)
    = ix2 (wid L) (y 0)
  have hz : Shape.reshapeEquiv squeezes_S1x16_S16.numel_eq y = (ix2 (0 : Fin 1) (y 0) : S1x16.Idx) :=
    Shape.reshapeEquiv_eq_of_rowMajor _ (by
      rw [Shape.rowMajor_val_two, Shape.rowMajor_val_one]
      show 0 * 16 + (y 0).val = (y 0).val
      omega)
  refine (congrArg (Rect.unit (s := S32x16) (k1_off7 L) S1x16.size (k1_off7_inb L)).emb hz).trans ?_
  funext a
  match a with
  | ⟨0, _⟩ =>
    refine Fin.ext ?_
    show k1_off7 L 0 + 1 * 0 = 2 * (L 1).val + (L 0).val
    rw [k1_off7_eq]
    rfl
  | ⟨1, _⟩ =>
    refine Fin.ext ?_
    show k1_off7 L 1 + 1 * (y 0).val = (y 0).val
    rw [k1_off7_eq]
    show 0 + 1 * (y 0).val = (y 0).val
    omega

end Cert.Proof.KI

end
-- ==== Proof.BodyValFinal.lean ====
/-
  The task of every vector subcore with the values it leaves: the two loops with their values, what the chunk write-outs
  leave on the code path and what the last write-out leaves on the partial sums, put together.
-/
import proofs.«204536_g87462714016206_cont_9to1c4b_719_4_alg».proof.Proof.Launch
import proofs.«204536_g87462714016206_cont_9to1c4b_719_4_alg».proof.Proof.BodyValOf
import proofs.«204536_g87462714016206_cont_9to1c4b_719_4_alg».proof.Proof.BodyValOut
import proofs.«204536_g87462714016206_cont_9to1c4b_719_4_alg».proof.Proof.BodyValRowPiece

noncomputable section

namespace Cert.Proof.KI

open Cert.KernelIdeal Cert.KernelIdeal.Gen
open Idealize.ShloMosaic

variable {F : FTy → Type} [FloatOps F] [Named F]

/-- The task's triple at every place, ending in what it is handed with the code path and the partial sums in place of the
    contents the call found. -/
theorem tile_body_val (fb : (d : Dev nD) → Buf (Elt F) (bLoc d)) (fg : (d : Dev nD) → Buf (Elt F) (gLoc d)) (ft : (d : Dev nD) → Buf (Elt F) (tLoc d))
    (fo : (d : Dev nD) → Buf (Elt F) (oLoc d)) (fp : (d : Dev nD) → Buf (Elt F) (pLoc d)) :
    TileBodyStmtG fb fg ft fo fp (goL fb fg ft (fun d => codeFlat (fb d) (ft d)) (fun d => partials (fb d) (fg d) (ft d))) :=
  fun hF hpre d L O W hO =>
    tile_body_val_of fb fg ft hpre d L (out_piece fb ft hpre d L) (prow_piece fb fg ft hpre d L) fo fp hF O W hO

end Cert.Proof.KI

end
-- ==== Proof.lean ====
/-
  The certificate of the byte-to-code kernel against its reference: five claims.
  The kernel normalises the projection of each of the 256 embedding rows once, on the TensorCore, into a 256 × 4 code
  table; its 32 vector subcores then look the table up for each of the 3 276 800 bytes, write the looked-up codes to the
  code path and add, lane by lane, the squared inner products of code and target; a last TensorCore region adds the 512
  partial sums, multiplies by the reciprocal of the count and subtracts from one. The reference looks the embedding rows
  up first and normalises each position's projection. On the extended reals both are the code of each position's byte and
  one minus the mean squared inner product: the table's rows are the per-byte codes, a lookup commutes with a row-wise
  function, the partial sums are a regrouping of one finite sum, and multiplying by the named reciprocal of the count is
  dividing by the count.
  Frames: each program, under the precondition (finite floats, bytes between 0 and 255 — the latter is what keeps every
  table index a vector subcore computes inside the table), runs to the end without fault and leaves its arguments as
  launched. The kernel's frame is proved once, for any float instance, and read at the word-level and at the idealized
  program. The idealization replaced one constant, the reciprocal of the count, by its name: the one preserved claim.
-/
import proofs.«204536_g87462714016206_cont_9to1c4b_719_4_alg».proof.Defs
import proofs.«204536_g87462714016206_cont_9to1c4b_719_4_alg».proof.Proof.Gen.Kernel
import proofs.«204536_g87462714016206_cont_9to1c4b_719_4_alg».proof.Proof.Gen.Kernel.Skeleton
import proofs.«204536_g87462714016206_cont_9to1c4b_719_4_alg».proof.Proof.Gen.Kernel.Launch
import proofs.«204536_g87462714016206_cont_9to1c4b_719_4_alg».proof.Proof.Gen.Kernel.Regions
import proofs.«204536_g87462714016206_cont_9to1c4b_719_4_alg».proof.Proof.Gen.Kernel.Points
import proofs.«204536_g87462714016206_cont_9to1c4b_719_4_alg».proof.Proof.Gen.KernelIdeal
import proofs.«204536_g87462714016206_cont_9to1c4b_719_4_alg».proof.Proof.Gen.KernelIdeal.Skeleton
import proofs.«204536_g87462714016206_cont_9to1c4b_719_4_alg».proof.Proof.Gen.KernelIdeal.Launch
import proofs.«204536_g87462714016206_cont_9to1c4b_719_4_alg».proof.Proof.Gen.KernelIdeal.Regions
import proofs.«204536_g87462714016206_cont_9to1c4b_719_4_alg».proof.Proof.Gen.KernelIdeal.Points
import proofs.«204536_g87462714016206_cont_9to1c4b_719_4_alg».proof.Proof.Gen.ReferenceIdeal
import proofs.«204536_g87462714016206_cont_9to1c4b_719_4_alg».proof.Proof.Gen.Pre_input_domain
import Idealize.ShloMosaic.Adequacy
import Idealize.ShloMosaic.Init
import proofs.«204536_g87462714016206_cont_9to1c4b_719_4_alg».proof.Proof.FramePI
import proofs.«204536_g87462714016206_cont_9to1c4b_719_4_alg».proof.Proof.FramePIB
import proofs.«204536_g87462714016206_cont_9to1c4b_719_4_alg».proof.Proof.RefFrame
import proofs.«204536_g87462714016206_cont_9to1c4b_719_4_alg».proof.Proof.Algebraic
import proofs.«204536_g87462714016206_cont_9to1c4b_719_4_alg».proof.Proof.BodyValFinal

noncomputable section

namespace Cert.Proof

open Idealize.ShloMosaic Idealize.SL.Sem

/-- The ledger's one entry: the table gives the reciprocal of the count its exact value, and the printed constant is
    that value on the extended reals. -/
theorem preserves : Cert.preserves_Kernel_KernelIdeal :=
  IdealRules.named_const.statement Cert.KernelIdeal.κ "inv_3276800" .f32 0x34A3D70A#32 ((1 / 3276800 : ℝ) : EReal) rfl

/-- The two idealized programs end with equal results: each vector subcore leaves the table words its bytes name and
    the lane sums of its squared inner products. -/
theorem algebraic : Cert.algebraic_KernelIdeal_ReferenceIdeal :=
  Cert.Proof.KI.algebraic_of fun m =>
    Cert.Proof.KI.tile_body_val (Cert.Proof.KI.fbOf m) (Cert.Proof.KI.fgOf m) (Cert.Proof.KI.ftOf m) (Cert.Proof.KI.foOf m) (Cert.Proof.KI.fpOf m)

theorem claim : Cert.Claim :=
  ⟨Cert.Kernel.Gen.facts, Cert.KernelIdeal.Gen.facts, Cert.ReferenceIdeal.Gen.facts, Cert.Pre_input_domain.Gen.facts,
    Cert.Proof.KB.frame_p, Cert.Proof.KI.frame_pi, Cert.ReferenceIdeal.RefRun.frame_ri, preserves, algebraic⟩

end Cert.Proof

end
